-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S8x2048x1024 .f32) (main_arg1 : FVec F S1024x1024 .f32) (main_arg2 : FVec F S1024x1024 .f32) (main_arg3 : FVec F S1024x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S8x2048x1024 : Shape := ⟨3, ![8, 2048, 1024]⟩
abbrev S1024x1024 : Shape := ⟨2, ![1024, 1024]⟩
abbrev S16384x1024 : Shape := ⟨2, ![16384, 1024]⟩
abbrev S512x1024 : Shape := ⟨2, ![512, 1024]⟩
abbrev S1x2048x1024 : Shape := ⟨3, ![1, 2048, 1024]⟩
abbrev S1x256x1024 : Shape := ⟨3, ![1, 256, 1024]⟩
abbrev S2048x256 : Shape := ⟨2, ![2048, 256]⟩
abbrev S2048x1024 : Shape := ⟨2, ![2048, 1024]⟩
abbrev S256x1024 : Shape := ⟨2, ![256, 1024]⟩
abbrev S1024x256 : Shape := ⟨2, ![1024, 256]⟩
abbrev S256x256 : Shape := ⟨2, ![256, 256]⟩
abbrev S256 : Shape := ⟨1, ![256]⟩
abbrev S1x256 : Shape := ⟨2, ![1, 256]⟩

abbrev nBuf : Space → Nat
  | .hbm => 15
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S16384x1024, .f32⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S16384x1024, .bf16⟩
  | .hbm, ⟨9, _⟩ => ⟨S16384x1024, .bf16⟩
  | .hbm, ⟨10, _⟩ => ⟨S16384x1024, .bf16⟩
  | .hbm, ⟨11, _⟩ => ⟨S8x2048x1024, .bf16⟩
  | .hbm, ⟨12, _⟩ => ⟨S8x2048x1024, .bf16⟩
  | .hbm, ⟨13, _⟩ => ⟨S8x2048x1024, .bf16⟩
  | .hbm, ⟨14, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x2048x1024, .bf16⟩
  | .local _ .vmem, ⟨12, _⟩ => ⟨S1x2048x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x2048x1024, .f32⟩
  | .local _ .vmem, ⟨18, _⟩ => ⟨S1x2048x1024, .f32⟩
  | .local _ .vmem, ⟨19, _⟩ => ⟨S2048x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def k1_cond1 (i : grid1.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

def k1_cond10 (i : grid1.Coords) : BitVec 1 :=
  let arg1 : BitVec 32 := BitVec.ofNat 32 (i 1).val
  let c256_i32 : BitVec 32 := 256#32
  let v0 : BitVec 32 := Scalar.muli arg1 c256_i32
  let c256_i32_23 : BitVec 32 := 256#32
  let v45 : BitVec 1 := Scalar.cmpi .slt v0 c256_i32_23
  let v46 : BitVec 32 := Scalar.extui v45
  let c0_i32_24 : BitVec 32 := 0#32
  let v47 : BitVec 1 := Scalar.cmpi .ne v46 c0_i32_24
  v47

def k1_cond11 (i : grid1.Coords) : BitVec 1 :=
  let arg1 : BitVec 32 := BitVec.ofNat 32 (i 1).val
  let c256_i32 : BitVec 32 := 256#32
  let v0 : BitVec 32 := Scalar.muli arg1 c256_i32
  let c512_i32_25 : BitVec 32 := 512#32
  let v48 : BitVec 1 := Scalar.cmpi .slt v0 c512_i32_25
  let v49 : BitVec 32 := Scalar.extui v48
  let c0_i32_26 : BitVec 32 := 0#32
  let v50 : BitVec 1 := Scalar.cmpi .ne v49 c0_i32_26
  v50

def k1_cond12 (i : grid1.Coords) : BitVec 1 :=
  let arg1 : BitVec 32 := BitVec.ofNat 32 (i 1).val
  let c256_i32 : BitVec 32 := 256#32
  let v0 : BitVec 32 := Scalar.muli arg1 c256_i32
  let c768_i32_27 : BitVec 32 := 768#32
  let v51 : BitVec 1 := Scalar.cmpi .slt v0 c768_i32_27
  let v52 : BitVec 32 := Scalar.extui v51
  let c0_i32_28 : BitVec 32 := 0#32
  let v53 : BitVec 1 := Scalar.cmpi .ne v52 c0_i32_28
  v53

def k1_cond13 (i : grid1.Coords) : BitVec 1 :=
  let arg1 : BitVec 32 := BitVec.ofNat 32 (i 1).val
  let c256_i32 : BitVec 32 := 256#32
  let v0 : BitVec 32 := Scalar.muli arg1 c256_i32
  let c1024_i32_29 : BitVec 32 := 1024#32
  let v54 : BitVec 1 := Scalar.cmpi .slt v0 c1024_i32_29
  let v55 : BitVec 32 := Scalar.extui v54
  let c0_i32_30 : BitVec 32 := 0#32
  let v56 : BitVec 1 := Scalar.cmpi .ne v55 c0_i32_30
  v56

def k1_cond14 (i : grid1.Coords) : BitVec 1 :=
  let arg1 : BitVec 32 := BitVec.ofNat 32 (i 1).val
  let c256_i32 : BitVec 32 := 256#32
  let v0 : BitVec 32 := Scalar.muli arg1 c256_i32
  let c1280_i32_31 : BitVec 32 := 1280#32
  let v57 : BitVec 1 := Scalar.cmpi .slt v0 c1280_i32_31
  let v58 : BitVec 32 := Scalar.extui v57
  let c0_i32_32 : BitVec 32 := 0#32
  let v59 : BitVec 1 := Scalar.cmpi .ne v58 c0_i32_32
  v59

def k1_cond15 (i : grid1.Coords) : BitVec 1 :=
  let arg1 : BitVec 32 := BitVec.ofNat 32 (i 1).val
  let c256_i32 : BitVec 32 := 256#32
  let v0 : BitVec 32 := Scalar.muli arg1 c256_i32
  let c1536_i32_33 : BitVec 32 := 1536#32
  let v60 : BitVec 1 := Scalar.cmpi .slt v0 c1536_i32_33
  let v61 : BitVec 32 := Scalar.extui v60
  let c0_i32_34 : BitVec 32 := 0#32
  let v62 : BitVec 1 := Scalar.cmpi .ne v61 c0_i32_34
  v62

def k1_cond16 (i : grid1.Coords) : BitVec 1 :=
  let arg1 : BitVec 32 := BitVec.ofNat 32 (i 1).val
  let c256_i32 : BitVec 32 := 256#32
  let v0 : BitVec 32 := Scalar.muli arg1 c256_i32
  let c1792_i32_35 : BitVec 32 := 1792#32
  let v63 : BitVec 1 := Scalar.cmpi .slt v0 c1792_i32_35
  let v64 : BitVec 32 := Scalar.extui v63
  let c0_i32_36 : BitVec 32 := 0#32
  let v65 : BitVec 1 := Scalar.cmpi .ne v64 c0_i32_36
  v65

def k1_cond17 (i : grid1.Coords) : BitVec 1 :=
  let arg1 : BitVec 32 := BitVec.ofNat 32 (i 1).val
  let c256_i32 : BitVec 32 := 256#32
  let v0 : BitVec 32 := Scalar.muli arg1 c256_i32
  let c2048_i32_37 : BitVec 32 := 2048#32
  let v66 : BitVec 1 := Scalar.cmpi .slt v0 c2048_i32_37
  let v67 : BitVec 32 := Scalar.extui v66
  let c0_i32_38 : BitVec 32 := 0#32
  let v68 : BitVec 1 := Scalar.cmpi .ne v67 c0_i32_38
  v68

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S8x2048x1024_S16384x1024 : S8x2048x1024.ShapeCasts S16384x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S16384x1024_S8x2048x1024 : S16384x1024.ShapeCasts S8x2048x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x2048x1024_S1x256x1024_0_0_0 : ∀ a, (![0, 0, 0] : Fin 3 → Nat) a + S1x256x1024.size a ≤ S1x2048x1024.size a
  transposes_S256x1024_p1_0_S1024x256 : S256x1024.Transposes [1, 0] S1024x256
  iota_S256x256_d0_w32 : S256x256.Iotas .tc 32 [0]
  iota_S256x256_d1_w32 : S256x256.Iotas .tc 32 [1]
  inb_S2048x256_S256x256_0_0 : ∀ a, (![0, 0] : Fin 2 → Nat) a + S256x256.size a ≤ S2048x256.size a
  h_S256x256 : 0 < S256x256.numel
  shapeCasts_S256x256_S256x256 : S256x256.ShapeCasts S256x256
  inb_S1x2048x1024_S1x256x1024_0_256_0 : ∀ a, (![0, 256, 0] : Fin 3 → Nat) a + S1x256x1024.size a ≤ S1x2048x1024.size a
  inb_S2048x256_S256x256_256_0 : ∀ a, (![256, 0] : Fin 2 → Nat) a + S256x256.size a ≤ S2048x256.size a
  inb_S1x2048x1024_S1x256x1024_0_512_0 : ∀ a, (![0, 512, 0] : Fin 3 → Nat) a + S1x256x1024.size a ≤ S1x2048x1024.size a
  inb_S2048x256_S256x256_512_0 : ∀ a, (![512, 0] : Fin 2 → Nat) a + S256x256.size a ≤ S2048x256.size a
  inb_S1x2048x1024_S1x256x1024_0_768_0 : ∀ a, (![0, 768, 0] : Fin 3 → Nat) a + S1x256x1024.size a ≤ S1x2048x1024.size a
  inb_S2048x256_S256x256_768_0 : ∀ a, (![768, 0] : Fin 2 → Nat) a + S256x256.size a ≤ S2048x256.size a
  inb_S1x2048x1024_S1x256x1024_0_1024_0 : ∀ a, (![0, 1024, 0] : Fin 3 → Nat) a + S1x256x1024.size a ≤ S1x2048x1024.size a
  inb_S2048x256_S256x256_1024_0 : ∀ a, (![1024, 0] : Fin 2 → Nat) a + S256x256.size a ≤ S2048x256.size a
  inb_S1x2048x1024_S1x256x1024_0_1280_0 : ∀ a, (![0, 1280, 0] : Fin 3 → Nat) a + S1x256x1024.size a ≤ S1x2048x1024.size a
  inb_S2048x256_S256x256_1280_0 : ∀ a, (![1280, 0] : Fin 2 → Nat) a + S256x256.size a ≤ S2048x256.size a
  inb_S1x2048x1024_S1x256x1024_0_1536_0 : ∀ a, (![0, 1536, 0] : Fin 3 → Nat) a + S1x256x1024.size a ≤ S1x2048x1024.size a
  inb_S2048x256_S256x256_1536_0 : ∀ a, (![1536, 0] : Fin 2 → Nat) a + S256x256.size a ≤ S2048x256.size a
  inb_S1x2048x1024_S1x256x1024_0_1792_0 : ∀ a, (![0, 1792, 0] : Fin 3 → Nat) a + S1x256x1024.size a ≤ S1x2048x1024.size a
  inb_S2048x256_S256x256_1792_0 : ∀ a, (![1792, 0] : Fin 2 → Nat) a + S256x256.size a ≤ S2048x256.size a
  reduces_S2048x256_S256 : S2048x256.Reduces [0] S256
  shapeCasts_S256_S1x256 : S256.ShapeCasts S1x256
  broadcasts_S1x256_S2048x256 : S1x256.Broadcasts S2048x256
  broadcasts_S1x256_S256x256 : S1x256.Broadcasts S256x256
  shapeCasts_S256x1024_S1x256x1024 : S256x1024.ShapeCasts S1x256x1024
  dot_S512x1024_S1024x1024_S512x1024_1_0_0_1_n_n_wf : DotDims.WF S512x1024 S1024x1024 S512x1024 [1] [0] [0] [1] [] []
  dot_S256x1024_S1024x256_S256x256_1_0_0_1_n_n_wf : DotDims.WF S256x1024 S1024x256 S256x256 [1] [0] [0] [1] [] []
  dot_S256x256_S256x1024_S256x1024_1_0_0_1_n_n_wf : DotDims.WF S256x256 S256x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .bf16 = 32 ∨ (Rect.block (s := S16384x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .bf16 = 32 ∨ (Rect.block (s := S16384x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S16384x1024.size a
  hwx0_6 : ∀ i : grid0.Coords, EltTy.bits .bf16 = 32 ∨ (Rect.block (s := S16384x1024) S512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x1024.size a ≤ S8x2048x1024.size a
  hwx1_0 : ∀ i : grid1.Coords, EltTy.bits .bf16 = 32 ∨ (Rect.block (s := S8x2048x1024) S1x2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1024.size a ≤ S8x2048x1024.size a
  hwx1_1 : ∀ i : grid1.Coords, EltTy.bits .bf16 = 32 ∨ (Rect.block (s := S8x2048x1024) S1x256x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x1024.size a ≤ S8x2048x1024.size a
  hwx1_2 : ∀ i : grid1.Coords, EltTy.bits .bf16 = 32 ∨ (Rect.block (s := S8x2048x1024) S1x256x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x1024.size a ≤ S8x2048x1024.size a
  hwx1_3 : ∀ i : grid1.Coords, EltTy.bits .f32 = 32 ∨ (Rect.block (s := S8x2048x1024) S1x2048x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v5) S1x2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond1 i == 1#1) && !(k1_cond10 i == 1#1) && !(k1_cond11 i == 1#1) && !(k1_cond12 i == 1#1) && !(k1_cond13 i == 1#1) && !(k1_cond14 i == 1#1) && !(k1_cond15 i == 1#1) && !(k1_cond16 i == 1#1) && !(k1_cond17 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S8x2048x2048 : Shape := ⟨3, ![8, 2048, 2048]⟩
abbrev S_ : Shape := ⟨0, ![]⟩
abbrev S2048x2048 : Shape := ⟨2, ![2048, 2048]⟩
abbrev S1x2048x2048 : Shape := ⟨3, ![1, 2048, 2048]⟩
abbrev S8x2048 : Shape := ⟨2, ![8, 2048]⟩
abbrev S8x1x2048 : Shape := ⟨3, ![8, 1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8x2048x1024, .f32⟩
  | .hbm, ⟨5, _⟩ => ⟨S8x2048x1024, .f32⟩
  | .hbm, ⟨6, _⟩ => ⟨S8x2048x1024, .f32⟩
  | .hbm, ⟨7, _⟩ => ⟨S8x2048x2048, .f32⟩
  | .hbm, ⟨8, _⟩ => ⟨S_, .i1⟩
  | .hbm, ⟨9, _⟩ => ⟨S2048x2048, .i1⟩
  | .hbm, ⟨10, _⟩ => ⟨S2048x2048, .i32⟩
  | .hbm, ⟨11, _⟩ => ⟨S_, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .i1⟩
  | .hbm, ⟨17, _⟩ => ⟨S2048x2048, .i1⟩
  | .hbm, ⟨18, _⟩ => ⟨S2048x2048, .i1⟩
  | .hbm, ⟨19, _⟩ => ⟨S1x2048x2048, .i1⟩
  | .hbm, ⟨20, _⟩ => ⟨S_, .f32⟩
  | .hbm, ⟨21, _⟩ => ⟨S_, .f32⟩
  | .hbm, ⟨22, _⟩ => ⟨S8x2048x2048, .i1⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S_, .f32⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S_, .f32⟩
  | .hbm, ⟨32, _⟩ => ⟨S8x2048, .f32⟩
  | .hbm, ⟨33, _⟩ => ⟨S8x2048, .f32⟩
  | .hbm, ⟨34, _⟩ => ⟨S8x1x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S8x1x2048, .f32⟩
  | .hbm, ⟨41, _⟩ => ⟨S8x2048x2048, .f32⟩
  | .hbm, ⟨42, _⟩ => ⟨S8x2048x2048, .f32⟩
  | .hbm, ⟨43, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  bcast_S_S8x2048x2048 : S_.BroadcastsInDim S8x2048x2048 (![] : Fin 0 → Fin S8x2048x2048.rank)
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Easy.lean ====
/-
  The two conjuncts that need no kernel run.

  * `preserves`: the only rewrite of the ideal pass is the fill value of the score scratch and of the
    causal mask, the finite float -0.7 * max_f32, read at the extended reals as -∞ (⊥).  It occurs at nine
    sites of the attention kernel, so the conjunct is nine copies of one statement.
  * the reference's frame: the reference has no kernel launch; its run, read back operation by
    operation, terminates and leaves the four argument arrays as launched.
-/
import proofs.«157480_j6983616824221_2_alg».proof.Defs
import proofs.«157480_j6983616824221_2_alg».proof.Proof.Gen.ReferenceIdeal.Run

noncomputable section

namespace Cert.Proof.Easy

open Idealize.ShloMosaic Idealize.ShloMosaic.TcCoe Idealize.SL.Sem

/-- One ledger entry: the table gives the name "neg_big" the value ⊥, and that is what the printed constant is
    at the extended reals. -/
theorem neg_big_stmt : IdealRules.named_const.Statement Cert.KernelIdeal.κ "neg_big" .f32 0xFF333332#32 ⊥ :=
  IdealRules.named_const.statement Cert.KernelIdeal.κ "neg_big" .f32 0xFF333332#32 ⊥ rfl

theorem preserves : Cert.preserves_Kernel_KernelIdeal :=
  ⟨neg_big_stmt, neg_big_stmt, neg_big_stmt, neg_big_stmt, neg_big_stmt, neg_big_stmt, neg_big_stmt, neg_big_stmt,
    neg_big_stmt⟩

/-- The reference runs to the end and its arguments are unchanged: its generated run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.Proof.Easy

end
-- ==== Proof.K.R0Body.lean ====
/-
  Region 0 (the q, k, v projection), the kernel body's run at one grid point.

  At a point the body is handed a 512-row block of the flattened input and the three weight matrices, and
  three 512-row output blocks at arbitrary contents.  It stores into each output block, whole, the product
  of the input block (rounded to bf16) with one weight matrix (rounded to bf16).  The body's loads of the
  output blocks before its stores read whatever was there and the values are not used.
-/
import proofs.«157480_j6983616824221_2_alg».proof.Proof.Gen.Kernel.Launch
import proofs.«157480_j6983616824221_2_alg».proof.Proof.Gen.Kernel.Skeleton
import proofs.«157480_j6983616824221_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 512×1024 block and the whole 1024×1024 weight matrix, as the body addresses them. -/
abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0

/-- What the body leaves in the q, k and v output blocks: one whole-block store each. -/
def outQ (x : Vec F S512x1024 .f32) (w : Vec F S1024x1024 .bf16) : Vec F S512x1024 .bf16 :=
  View.canon [⟨rX, k0_pay2 (View.ld x rX) (View.ld w rW)⟩]
def outK (x : Vec F S512x1024 .f32) (w : Vec F S1024x1024 .bf16) : Vec F S512x1024 .bf16 :=
  View.canon [⟨rX, k0_pay3 (View.ld x rX) (View.ld w rW)⟩]
def outV (x : Vec F S512x1024 .f32) (w : Vec F S1024x1024 .bf16) : Vec F S512x1024 .bf16 :=
  View.canon [⟨rX, k0_pay4 (View.ld x rX) (View.ld w rW)⟩]

/-- One store of the whole block covers the block. -/
theorem cover1 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

set_option maxHeartbeats 2000000 in
/-- The body on whole staging buffers: inputs at given contents, outputs at anything; it ends with the inputs
    as they were and the three outputs at the three products. -/
theorem sound_kernel (c : Dev nD) (E : Set ℕ) (i : grid0.Coords)
    (arg1 : Memref sig .tc .vmem S512x1024 .f32) (harg1 : arg1.IsWhole)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .bf16) (harg7 : arg7.IsWhole)
    (x : Vec F S512x1024 .f32) (wq wk wv : Vec F S1024x1024 .bf16) (K : PUnit → sProp 𝕄) :
    iprop(owns (c : Thread nD τ) arg1 fullShare x ∗ owns (c : Thread nD τ) arg2 fullShare wq
        ∗ owns (c : Thread nD τ) arg3 fullShare wk ∗ owns (c : Thread nD τ) arg4 fullShare wv
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x ∗ owns (c : Thread nD τ) arg2 fullShare wq
            ∗ owns (c : Thread nD τ) arg3 fullShare wk ∗ owns (c : Thread nD τ) arg4 fullShare wv
            ∗ owns (c : Thread nD τ) arg5 fullShare (outQ x wq) ∗ owns (c : Thread nD τ) arg6 fullShare (outK x wk)
            ∗ owns (c : Thread nD τ) arg7 fullShare (outV x wv)) -∗ K ⟨⟩))
      ⊢ wp frame (wpE (defs₀ (F := F)) Variants.none c none) E
          (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1 _)
  isplitl [H6]
  · iexists _; isplitr
    swap; · iexact H6
    ipureintro
    exact View.read_writes_eq_canon _ _ _ (cover1 _)
  iexists _; isplitr
  swap; · iexact H7
  ipureintro
  exact View.read_writes_eq_canon _ _ _ (cover1 _)

end Cert.Kernel.R0

end
-- ==== Proof.K.R0Dat.lean ====
/-
  Region 0 (the q, k, v projection), over the whole grid of 32 points.

  Point t works on rows 512·t … 512·t+511 of the flattened input.  The input block is fetched at every point; the
  three weight matrices are fetched once and stay in place.  After the body each input buffer still holds its
  block, and the three output buffers hold the block's products with the three weights; every output block is
  written back at every point.
-/
import proofs.«157480_j6983616824221_2_alg».proof.Proof.K.R0Body

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core c's buffers when the region is entered: a parameter here
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The proof data of the projection's pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outQ (iblk0 V c 0 t) (iblk0 V c 1 t)
    | ⟨5, _⟩ => outK (iblk0 V c 0 t) (iblk0 V c 2 t)
    | ⟨6, _⟩ => outV (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outQ (iblk0 V c 0 t) (iblk0 V c 1 t) := by dsimp only [dat0]
theorem after0_5 (c : Dev nD) (t : Fin cfg0.N) : (dat0 V c).after 5 t = outK (iblk0 V c 0 t) (iblk0 V c 2 t) := by dsimp only [dat0]
theorem after0_6 (c : Dev nD) (t : Fin cfg0.N) : (dat0 V c).after 6 t = outV (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' buffers hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.K.R1Defs.lean ====
/-
  Region 1 (the attention), what its eight control cases share.

  A grid point is (b, jb): batch b, key block jb (256 keys).  The body branches only on jb: it zeroes the output
  block when jb = 0, and for each of the eight 256-row query chunks qc it computes scores and adds its
  contribution to the output exactly when 256·jb < 256·(qc+1), that is when qc ≥ jb.  So the value of jb fixes
  which branches are taken: eight cases.
-/
import proofs.«157480_j6983616824221_2_alg».proof.Proof.Gen.Kernel.Launch
import proofs.«157480_j6983616824221_2_alg».proof.Proof.Gen.Kernel.Skeleton
import proofs.«157480_j6983616824221_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch: the key block is the first one (jb = 0). -/
abbrev init (i : grid1.Coords) : Prop :=
  Scalar.cmpi .ne (Scalar.extui (Scalar.cmpi .eq (BitVec.ofNat 32 (i 1).val) 0#32)) 0#32 = 1#1
/-- The branch of the query chunk that ends at row `n`: the key block starts before that row (256·jb < n). -/
abbrev act (i : grid1.Coords) (n : BitVec 32) : Prop :=
  Scalar.cmpi .ne (Scalar.extui (Scalar.cmpi .slt (Scalar.muli (BitVec.ofNat 32 (i 1).val) 256#32) n)) 0#32 = 1#1

/-- Decided over the 64 grid points: the point is (t / 8, t % 8). -/
theorem hinit : ∀ t : Fin cfg1.N, init (grid1.coords t) ↔ t.val % 8 = 0 :=
  (by decide +kernel : ∀ t : Fin grid1.N, init (grid1.coords t) ↔ t.val % 8 = 0)
theorem hact0 : ∀ t : Fin cfg1.N, act (grid1.coords t) 256#32 ↔ t.val % 8 < 1 :=
  (by decide +kernel : ∀ t : Fin grid1.N, act (grid1.coords t) 256#32 ↔ t.val % 8 < 1)
theorem hact1 : ∀ t : Fin cfg1.N, act (grid1.coords t) 512#32 ↔ t.val % 8 < 2 :=
  (by decide +kernel : ∀ t : Fin grid1.N, act (grid1.coords t) 512#32 ↔ t.val % 8 < 2)
theorem hact2 : ∀ t : Fin cfg1.N, act (grid1.coords t) 768#32 ↔ t.val % 8 < 3 :=
  (by decide +kernel : ∀ t : Fin grid1.N, act (grid1.coords t) 768#32 ↔ t.val % 8 < 3)
theorem hact3 : ∀ t : Fin cfg1.N, act (grid1.coords t) 1024#32 ↔ t.val % 8 < 4 :=
  (by decide +kernel : ∀ t : Fin grid1.N, act (grid1.coords t) 1024#32 ↔ t.val % 8 < 4)
theorem hact4 : ∀ t : Fin cfg1.N, act (grid1.coords t) 1280#32 ↔ t.val % 8 < 5 :=
  (by decide +kernel : ∀ t : Fin grid1.N, act (grid1.coords t) 1280#32 ↔ t.val % 8 < 5)
theorem hact5 : ∀ t : Fin cfg1.N, act (grid1.coords t) 1536#32 ↔ t.val % 8 < 6 :=
  (by decide +kernel : ∀ t : Fin grid1.N, act (grid1.coords t) 1536#32 ↔ t.val % 8 < 6)
theorem hact6 : ∀ t : Fin cfg1.N, act (grid1.coords t) 1792#32 ↔ t.val % 8 < 7 :=
  (by decide +kernel : ∀ t : Fin grid1.N, act (grid1.coords t) 1792#32 ↔ t.val % 8 < 7)
theorem hact7 : ∀ t : Fin cfg1.N, act (grid1.coords t) 2048#32 ↔ t.val % 8 < 8 :=
  (by decide +kernel : ∀ t : Fin grid1.N, act (grid1.coords t) 2048#32 ↔ t.val % 8 < 8)

/-- The grid has 64 points. -/
theorem N1 : cfg1.N = 64 := N_1

/-- Each window's current staging memref at point t, as the pipeline passes it, and its wholeness. -/
abbrev ms0 (t : Fin cfg1.N) : Memref sig .tc .vmem S1x2048x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x256x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x256x1024 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x2048x1024 .f32 := win1_3.stage (cfg1.slots t 3)
abbrev hs3 (t : Fin cfg1.N) : (ms3 t).IsWhole := hstage1_3 ((cfg1.slots t 3).cast nbuf1_3)
/-- The score scratch: a whole scoped buffer of the kernel's own. -/
abbrev scM : Memref sig .tc .vmem S2048x256 .f32 := Memref.whole cc1_scratch0

end Cert.Kernel.R1

end
-- ==== Proof.K.R1Run0.lean ====
/-
  Region 1, the body's run when the key block is jb = 0: the output block is zeroed, then every query chunk adds its contribution.
  The lists of stores the body ends with (into the output block and into the score scratch) are found by running
  the body, not written here.
-/
import proofs.«157480_j6983616824221_2_alg».proof.Proof.K.R1Defs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run0 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : init i) (ha0 : act i 256#32) (ha1 : act i 512#32) (ha2 : act i 768#32) (ha3 : act i 1024#32) (ha4 : act i 1280#32) (ha5 : act i 1536#32) (ha6 : act i 1792#32) (ha7 : act i 2048#32)
    (xq : Vec F S1x2048x1024 .bf16) (xk xv : Vec F S1x256x1024 .bf16) :
    Σ' (LO : List (View.Piece (Elt F) S1x2048x1024 .f32)), { LS : List (View.Piece (Elt F) S2048x256 .f32) //
      ∀ (E : Set ℕ) (K : PUnit → sProp 𝕄),
        iprop(owns (c : Thread nD τ) arg2 fullShare xq ∗ owns (c : Thread nD τ) arg3 fullShare xk ∗ owns (c : Thread nD τ) arg4 fullShare xv
            ∗ (∃ d, owns (c : Thread nD τ) arg5 fullShare d) ∗ (∃ d, owns (c : Thread nD τ) arg6 fullShare d)
            ∗ (iprop(owns (c : Thread nD τ) arg2 fullShare xq ∗ owns (c : Thread nD τ) arg3 fullShare xk ∗ owns (c : Thread nD τ) arg4 fullShare xv
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    unfold owns
    iintro ⟨⟨%f2, %hf2, H2⟩, ⟨%f3, %hf3, H3⟩, ⟨%f4, %hf4, H4⟩, ⟨%d5, %f5, -, H5⟩, ⟨%d6, %f6, -, H6⟩, Hk⟩
    obtain rfl := harg2.eq_unread hf2; obtain rfl := harg3.eq_unread hf3; obtain rfl := harg4.eq_unread hf4
    sl_exec (disch := first | exact hz | exact ha0 | exact ha1 | exact ha2 | exact ha3 | exact ha4 | exact ha5 | exact ha6 | exact ha7)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    iexists _; iexact H6

end Cert.Kernel.R1

end
-- ==== Proof.K.R1Run1.lean ====
/-
  Region 1, the body's run when the key block is jb = 1: the output block is not zeroed; the query chunks 1 … 7 add their contribution; chunks 0 … 0 are left as found.
  The lists of stores the body ends with (into the output block and into the score scratch) are found by running
  the body, not written here.
-/
import proofs.«157480_j6983616824221_2_alg».proof.Proof.K.R1Defs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run1 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : act i 512#32) (ha2 : act i 768#32) (ha3 : act i 1024#32) (ha4 : act i 1280#32) (ha5 : act i 1536#32) (ha6 : act i 1792#32) (ha7 : act i 2048#32)
    (xq : Vec F S1x2048x1024 .bf16) (xk xv : Vec F S1x256x1024 .bf16) (xo : Vec F S1x2048x1024 .f32) :
    Σ' (LO : List (View.Piece (Elt F) S1x2048x1024 .f32)), { LS : List (View.Piece (Elt F) S2048x256 .f32) //
      ∀ (E : Set ℕ) (K : PUnit → sProp 𝕄),
        iprop(owns (c : Thread nD τ) arg2 fullShare xq ∗ owns (c : Thread nD τ) arg3 fullShare xk ∗ owns (c : Thread nD τ) arg4 fullShare xv
            ∗ owns (c : Thread nD τ) arg5 fullShare xo ∗ (∃ d, owns (c : Thread nD τ) arg6 fullShare d)
            ∗ (iprop(owns (c : Thread nD τ) arg2 fullShare xq ∗ owns (c : Thread nD τ) arg3 fullShare xk ∗ owns (c : Thread nD τ) arg4 fullShare xv
                ∗ (arg5.view.loc (c : Thread nD τ) ↦[arg5.view.set]{fullShare} arg5.view.writes (Elt F) (harg5.unread xo) LO)
                ∗ (∃ f, arg6.view.loc (c : Thread nD τ) ↦[arg6.view.set]{fullShare} arg6.view.writes (Elt F) f LS)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    unfold owns
    iintro ⟨⟨%f2, %hf2, H2⟩, ⟨%f3, %hf3, H3⟩, ⟨%f4, %hf4, H4⟩, ⟨%f5, %hf5, H5⟩, ⟨%d6, %f6, -, H6⟩, Hk⟩
    obtain rfl := harg2.eq_unread hf2; obtain rfl := harg3.eq_unread hf3; obtain rfl := harg4.eq_unread hf4; obtain rfl := harg5.eq_unread hf5
    sl_exec (disch := first | exact hz | exact ha0 | exact ha1 | exact ha2 | exact ha3 | exact ha4 | exact ha5 | exact ha6 | exact ha7)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexact H5
    iexists _; iexact H6

end Cert.Kernel.R1

end
-- ==== Proof.K.R1Run2.lean ====
/-
  Region 1, the body's run when the key block is jb = 2: the output block is not zeroed; the query chunks 2 … 7 add their contribution; chunks 0 … 1 are left as found.
  The lists of stores the body ends with (into the output block and into the score scratch) are found by running
  the body, not written here.
-/
import proofs.«157480_j6983616824221_2_alg».proof.Proof.K.R1Defs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run2 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : ¬act i 512#32) (ha2 : act i 768#32) (ha3 : act i 1024#32) (ha4 : act i 1280#32) (ha5 : act i 1536#32) (ha6 : act i 1792#32) (ha7 : act i 2048#32)
    (xq : Vec F S1x2048x1024 .bf16) (xk xv : Vec F S1x256x1024 .bf16) (xo : Vec F S1x2048x1024 .f32) :
    Σ' (LO : List (View.Piece (Elt F) S1x2048x1024 .f32)), { LS : List (View.Piece (Elt F) S2048x256 .f32) //
      ∀ (E : Set ℕ) (K : PUnit → sProp 𝕄),
        iprop(owns (c : Thread nD τ) arg2 fullShare xq ∗ owns (c : Thread nD τ) arg3 fullShare xk ∗ owns (c : Thread nD τ) arg4 fullShare xv
            ∗ owns (c : Thread nD τ) arg5 fullShare xo ∗ (∃ d, owns (c : Thread nD τ) arg6 fullShare d)
            ∗ (iprop(owns (c : Thread nD τ) arg2 fullShare xq ∗ owns (c : Thread nD τ) arg3 fullShare xk ∗ owns (c : Thread nD τ) arg4 fullShare xv
                ∗ (arg5.view.loc (c : Thread nD τ) ↦[arg5.view.set]{fullShare} arg5.view.writes (Elt F) (harg5.unread xo) LO)
                ∗ (∃ f, arg6.view.loc (c : Thread nD τ) ↦[arg6.view.set]{fullShare} arg6.view.writes (Elt F) f LS)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    unfold owns
    iintro ⟨⟨%f2, %hf2, H2⟩, ⟨%f3, %hf3, H3⟩, ⟨%f4, %hf4, H4⟩, ⟨%f5, %hf5, H5⟩, ⟨%d6, %f6, -, H6⟩, Hk⟩
    obtain rfl := harg2.eq_unread hf2; obtain rfl := harg3.eq_unread hf3; obtain rfl := harg4.eq_unread hf4; obtain rfl := harg5.eq_unread hf5
    sl_exec (disch := first | exact hz | exact ha0 | exact ha1 | exact ha2 | exact ha3 | exact ha4 | exact ha5 | exact ha6 | exact ha7)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexact H5
    iexists _; iexact H6

end Cert.Kernel.R1

end
-- ==== Proof.K.R1Run3.lean ====
/-
  Region 1, the body's run when the key block is jb = 3: the output block is not zeroed; the query chunks 3 … 7 add their contribution; chunks 0 … 2 are left as found.
  The lists of stores the body ends with (into the output block and into the score scratch) are found by running
  the body, not written here.
-/
import proofs.«157480_j6983616824221_2_alg».proof.Proof.K.R1Defs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run3 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : ¬act i 512#32) (ha2 : ¬act i 768#32) (ha3 : act i 1024#32) (ha4 : act i 1280#32) (ha5 : act i 1536#32) (ha6 : act i 1792#32) (ha7 : act i 2048#32)
    (xq : Vec F S1x2048x1024 .bf16) (xk xv : Vec F S1x256x1024 .bf16) (xo : Vec F S1x2048x1024 .f32) :
    Σ' (LO : List (View.Piece (Elt F) S1x2048x1024 .f32)), { LS : List (View.Piece (Elt F) S2048x256 .f32) //
      ∀ (E : Set ℕ) (K : PUnit → sProp 𝕄),
        iprop(owns (c : Thread nD τ) arg2 fullShare xq ∗ owns (c : Thread nD τ) arg3 fullShare xk ∗ owns (c : Thread nD τ) arg4 fullShare xv
            ∗ owns (c : Thread nD τ) arg5 fullShare xo ∗ (∃ d, owns (c : Thread nD τ) arg6 fullShare d)
            ∗ (iprop(owns (c : Thread nD τ) arg2 fullShare xq ∗ owns (c : Thread nD τ) arg3 fullShare xk ∗ owns (c : Thread nD τ) arg4 fullShare xv
                ∗ (arg5.view.loc (c : Thread nD τ) ↦[arg5.view.set]{fullShare} arg5.view.writes (Elt F) (harg5.unread xo) LO)
                ∗ (∃ f, arg6.view.loc (c : Thread nD τ) ↦[arg6.view.set]{fullShare} arg6.view.writes (Elt F) f LS)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    unfold owns
    iintro ⟨⟨%f2, %hf2, H2⟩, ⟨%f3, %hf3, H3⟩, ⟨%f4, %hf4, H4⟩, ⟨%f5, %hf5, H5⟩, ⟨%d6, %f6, -, H6⟩, Hk⟩
    obtain rfl := harg2.eq_unread hf2; obtain rfl := harg3.eq_unread hf3; obtain rfl := harg4.eq_unread hf4; obtain rfl := harg5.eq_unread hf5
    sl_exec (disch := first | exact hz | exact ha0 | exact ha1 | exact ha2 | exact ha3 | exact ha4 | exact ha5 | exact ha6 | exact ha7)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexact H5
    iexists _; iexact H6

end Cert.Kernel.R1

end
-- ==== Proof.K.R1Run4.lean ====
/-
  Region 1, the body's run when the key block is jb = 4: the output block is not zeroed; the query chunks 4 … 7 add their contribution; chunks 0 … 3 are left as found.
  The lists of stores the body ends with (into the output block and into the score scratch) are found by running
  the body, not written here.
-/
import proofs.«157480_j6983616824221_2_alg».proof.Proof.K.R1Defs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run4 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : ¬act i 512#32) (ha2 : ¬act i 768#32) (ha3 : ¬act i 1024#32) (ha4 : act i 1280#32) (ha5 : act i 1536#32) (ha6 : act i 1792#32) (ha7 : act i 2048#32)
    (xq : Vec F S1x2048x1024 .bf16) (xk xv : Vec F S1x256x1024 .bf16) (xo : Vec F S1x2048x1024 .f32) :
    Σ' (LO : List (View.Piece (Elt F) S1x2048x1024 .f32)), { LS : List (View.Piece (Elt F) S2048x256 .f32) //
      ∀ (E : Set ℕ) (K : PUnit → sProp 𝕄),
        iprop(owns (c : Thread nD τ) arg2 fullShare xq ∗ owns (c : Thread nD τ) arg3 fullShare xk ∗ owns (c : Thread nD τ) arg4 fullShare xv
            ∗ owns (c : Thread nD τ) arg5 fullShare xo ∗ (∃ d, owns (c : Thread nD τ) arg6 fullShare d)
            ∗ (iprop(owns (c : Thread nD τ) arg2 fullShare xq ∗ owns (c : Thread nD τ) arg3 fullShare xk ∗ owns (c : Thread nD τ) arg4 fullShare xv
                ∗ (arg5.view.loc (c : Thread nD τ) ↦[arg5.view.set]{fullShare} arg5.view.writes (Elt F) (harg5.unread xo) LO)
                ∗ (∃ f, arg6.view.loc (c : Thread nD τ) ↦[arg6.view.set]{fullShare} arg6.view.writes (Elt F) f LS)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    unfold owns
    iintro ⟨⟨%f2, %hf2, H2⟩, ⟨%f3, %hf3, H3⟩, ⟨%f4, %hf4, H4⟩, ⟨%f5, %hf5, H5⟩, ⟨%d6, %f6, -, H6⟩, Hk⟩
    obtain rfl := harg2.eq_unread hf2; obtain rfl := harg3.eq_unread hf3; obtain rfl := harg4.eq_unread hf4; obtain rfl := harg5.eq_unread hf5
    sl_exec (disch := first | exact hz | exact ha0 | exact ha1 | exact ha2 | exact ha3 | exact ha4 | exact ha5 | exact ha6 | exact ha7)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexact H5
    iexists _; iexact H6

end Cert.Kernel.R1

end
-- ==== Proof.K.R1Run5.lean ====
/-
  Region 1, the body's run when the key block is jb = 5: the output block is not zeroed; the query chunks 5 … 7 add their contribution; chunks 0 … 4 are left as found.
  The lists of stores the body ends with (into the output block and into the score scratch) are found by running
  the body, not written here.
-/
import proofs.«157480_j6983616824221_2_alg».proof.Proof.K.R1Defs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run5 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : ¬act i 512#32) (ha2 : ¬act i 768#32) (ha3 : ¬act i 1024#32) (ha4 : ¬act i 1280#32) (ha5 : act i 1536#32) (ha6 : act i 1792#32) (ha7 : act i 2048#32)
    (xq : Vec F S1x2048x1024 .bf16) (xk xv : Vec F S1x256x1024 .bf16) (xo : Vec F S1x2048x1024 .f32) :
    Σ' (LO : List (View.Piece (Elt F) S1x2048x1024 .f32)), { LS : List (View.Piece (Elt F) S2048x256 .f32) //
      ∀ (E : Set ℕ) (K : PUnit → sProp 𝕄),
        iprop(owns (c : Thread nD τ) arg2 fullShare xq ∗ owns (c : Thread nD τ) arg3 fullShare xk ∗ owns (c : Thread nD τ) arg4 fullShare xv
            ∗ owns (c : Thread nD τ) arg5 fullShare xo ∗ (∃ d, owns (c : Thread nD τ) arg6 fullShare d)
            ∗ (iprop(owns (c : Thread nD τ) arg2 fullShare xq ∗ owns (c : Thread nD τ) arg3 fullShare xk ∗ owns (c : Thread nD τ) arg4 fullShare xv
                ∗ (arg5.view.loc (c : Thread nD τ) ↦[arg5.view.set]{fullShare} arg5.view.writes (Elt F) (harg5.unread xo) LO)
                ∗ (∃ f, arg6.view.loc (c : Thread nD τ) ↦[arg6.view.set]{fullShare} arg6.view.writes (Elt F) f LS)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    unfold owns
    iintro ⟨⟨%f2, %hf2, H2⟩, ⟨%f3, %hf3, H3⟩, ⟨%f4, %hf4, H4⟩, ⟨%f5, %hf5, H5⟩, ⟨%d6, %f6, -, H6⟩, Hk⟩
    obtain rfl := harg2.eq_unread hf2; obtain rfl := harg3.eq_unread hf3; obtain rfl := harg4.eq_unread hf4; obtain rfl := harg5.eq_unread hf5
    sl_exec (disch := first | exact hz | exact ha0 | exact ha1 | exact ha2 | exact ha3 | exact ha4 | exact ha5 | exact ha6 | exact ha7)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexact H5
    iexists _; iexact H6

end Cert.Kernel.R1

end
-- ==== Proof.K.R1Run6.lean ====
/-
  Region 1, the body's run when the key block is jb = 6: the output block is not zeroed; the query chunks 6 … 7 add their contribution; chunks 0 … 5 are left as found.
  The lists of stores the body ends with (into the output block and into the score scratch) are found by running
  the body, not written here.
-/
import proofs.«157480_j6983616824221_2_alg».proof.Proof.K.R1Defs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run6 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : ¬act i 512#32) (ha2 : ¬act i 768#32) (ha3 : ¬act i 1024#32) (ha4 : ¬act i 1280#32) (ha5 : ¬act i 1536#32) (ha6 : act i 1792#32) (ha7 : act i 2048#32)
    (xq : Vec F S1x2048x1024 .bf16) (xk xv : Vec F S1x256x1024 .bf16) (xo : Vec F S1x2048x1024 .f32) :
    Σ' (LO : List (View.Piece (Elt F) S1x2048x1024 .f32)), { LS : List (View.Piece (Elt F) S2048x256 .f32) //
      ∀ (E : Set ℕ) (K : PUnit → sProp 𝕄),
        iprop(owns (c : Thread nD τ) arg2 fullShare xq ∗ owns (c : Thread nD τ) arg3 fullShare xk ∗ owns (c : Thread nD τ) arg4 fullShare xv
            ∗ owns (c : Thread nD τ) arg5 fullShare xo ∗ (∃ d, owns (c : Thread nD τ) arg6 fullShare d)
            ∗ (iprop(owns (c : Thread nD τ) arg2 fullShare xq ∗ owns (c : Thread nD τ) arg3 fullShare xk ∗ owns (c : Thread nD τ) arg4 fullShare xv
                ∗ (arg5.view.loc (c : Thread nD τ) ↦[arg5.view.set]{fullShare} arg5.view.writes (Elt F) (harg5.unread xo) LO)
                ∗ (∃ f, arg6.view.loc (c : Thread nD τ) ↦[arg6.view.set]{fullShare} arg6.view.writes (Elt F) f LS)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    unfold owns
    iintro ⟨⟨%f2, %hf2, H2⟩, ⟨%f3, %hf3, H3⟩, ⟨%f4, %hf4, H4⟩, ⟨%f5, %hf5, H5⟩, ⟨%d6, %f6, -, H6⟩, Hk⟩
    obtain rfl := harg2.eq_unread hf2; obtain rfl := harg3.eq_unread hf3; obtain rfl := harg4.eq_unread hf4; obtain rfl := harg5.eq_unread hf5
    sl_exec (disch := first | exact hz | exact ha0 | exact ha1 | exact ha2 | exact ha3 | exact ha4 | exact ha5 | exact ha6 | exact ha7)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexact H5
    iexists _; iexact H6

end Cert.Kernel.R1

end
-- ==== Proof.K.R1Run7.lean ====
/-
  Region 1, the body's run when the key block is jb = 7: the output block is not zeroed; the query chunks 7 … 7 add their contribution; chunks 0 … 6 are left as found.
  The lists of stores the body ends with (into the output block and into the score scratch) are found by running
  the body, not written here.
-/
import proofs.«157480_j6983616824221_2_alg».proof.Proof.K.R1Defs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def run7 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : ¬act i 512#32) (ha2 : ¬act i 768#32) (ha3 : ¬act i 1024#32) (ha4 : ¬act i 1280#32) (ha5 : ¬act i 1536#32) (ha6 : ¬act i 1792#32) (ha7 : act i 2048#32)
    (xq : Vec F S1x2048x1024 .bf16) (xk xv : Vec F S1x256x1024 .bf16) (xo : Vec F S1x2048x1024 .f32) :
    Σ' (LO : List (View.Piece (Elt F) S1x2048x1024 .f32)), { LS : List (View.Piece (Elt F) S2048x256 .f32) //
      ∀ (E : Set ℕ) (K : PUnit → sProp 𝕄),
        iprop(owns (c : Thread nD τ) arg2 fullShare xq ∗ owns (c : Thread nD τ) arg3 fullShare xk ∗ owns (c : Thread nD τ) arg4 fullShare xv
            ∗ owns (c : Thread nD τ) arg5 fullShare xo ∗ (∃ d, owns (c : Thread nD τ) arg6 fullShare d)
            ∗ (iprop(owns (c : Thread nD τ) arg2 fullShare xq ∗ owns (c : Thread nD τ) arg3 fullShare xk ∗ owns (c : Thread nD τ) arg4 fullShare xv
                ∗ (arg5.view.loc (c : Thread nD τ) ↦[arg5.view.set]{fullShare} arg5.view.writes (Elt F) (harg5.unread xo) LO)
                ∗ (∃ f, arg6.view.loc (c : Thread nD τ) ↦[arg6.view.set]{fullShare} arg6.view.writes (Elt F) f LS)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    unfold owns
    iintro ⟨⟨%f2, %hf2, H2⟩, ⟨%f3, %hf3, H3⟩, ⟨%f4, %hf4, H4⟩, ⟨%f5, %hf5, H5⟩, ⟨%d6, %f6, -, H6⟩, Hk⟩
    obtain rfl := harg2.eq_unread hf2; obtain rfl := harg3.eq_unread hf3; obtain rfl := harg4.eq_unread hf4; obtain rfl := harg5.eq_unread hf5
    sl_exec (disch := first | exact hz | exact ha0 | exact ha1 | exact ha2 | exact ha3 | exact ha4 | exact ha5 | exact ha6 | exact ha7)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexact H5
    iexists _; iexact H6

end Cert.Kernel.R1

end
-- ==== Proof.K.R1Dat.lean ====
/-
  Region 1 (the attention), over its whole grid of 64 points (b, jb), t = 8·b + jb.

  The query block of batch b is fetched when jb = 0 and stays; the key and value blocks of (b, jb) are fetched at
  every point.  The output block of batch b stays in its staging buffer over the eight key blocks and is written
  back after the last (jb = 7): at jb = 0 the body overwrites it whole, at jb > 0 it finds what the previous point
  left and adds to the chunks qc ≥ jb.  So what the output buffer holds after point t is defined by recursion on t.
  The score scratch is one of the core's scoped buffers; the body refills it before it reads it, so the region's
  invariant keeps it at unspecified contents.
-/
import proofs.«157480_j6983616824221_2_alg».proof.Proof.K.R1Run0
import proofs.«157480_j6983616824221_2_alg».proof.Proof.K.R1Run1
import proofs.«157480_j6983616824221_2_alg».proof.Proof.K.R1Run2
import proofs.«157480_j6983616824221_2_alg».proof.Proof.K.R1Run3
import proofs.«157480_j6983616824221_2_alg».proof.Proof.K.R1Run4
import proofs.«157480_j6983616824221_2_alg».proof.Proof.K.R1Run5
import proofs.«157480_j6983616824221_2_alg».proof.Proof.K.R1Run6
import proofs.«157480_j6983616824221_2_alg».proof.Proof.K.R1Run7

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- No window is ever idle: the last chunk's branch is taken at every point, so the body always stores into the output. -/
theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
theorem live3' : ∀ i : grid1.Coords, cfg1.idle 3 i = false := by decide +kernel

/-- One staging buffer of the output window, through which the contents after a covering case are stated. -/
abbrev VO : View sig .tc .vmem S1x2048x1024 .f32 := (Memref.whole cc1_stg3_0 : Memref sig .tc .vmem S1x2048x1024 .f32).view

/-- At jb = 0 the body's first store into the output is the whole block, so its stores cover the block. -/
theorem cover_0 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : init i) (ha0 : act i 256#32) (ha1 : act i 512#32) (ha2 : act i 768#32) (ha3 : act i 1024#32) (ha4 : act i 1280#32) (ha5 : act i 1536#32) (ha6 : act i 1792#32) (ha7 : act i 2048#32)
    (xq : Vec F S1x2048x1024 .bf16) (xk xv : Vec F S1x256x1024 .bf16) (y : S1x2048x1024.Idx) :
    ∃ pc ∈ (run0 c i arg2 harg2 arg3 harg3 arg4 harg4 arg5 harg5 arg6 harg6 hz ha0 ha1 ha2 ha3 ha4 ha5 ha6 ha7 xq xk xv).1, y ∈ pc.1.set :=
  View.cover_of_wholeMem (run0 c i arg2 harg2 arg3 harg3 arg4 harg4 arg5 harg5 arg6 harg6 hz ha0 ha1 ha2 ha3 ha4 ha5 ha6 ha7 xq xk xv).1 (by sl_whole_mem) y

/-- What the output buffer holds after the body at jb = 0: its stores read back. -/
def out_0 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : init i) (ha0 : act i 256#32) (ha1 : act i 512#32) (ha2 : act i 768#32) (ha3 : act i 1024#32) (ha4 : act i 1280#32) (ha5 : act i 1536#32) (ha6 : act i 1792#32) (ha7 : act i 2048#32)
    (xq : Vec F S1x2048x1024 .bf16) (xk xv : Vec F S1x256x1024 .bf16) : Vec F S1x2048x1024 .f32 :=
  VO.read (Elt F) (VO.writes (Elt F) VO.junk (run0 c i arg2 harg2 arg3 harg3 arg4 harg4 arg5 harg5 arg6 harg6 hz ha0 ha1 ha2 ha3 ha4 ha5 ha6 ha7 xq xk xv).1)

/-- What the output buffer holds after the body at jb = 1: its stores over what it found. -/
def out_1 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : act i 512#32) (ha2 : act i 768#32) (ha3 : act i 1024#32) (ha4 : act i 1280#32) (ha5 : act i 1536#32) (ha6 : act i 1792#32) (ha7 : act i 2048#32)
    (xq : Vec F S1x2048x1024 .bf16) (xk xv : Vec F S1x256x1024 .bf16) (xo : Vec F S1x2048x1024 .f32) : Vec F S1x2048x1024 .f32 :=
  arg5.view.read (Elt F) (arg5.view.writes (Elt F) (harg5.unread xo) (run1 c i arg2 harg2 arg3 harg3 arg4 harg4 arg5 harg5 arg6 harg6 hz ha0 ha1 ha2 ha3 ha4 ha5 ha6 ha7 xq xk xv xo).1)

/-- What the output buffer holds after the body at jb = 2: its stores over what it found. -/
def out_2 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : ¬act i 512#32) (ha2 : act i 768#32) (ha3 : act i 1024#32) (ha4 : act i 1280#32) (ha5 : act i 1536#32) (ha6 : act i 1792#32) (ha7 : act i 2048#32)
    (xq : Vec F S1x2048x1024 .bf16) (xk xv : Vec F S1x256x1024 .bf16) (xo : Vec F S1x2048x1024 .f32) : Vec F S1x2048x1024 .f32 :=
  arg5.view.read (Elt F) (arg5.view.writes (Elt F) (harg5.unread xo) (run2 c i arg2 harg2 arg3 harg3 arg4 harg4 arg5 harg5 arg6 harg6 hz ha0 ha1 ha2 ha3 ha4 ha5 ha6 ha7 xq xk xv xo).1)

/-- What the output buffer holds after the body at jb = 3: its stores over what it found. -/
def out_3 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : ¬act i 512#32) (ha2 : ¬act i 768#32) (ha3 : act i 1024#32) (ha4 : act i 1280#32) (ha5 : act i 1536#32) (ha6 : act i 1792#32) (ha7 : act i 2048#32)
    (xq : Vec F S1x2048x1024 .bf16) (xk xv : Vec F S1x256x1024 .bf16) (xo : Vec F S1x2048x1024 .f32) : Vec F S1x2048x1024 .f32 :=
  arg5.view.read (Elt F) (arg5.view.writes (Elt F) (harg5.unread xo) (run3 c i arg2 harg2 arg3 harg3 arg4 harg4 arg5 harg5 arg6 harg6 hz ha0 ha1 ha2 ha3 ha4 ha5 ha6 ha7 xq xk xv xo).1)

/-- What the output buffer holds after the body at jb = 4: its stores over what it found. -/
def out_4 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : ¬act i 512#32) (ha2 : ¬act i 768#32) (ha3 : ¬act i 1024#32) (ha4 : act i 1280#32) (ha5 : act i 1536#32) (ha6 : act i 1792#32) (ha7 : act i 2048#32)
    (xq : Vec F S1x2048x1024 .bf16) (xk xv : Vec F S1x256x1024 .bf16) (xo : Vec F S1x2048x1024 .f32) : Vec F S1x2048x1024 .f32 :=
  arg5.view.read (Elt F) (arg5.view.writes (Elt F) (harg5.unread xo) (run4 c i arg2 harg2 arg3 harg3 arg4 harg4 arg5 harg5 arg6 harg6 hz ha0 ha1 ha2 ha3 ha4 ha5 ha6 ha7 xq xk xv xo).1)

/-- What the output buffer holds after the body at jb = 5: its stores over what it found. -/
def out_5 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : ¬act i 512#32) (ha2 : ¬act i 768#32) (ha3 : ¬act i 1024#32) (ha4 : ¬act i 1280#32) (ha5 : act i 1536#32) (ha6 : act i 1792#32) (ha7 : act i 2048#32)
    (xq : Vec F S1x2048x1024 .bf16) (xk xv : Vec F S1x256x1024 .bf16) (xo : Vec F S1x2048x1024 .f32) : Vec F S1x2048x1024 .f32 :=
  arg5.view.read (Elt F) (arg5.view.writes (Elt F) (harg5.unread xo) (run5 c i arg2 harg2 arg3 harg3 arg4 harg4 arg5 harg5 arg6 harg6 hz ha0 ha1 ha2 ha3 ha4 ha5 ha6 ha7 xq xk xv xo).1)

/-- What the output buffer holds after the body at jb = 6: its stores over what it found. -/
def out_6 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : ¬act i 512#32) (ha2 : ¬act i 768#32) (ha3 : ¬act i 1024#32) (ha4 : ¬act i 1280#32) (ha5 : ¬act i 1536#32) (ha6 : act i 1792#32) (ha7 : act i 2048#32)
    (xq : Vec F S1x2048x1024 .bf16) (xk xv : Vec F S1x256x1024 .bf16) (xo : Vec F S1x2048x1024 .f32) : Vec F S1x2048x1024 .f32 :=
  arg5.view.read (Elt F) (arg5.view.writes (Elt F) (harg5.unread xo) (run6 c i arg2 harg2 arg3 harg3 arg4 harg4 arg5 harg5 arg6 harg6 hz ha0 ha1 ha2 ha3 ha4 ha5 ha6 ha7 xq xk xv xo).1)

/-- What the output buffer holds after the body at jb = 7: its stores over what it found. -/
def out_7 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : ¬act i 512#32) (ha2 : ¬act i 768#32) (ha3 : ¬act i 1024#32) (ha4 : ¬act i 1280#32) (ha5 : ¬act i 1536#32) (ha6 : ¬act i 1792#32) (ha7 : act i 2048#32)
    (xq : Vec F S1x2048x1024 .bf16) (xk xv : Vec F S1x256x1024 .bf16) (xo : Vec F S1x2048x1024 .f32) : Vec F S1x2048x1024 .f32 :=
  arg5.view.read (Elt F) (arg5.view.writes (Elt F) (harg5.unread xo) (run7 c i arg2 harg2 arg3 harg3 arg4 harg4 arg5 harg5 arg6 harg6 hz ha0 ha1 ha2 ha3 ha4 ha5 ha6 ha7 xq xk xv xo).1)

/-! ## The cases at a grid point -/

def outAt_0 (c : Dev nD) (t : Fin cfg1.N) (hk : t.val % 8 = 0) : Vec F S1x2048x1024 .f32 :=
  out_0 c (grid1.coords t) (ms0 t) (hs0 t) (ms1 t) (hs1 t) (ms2 t) (hs2 t) (ms3 t) (hs3 t) scM (Memref.isWhole_whole _) ((hinit t).mpr hk) ((hact0 t).mpr (by have := hk; omega)) ((hact1 t).mpr (by have := hk; omega)) ((hact2 t).mpr (by have := hk; omega)) ((hact3 t).mpr (by have := hk; omega)) ((hact4 t).mpr (by have := hk; omega)) ((hact5 t).mpr (by have := hk; omega)) ((hact6 t).mpr (by have := hk; omega)) ((hact7 t).mpr (by have := hk; omega)) (iblk1 V c 0 t) (iblk1 V c 1 t) (iblk1 V c 2 t)

def outAt_1 (c : Dev nD) (t : Fin cfg1.N) (hk : t.val % 8 = 1) (xo : Vec F S1x2048x1024 .f32) : Vec F S1x2048x1024 .f32 :=
  out_1 c (grid1.coords t) (ms0 t) (hs0 t) (ms1 t) (hs1 t) (ms2 t) (hs2 t) (ms3 t) (hs3 t) scM (Memref.isWhole_whole _) (fun h => absurd ((hinit t).mp h) (by have := hk; omega)) (fun h => absurd ((hact0 t).mp h) (by have := hk; omega)) ((hact1 t).mpr (by have := hk; omega)) ((hact2 t).mpr (by have := hk; omega)) ((hact3 t).mpr (by have := hk; omega)) ((hact4 t).mpr (by have := hk; omega)) ((hact5 t).mpr (by have := hk; omega)) ((hact6 t).mpr (by have := hk; omega)) ((hact7 t).mpr (by have := hk; omega)) (iblk1 V c 0 t) (iblk1 V c 1 t) (iblk1 V c 2 t) xo

def outAt_2 (c : Dev nD) (t : Fin cfg1.N) (hk : t.val % 8 = 2) (xo : Vec F S1x2048x1024 .f32) : Vec F S1x2048x1024 .f32 :=
  out_2 c (grid1.coords t) (ms0 t) (hs0 t) (ms1 t) (hs1 t) (ms2 t) (hs2 t) (ms3 t) (hs3 t) scM (Memref.isWhole_whole _) (fun h => absurd ((hinit t).mp h) (by have := hk; omega)) (fun h => absurd ((hact0 t).mp h) (by have := hk; omega)) (fun h => absurd ((hact1 t).mp h) (by have := hk; omega)) ((hact2 t).mpr (by have := hk; omega)) ((hact3 t).mpr (by have := hk; omega)) ((hact4 t).mpr (by have := hk; omega)) ((hact5 t).mpr (by have := hk; omega)) ((hact6 t).mpr (by have := hk; omega)) ((hact7 t).mpr (by have := hk; omega)) (iblk1 V c 0 t) (iblk1 V c 1 t) (iblk1 V c 2 t) xo

def outAt_3 (c : Dev nD) (t : Fin cfg1.N) (hk : t.val % 8 = 3) (xo : Vec F S1x2048x1024 .f32) : Vec F S1x2048x1024 .f32 :=
  out_3 c (grid1.coords t) (ms0 t) (hs0 t) (ms1 t) (hs1 t) (ms2 t) (hs2 t) (ms3 t) (hs3 t) scM (Memref.isWhole_whole _) (fun h => absurd ((hinit t).mp h) (by have := hk; omega)) (fun h => absurd ((hact0 t).mp h) (by have := hk; omega)) (fun h => absurd ((hact1 t).mp h) (by have := hk; omega)) (fun h => absurd ((hact2 t).mp h) (by have := hk; omega)) ((hact3 t).mpr (by have := hk; omega)) ((hact4 t).mpr (by have := hk; omega)) ((hact5 t).mpr (by have := hk; omega)) ((hact6 t).mpr (by have := hk; omega)) ((hact7 t).mpr (by have := hk; omega)) (iblk1 V c 0 t) (iblk1 V c 1 t) (iblk1 V c 2 t) xo

def outAt_4 (c : Dev nD) (t : Fin cfg1.N) (hk : t.val % 8 = 4) (xo : Vec F S1x2048x1024 .f32) : Vec F S1x2048x1024 .f32 :=
  out_4 c (grid1.coords t) (ms0 t) (hs0 t) (ms1 t) (hs1 t) (ms2 t) (hs2 t) (ms3 t) (hs3 t) scM (Memref.isWhole_whole _) (fun h => absurd ((hinit t).mp h) (by have := hk; omega)) (fun h => absurd ((hact0 t).mp h) (by have := hk; omega)) (fun h => absurd ((hact1 t).mp h) (by have := hk; omega)) (fun h => absurd ((hact2 t).mp h) (by have := hk; omega)) (fun h => absurd ((hact3 t).mp h) (by have := hk; omega)) ((hact4 t).mpr (by have := hk; omega)) ((hact5 t).mpr (by have := hk; omega)) ((hact6 t).mpr (by have := hk; omega)) ((hact7 t).mpr (by have := hk; omega)) (iblk1 V c 0 t) (iblk1 V c 1 t) (iblk1 V c 2 t) xo

def outAt_5 (c : Dev nD) (t : Fin cfg1.N) (hk : t.val % 8 = 5) (xo : Vec F S1x2048x1024 .f32) : Vec F S1x2048x1024 .f32 :=
  out_5 c (grid1.coords t) (ms0 t) (hs0 t) (ms1 t) (hs1 t) (ms2 t) (hs2 t) (ms3 t) (hs3 t) scM (Memref.isWhole_whole _) (fun h => absurd ((hinit t).mp h) (by have := hk; omega)) (fun h => absurd ((hact0 t).mp h) (by have := hk; omega)) (fun h => absurd ((hact1 t).mp h) (by have := hk; omega)) (fun h => absurd ((hact2 t).mp h) (by have := hk; omega)) (fun h => absurd ((hact3 t).mp h) (by have := hk; omega)) (fun h => absurd ((hact4 t).mp h) (by have := hk; omega)) ((hact5 t).mpr (by have := hk; omega)) ((hact6 t).mpr (by have := hk; omega)) ((hact7 t).mpr (by have := hk; omega)) (iblk1 V c 0 t) (iblk1 V c 1 t) (iblk1 V c 2 t) xo

def outAt_6 (c : Dev nD) (t : Fin cfg1.N) (hk : t.val % 8 = 6) (xo : Vec F S1x2048x1024 .f32) : Vec F S1x2048x1024 .f32 :=
  out_6 c (grid1.coords t) (ms0 t) (hs0 t) (ms1 t) (hs1 t) (ms2 t) (hs2 t) (ms3 t) (hs3 t) scM (Memref.isWhole_whole _) (fun h => absurd ((hinit t).mp h) (by have := hk; omega)) (fun h => absurd ((hact0 t).mp h) (by have := hk; omega)) (fun h => absurd ((hact1 t).mp h) (by have := hk; omega)) (fun h => absurd ((hact2 t).mp h) (by have := hk; omega)) (fun h => absurd ((hact3 t).mp h) (by have := hk; omega)) (fun h => absurd ((hact4 t).mp h) (by have := hk; omega)) (fun h => absurd ((hact5 t).mp h) (by have := hk; omega)) ((hact6 t).mpr (by have := hk; omega)) ((hact7 t).mpr (by have := hk; omega)) (iblk1 V c 0 t) (iblk1 V c 1 t) (iblk1 V c 2 t) xo

def outAt_7 (c : Dev nD) (t : Fin cfg1.N) (hk : t.val % 8 = 7) (xo : Vec F S1x2048x1024 .f32) : Vec F S1x2048x1024 .f32 :=
  out_7 c (grid1.coords t) (ms0 t) (hs0 t) (ms1 t) (hs1 t) (ms2 t) (hs2 t) (ms3 t) (hs3 t) scM (Memref.isWhole_whole _) (fun h => absurd ((hinit t).mp h) (by have := hk; omega)) (fun h => absurd ((hact0 t).mp h) (by have := hk; omega)) (fun h => absurd ((hact1 t).mp h) (by have := hk; omega)) (fun h => absurd ((hact2 t).mp h) (by have := hk; omega)) (fun h => absurd ((hact3 t).mp h) (by have := hk; omega)) (fun h => absurd ((hact4 t).mp h) (by have := hk; omega)) (fun h => absurd ((hact5 t).mp h) (by have := hk; omega)) (fun h => absurd ((hact6 t).mp h) (by have := hk; omega)) ((hact7 t).mpr (by have := hk; omega)) (iblk1 V c 0 t) (iblk1 V c 1 t) (iblk1 V c 2 t) xo

/-- THE ACCUMULATION: what the output's staging buffer holds after the body at position n. -/
def outsAt (c : Dev nD) : (n : ℕ) → n < cfg1.N → Vec F S1x2048x1024 .f32
  | 0, hn => outAt_0 V c ⟨0, hn⟩ (Nat.zero_mod _)
  | n + 1, hn =>
    if h0 : (n + 1) % 8 = 0 then outAt_0 V c ⟨n + 1, hn⟩ h0
    else if h1 : (n + 1) % 8 = 1 then outAt_1 V c ⟨n + 1, hn⟩ h1 (outsAt c n (Nat.lt_of_succ_lt hn))
    else if h2 : (n + 1) % 8 = 2 then outAt_2 V c ⟨n + 1, hn⟩ h2 (outsAt c n (Nat.lt_of_succ_lt hn))
    else if h3 : (n + 1) % 8 = 3 then outAt_3 V c ⟨n + 1, hn⟩ h3 (outsAt c n (Nat.lt_of_succ_lt hn))
    else if h4 : (n + 1) % 8 = 4 then outAt_4 V c ⟨n + 1, hn⟩ h4 (outsAt c n (Nat.lt_of_succ_lt hn))
    else if h5 : (n + 1) % 8 = 5 then outAt_5 V c ⟨n + 1, hn⟩ h5 (outsAt c n (Nat.lt_of_succ_lt hn))
    else if h6 : (n + 1) % 8 = 6 then outAt_6 V c ⟨n + 1, hn⟩ h6 (outsAt c n (Nat.lt_of_succ_lt hn))
    else outAt_7 V c ⟨n + 1, hn⟩ (by dsimp only; omega) (outsAt c n (Nat.lt_of_succ_lt hn))

theorem outsAt_0 (c : Dev nD) (t : Fin cfg1.N) (hk : t.val % 8 = 0) : outsAt V c t.val t.isLt = outAt_0 V c t hk := by
  obtain ⟨n, hn⟩ := t
  cases n with
  | zero => exact rfl
  | succ n => exact (dif_pos hk).trans rfl
theorem outsAt_1 (c : Dev nD) (t : Fin cfg1.N) (hk : t.val % 8 = 1) :
    outsAt V c t.val t.isLt = outAt_1 V c t hk (outsAt V c (t.val - 1) (Nat.lt_of_le_of_lt (Nat.sub_le _ _) t.isLt)) := by
  obtain ⟨n, hn⟩ := t
  cases n with
  | zero => exact absurd (show (0 : ℕ) % 8 = 1 from hk) (by decide)
  | succ n =>
    have hk' : (n + 1) % 8 = 1 := hk
    exact (dif_neg (by have := hk'; omega)).trans ((dif_pos hk').trans rfl)
theorem outsAt_2 (c : Dev nD) (t : Fin cfg1.N) (hk : t.val % 8 = 2) :
    outsAt V c t.val t.isLt = outAt_2 V c t hk (outsAt V c (t.val - 1) (Nat.lt_of_le_of_lt (Nat.sub_le _ _) t.isLt)) := by
  obtain ⟨n, hn⟩ := t
  cases n with
  | zero => exact absurd (show (0 : ℕ) % 8 = 2 from hk) (by decide)
  | succ n =>
    have hk' : (n + 1) % 8 = 2 := hk
    exact (dif_neg (by have := hk'; omega)).trans ((dif_neg (by have := hk'; omega)).trans ((dif_pos hk').trans rfl))
theorem outsAt_3 (c : Dev nD) (t : Fin cfg1.N) (hk : t.val % 8 = 3) :
    outsAt V c t.val t.isLt = outAt_3 V c t hk (outsAt V c (t.val - 1) (Nat.lt_of_le_of_lt (Nat.sub_le _ _) t.isLt)) := by
  obtain ⟨n, hn⟩ := t
  cases n with
  | zero => exact absurd (show (0 : ℕ) % 8 = 3 from hk) (by decide)
  | succ n =>
    have hk' : (n + 1) % 8 = 3 := hk
    exact (dif_neg (by have := hk'; omega)).trans ((dif_neg (by have := hk'; omega)).trans ((dif_neg (by have := hk'; omega)).trans ((dif_pos hk').trans rfl)))
theorem outsAt_4 (c : Dev nD) (t : Fin cfg1.N) (hk : t.val % 8 = 4) :
    outsAt V c t.val t.isLt = outAt_4 V c t hk (outsAt V c (t.val - 1) (Nat.lt_of_le_of_lt (Nat.sub_le _ _) t.isLt)) := by
  obtain ⟨n, hn⟩ := t
  cases n with
  | zero => exact absurd (show (0 : ℕ) % 8 = 4 from hk) (by decide)
  | succ n =>
    have hk' : (n + 1) % 8 = 4 := hk
    exact (dif_neg (by have := hk'; omega)).trans ((dif_neg (by have := hk'; omega)).trans ((dif_neg (by have := hk'; omega)).trans ((dif_neg (by have := hk'; omega)).trans ((dif_pos hk').trans rfl))))
theorem outsAt_5 (c : Dev nD) (t : Fin cfg1.N) (hk : t.val % 8 = 5) :
    outsAt V c t.val t.isLt = outAt_5 V c t hk (outsAt V c (t.val - 1) (Nat.lt_of_le_of_lt (Nat.sub_le _ _) t.isLt)) := by
  obtain ⟨n, hn⟩ := t
  cases n with
  | zero => exact absurd (show (0 : ℕ) % 8 = 5 from hk) (by decide)
  | succ n =>
    have hk' : (n + 1) % 8 = 5 := hk
    exact (dif_neg (by have := hk'; omega)).trans ((dif_neg (by have := hk'; omega)).trans ((dif_neg (by have := hk'; omega)).trans ((dif_neg (by have := hk'; omega)).trans ((dif_neg (by have := hk'; omega)).trans ((dif_pos hk').trans rfl)))))
theorem outsAt_6 (c : Dev nD) (t : Fin cfg1.N) (hk : t.val % 8 = 6) :
    outsAt V c t.val t.isLt = outAt_6 V c t hk (outsAt V c (t.val - 1) (Nat.lt_of_le_of_lt (Nat.sub_le _ _) t.isLt)) := by
  obtain ⟨n, hn⟩ := t
  cases n with
  | zero => exact absurd (show (0 : ℕ) % 8 = 6 from hk) (by decide)
  | succ n =>
    have hk' : (n + 1) % 8 = 6 := hk
    exact (dif_neg (by have := hk'; omega)).trans ((dif_neg (by have := hk'; omega)).trans ((dif_neg (by have := hk'; omega)).trans ((dif_neg (by have := hk'; omega)).trans ((dif_neg (by have := hk'; omega)).trans ((dif_neg (by have := hk'; omega)).trans ((dif_pos hk').trans rfl))))))
theorem outsAt_7 (c : Dev nD) (t : Fin cfg1.N) (hk : t.val % 8 = 7) :
    outsAt V c t.val t.isLt = outAt_7 V c t hk (outsAt V c (t.val - 1) (Nat.lt_of_le_of_lt (Nat.sub_le _ _) t.isLt)) := by
  obtain ⟨n, hn⟩ := t
  cases n with
  | zero => exact absurd (show (0 : ℕ) % 8 = 7 from hk) (by decide)
  | succ n =>
    have hk' : (n + 1) % 8 = 7 := hk
    exact (dif_neg (by have := hk'; omega)).trans ((dif_neg (by have := hk'; omega)).trans ((dif_neg (by have := hk'; omega)).trans ((dif_neg (by have := hk'; omega)).trans ((dif_neg (by have := hk'; omega)).trans ((dif_neg (by have := hk'; omega)).trans ((dif_neg (by have := hk'; omega)).trans (rfl)))))))

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- At a point with jb > 0 the output's staging buffer holds what the body left at the point before: the buffer
    is written back only after jb = 7, and the window is never idle. -/
theorem before1_3_acc (c : Dev nD) (t : Fin cfg1.N) (h0 : ¬t.val % 8 = 0) (d) :
    (dat1 V c).before 3 t d = outsAt V c (t.val - 1) (Nat.lt_of_le_of_lt (Nat.sub_le _ _) t.isLt) := by
  have hN : t.val < 64 := lt_of_lt_of_eq t.isLt N1
  rw [Dat.before_out_kept _ 3 rfl t (by omega) (Bool.eq_false_iff.mpr fun h => by have := (flush1_3 _).mp h; dsimp only at this; omega)
    live3' (fun _ _ => rfl)]
  dsimp only [dat1]

/-- The region's invariant with the score scratch shown: the other scoped buffers (the projection's staging
    buffers) at some contents, the scratch at some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM fullShare d)) ∗ (∃ r, prngReg c r)) := by
  unfold Pipeline.ΦA; rw [scopedRest1_eq]; simp only [scM, owns_whole]; try rfl

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d))
    ∗ (∃ d, owns (c : Thread nD τ) (ms3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    show (dat1 V c).Φ t.castSucc = Pipeline.ΦA spec1 c from rfl, PhiA1_eq]
  rw [show (dat1 V c).leavesExact 0 t = owns (c : Thread nD τ) (ms0 t) fullShare ((dat1 V c).after 0 t) from by
      unfold Dat.leavesExact; rw [live0 t], after1_0,
    show (dat1 V c).leavesExact 1 t = owns (c : Thread nD τ) (ms1 t) fullShare ((dat1 V c).after 1 t) from by
      unfold Dat.leavesExact; rw [live1 t], after1_1,
    show (dat1 V c).leavesExact 2 t = owns (c : Thread nD τ) (ms2 t) fullShare ((dat1 V c).after 2 t) from by
      unfold Dat.leavesExact; rw [live2 t], after1_2,
    show (dat1 V c).leavesExact 3 t = owns (c : Thread nD τ) (ms3 t) fullShare ((dat1 V c).after 3 t) from by
      unfold Dat.leavesExact; rw [live3 t], after1_3]
  have hN : t.val < 64 := lt_of_lt_of_eq t.isLt N1
  have hcases : t.val % 8 = 0 ∨ t.val % 8 = 1 ∨ t.val % 8 = 2 ∨ t.val % 8 = 3 ∨ t.val % 8 = 4 ∨ t.val % 8 = 5 ∨ t.val % 8 = 6 ∨ t.val % 8 = 7 := by omega
  rcases hcases with h0 | h1 | h2 | h3 | h4 | h5 | h6 | h7
  · rw [outsAt_0 V c t h0]
    unfold outAt_0 out_0
    iintro ⟨⟨⟨R0, R1, R2, R3, R4, R5, R6, R7, R8, R9, R10, HS⟩, Hg⟩, Ho, ⟨%d0, H0⟩, ⟨%d1, H1⟩, ⟨%d2, H2⟩, ⟨%d3, H3⟩⟩
    iapply ((run0 c (grid1.coords t) (ms0 t) (hs0 t) (ms1 t) (hs1 t) (ms2 t) (hs2 t) (ms3 t) (hs3 t) scM (Memref.isWhole_whole _) ((hinit t).mpr h0) ((hact0 t).mpr (by have := h0; omega)) ((hact1 t).mpr (by have := h0; omega)) ((hact2 t).mpr (by have := h0; omega)) ((hact3 t).mpr (by have := h0; omega)) ((hact4 t).mpr (by have := h0; omega)) ((hact5 t).mpr (by have := h0; omega)) ((hact6 t).mpr (by have := h0; omega)) ((hact7 t).mpr (by have := h0; omega)) (iblk1 V c 0 t) (iblk1 V c 1 t) (iblk1 V c 2 t)).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [R0 R1 R2 R3 R4 R5 R6 R7 R8 R9 R10 HS Hg]
    · isplitr [Hg]
      ·
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        unfold owns; iexists _; iexists _; isplitr
        swap; · iexact HS
        ipureintro; rfl
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover_0 c _ _ _ _ _ _ _ _ _ _ _ _ _ _ _ _ _ _ _ _ _ _ _)
  · rw [outsAt_1 V c t h1]
    simp only [before1_3_acc V c t (by omega : ¬t.val % 8 = 0)]
    unfold outAt_1 out_1
    iintro ⟨⟨⟨R0, R1, R2, R3, R4, R5, R6, R7, R8, R9, R10, HS⟩, Hg⟩, Ho, ⟨%d0, H0⟩, ⟨%d1, H1⟩, ⟨%d2, H2⟩, ⟨%d3, H3⟩⟩
    iapply ((run1 c (grid1.coords t) (ms0 t) (hs0 t) (ms1 t) (hs1 t) (ms2 t) (hs2 t) (ms3 t) (hs3 t) scM (Memref.isWhole_whole _) (fun h => absurd ((hinit t).mp h) (by have := h1; omega)) (fun h => absurd ((hact0 t).mp h) (by have := h1; omega)) ((hact1 t).mpr (by have := h1; omega)) ((hact2 t).mpr (by have := h1; omega)) ((hact3 t).mpr (by have := h1; omega)) ((hact4 t).mpr (by have := h1; omega)) ((hact5 t).mpr (by have := h1; omega)) ((hact6 t).mpr (by have := h1; omega)) ((hact7 t).mpr (by have := h1; omega)) (iblk1 V c 0 t) (iblk1 V c 1 t) (iblk1 V c 2 t) _).2.2 Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [R0 R1 R2 R3 R4 R5 R6 R7 R8 R9 R10 HS Hg]
    · isplitr [Hg]
      ·
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        unfold owns; iexists _; iexists _; isplitr
        swap; · iexact HS
        ipureintro; rfl
      iexact Hg
    isplitl [Ho]; · iexact Ho
    isplitl [H0]; · iexact H0
    isplitl [H1]; · iexact H1
    isplitl [H2]; · iexact H2
    unfold owns; iexists _; isplitr
    swap; · iexact H3
    ipureintro; rfl
  · rw [outsAt_2 V c t h2]
    simp only [before1_3_acc V c t (by omega : ¬t.val % 8 = 0)]
    unfold outAt_2 out_2
    iintro ⟨⟨⟨R0, R1, R2, R3, R4, R5, R6, R7, R8, R9, R10, HS⟩, Hg⟩, Ho, ⟨%d0, H0⟩, ⟨%d1, H1⟩, ⟨%d2, H2⟩, ⟨%d3, H3⟩⟩
    iapply ((run2 c (grid1.coords t) (ms0 t) (hs0 t) (ms1 t) (hs1 t) (ms2 t) (hs2 t) (ms3 t) (hs3 t) scM (Memref.isWhole_whole _) (fun h => absurd ((hinit t).mp h) (by have := h2; omega)) (fun h => absurd ((hact0 t).mp h) (by have := h2; omega)) (fun h => absurd ((hact1 t).mp h) (by have := h2; omega)) ((hact2 t).mpr (by have := h2; omega)) ((hact3 t).mpr (by have := h2; omega)) ((hact4 t).mpr (by have := h2; omega)) ((hact5 t).mpr (by have := h2; omega)) ((hact6 t).mpr (by have := h2; omega)) ((hact7 t).mpr (by have := h2; omega)) (iblk1 V c 0 t) (iblk1 V c 1 t) (iblk1 V c 2 t) _).2.2 Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [R0 R1 R2 R3 R4 R5 R6 R7 R8 R9 R10 HS Hg]
    · isplitr [Hg]
      ·
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        unfold owns; iexists _; iexists _; isplitr
        swap; · iexact HS
        ipureintro; rfl
      iexact Hg
    isplitl [Ho]; · iexact Ho
    isplitl [H0]; · iexact H0
    isplitl [H1]; · iexact H1
    isplitl [H2]; · iexact H2
    unfold owns; iexists _; isplitr
    swap; · iexact H3
    ipureintro; rfl
  · rw [outsAt_3 V c t h3]
    simp only [before1_3_acc V c t (by omega : ¬t.val % 8 = 0)]
    unfold outAt_3 out_3
    iintro ⟨⟨⟨R0, R1, R2, R3, R4, R5, R6, R7, R8, R9, R10, HS⟩, Hg⟩, Ho, ⟨%d0, H0⟩, ⟨%d1, H1⟩, ⟨%d2, H2⟩, ⟨%d3, H3⟩⟩
    iapply ((run3 c (grid1.coords t) (ms0 t) (hs0 t) (ms1 t) (hs1 t) (ms2 t) (hs2 t) (ms3 t) (hs3 t) scM (Memref.isWhole_whole _) (fun h => absurd ((hinit t).mp h) (by have := h3; omega)) (fun h => absurd ((hact0 t).mp h) (by have := h3; omega)) (fun h => absurd ((hact1 t).mp h) (by have := h3; omega)) (fun h => absurd ((hact2 t).mp h) (by have := h3; omega)) ((hact3 t).mpr (by have := h3; omega)) ((hact4 t).mpr (by have := h3; omega)) ((hact5 t).mpr (by have := h3; omega)) ((hact6 t).mpr (by have := h3; omega)) ((hact7 t).mpr (by have := h3; omega)) (iblk1 V c 0 t) (iblk1 V c 1 t) (iblk1 V c 2 t) _).2.2 Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [R0 R1 R2 R3 R4 R5 R6 R7 R8 R9 R10 HS Hg]
    · isplitr [Hg]
      ·
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        unfold owns; iexists _; iexists _; isplitr
        swap; · iexact HS
        ipureintro; rfl
      iexact Hg
    isplitl [Ho]; · iexact Ho
    isplitl [H0]; · iexact H0
    isplitl [H1]; · iexact H1
    isplitl [H2]; · iexact H2
    unfold owns; iexists _; isplitr
    swap; · iexact H3
    ipureintro; rfl
  · rw [outsAt_4 V c t h4]
    simp only [before1_3_acc V c t (by omega : ¬t.val % 8 = 0)]
    unfold outAt_4 out_4
    iintro ⟨⟨⟨R0, R1, R2, R3, R4, R5, R6, R7, R8, R9, R10, HS⟩, Hg⟩, Ho, ⟨%d0, H0⟩, ⟨%d1, H1⟩, ⟨%d2, H2⟩, ⟨%d3, H3⟩⟩
    iapply ((run4 c (grid1.coords t) (ms0 t) (hs0 t) (ms1 t) (hs1 t) (ms2 t) (hs2 t) (ms3 t) (hs3 t) scM (Memref.isWhole_whole _) (fun h => absurd ((hinit t).mp h) (by have := h4; omega)) (fun h => absurd ((hact0 t).mp h) (by have := h4; omega)) (fun h => absurd ((hact1 t).mp h) (by have := h4; omega)) (fun h => absurd ((hact2 t).mp h) (by have := h4; omega)) (fun h => absurd ((hact3 t).mp h) (by have := h4; omega)) ((hact4 t).mpr (by have := h4; omega)) ((hact5 t).mpr (by have := h4; omega)) ((hact6 t).mpr (by have := h4; omega)) ((hact7 t).mpr (by have := h4; omega)) (iblk1 V c 0 t) (iblk1 V c 1 t) (iblk1 V c 2 t) _).2.2 Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [R0 R1 R2 R3 R4 R5 R6 R7 R8 R9 R10 HS Hg]
    · isplitr [Hg]
      ·
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        unfold owns; iexists _; iexists _; isplitr
        swap; · iexact HS
        ipureintro; rfl
      iexact Hg
    isplitl [Ho]; · iexact Ho
    isplitl [H0]; · iexact H0
    isplitl [H1]; · iexact H1
    isplitl [H2]; · iexact H2
    unfold owns; iexists _; isplitr
    swap; · iexact H3
    ipureintro; rfl
  · rw [outsAt_5 V c t h5]
    simp only [before1_3_acc V c t (by omega : ¬t.val % 8 = 0)]
    unfold outAt_5 out_5
    iintro ⟨⟨⟨R0, R1, R2, R3, R4, R5, R6, R7, R8, R9, R10, HS⟩, Hg⟩, Ho, ⟨%d0, H0⟩, ⟨%d1, H1⟩, ⟨%d2, H2⟩, ⟨%d3, H3⟩⟩
    iapply ((run5 c (grid1.coords t) (ms0 t) (hs0 t) (ms1 t) (hs1 t) (ms2 t) (hs2 t) (ms3 t) (hs3 t) scM (Memref.isWhole_whole _) (fun h => absurd ((hinit t).mp h) (by have := h5; omega)) (fun h => absurd ((hact0 t).mp h) (by have := h5; omega)) (fun h => absurd ((hact1 t).mp h) (by have := h5; omega)) (fun h => absurd ((hact2 t).mp h) (by have := h5; omega)) (fun h => absurd ((hact3 t).mp h) (by have := h5; omega)) (fun h => absurd ((hact4 t).mp h) (by have := h5; omega)) ((hact5 t).mpr (by have := h5; omega)) ((hact6 t).mpr (by have := h5; omega)) ((hact7 t).mpr (by have := h5; omega)) (iblk1 V c 0 t) (iblk1 V c 1 t) (iblk1 V c 2 t) _).2.2 Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [R0 R1 R2 R3 R4 R5 R6 R7 R8 R9 R10 HS Hg]
    · isplitr [Hg]
      ·
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        unfold owns; iexists _; iexists _; isplitr
        swap; · iexact HS
        ipureintro; rfl
      iexact Hg
    isplitl [Ho]; · iexact Ho
    isplitl [H0]; · iexact H0
    isplitl [H1]; · iexact H1
    isplitl [H2]; · iexact H2
    unfold owns; iexists _; isplitr
    swap; · iexact H3
    ipureintro; rfl
  · rw [outsAt_6 V c t h6]
    simp only [before1_3_acc V c t (by omega : ¬t.val % 8 = 0)]
    unfold outAt_6 out_6
    iintro ⟨⟨⟨R0, R1, R2, R3, R4, R5, R6, R7, R8, R9, R10, HS⟩, Hg⟩, Ho, ⟨%d0, H0⟩, ⟨%d1, H1⟩, ⟨%d2, H2⟩, ⟨%d3, H3⟩⟩
    iapply ((run6 c (grid1.coords t) (ms0 t) (hs0 t) (ms1 t) (hs1 t) (ms2 t) (hs2 t) (ms3 t) (hs3 t) scM (Memref.isWhole_whole _) (fun h => absurd ((hinit t).mp h) (by have := h6; omega)) (fun h => absurd ((hact0 t).mp h) (by have := h6; omega)) (fun h => absurd ((hact1 t).mp h) (by have := h6; omega)) (fun h => absurd ((hact2 t).mp h) (by have := h6; omega)) (fun h => absurd ((hact3 t).mp h) (by have := h6; omega)) (fun h => absurd ((hact4 t).mp h) (by have := h6; omega)) (fun h => absurd ((hact5 t).mp h) (by have := h6; omega)) ((hact6 t).mpr (by have := h6; omega)) ((hact7 t).mpr (by have := h6; omega)) (iblk1 V c 0 t) (iblk1 V c 1 t) (iblk1 V c 2 t) _).2.2 Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [R0 R1 R2 R3 R4 R5 R6 R7 R8 R9 R10 HS Hg]
    · isplitr [Hg]
      ·
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        unfold owns; iexists _; iexists _; isplitr
        swap; · iexact HS
        ipureintro; rfl
      iexact Hg
    isplitl [Ho]; · iexact Ho
    isplitl [H0]; · iexact H0
    isplitl [H1]; · iexact H1
    isplitl [H2]; · iexact H2
    unfold owns; iexists _; isplitr
    swap; · iexact H3
    ipureintro; rfl
  · rw [outsAt_7 V c t h7]
    simp only [before1_3_acc V c t (by omega : ¬t.val % 8 = 0)]
    unfold outAt_7 out_7
    iintro ⟨⟨⟨R0, R1, R2, R3, R4, R5, R6, R7, R8, R9, R10, HS⟩, Hg⟩, Ho, ⟨%d0, H0⟩, ⟨%d1, H1⟩, ⟨%d2, H2⟩, ⟨%d3, H3⟩⟩
    iapply ((run7 c (grid1.coords t) (ms0 t) (hs0 t) (ms1 t) (hs1 t) (ms2 t) (hs2 t) (ms3 t) (hs3 t) scM (Memref.isWhole_whole _) (fun h => absurd ((hinit t).mp h) (by have := h7; omega)) (fun h => absurd ((hact0 t).mp h) (by have := h7; omega)) (fun h => absurd ((hact1 t).mp h) (by have := h7; omega)) (fun h => absurd ((hact2 t).mp h) (by have := h7; omega)) (fun h => absurd ((hact3 t).mp h) (by have := h7; omega)) (fun h => absurd ((hact4 t).mp h) (by have := h7; omega)) (fun h => absurd ((hact5 t).mp h) (by have := h7; omega)) (fun h => absurd ((hact6 t).mp h) (by have := h7; omega)) ((hact7 t).mpr (by have := h7; omega)) (iblk1 V c 0 t) (iblk1 V c 1 t) (iblk1 V c 2 t) _).2.2 Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [R0 R1 R2 R3 R4 R5 R6 R7 R8 R9 R10 HS Hg]
    · isplitr [Hg]
      ·
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        unfold owns; iexists _; iexists _; isplitr
        swap; · iexact HS
        ipureintro; rfl
      iexact Hg
    isplitl [Ho]; · iexact Ho
    isplitl [H0]; · iexact H0
    isplitl [H1]; · iexact H1
    isplitl [H2]; · iexact H2
    unfold owns; iexists _; isplitr
    swap; · iexact H3
    ipureintro; rfl

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.R1

end
-- ==== Proof.K.Run.lean ====
/-
  The whole run of the kernel's program: reshape and round the arguments, the projection region, three reshapes,
  the attention region.

  The contents of every unscoped buffer are followed from the launch through the four items: a stretch of host
  operations applies its operations; a region leaves each of its windows' arrays at what its write-backs make of
  it and every other buffer alone.  Every weakly fair execution terminates without a fault, and at the end each
  unscoped buffer holds the last of these contents.  No item writes an argument array, so the arguments end as
  launched; the result array ends at what the attention region's write-backs leave.
-/
import proofs.«157480_j6983616824221_2_alg».proof.Proof.K.R0Dat
import proofs.«157480_j6983616824221_2_alg».proof.Proof.K.R1Dat
import proofs.«157480_j6983616824221_2_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.R0 Cert.Kernel.R1

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch (the projection's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## No item writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at the contents of the boundary before it,
    left with them at the contents of the boundary after it.  Its windows' arrays are split out of the unscoped
    buffers on entry and put back, at what the write-backs leave, on exit; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents of the boundary before it,
    left with them at the contents of the boundary after it.  Its windows' arrays are split out of the unscoped
    buffers on entry and put back, at what the write-backs leave, on exit; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: every weakly fair execution of the program terminates, nothing faulting, and every final state holds
    each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Run

end
-- ==== Proof.KI.R0Body.lean ====
/-
  Region 0 (the q, k, v projection), the kernel body's run at one grid point.

  At a point the body is handed a 512-row block of the flattened input and the three weight matrices, and
  three 512-row output blocks at arbitrary contents.  It stores into each output block, whole, the product
  of the input block (rounded to bf16) with one weight matrix (rounded to bf16).  The body's loads of the
  output blocks before its stores read whatever was there and the values are not used.
-/
import proofs.«157480_j6983616824221_2_alg».proof.Proof.Gen.KernelIdeal.Launch
import proofs.«157480_j6983616824221_2_alg».proof.Proof.Gen.KernelIdeal.Skeleton
import proofs.«157480_j6983616824221_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The whole 512×1024 block and the whole 1024×1024 weight matrix, as the body addresses them. -/
abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0

/-- What the body leaves in the q, k and v output blocks: one whole-block store each. -/
def outQ (x : Vec F S512x1024 .f32) (w : Vec F S1024x1024 .bf16) : Vec F S512x1024 .bf16 :=
  View.canon [⟨rX, k0_pay2 (View.ld x rX) (View.ld w rW)⟩]
def outK (x : Vec F S512x1024 .f32) (w : Vec F S1024x1024 .bf16) : Vec F S512x1024 .bf16 :=
  View.canon [⟨rX, k0_pay3 (View.ld x rX) (View.ld w rW)⟩]
def outV (x : Vec F S512x1024 .f32) (w : Vec F S1024x1024 .bf16) : Vec F S512x1024 .bf16 :=
  View.canon [⟨rX, k0_pay4 (View.ld x rX) (View.ld w rW)⟩]

/-- One store of the whole block covers the block. -/
theorem cover1 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

set_option maxHeartbeats 2000000 in
/-- The body on whole staging buffers: inputs at given contents, outputs at anything; it ends with the inputs
    as they were and the three outputs at the three products. -/
theorem sound_kernel (c : Dev nD) (E : Set ℕ) (i : grid0.Coords)
    (arg1 : Memref sig .tc .vmem S512x1024 .f32) (harg1 : arg1.IsWhole)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .bf16) (harg7 : arg7.IsWhole)
    (x : Vec F S512x1024 .f32) (wq wk wv : Vec F S1024x1024 .bf16) (K : PUnit → sProp 𝕄) :
    iprop(owns (c : Thread nD τ) arg1 fullShare x ∗ owns (c : Thread nD τ) arg2 fullShare wq
        ∗ owns (c : Thread nD τ) arg3 fullShare wk ∗ owns (c : Thread nD τ) arg4 fullShare wv
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x ∗ owns (c : Thread nD τ) arg2 fullShare wq
            ∗ owns (c : Thread nD τ) arg3 fullShare wk ∗ owns (c : Thread nD τ) arg4 fullShare wv
            ∗ owns (c : Thread nD τ) arg5 fullShare (outQ x wq) ∗ owns (c : Thread nD τ) arg6 fullShare (outK x wk)
            ∗ owns (c : Thread nD τ) arg7 fullShare (outV x wv)) -∗ K ⟨⟩))
      ⊢ wp frame (wpE (defs₀ (F := F)) Variants.none c none) E
          (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1 _)
  isplitl [H6]
  · iexists _; isplitr
    swap; · iexact H6
    ipureintro
    exact View.read_writes_eq_canon _ _ _ (cover1 _)
  iexists _; isplitr
  swap; · iexact H7
  ipureintro
  exact View.read_writes_eq_canon _ _ _ (cover1 _)

end Cert.KernelIdeal.R0

end
-- ==== Proof.KI.R0Dat.lean ====
/-
  Region 0 (the q, k, v projection), over the whole grid of 32 points.

  Point t works on rows 512·t … 512·t+511 of the flattened input.  The input block is fetched at every point; the
  three weight matrices are fetched once and stay in place.  After the body each input buffer still holds its
  block, and the three output buffers hold the block's products with the three weights; every output block is
  written back at every point.
-/
import proofs.«157480_j6983616824221_2_alg».proof.Proof.KI.R0Body

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the contents of core c's buffers when the region is entered: a parameter here
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The proof data of the projection's pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outQ (iblk0 V c 0 t) (iblk0 V c 1 t)
    | ⟨5, _⟩ => outK (iblk0 V c 0 t) (iblk0 V c 2 t)
    | ⟨6, _⟩ => outV (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outQ (iblk0 V c 0 t) (iblk0 V c 1 t) := by dsimp only [dat0]
theorem after0_5 (c : Dev nD) (t : Fin cfg0.N) : (dat0 V c).after 5 t = outK (iblk0 V c 0 t) (iblk0 V c 2 t) := by dsimp only [dat0]
theorem after0_6 (c : Dev nD) (t : Fin cfg0.N) : (dat0 V c).after 6 t = outV (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' buffers hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.KI.R1Defs.lean ====
/-
  Region 1 (the attention), what its eight control cases share.

  A grid point is (b, jb): batch b, key block jb (256 keys).  The body branches only on jb: it zeroes the output
  block when jb = 0, and for each of the eight 256-row query chunks qc it computes scores and adds its
  contribution to the output exactly when 256·jb < 256·(qc+1), that is when qc ≥ jb.  So the value of jb fixes
  which branches are taken: eight cases.
-/
import proofs.«157480_j6983616824221_2_alg».proof.Proof.Gen.KernelIdeal.Launch
import proofs.«157480_j6983616824221_2_alg».proof.Proof.Gen.KernelIdeal.Skeleton
import proofs.«157480_j6983616824221_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's first branch: the key block is the first one (jb = 0). -/
abbrev init (i : grid1.Coords) : Prop :=
  Scalar.cmpi .ne (Scalar.extui (Scalar.cmpi .eq (BitVec.ofNat 32 (i 1).val) 0#32)) 0#32 = 1#1
/-- The branch of the query chunk that ends at row `n`: the key block starts before that row (256·jb < n). -/
abbrev act (i : grid1.Coords) (n : BitVec 32) : Prop :=
  Scalar.cmpi .ne (Scalar.extui (Scalar.cmpi .slt (Scalar.muli (BitVec.ofNat 32 (i 1).val) 256#32) n)) 0#32 = 1#1

/-- Decided over the 64 grid points: the point is (t / 8, t % 8). -/
theorem hinit : ∀ t : Fin cfg1.N, init (grid1.coords t) ↔ t.val % 8 = 0 :=
  (by decide +kernel : ∀ t : Fin grid1.N, init (grid1.coords t) ↔ t.val % 8 = 0)
theorem hact0 : ∀ t : Fin cfg1.N, act (grid1.coords t) 256#32 ↔ t.val % 8 < 1 :=
  (by decide +kernel : ∀ t : Fin grid1.N, act (grid1.coords t) 256#32 ↔ t.val % 8 < 1)
theorem hact1 : ∀ t : Fin cfg1.N, act (grid1.coords t) 512#32 ↔ t.val % 8 < 2 :=
  (by decide +kernel : ∀ t : Fin grid1.N, act (grid1.coords t) 512#32 ↔ t.val % 8 < 2)
theorem hact2 : ∀ t : Fin cfg1.N, act (grid1.coords t) 768#32 ↔ t.val % 8 < 3 :=
  (by decide +kernel : ∀ t : Fin grid1.N, act (grid1.coords t) 768#32 ↔ t.val % 8 < 3)
theorem hact3 : ∀ t : Fin cfg1.N, act (grid1.coords t) 1024#32 ↔ t.val % 8 < 4 :=
  (by decide +kernel : ∀ t : Fin grid1.N, act (grid1.coords t) 1024#32 ↔ t.val % 8 < 4)
theorem hact4 : ∀ t : Fin cfg1.N, act (grid1.coords t) 1280#32 ↔ t.val % 8 < 5 :=
  (by decide +kernel : ∀ t : Fin grid1.N, act (grid1.coords t) 1280#32 ↔ t.val % 8 < 5)
theorem hact5 : ∀ t : Fin cfg1.N, act (grid1.coords t) 1536#32 ↔ t.val % 8 < 6 :=
  (by decide +kernel : ∀ t : Fin grid1.N, act (grid1.coords t) 1536#32 ↔ t.val % 8 < 6)
theorem hact6 : ∀ t : Fin cfg1.N, act (grid1.coords t) 1792#32 ↔ t.val % 8 < 7 :=
  (by decide +kernel : ∀ t : Fin grid1.N, act (grid1.coords t) 1792#32 ↔ t.val % 8 < 7)
theorem hact7 : ∀ t : Fin cfg1.N, act (grid1.coords t) 2048#32 ↔ t.val % 8 < 8 :=
  (by decide +kernel : ∀ t : Fin grid1.N, act (grid1.coords t) 2048#32 ↔ t.val % 8 < 8)

/-- The grid has 64 points. -/
theorem N1 : cfg1.N = 64 := N_1

/-- Each window's current staging memref at point t, as the pipeline passes it, and its wholeness. -/
abbrev ms0 (t : Fin cfg1.N) : Memref sig .tc .vmem S1x2048x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x256x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x256x1024 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x2048x1024 .f32 := win1_3.stage (cfg1.slots t 3)
abbrev hs3 (t : Fin cfg1.N) : (ms3 t).IsWhole := hstage1_3 ((cfg1.slots t 3).cast nbuf1_3)
/-- The score scratch: a whole scoped buffer of the kernel's own. -/
abbrev scM : Memref sig .tc .vmem S2048x256 .f32 := Memref.whole cc1_scratch0

end Cert.KernelIdeal.R1

end
-- ==== Proof.KI.R1Run0.lean ====
/-
  Region 1, the body's run when the key block is jb = 0: the output block is zeroed, then every query chunk adds its contribution.
  The lists of stores the body ends with (into the output block and into the score scratch) are found by running
  the body, not written here.
-/
import proofs.«157480_j6983616824221_2_alg».proof.Proof.KI.R1Defs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def run0 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : init i) (ha0 : act i 256#32) (ha1 : act i 512#32) (ha2 : act i 768#32) (ha3 : act i 1024#32) (ha4 : act i 1280#32) (ha5 : act i 1536#32) (ha6 : act i 1792#32) (ha7 : act i 2048#32)
    (xq : Vec F S1x2048x1024 .bf16) (xk xv : Vec F S1x256x1024 .bf16) :
    Σ' (LO : List (View.Piece (Elt F) S1x2048x1024 .f32)), { LS : List (View.Piece (Elt F) S2048x256 .f32) //
      ∀ (E : Set ℕ) (K : PUnit → sProp 𝕄),
        iprop(owns (c : Thread nD τ) arg2 fullShare xq ∗ owns (c : Thread nD τ) arg3 fullShare xk ∗ owns (c : Thread nD τ) arg4 fullShare xv
            ∗ (∃ d, owns (c : Thread nD τ) arg5 fullShare d) ∗ (∃ d, owns (c : Thread nD τ) arg6 fullShare d)
            ∗ (iprop(owns (c : Thread nD τ) arg2 fullShare xq ∗ owns (c : Thread nD τ) arg3 fullShare xk ∗ owns (c : Thread nD τ) arg4 fullShare xv
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    unfold owns
    iintro ⟨⟨%f2, %hf2, H2⟩, ⟨%f3, %hf3, H3⟩, ⟨%f4, %hf4, H4⟩, ⟨%d5, %f5, -, H5⟩, ⟨%d6, %f6, -, H6⟩, Hk⟩
    obtain rfl := harg2.eq_unread hf2; obtain rfl := harg3.eq_unread hf3; obtain rfl := harg4.eq_unread hf4
    sl_exec (disch := first | exact hz | exact ha0 | exact ha1 | exact ha2 | exact ha3 | exact ha4 | exact ha5 | exact ha6 | exact ha7)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    iexists _; iexact H6

end Cert.KernelIdeal.R1

end
-- ==== Proof.KI.R1Run1.lean ====
/-
  Region 1, the body's run when the key block is jb = 1: the output block is not zeroed; the query chunks 1 … 7 add their contribution; chunks 0 … 0 are left as found.
  The lists of stores the body ends with (into the output block and into the score scratch) are found by running
  the body, not written here.
-/
import proofs.«157480_j6983616824221_2_alg».proof.Proof.KI.R1Defs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def run1 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : act i 512#32) (ha2 : act i 768#32) (ha3 : act i 1024#32) (ha4 : act i 1280#32) (ha5 : act i 1536#32) (ha6 : act i 1792#32) (ha7 : act i 2048#32)
    (xq : Vec F S1x2048x1024 .bf16) (xk xv : Vec F S1x256x1024 .bf16) (xo : Vec F S1x2048x1024 .f32) :
    Σ' (LO : List (View.Piece (Elt F) S1x2048x1024 .f32)), { LS : List (View.Piece (Elt F) S2048x256 .f32) //
      ∀ (E : Set ℕ) (K : PUnit → sProp 𝕄),
        iprop(owns (c : Thread nD τ) arg2 fullShare xq ∗ owns (c : Thread nD τ) arg3 fullShare xk ∗ owns (c : Thread nD τ) arg4 fullShare xv
            ∗ owns (c : Thread nD τ) arg5 fullShare xo ∗ (∃ d, owns (c : Thread nD τ) arg6 fullShare d)
            ∗ (iprop(owns (c : Thread nD τ) arg2 fullShare xq ∗ owns (c : Thread nD τ) arg3 fullShare xk ∗ owns (c : Thread nD τ) arg4 fullShare xv
                ∗ (arg5.view.loc (c : Thread nD τ) ↦[arg5.view.set]{fullShare} arg5.view.writes (Elt F) (harg5.unread xo) LO)
                ∗ (∃ f, arg6.view.loc (c : Thread nD τ) ↦[arg6.view.set]{fullShare} arg6.view.writes (Elt F) f LS)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    unfold owns
    iintro ⟨⟨%f2, %hf2, H2⟩, ⟨%f3, %hf3, H3⟩, ⟨%f4, %hf4, H4⟩, ⟨%f5, %hf5, H5⟩, ⟨%d6, %f6, -, H6⟩, Hk⟩
    obtain rfl := harg2.eq_unread hf2; obtain rfl := harg3.eq_unread hf3; obtain rfl := harg4.eq_unread hf4; obtain rfl := harg5.eq_unread hf5
    sl_exec (disch := first | exact hz | exact ha0 | exact ha1 | exact ha2 | exact ha3 | exact ha4 | exact ha5 | exact ha6 | exact ha7)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexact H5
    iexists _; iexact H6

end Cert.KernelIdeal.R1

end
-- ==== Proof.KI.R1Run2.lean ====
/-
  Region 1, the body's run when the key block is jb = 2: the output block is not zeroed; the query chunks 2 … 7 add their contribution; chunks 0 … 1 are left as found.
  The lists of stores the body ends with (into the output block and into the score scratch) are found by running
  the body, not written here.
-/
import proofs.«157480_j6983616824221_2_alg».proof.Proof.KI.R1Defs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def run2 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : ¬act i 512#32) (ha2 : act i 768#32) (ha3 : act i 1024#32) (ha4 : act i 1280#32) (ha5 : act i 1536#32) (ha6 : act i 1792#32) (ha7 : act i 2048#32)
    (xq : Vec F S1x2048x1024 .bf16) (xk xv : Vec F S1x256x1024 .bf16) (xo : Vec F S1x2048x1024 .f32) :
    Σ' (LO : List (View.Piece (Elt F) S1x2048x1024 .f32)), { LS : List (View.Piece (Elt F) S2048x256 .f32) //
      ∀ (E : Set ℕ) (K : PUnit → sProp 𝕄),
        iprop(owns (c : Thread nD τ) arg2 fullShare xq ∗ owns (c : Thread nD τ) arg3 fullShare xk ∗ owns (c : Thread nD τ) arg4 fullShare xv
            ∗ owns (c : Thread nD τ) arg5 fullShare xo ∗ (∃ d, owns (c : Thread nD τ) arg6 fullShare d)
            ∗ (iprop(owns (c : Thread nD τ) arg2 fullShare xq ∗ owns (c : Thread nD τ) arg3 fullShare xk ∗ owns (c : Thread nD τ) arg4 fullShare xv
                ∗ (arg5.view.loc (c : Thread nD τ) ↦[arg5.view.set]{fullShare} arg5.view.writes (Elt F) (harg5.unread xo) LO)
                ∗ (∃ f, arg6.view.loc (c : Thread nD τ) ↦[arg6.view.set]{fullShare} arg6.view.writes (Elt F) f LS)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    unfold owns
    iintro ⟨⟨%f2, %hf2, H2⟩, ⟨%f3, %hf3, H3⟩, ⟨%f4, %hf4, H4⟩, ⟨%f5, %hf5, H5⟩, ⟨%d6, %f6, -, H6⟩, Hk⟩
    obtain rfl := harg2.eq_unread hf2; obtain rfl := harg3.eq_unread hf3; obtain rfl := harg4.eq_unread hf4; obtain rfl := harg5.eq_unread hf5
    sl_exec (disch := first | exact hz | exact ha0 | exact ha1 | exact ha2 | exact ha3 | exact ha4 | exact ha5 | exact ha6 | exact ha7)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexact H5
    iexists _; iexact H6

end Cert.KernelIdeal.R1

end
-- ==== Proof.KI.R1Run3.lean ====
/-
  Region 1, the body's run when the key block is jb = 3: the output block is not zeroed; the query chunks 3 … 7 add their contribution; chunks 0 … 2 are left as found.
  The lists of stores the body ends with (into the output block and into the score scratch) are found by running
  the body, not written here.
-/
import proofs.«157480_j6983616824221_2_alg».proof.Proof.KI.R1Defs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def run3 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : ¬act i 512#32) (ha2 : ¬act i 768#32) (ha3 : act i 1024#32) (ha4 : act i 1280#32) (ha5 : act i 1536#32) (ha6 : act i 1792#32) (ha7 : act i 2048#32)
    (xq : Vec F S1x2048x1024 .bf16) (xk xv : Vec F S1x256x1024 .bf16) (xo : Vec F S1x2048x1024 .f32) :
    Σ' (LO : List (View.Piece (Elt F) S1x2048x1024 .f32)), { LS : List (View.Piece (Elt F) S2048x256 .f32) //
      ∀ (E : Set ℕ) (K : PUnit → sProp 𝕄),
        iprop(owns (c : Thread nD τ) arg2 fullShare xq ∗ owns (c : Thread nD τ) arg3 fullShare xk ∗ owns (c : Thread nD τ) arg4 fullShare xv
            ∗ owns (c : Thread nD τ) arg5 fullShare xo ∗ (∃ d, owns (c : Thread nD τ) arg6 fullShare d)
            ∗ (iprop(owns (c : Thread nD τ) arg2 fullShare xq ∗ owns (c : Thread nD τ) arg3 fullShare xk ∗ owns (c : Thread nD τ) arg4 fullShare xv
                ∗ (arg5.view.loc (c : Thread nD τ) ↦[arg5.view.set]{fullShare} arg5.view.writes (Elt F) (harg5.unread xo) LO)
                ∗ (∃ f, arg6.view.loc (c : Thread nD τ) ↦[arg6.view.set]{fullShare} arg6.view.writes (Elt F) f LS)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    unfold owns
    iintro ⟨⟨%f2, %hf2, H2⟩, ⟨%f3, %hf3, H3⟩, ⟨%f4, %hf4, H4⟩, ⟨%f5, %hf5, H5⟩, ⟨%d6, %f6, -, H6⟩, Hk⟩
    obtain rfl := harg2.eq_unread hf2; obtain rfl := harg3.eq_unread hf3; obtain rfl := harg4.eq_unread hf4; obtain rfl := harg5.eq_unread hf5
    sl_exec (disch := first | exact hz | exact ha0 | exact ha1 | exact ha2 | exact ha3 | exact ha4 | exact ha5 | exact ha6 | exact ha7)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexact H5
    iexists _; iexact H6

end Cert.KernelIdeal.R1

end
-- ==== Proof.KI.R1Run4.lean ====
/-
  Region 1, the body's run when the key block is jb = 4: the output block is not zeroed; the query chunks 4 … 7 add their contribution; chunks 0 … 3 are left as found.
  The lists of stores the body ends with (into the output block and into the score scratch) are found by running
  the body, not written here.
-/
import proofs.«157480_j6983616824221_2_alg».proof.Proof.KI.R1Defs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def run4 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : ¬act i 512#32) (ha2 : ¬act i 768#32) (ha3 : ¬act i 1024#32) (ha4 : act i 1280#32) (ha5 : act i 1536#32) (ha6 : act i 1792#32) (ha7 : act i 2048#32)
    (xq : Vec F S1x2048x1024 .bf16) (xk xv : Vec F S1x256x1024 .bf16) (xo : Vec F S1x2048x1024 .f32) :
    Σ' (LO : List (View.Piece (Elt F) S1x2048x1024 .f32)), { LS : List (View.Piece (Elt F) S2048x256 .f32) //
      ∀ (E : Set ℕ) (K : PUnit → sProp 𝕄),
        iprop(owns (c : Thread nD τ) arg2 fullShare xq ∗ owns (c : Thread nD τ) arg3 fullShare xk ∗ owns (c : Thread nD τ) arg4 fullShare xv
            ∗ owns (c : Thread nD τ) arg5 fullShare xo ∗ (∃ d, owns (c : Thread nD τ) arg6 fullShare d)
            ∗ (iprop(owns (c : Thread nD τ) arg2 fullShare xq ∗ owns (c : Thread nD τ) arg3 fullShare xk ∗ owns (c : Thread nD τ) arg4 fullShare xv
                ∗ (arg5.view.loc (c : Thread nD τ) ↦[arg5.view.set]{fullShare} arg5.view.writes (Elt F) (harg5.unread xo) LO)
                ∗ (∃ f, arg6.view.loc (c : Thread nD τ) ↦[arg6.view.set]{fullShare} arg6.view.writes (Elt F) f LS)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    unfold owns
    iintro ⟨⟨%f2, %hf2, H2⟩, ⟨%f3, %hf3, H3⟩, ⟨%f4, %hf4, H4⟩, ⟨%f5, %hf5, H5⟩, ⟨%d6, %f6, -, H6⟩, Hk⟩
    obtain rfl := harg2.eq_unread hf2; obtain rfl := harg3.eq_unread hf3; obtain rfl := harg4.eq_unread hf4; obtain rfl := harg5.eq_unread hf5
    sl_exec (disch := first | exact hz | exact ha0 | exact ha1 | exact ha2 | exact ha3 | exact ha4 | exact ha5 | exact ha6 | exact ha7)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexact H5
    iexists _; iexact H6

end Cert.KernelIdeal.R1

end
-- ==== Proof.KI.R1Run5.lean ====
/-
  Region 1, the body's run when the key block is jb = 5: the output block is not zeroed; the query chunks 5 … 7 add their contribution; chunks 0 … 4 are left as found.
  The lists of stores the body ends with (into the output block and into the score scratch) are found by running
  the body, not written here.
-/
import proofs.«157480_j6983616824221_2_alg».proof.Proof.KI.R1Defs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def run5 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : ¬act i 512#32) (ha2 : ¬act i 768#32) (ha3 : ¬act i 1024#32) (ha4 : ¬act i 1280#32) (ha5 : act i 1536#32) (ha6 : act i 1792#32) (ha7 : act i 2048#32)
    (xq : Vec F S1x2048x1024 .bf16) (xk xv : Vec F S1x256x1024 .bf16) (xo : Vec F S1x2048x1024 .f32) :
    Σ' (LO : List (View.Piece (Elt F) S1x2048x1024 .f32)), { LS : List (View.Piece (Elt F) S2048x256 .f32) //
      ∀ (E : Set ℕ) (K : PUnit → sProp 𝕄),
        iprop(owns (c : Thread nD τ) arg2 fullShare xq ∗ owns (c : Thread nD τ) arg3 fullShare xk ∗ owns (c : Thread nD τ) arg4 fullShare xv
            ∗ owns (c : Thread nD τ) arg5 fullShare xo ∗ (∃ d, owns (c : Thread nD τ) arg6 fullShare d)
            ∗ (iprop(owns (c : Thread nD τ) arg2 fullShare xq ∗ owns (c : Thread nD τ) arg3 fullShare xk ∗ owns (c : Thread nD τ) arg4 fullShare xv
                ∗ (arg5.view.loc (c : Thread nD τ) ↦[arg5.view.set]{fullShare} arg5.view.writes (Elt F) (harg5.unread xo) LO)
                ∗ (∃ f, arg6.view.loc (c : Thread nD τ) ↦[arg6.view.set]{fullShare} arg6.view.writes (Elt F) f LS)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    unfold owns
    iintro ⟨⟨%f2, %hf2, H2⟩, ⟨%f3, %hf3, H3⟩, ⟨%f4, %hf4, H4⟩, ⟨%f5, %hf5, H5⟩, ⟨%d6, %f6, -, H6⟩, Hk⟩
    obtain rfl := harg2.eq_unread hf2; obtain rfl := harg3.eq_unread hf3; obtain rfl := harg4.eq_unread hf4; obtain rfl := harg5.eq_unread hf5
    sl_exec (disch := first | exact hz | exact ha0 | exact ha1 | exact ha2 | exact ha3 | exact ha4 | exact ha5 | exact ha6 | exact ha7)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexact H5
    iexists _; iexact H6

end Cert.KernelIdeal.R1

end
-- ==== Proof.KI.R1Run6.lean ====
/-
  Region 1, the body's run when the key block is jb = 6: the output block is not zeroed; the query chunks 6 … 7 add their contribution; chunks 0 … 5 are left as found.
  The lists of stores the body ends with (into the output block and into the score scratch) are found by running
  the body, not written here.
-/
import proofs.«157480_j6983616824221_2_alg».proof.Proof.KI.R1Defs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def run6 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : ¬act i 512#32) (ha2 : ¬act i 768#32) (ha3 : ¬act i 1024#32) (ha4 : ¬act i 1280#32) (ha5 : ¬act i 1536#32) (ha6 : act i 1792#32) (ha7 : act i 2048#32)
    (xq : Vec F S1x2048x1024 .bf16) (xk xv : Vec F S1x256x1024 .bf16) (xo : Vec F S1x2048x1024 .f32) :
    Σ' (LO : List (View.Piece (Elt F) S1x2048x1024 .f32)), { LS : List (View.Piece (Elt F) S2048x256 .f32) //
      ∀ (E : Set ℕ) (K : PUnit → sProp 𝕄),
        iprop(owns (c : Thread nD τ) arg2 fullShare xq ∗ owns (c : Thread nD τ) arg3 fullShare xk ∗ owns (c : Thread nD τ) arg4 fullShare xv
            ∗ owns (c : Thread nD τ) arg5 fullShare xo ∗ (∃ d, owns (c : Thread nD τ) arg6 fullShare d)
            ∗ (iprop(owns (c : Thread nD τ) arg2 fullShare xq ∗ owns (c : Thread nD τ) arg3 fullShare xk ∗ owns (c : Thread nD τ) arg4 fullShare xv
                ∗ (arg5.view.loc (c : Thread nD τ) ↦[arg5.view.set]{fullShare} arg5.view.writes (Elt F) (harg5.unread xo) LO)
                ∗ (∃ f, arg6.view.loc (c : Thread nD τ) ↦[arg6.view.set]{fullShare} arg6.view.writes (Elt F) f LS)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    unfold owns
    iintro ⟨⟨%f2, %hf2, H2⟩, ⟨%f3, %hf3, H3⟩, ⟨%f4, %hf4, H4⟩, ⟨%f5, %hf5, H5⟩, ⟨%d6, %f6, -, H6⟩, Hk⟩
    obtain rfl := harg2.eq_unread hf2; obtain rfl := harg3.eq_unread hf3; obtain rfl := harg4.eq_unread hf4; obtain rfl := harg5.eq_unread hf5
    sl_exec (disch := first | exact hz | exact ha0 | exact ha1 | exact ha2 | exact ha3 | exact ha4 | exact ha5 | exact ha6 | exact ha7)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexact H5
    iexists _; iexact H6

end Cert.KernelIdeal.R1

end
-- ==== Proof.KI.R1Run7.lean ====
/-
  Region 1, the body's run when the key block is jb = 7: the output block is not zeroed; the query chunks 7 … 7 add their contribution; chunks 0 … 6 are left as found.
  The lists of stores the body ends with (into the output block and into the score scratch) are found by running
  the body, not written here.
-/
import proofs.«157480_j6983616824221_2_alg».proof.Proof.KI.R1Defs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def run7 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : ¬act i 512#32) (ha2 : ¬act i 768#32) (ha3 : ¬act i 1024#32) (ha4 : ¬act i 1280#32) (ha5 : ¬act i 1536#32) (ha6 : ¬act i 1792#32) (ha7 : act i 2048#32)
    (xq : Vec F S1x2048x1024 .bf16) (xk xv : Vec F S1x256x1024 .bf16) (xo : Vec F S1x2048x1024 .f32) :
    Σ' (LO : List (View.Piece (Elt F) S1x2048x1024 .f32)), { LS : List (View.Piece (Elt F) S2048x256 .f32) //
      ∀ (E : Set ℕ) (K : PUnit → sProp 𝕄),
        iprop(owns (c : Thread nD τ) arg2 fullShare xq ∗ owns (c : Thread nD τ) arg3 fullShare xk ∗ owns (c : Thread nD τ) arg4 fullShare xv
            ∗ owns (c : Thread nD τ) arg5 fullShare xo ∗ (∃ d, owns (c : Thread nD τ) arg6 fullShare d)
            ∗ (iprop(owns (c : Thread nD τ) arg2 fullShare xq ∗ owns (c : Thread nD τ) arg3 fullShare xk ∗ owns (c : Thread nD τ) arg4 fullShare xv
                ∗ (arg5.view.loc (c : Thread nD τ) ↦[arg5.view.set]{fullShare} arg5.view.writes (Elt F) (harg5.unread xo) LO)
                ∗ (∃ f, arg6.view.loc (c : Thread nD τ) ↦[arg6.view.set]{fullShare} arg6.view.writes (Elt F) f LS)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    unfold owns
    iintro ⟨⟨%f2, %hf2, H2⟩, ⟨%f3, %hf3, H3⟩, ⟨%f4, %hf4, H4⟩, ⟨%f5, %hf5, H5⟩, ⟨%d6, %f6, -, H6⟩, Hk⟩
    obtain rfl := harg2.eq_unread hf2; obtain rfl := harg3.eq_unread hf3; obtain rfl := harg4.eq_unread hf4; obtain rfl := harg5.eq_unread hf5
    sl_exec (disch := first | exact hz | exact ha0 | exact ha1 | exact ha2 | exact ha3 | exact ha4 | exact ha5 | exact ha6 | exact ha7)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexact H5
    iexists _; iexact H6

end Cert.KernelIdeal.R1

end
-- ==== Proof.KI.R1Dat.lean ====
/-
  Region 1 (the attention), over its whole grid of 64 points (b, jb), t = 8·b + jb.

  The query block of batch b is fetched when jb = 0 and stays; the key and value blocks of (b, jb) are fetched at
  every point.  The output block of batch b stays in its staging buffer over the eight key blocks and is written
  back after the last (jb = 7): at jb = 0 the body overwrites it whole, at jb > 0 it finds what the previous point
  left and adds to the chunks qc ≥ jb.  So what the output buffer holds after point t is defined by recursion on t.
  The score scratch is one of the core's scoped buffers; the body refills it before it reads it, so the region's
  invariant keeps it at unspecified contents.
-/
import proofs.«157480_j6983616824221_2_alg».proof.Proof.KI.R1Run0
import proofs.«157480_j6983616824221_2_alg».proof.Proof.KI.R1Run1
import proofs.«157480_j6983616824221_2_alg».proof.Proof.KI.R1Run2
import proofs.«157480_j6983616824221_2_alg».proof.Proof.KI.R1Run3
import proofs.«157480_j6983616824221_2_alg».proof.Proof.KI.R1Run4
import proofs.«157480_j6983616824221_2_alg».proof.Proof.KI.R1Run5
import proofs.«157480_j6983616824221_2_alg».proof.Proof.KI.R1Run6
import proofs.«157480_j6983616824221_2_alg».proof.Proof.KI.R1Run7

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- No window is ever idle: the last chunk's branch is taken at every point, so the body always stores into the output. -/
theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
theorem live3' : ∀ i : grid1.Coords, cfg1.idle 3 i = false := by decide +kernel

/-- One staging buffer of the output window, through which the contents after a covering case are stated. -/
abbrev VO : View sig .tc .vmem S1x2048x1024 .f32 := (Memref.whole cc1_stg3_0 : Memref sig .tc .vmem S1x2048x1024 .f32).view

/-- At jb = 0 the body's first store into the output is the whole block, so its stores cover the block. -/
theorem cover_0 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : init i) (ha0 : act i 256#32) (ha1 : act i 512#32) (ha2 : act i 768#32) (ha3 : act i 1024#32) (ha4 : act i 1280#32) (ha5 : act i 1536#32) (ha6 : act i 1792#32) (ha7 : act i 2048#32)
    (xq : Vec F S1x2048x1024 .bf16) (xk xv : Vec F S1x256x1024 .bf16) (y : S1x2048x1024.Idx) :
    ∃ pc ∈ (run0 c i arg2 harg2 arg3 harg3 arg4 harg4 arg5 harg5 arg6 harg6 hz ha0 ha1 ha2 ha3 ha4 ha5 ha6 ha7 xq xk xv).1, y ∈ pc.1.set :=
  View.cover_of_wholeMem (run0 c i arg2 harg2 arg3 harg3 arg4 harg4 arg5 harg5 arg6 harg6 hz ha0 ha1 ha2 ha3 ha4 ha5 ha6 ha7 xq xk xv).1 (by sl_whole_mem) y

/-- What the output buffer holds after the body at jb = 0: its stores read back. -/
def out_0 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : init i) (ha0 : act i 256#32) (ha1 : act i 512#32) (ha2 : act i 768#32) (ha3 : act i 1024#32) (ha4 : act i 1280#32) (ha5 : act i 1536#32) (ha6 : act i 1792#32) (ha7 : act i 2048#32)
    (xq : Vec F S1x2048x1024 .bf16) (xk xv : Vec F S1x256x1024 .bf16) : Vec F S1x2048x1024 .f32 :=
  VO.read (Elt F) (VO.writes (Elt F) VO.junk (run0 c i arg2 harg2 arg3 harg3 arg4 harg4 arg5 harg5 arg6 harg6 hz ha0 ha1 ha2 ha3 ha4 ha5 ha6 ha7 xq xk xv).1)

/-- What the output buffer holds after the body at jb = 1: its stores over what it found. -/
def out_1 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : act i 512#32) (ha2 : act i 768#32) (ha3 : act i 1024#32) (ha4 : act i 1280#32) (ha5 : act i 1536#32) (ha6 : act i 1792#32) (ha7 : act i 2048#32)
    (xq : Vec F S1x2048x1024 .bf16) (xk xv : Vec F S1x256x1024 .bf16) (xo : Vec F S1x2048x1024 .f32) : Vec F S1x2048x1024 .f32 :=
  arg5.view.read (Elt F) (arg5.view.writes (Elt F) (harg5.unread xo) (run1 c i arg2 harg2 arg3 harg3 arg4 harg4 arg5 harg5 arg6 harg6 hz ha0 ha1 ha2 ha3 ha4 ha5 ha6 ha7 xq xk xv xo).1)

/-- What the output buffer holds after the body at jb = 2: its stores over what it found. -/
def out_2 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : ¬act i 512#32) (ha2 : act i 768#32) (ha3 : act i 1024#32) (ha4 : act i 1280#32) (ha5 : act i 1536#32) (ha6 : act i 1792#32) (ha7 : act i 2048#32)
    (xq : Vec F S1x2048x1024 .bf16) (xk xv : Vec F S1x256x1024 .bf16) (xo : Vec F S1x2048x1024 .f32) : Vec F S1x2048x1024 .f32 :=
  arg5.view.read (Elt F) (arg5.view.writes (Elt F) (harg5.unread xo) (run2 c i arg2 harg2 arg3 harg3 arg4 harg4 arg5 harg5 arg6 harg6 hz ha0 ha1 ha2 ha3 ha4 ha5 ha6 ha7 xq xk xv xo).1)

/-- What the output buffer holds after the body at jb = 3: its stores over what it found. -/
def out_3 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : ¬act i 512#32) (ha2 : ¬act i 768#32) (ha3 : act i 1024#32) (ha4 : act i 1280#32) (ha5 : act i 1536#32) (ha6 : act i 1792#32) (ha7 : act i 2048#32)
    (xq : Vec F S1x2048x1024 .bf16) (xk xv : Vec F S1x256x1024 .bf16) (xo : Vec F S1x2048x1024 .f32) : Vec F S1x2048x1024 .f32 :=
  arg5.view.read (Elt F) (arg5.view.writes (Elt F) (harg5.unread xo) (run3 c i arg2 harg2 arg3 harg3 arg4 harg4 arg5 harg5 arg6 harg6 hz ha0 ha1 ha2 ha3 ha4 ha5 ha6 ha7 xq xk xv xo).1)

/-- What the output buffer holds after the body at jb = 4: its stores over what it found. -/
def out_4 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : ¬act i 512#32) (ha2 : ¬act i 768#32) (ha3 : ¬act i 1024#32) (ha4 : act i 1280#32) (ha5 : act i 1536#32) (ha6 : act i 1792#32) (ha7 : act i 2048#32)
    (xq : Vec F S1x2048x1024 .bf16) (xk xv : Vec F S1x256x1024 .bf16) (xo : Vec F S1x2048x1024 .f32) : Vec F S1x2048x1024 .f32 :=
  arg5.view.read (Elt F) (arg5.view.writes (Elt F) (harg5.unread xo) (run4 c i arg2 harg2 arg3 harg3 arg4 harg4 arg5 harg5 arg6 harg6 hz ha0 ha1 ha2 ha3 ha4 ha5 ha6 ha7 xq xk xv xo).1)

/-- What the output buffer holds after the body at jb = 5: its stores over what it found. -/
def out_5 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : ¬act i 512#32) (ha2 : ¬act i 768#32) (ha3 : ¬act i 1024#32) (ha4 : ¬act i 1280#32) (ha5 : act i 1536#32) (ha6 : act i 1792#32) (ha7 : act i 2048#32)
    (xq : Vec F S1x2048x1024 .bf16) (xk xv : Vec F S1x256x1024 .bf16) (xo : Vec F S1x2048x1024 .f32) : Vec F S1x2048x1024 .f32 :=
  arg5.view.read (Elt F) (arg5.view.writes (Elt F) (harg5.unread xo) (run5 c i arg2 harg2 arg3 harg3 arg4 harg4 arg5 harg5 arg6 harg6 hz ha0 ha1 ha2 ha3 ha4 ha5 ha6 ha7 xq xk xv xo).1)

/-- What the output buffer holds after the body at jb = 6: its stores over what it found. -/
def out_6 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : ¬act i 512#32) (ha2 : ¬act i 768#32) (ha3 : ¬act i 1024#32) (ha4 : ¬act i 1280#32) (ha5 : ¬act i 1536#32) (ha6 : act i 1792#32) (ha7 : act i 2048#32)
    (xq : Vec F S1x2048x1024 .bf16) (xk xv : Vec F S1x256x1024 .bf16) (xo : Vec F S1x2048x1024 .f32) : Vec F S1x2048x1024 .f32 :=
  arg5.view.read (Elt F) (arg5.view.writes (Elt F) (harg5.unread xo) (run6 c i arg2 harg2 arg3 harg3 arg4 harg4 arg5 harg5 arg6 harg6 hz ha0 ha1 ha2 ha3 ha4 ha5 ha6 ha7 xq xk xv xo).1)

/-- What the output buffer holds after the body at jb = 7: its stores over what it found. -/
def out_7 (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : ¬act i 512#32) (ha2 : ¬act i 768#32) (ha3 : ¬act i 1024#32) (ha4 : ¬act i 1280#32) (ha5 : ¬act i 1536#32) (ha6 : ¬act i 1792#32) (ha7 : act i 2048#32)
    (xq : Vec F S1x2048x1024 .bf16) (xk xv : Vec F S1x256x1024 .bf16) (xo : Vec F S1x2048x1024 .f32) : Vec F S1x2048x1024 .f32 :=
  arg5.view.read (Elt F) (arg5.view.writes (Elt F) (harg5.unread xo) (run7 c i arg2 harg2 arg3 harg3 arg4 harg4 arg5 harg5 arg6 harg6 hz ha0 ha1 ha2 ha3 ha4 ha5 ha6 ha7 xq xk xv xo).1)

/-! ## The cases at a grid point -/

def outAt_0 (c : Dev nD) (t : Fin cfg1.N) (hk : t.val % 8 = 0) : Vec F S1x2048x1024 .f32 :=
  out_0 c (grid1.coords t) (ms0 t) (hs0 t) (ms1 t) (hs1 t) (ms2 t) (hs2 t) (ms3 t) (hs3 t) scM (Memref.isWhole_whole _) ((hinit t).mpr hk) ((hact0 t).mpr (by have := hk; omega)) ((hact1 t).mpr (by have := hk; omega)) ((hact2 t).mpr (by have := hk; omega)) ((hact3 t).mpr (by have := hk; omega)) ((hact4 t).mpr (by have := hk; omega)) ((hact5 t).mpr (by have := hk; omega)) ((hact6 t).mpr (by have := hk; omega)) ((hact7 t).mpr (by have := hk; omega)) (iblk1 V c 0 t) (iblk1 V c 1 t) (iblk1 V c 2 t)

def outAt_1 (c : Dev nD) (t : Fin cfg1.N) (hk : t.val % 8 = 1) (xo : Vec F S1x2048x1024 .f32) : Vec F S1x2048x1024 .f32 :=
  out_1 c (grid1.coords t) (ms0 t) (hs0 t) (ms1 t) (hs1 t) (ms2 t) (hs2 t) (ms3 t) (hs3 t) scM (Memref.isWhole_whole _) (fun h => absurd ((hinit t).mp h) (by have := hk; omega)) (fun h => absurd ((hact0 t).mp h) (by have := hk; omega)) ((hact1 t).mpr (by have := hk; omega)) ((hact2 t).mpr (by have := hk; omega)) ((hact3 t).mpr (by have := hk; omega)) ((hact4 t).mpr (by have := hk; omega)) ((hact5 t).mpr (by have := hk; omega)) ((hact6 t).mpr (by have := hk; omega)) ((hact7 t).mpr (by have := hk; omega)) (iblk1 V c 0 t) (iblk1 V c 1 t) (iblk1 V c 2 t) xo

def outAt_2 (c : Dev nD) (t : Fin cfg1.N) (hk : t.val % 8 = 2) (xo : Vec F S1x2048x1024 .f32) : Vec F S1x2048x1024 .f32 :=
  out_2 c (grid1.coords t) (ms0 t) (hs0 t) (ms1 t) (hs1 t) (ms2 t) (hs2 t) (ms3 t) (hs3 t) scM (Memref.isWhole_whole _) (fun h => absurd ((hinit t).mp h) (by have := hk; omega)) (fun h => absurd ((hact0 t).mp h) (by have := hk; omega)) (fun h => absurd ((hact1 t).mp h) (by have := hk; omega)) ((hact2 t).mpr (by have := hk; omega)) ((hact3 t).mpr (by have := hk; omega)) ((hact4 t).mpr (by have := hk; omega)) ((hact5 t).mpr (by have := hk; omega)) ((hact6 t).mpr (by have := hk; omega)) ((hact7 t).mpr (by have := hk; omega)) (iblk1 V c 0 t) (iblk1 V c 1 t) (iblk1 V c 2 t) xo

def outAt_3 (c : Dev nD) (t : Fin cfg1.N) (hk : t.val % 8 = 3) (xo : Vec F S1x2048x1024 .f32) : Vec F S1x2048x1024 .f32 :=
  out_3 c (grid1.coords t) (ms0 t) (hs0 t) (ms1 t) (hs1 t) (ms2 t) (hs2 t) (ms3 t) (hs3 t) scM (Memref.isWhole_whole _) (fun h => absurd ((hinit t).mp h) (by have := hk; omega)) (fun h => absurd ((hact0 t).mp h) (by have := hk; omega)) (fun h => absurd ((hact1 t).mp h) (by have := hk; omega)) (fun h => absurd ((hact2 t).mp h) (by have := hk; omega)) ((hact3 t).mpr (by have := hk; omega)) ((hact4 t).mpr (by have := hk; omega)) ((hact5 t).mpr (by have := hk; omega)) ((hact6 t).mpr (by have := hk; omega)) ((hact7 t).mpr (by have := hk; omega)) (iblk1 V c 0 t) (iblk1 V c 1 t) (iblk1 V c 2 t) xo

def outAt_4 (c : Dev nD) (t : Fin cfg1.N) (hk : t.val % 8 = 4) (xo : Vec F S1x2048x1024 .f32) : Vec F S1x2048x1024 .f32 :=
  out_4 c (grid1.coords t) (ms0 t) (hs0 t) (ms1 t) (hs1 t) (ms2 t) (hs2 t) (ms3 t) (hs3 t) scM (Memref.isWhole_whole _) (fun h => absurd ((hinit t).mp h) (by have := hk; omega)) (fun h => absurd ((hact0 t).mp h) (by have := hk; omega)) (fun h => absurd ((hact1 t).mp h) (by have := hk; omega)) (fun h => absurd ((hact2 t).mp h) (by have := hk; omega)) (fun h => absurd ((hact3 t).mp h) (by have := hk; omega)) ((hact4 t).mpr (by have := hk; omega)) ((hact5 t).mpr (by have := hk; omega)) ((hact6 t).mpr (by have := hk; omega)) ((hact7 t).mpr (by have := hk; omega)) (iblk1 V c 0 t) (iblk1 V c 1 t) (iblk1 V c 2 t) xo

def outAt_5 (c : Dev nD) (t : Fin cfg1.N) (hk : t.val % 8 = 5) (xo : Vec F S1x2048x1024 .f32) : Vec F S1x2048x1024 .f32 :=
  out_5 c (grid1.coords t) (ms0 t) (hs0 t) (ms1 t) (hs1 t) (ms2 t) (hs2 t) (ms3 t) (hs3 t) scM (Memref.isWhole_whole _) (fun h => absurd ((hinit t).mp h) (by have := hk; omega)) (fun h => absurd ((hact0 t).mp h) (by have := hk; omega)) (fun h => absurd ((hact1 t).mp h) (by have := hk; omega)) (fun h => absurd ((hact2 t).mp h) (by have := hk; omega)) (fun h => absurd ((hact3 t).mp h) (by have := hk; omega)) (fun h => absurd ((hact4 t).mp h) (by have := hk; omega)) ((hact5 t).mpr (by have := hk; omega)) ((hact6 t).mpr (by have := hk; omega)) ((hact7 t).mpr (by have := hk; omega)) (iblk1 V c 0 t) (iblk1 V c 1 t) (iblk1 V c 2 t) xo

def outAt_6 (c : Dev nD) (t : Fin cfg1.N) (hk : t.val % 8 = 6) (xo : Vec F S1x2048x1024 .f32) : Vec F S1x2048x1024 .f32 :=
  out_6 c (grid1.coords t) (ms0 t) (hs0 t) (ms1 t) (hs1 t) (ms2 t) (hs2 t) (ms3 t) (hs3 t) scM (Memref.isWhole_whole _) (fun h => absurd ((hinit t).mp h) (by have := hk; omega)) (fun h => absurd ((hact0 t).mp h) (by have := hk; omega)) (fun h => absurd ((hact1 t).mp h) (by have := hk; omega)) (fun h => absurd ((hact2 t).mp h) (by have := hk; omega)) (fun h => absurd ((hact3 t).mp h) (by have := hk; omega)) (fun h => absurd ((hact4 t).mp h) (by have := hk; omega)) (fun h => absurd ((hact5 t).mp h) (by have := hk; omega)) ((hact6 t).mpr (by have := hk; omega)) ((hact7 t).mpr (by have := hk; omega)) (iblk1 V c 0 t) (iblk1 V c 1 t) (iblk1 V c 2 t) xo

def outAt_7 (c : Dev nD) (t : Fin cfg1.N) (hk : t.val % 8 = 7) (xo : Vec F S1x2048x1024 .f32) : Vec F S1x2048x1024 .f32 :=
  out_7 c (grid1.coords t) (ms0 t) (hs0 t) (ms1 t) (hs1 t) (ms2 t) (hs2 t) (ms3 t) (hs3 t) scM (Memref.isWhole_whole _) (fun h => absurd ((hinit t).mp h) (by have := hk; omega)) (fun h => absurd ((hact0 t).mp h) (by have := hk; omega)) (fun h => absurd ((hact1 t).mp h) (by have := hk; omega)) (fun h => absurd ((hact2 t).mp h) (by have := hk; omega)) (fun h => absurd ((hact3 t).mp h) (by have := hk; omega)) (fun h => absurd ((hact4 t).mp h) (by have := hk; omega)) (fun h => absurd ((hact5 t).mp h) (by have := hk; omega)) (fun h => absurd ((hact6 t).mp h) (by have := hk; omega)) ((hact7 t).mpr (by have := hk; omega)) (iblk1 V c 0 t) (iblk1 V c 1 t) (iblk1 V c 2 t) xo

/-- THE ACCUMULATION: what the output's staging buffer holds after the body at position n. -/
def outsAt (c : Dev nD) : (n : ℕ) → n < cfg1.N → Vec F S1x2048x1024 .f32
  | 0, hn => outAt_0 V c ⟨0, hn⟩ (Nat.zero_mod _)
  | n + 1, hn =>
    if h0 : (n + 1) % 8 = 0 then outAt_0 V c ⟨n + 1, hn⟩ h0
    else if h1 : (n + 1) % 8 = 1 then outAt_1 V c ⟨n + 1, hn⟩ h1 (outsAt c n (Nat.lt_of_succ_lt hn))
    else if h2 : (n + 1) % 8 = 2 then outAt_2 V c ⟨n + 1, hn⟩ h2 (outsAt c n (Nat.lt_of_succ_lt hn))
    else if h3 : (n + 1) % 8 = 3 then outAt_3 V c ⟨n + 1, hn⟩ h3 (outsAt c n (Nat.lt_of_succ_lt hn))
    else if h4 : (n + 1) % 8 = 4 then outAt_4 V c ⟨n + 1, hn⟩ h4 (outsAt c n (Nat.lt_of_succ_lt hn))
    else if h5 : (n + 1) % 8 = 5 then outAt_5 V c ⟨n + 1, hn⟩ h5 (outsAt c n (Nat.lt_of_succ_lt hn))
    else if h6 : (n + 1) % 8 = 6 then outAt_6 V c ⟨n + 1, hn⟩ h6 (outsAt c n (Nat.lt_of_succ_lt hn))
    else outAt_7 V c ⟨n + 1, hn⟩ (by dsimp only; omega) (outsAt c n (Nat.lt_of_succ_lt hn))

theorem outsAt_0 (c : Dev nD) (t : Fin cfg1.N) (hk : t.val % 8 = 0) : outsAt V c t.val t.isLt = outAt_0 V c t hk := by
  obtain ⟨n, hn⟩ := t
  cases n with
  | zero => exact rfl
  | succ n => exact (dif_pos hk).trans rfl
theorem outsAt_1 (c : Dev nD) (t : Fin cfg1.N) (hk : t.val % 8 = 1) :
    outsAt V c t.val t.isLt = outAt_1 V c t hk (outsAt V c (t.val - 1) (Nat.lt_of_le_of_lt (Nat.sub_le _ _) t.isLt)) := by
  obtain ⟨n, hn⟩ := t
  cases n with
  | zero => exact absurd (show (0 : ℕ) % 8 = 1 from hk) (by decide)
  | succ n =>
    have hk' : (n + 1) % 8 = 1 := hk
    exact (dif_neg (by have := hk'; omega)).trans ((dif_pos hk').trans rfl)
theorem outsAt_2 (c : Dev nD) (t : Fin cfg1.N) (hk : t.val % 8 = 2) :
    outsAt V c t.val t.isLt = outAt_2 V c t hk (outsAt V c (t.val - 1) (Nat.lt_of_le_of_lt (Nat.sub_le _ _) t.isLt)) := by
  obtain ⟨n, hn⟩ := t
  cases n with
  | zero => exact absurd (show (0 : ℕ) % 8 = 2 from hk) (by decide)
  | succ n =>
    have hk' : (n + 1) % 8 = 2 := hk
    exact (dif_neg (by have := hk'; omega)).trans ((dif_neg (by have := hk'; omega)).trans ((dif_pos hk').trans rfl))
theorem outsAt_3 (c : Dev nD) (t : Fin cfg1.N) (hk : t.val % 8 = 3) :
    outsAt V c t.val t.isLt = outAt_3 V c t hk (outsAt V c (t.val - 1) (Nat.lt_of_le_of_lt (Nat.sub_le _ _) t.isLt)) := by
  obtain ⟨n, hn⟩ := t
  cases n with
  | zero => exact absurd (show (0 : ℕ) % 8 = 3 from hk) (by decide)
  | succ n =>
    have hk' : (n + 1) % 8 = 3 := hk
    exact (dif_neg (by have := hk'; omega)).trans ((dif_neg (by have := hk'; omega)).trans ((dif_neg (by have := hk'; omega)).trans ((dif_pos hk').trans rfl)))
theorem outsAt_4 (c : Dev nD) (t : Fin cfg1.N) (hk : t.val % 8 = 4) :
    outsAt V c t.val t.isLt = outAt_4 V c t hk (outsAt V c (t.val - 1) (Nat.lt_of_le_of_lt (Nat.sub_le _ _) t.isLt)) := by
  obtain ⟨n, hn⟩ := t
  cases n with
  | zero => exact absurd (show (0 : ℕ) % 8 = 4 from hk) (by decide)
  | succ n =>
    have hk' : (n + 1) % 8 = 4 := hk
    exact (dif_neg (by have := hk'; omega)).trans ((dif_neg (by have := hk'; omega)).trans ((dif_neg (by have := hk'; omega)).trans ((dif_neg (by have := hk'; omega)).trans ((dif_pos hk').trans rfl))))
theorem outsAt_5 (c : Dev nD) (t : Fin cfg1.N) (hk : t.val % 8 = 5) :
    outsAt V c t.val t.isLt = outAt_5 V c t hk (outsAt V c (t.val - 1) (Nat.lt_of_le_of_lt (Nat.sub_le _ _) t.isLt)) := by
  obtain ⟨n, hn⟩ := t
  cases n with
  | zero => exact absurd (show (0 : ℕ) % 8 = 5 from hk) (by decide)
  | succ n =>
    have hk' : (n + 1) % 8 = 5 := hk
    exact (dif_neg (by have := hk'; omega)).trans ((dif_neg (by have := hk'; omega)).trans ((dif_neg (by have := hk'; omega)).trans ((dif_neg (by have := hk'; omega)).trans ((dif_neg (by have := hk'; omega)).trans ((dif_pos hk').trans rfl)))))
theorem outsAt_6 (c : Dev nD) (t : Fin cfg1.N) (hk : t.val % 8 = 6) :
    outsAt V c t.val t.isLt = outAt_6 V c t hk (outsAt V c (t.val - 1) (Nat.lt_of_le_of_lt (Nat.sub_le _ _) t.isLt)) := by
  obtain ⟨n, hn⟩ := t
  cases n with
  | zero => exact absurd (show (0 : ℕ) % 8 = 6 from hk) (by decide)
  | succ n =>
    have hk' : (n + 1) % 8 = 6 := hk
    exact (dif_neg (by have := hk'; omega)).trans ((dif_neg (by have := hk'; omega)).trans ((dif_neg (by have := hk'; omega)).trans ((dif_neg (by have := hk'; omega)).trans ((dif_neg (by have := hk'; omega)).trans ((dif_neg (by have := hk'; omega)).trans ((dif_pos hk').trans rfl))))))
theorem outsAt_7 (c : Dev nD) (t : Fin cfg1.N) (hk : t.val % 8 = 7) :
    outsAt V c t.val t.isLt = outAt_7 V c t hk (outsAt V c (t.val - 1) (Nat.lt_of_le_of_lt (Nat.sub_le _ _) t.isLt)) := by
  obtain ⟨n, hn⟩ := t
  cases n with
  | zero => exact absurd (show (0 : ℕ) % 8 = 7 from hk) (by decide)
  | succ n =>
    have hk' : (n + 1) % 8 = 7 := hk
    exact (dif_neg (by have := hk'; omega)).trans ((dif_neg (by have := hk'; omega)).trans ((dif_neg (by have := hk'; omega)).trans ((dif_neg (by have := hk'; omega)).trans ((dif_neg (by have := hk'; omega)).trans ((dif_neg (by have := hk'; omega)).trans ((dif_neg (by have := hk'; omega)).trans (rfl)))))))

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- At a point with jb > 0 the output's staging buffer holds what the body left at the point before: the buffer
    is written back only after jb = 7, and the window is never idle. -/
theorem before1_3_acc (c : Dev nD) (t : Fin cfg1.N) (h0 : ¬t.val % 8 = 0) (d) :
    (dat1 V c).before 3 t d = outsAt V c (t.val - 1) (Nat.lt_of_le_of_lt (Nat.sub_le _ _) t.isLt) := by
  have hN : t.val < 64 := lt_of_lt_of_eq t.isLt N1
  rw [Dat.before_out_kept _ 3 rfl t (by omega) (Bool.eq_false_iff.mpr fun h => by have := (flush1_3 _).mp h; dsimp only at this; omega)
    live3' (fun _ _ => rfl)]
  dsimp only [dat1]

/-- The region's invariant with the score scratch shown: the other scoped buffers (the projection's staging
    buffers) at some contents, the scratch at some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM fullShare d)) ∗ (∃ r, prngReg c r)) := by
  unfold Pipeline.ΦA; rw [scopedRest1_eq]; simp only [scM, owns_whole]; try rfl

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d))
    ∗ (∃ d, owns (c : Thread nD τ) (ms3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    show (dat1 V c).Φ t.castSucc = Pipeline.ΦA spec1 c from rfl, PhiA1_eq]
  rw [show (dat1 V c).leavesExact 0 t = owns (c : Thread nD τ) (ms0 t) fullShare ((dat1 V c).after 0 t) from by
      unfold Dat.leavesExact; rw [live0 t], after1_0,
    show (dat1 V c).leavesExact 1 t = owns (c : Thread nD τ) (ms1 t) fullShare ((dat1 V c).after 1 t) from by
      unfold Dat.leavesExact; rw [live1 t], after1_1,
    show (dat1 V c).leavesExact 2 t = owns (c : Thread nD τ) (ms2 t) fullShare ((dat1 V c).after 2 t) from by
      unfold Dat.leavesExact; rw [live2 t], after1_2,
    show (dat1 V c).leavesExact 3 t = owns (c : Thread nD τ) (ms3 t) fullShare ((dat1 V c).after 3 t) from by
      unfold Dat.leavesExact; rw [live3 t], after1_3]
  have hN : t.val < 64 := lt_of_lt_of_eq t.isLt N1
  have hcases : t.val % 8 = 0 ∨ t.val % 8 = 1 ∨ t.val % 8 = 2 ∨ t.val % 8 = 3 ∨ t.val % 8 = 4 ∨ t.val % 8 = 5 ∨ t.val % 8 = 6 ∨ t.val % 8 = 7 := by omega
  rcases hcases with h0 | h1 | h2 | h3 | h4 | h5 | h6 | h7
  · rw [outsAt_0 V c t h0]
    unfold outAt_0 out_0
    iintro ⟨⟨⟨R0, R1, R2, R3, R4, R5, R6, R7, R8, R9, R10, HS⟩, Hg⟩, Ho, ⟨%d0, H0⟩, ⟨%d1, H1⟩, ⟨%d2, H2⟩, ⟨%d3, H3⟩⟩
    iapply ((run0 c (grid1.coords t) (ms0 t) (hs0 t) (ms1 t) (hs1 t) (ms2 t) (hs2 t) (ms3 t) (hs3 t) scM (Memref.isWhole_whole _) ((hinit t).mpr h0) ((hact0 t).mpr (by have := h0; omega)) ((hact1 t).mpr (by have := h0; omega)) ((hact2 t).mpr (by have := h0; omega)) ((hact3 t).mpr (by have := h0; omega)) ((hact4 t).mpr (by have := h0; omega)) ((hact5 t).mpr (by have := h0; omega)) ((hact6 t).mpr (by have := h0; omega)) ((hact7 t).mpr (by have := h0; omega)) (iblk1 V c 0 t) (iblk1 V c 1 t) (iblk1 V c 2 t)).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [R0 R1 R2 R3 R4 R5 R6 R7 R8 R9 R10 HS Hg]
    · isplitr [Hg]
      ·
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        unfold owns; iexists _; iexists _; isplitr
        swap; · iexact HS
        ipureintro; rfl
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover_0 c _ _ _ _ _ _ _ _ _ _ _ _ _ _ _ _ _ _ _ _ _ _ _)
  · rw [outsAt_1 V c t h1]
    simp only [before1_3_acc V c t (by omega : ¬t.val % 8 = 0)]
    unfold outAt_1 out_1
    iintro ⟨⟨⟨R0, R1, R2, R3, R4, R5, R6, R7, R8, R9, R10, HS⟩, Hg⟩, Ho, ⟨%d0, H0⟩, ⟨%d1, H1⟩, ⟨%d2, H2⟩, ⟨%d3, H3⟩⟩
    iapply ((run1 c (grid1.coords t) (ms0 t) (hs0 t) (ms1 t) (hs1 t) (ms2 t) (hs2 t) (ms3 t) (hs3 t) scM (Memref.isWhole_whole _) (fun h => absurd ((hinit t).mp h) (by have := h1; omega)) (fun h => absurd ((hact0 t).mp h) (by have := h1; omega)) ((hact1 t).mpr (by have := h1; omega)) ((hact2 t).mpr (by have := h1; omega)) ((hact3 t).mpr (by have := h1; omega)) ((hact4 t).mpr (by have := h1; omega)) ((hact5 t).mpr (by have := h1; omega)) ((hact6 t).mpr (by have := h1; omega)) ((hact7 t).mpr (by have := h1; omega)) (iblk1 V c 0 t) (iblk1 V c 1 t) (iblk1 V c 2 t) _).2.2 Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [R0 R1 R2 R3 R4 R5 R6 R7 R8 R9 R10 HS Hg]
    · isplitr [Hg]
      ·
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        unfold owns; iexists _; iexists _; isplitr
        swap; · iexact HS
        ipureintro; rfl
      iexact Hg
    isplitl [Ho]; · iexact Ho
    isplitl [H0]; · iexact H0
    isplitl [H1]; · iexact H1
    isplitl [H2]; · iexact H2
    unfold owns; iexists _; isplitr
    swap; · iexact H3
    ipureintro; rfl
  · rw [outsAt_2 V c t h2]
    simp only [before1_3_acc V c t (by omega : ¬t.val % 8 = 0)]
    unfold outAt_2 out_2
    iintro ⟨⟨⟨R0, R1, R2, R3, R4, R5, R6, R7, R8, R9, R10, HS⟩, Hg⟩, Ho, ⟨%d0, H0⟩, ⟨%d1, H1⟩, ⟨%d2, H2⟩, ⟨%d3, H3⟩⟩
    iapply ((run2 c (grid1.coords t) (ms0 t) (hs0 t) (ms1 t) (hs1 t) (ms2 t) (hs2 t) (ms3 t) (hs3 t) scM (Memref.isWhole_whole _) (fun h => absurd ((hinit t).mp h) (by have := h2; omega)) (fun h => absurd ((hact0 t).mp h) (by have := h2; omega)) (fun h => absurd ((hact1 t).mp h) (by have := h2; omega)) ((hact2 t).mpr (by have := h2; omega)) ((hact3 t).mpr (by have := h2; omega)) ((hact4 t).mpr (by have := h2; omega)) ((hact5 t).mpr (by have := h2; omega)) ((hact6 t).mpr (by have := h2; omega)) ((hact7 t).mpr (by have := h2; omega)) (iblk1 V c 0 t) (iblk1 V c 1 t) (iblk1 V c 2 t) _).2.2 Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [R0 R1 R2 R3 R4 R5 R6 R7 R8 R9 R10 HS Hg]
    · isplitr [Hg]
      ·
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        unfold owns; iexists _; iexists _; isplitr
        swap; · iexact HS
        ipureintro; rfl
      iexact Hg
    isplitl [Ho]; · iexact Ho
    isplitl [H0]; · iexact H0
    isplitl [H1]; · iexact H1
    isplitl [H2]; · iexact H2
    unfold owns; iexists _; isplitr
    swap; · iexact H3
    ipureintro; rfl
  · rw [outsAt_3 V c t h3]
    simp only [before1_3_acc V c t (by omega : ¬t.val % 8 = 0)]
    unfold outAt_3 out_3
    iintro ⟨⟨⟨R0, R1, R2, R3, R4, R5, R6, R7, R8, R9, R10, HS⟩, Hg⟩, Ho, ⟨%d0, H0⟩, ⟨%d1, H1⟩, ⟨%d2, H2⟩, ⟨%d3, H3⟩⟩
    iapply ((run3 c (grid1.coords t) (ms0 t) (hs0 t) (ms1 t) (hs1 t) (ms2 t) (hs2 t) (ms3 t) (hs3 t) scM (Memref.isWhole_whole _) (fun h => absurd ((hinit t).mp h) (by have := h3; omega)) (fun h => absurd ((hact0 t).mp h) (by have := h3; omega)) (fun h => absurd ((hact1 t).mp h) (by have := h3; omega)) (fun h => absurd ((hact2 t).mp h) (by have := h3; omega)) ((hact3 t).mpr (by have := h3; omega)) ((hact4 t).mpr (by have := h3; omega)) ((hact5 t).mpr (by have := h3; omega)) ((hact6 t).mpr (by have := h3; omega)) ((hact7 t).mpr (by have := h3; omega)) (iblk1 V c 0 t) (iblk1 V c 1 t) (iblk1 V c 2 t) _).2.2 Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [R0 R1 R2 R3 R4 R5 R6 R7 R8 R9 R10 HS Hg]
    · isplitr [Hg]
      ·
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        unfold owns; iexists _; iexists _; isplitr
        swap; · iexact HS
        ipureintro; rfl
      iexact Hg
    isplitl [Ho]; · iexact Ho
    isplitl [H0]; · iexact H0
    isplitl [H1]; · iexact H1
    isplitl [H2]; · iexact H2
    unfold owns; iexists _; isplitr
    swap; · iexact H3
    ipureintro; rfl
  · rw [outsAt_4 V c t h4]
    simp only [before1_3_acc V c t (by omega : ¬t.val % 8 = 0)]
    unfold outAt_4 out_4
    iintro ⟨⟨⟨R0, R1, R2, R3, R4, R5, R6, R7, R8, R9, R10, HS⟩, Hg⟩, Ho, ⟨%d0, H0⟩, ⟨%d1, H1⟩, ⟨%d2, H2⟩, ⟨%d3, H3⟩⟩
    iapply ((run4 c (grid1.coords t) (ms0 t) (hs0 t) (ms1 t) (hs1 t) (ms2 t) (hs2 t) (ms3 t) (hs3 t) scM (Memref.isWhole_whole _) (fun h => absurd ((hinit t).mp h) (by have := h4; omega)) (fun h => absurd ((hact0 t).mp h) (by have := h4; omega)) (fun h => absurd ((hact1 t).mp h) (by have := h4; omega)) (fun h => absurd ((hact2 t).mp h) (by have := h4; omega)) (fun h => absurd ((hact3 t).mp h) (by have := h4; omega)) ((hact4 t).mpr (by have := h4; omega)) ((hact5 t).mpr (by have := h4; omega)) ((hact6 t).mpr (by have := h4; omega)) ((hact7 t).mpr (by have := h4; omega)) (iblk1 V c 0 t) (iblk1 V c 1 t) (iblk1 V c 2 t) _).2.2 Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [R0 R1 R2 R3 R4 R5 R6 R7 R8 R9 R10 HS Hg]
    · isplitr [Hg]
      ·
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        unfold owns; iexists _; iexists _; isplitr
        swap; · iexact HS
        ipureintro; rfl
      iexact Hg
    isplitl [Ho]; · iexact Ho
    isplitl [H0]; · iexact H0
    isplitl [H1]; · iexact H1
    isplitl [H2]; · iexact H2
    unfold owns; iexists _; isplitr
    swap; · iexact H3
    ipureintro; rfl
  · rw [outsAt_5 V c t h5]
    simp only [before1_3_acc V c t (by omega : ¬t.val % 8 = 0)]
    unfold outAt_5 out_5
    iintro ⟨⟨⟨R0, R1, R2, R3, R4, R5, R6, R7, R8, R9, R10, HS⟩, Hg⟩, Ho, ⟨%d0, H0⟩, ⟨%d1, H1⟩, ⟨%d2, H2⟩, ⟨%d3, H3⟩⟩
    iapply ((run5 c (grid1.coords t) (ms0 t) (hs0 t) (ms1 t) (hs1 t) (ms2 t) (hs2 t) (ms3 t) (hs3 t) scM (Memref.isWhole_whole _) (fun h => absurd ((hinit t).mp h) (by have := h5; omega)) (fun h => absurd ((hact0 t).mp h) (by have := h5; omega)) (fun h => absurd ((hact1 t).mp h) (by have := h5; omega)) (fun h => absurd ((hact2 t).mp h) (by have := h5; omega)) (fun h => absurd ((hact3 t).mp h) (by have := h5; omega)) (fun h => absurd ((hact4 t).mp h) (by have := h5; omega)) ((hact5 t).mpr (by have := h5; omega)) ((hact6 t).mpr (by have := h5; omega)) ((hact7 t).mpr (by have := h5; omega)) (iblk1 V c 0 t) (iblk1 V c 1 t) (iblk1 V c 2 t) _).2.2 Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [R0 R1 R2 R3 R4 R5 R6 R7 R8 R9 R10 HS Hg]
    · isplitr [Hg]
      ·
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        unfold owns; iexists _; iexists _; isplitr
        swap; · iexact HS
        ipureintro; rfl
      iexact Hg
    isplitl [Ho]; · iexact Ho
    isplitl [H0]; · iexact H0
    isplitl [H1]; · iexact H1
    isplitl [H2]; · iexact H2
    unfold owns; iexists _; isplitr
    swap; · iexact H3
    ipureintro; rfl
  · rw [outsAt_6 V c t h6]
    simp only [before1_3_acc V c t (by omega : ¬t.val % 8 = 0)]
    unfold outAt_6 out_6
    iintro ⟨⟨⟨R0, R1, R2, R3, R4, R5, R6, R7, R8, R9, R10, HS⟩, Hg⟩, Ho, ⟨%d0, H0⟩, ⟨%d1, H1⟩, ⟨%d2, H2⟩, ⟨%d3, H3⟩⟩
    iapply ((run6 c (grid1.coords t) (ms0 t) (hs0 t) (ms1 t) (hs1 t) (ms2 t) (hs2 t) (ms3 t) (hs3 t) scM (Memref.isWhole_whole _) (fun h => absurd ((hinit t).mp h) (by have := h6; omega)) (fun h => absurd ((hact0 t).mp h) (by have := h6; omega)) (fun h => absurd ((hact1 t).mp h) (by have := h6; omega)) (fun h => absurd ((hact2 t).mp h) (by have := h6; omega)) (fun h => absurd ((hact3 t).mp h) (by have := h6; omega)) (fun h => absurd ((hact4 t).mp h) (by have := h6; omega)) (fun h => absurd ((hact5 t).mp h) (by have := h6; omega)) ((hact6 t).mpr (by have := h6; omega)) ((hact7 t).mpr (by have := h6; omega)) (iblk1 V c 0 t) (iblk1 V c 1 t) (iblk1 V c 2 t) _).2.2 Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [R0 R1 R2 R3 R4 R5 R6 R7 R8 R9 R10 HS Hg]
    · isplitr [Hg]
      ·
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        unfold owns; iexists _; iexists _; isplitr
        swap; · iexact HS
        ipureintro; rfl
      iexact Hg
    isplitl [Ho]; · iexact Ho
    isplitl [H0]; · iexact H0
    isplitl [H1]; · iexact H1
    isplitl [H2]; · iexact H2
    unfold owns; iexists _; isplitr
    swap; · iexact H3
    ipureintro; rfl
  · rw [outsAt_7 V c t h7]
    simp only [before1_3_acc V c t (by omega : ¬t.val % 8 = 0)]
    unfold outAt_7 out_7
    iintro ⟨⟨⟨R0, R1, R2, R3, R4, R5, R6, R7, R8, R9, R10, HS⟩, Hg⟩, Ho, ⟨%d0, H0⟩, ⟨%d1, H1⟩, ⟨%d2, H2⟩, ⟨%d3, H3⟩⟩
    iapply ((run7 c (grid1.coords t) (ms0 t) (hs0 t) (ms1 t) (hs1 t) (ms2 t) (hs2 t) (ms3 t) (hs3 t) scM (Memref.isWhole_whole _) (fun h => absurd ((hinit t).mp h) (by have := h7; omega)) (fun h => absurd ((hact0 t).mp h) (by have := h7; omega)) (fun h => absurd ((hact1 t).mp h) (by have := h7; omega)) (fun h => absurd ((hact2 t).mp h) (by have := h7; omega)) (fun h => absurd ((hact3 t).mp h) (by have := h7; omega)) (fun h => absurd ((hact4 t).mp h) (by have := h7; omega)) (fun h => absurd ((hact5 t).mp h) (by have := h7; omega)) (fun h => absurd ((hact6 t).mp h) (by have := h7; omega)) ((hact7 t).mpr (by have := h7; omega)) (iblk1 V c 0 t) (iblk1 V c 1 t) (iblk1 V c 2 t) _).2.2 Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [R0 R1 R2 R3 R4 R5 R6 R7 R8 R9 R10 HS Hg]
    · isplitr [Hg]
      ·
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        unfold owns; iexists _; iexists _; isplitr
        swap; · iexact HS
        ipureintro; rfl
      iexact Hg
    isplitl [Ho]; · iexact Ho
    isplitl [H0]; · iexact H0
    isplitl [H1]; · iexact H1
    isplitl [H2]; · iexact H2
    unfold owns; iexists _; isplitr
    swap; · iexact H3
    ipureintro; rfl

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.R1

end
-- ==== Proof.KI.Run.lean ====
/-
  The whole run of the kernel's program: reshape and round the arguments, the projection region, three reshapes,
  the attention region.

  The contents of every unscoped buffer are followed from the launch through the four items: a stretch of host
  operations applies its operations; a region leaves each of its windows' arrays at what its write-backs make of
  it and every other buffer alone.  Every weakly fair execution terminates without a fault, and at the end each
  unscoped buffer holds the last of these contents.  No item writes an argument array, so the arguments end as
  launched; the result array ends at what the attention region's write-backs leave.
-/
import proofs.«157480_j6983616824221_2_alg».proof.Proof.KI.R0Dat
import proofs.«157480_j6983616824221_2_alg».proof.Proof.KI.R1Dat
import proofs.«157480_j6983616824221_2_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.KernelIdeal.R0 Cert.KernelIdeal.R1

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch (the projection's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## No item writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at the contents of the boundary before it,
    left with them at the contents of the boundary after it.  Its windows' arrays are split out of the unscoped
    buffers on entry and put back, at what the write-backs leave, on exit; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents of the boundary before it,
    left with them at the contents of the boundary after it.  Its windows' arrays are split out of the unscoped
    buffers on entry and put back, at what the write-backs leave, on exit; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: every weakly fair execution of the program terminates, nothing faulting, and every final state holds
    each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Run

end
-- ==== Proof.Spec.lean ====
/-
  The mathematics both programs compute, over the extended reals.

  x is an 8 × 2048 × 1024 array, wq wk wv are 1024 × 1024.  q = x·wq, k = x·wk, v = x·wv (per batch).  The score
  of query row i against key row j is q_i · k_j; above the diagonal (j > i) it is replaced by -∞; it is scaled by
  1/32 = 1/√1024.  The softmax is taken DOWN EACH COLUMN (over the query index i, for a fixed key j): subtract the
  column's maximum, exponentiate, divide by the column's sum.  The output row i is the sum over all keys j of
  weight(i, j) · v_j.

  The reference masks first and divides by 32 afterwards, and sums over all 2048 keys.  The kernel multiplies by
  1/32 first and masks afterwards, treats the keys in 8 blocks of 256, and for row i adds the blocks jb = 0, 1, …
  in order, stopping after block ⌊i/256⌋: the later blocks lie wholly above the diagonal, where every weight is 0.
-/
import Idealize.ShloMosaic.PureOps.Ideal
import Idealize.ShloMosaic.Lib.ValueIdx

noncomputable section

namespace Cert.Attn

open Idealize.ShloMosaic

abbrev A3 : Type := Fin 8 → Fin 2048 → Fin 1024 → EReal
abbrev M2 : Type := Fin 1024 → Fin 1024 → EReal
abbrev T3 : Type := Fin 8 → Fin 2048 → Fin 2048 → EReal

/-- Rows by columns, per batch. -/
def proj (x : A3) (w : M2) : A3 := fun b s e => ∑ d : Fin 1024, x b s d * w d e

/-- Query row i against key row j. -/
def score (q k : A3) : T3 := fun b i j => ∑ e : Fin 1024, q b i e * k b j e

/-- The reference's masked and scaled score: -∞ above the diagonal, then the quotient by 32. -/
def logitR (q k : A3) : T3 := fun b i j => Ideal.div (if i.val < j.val then ⊥ else score q k b i j) ((32 : ℝ) : EReal)

/-- The kernel's: the product with 1/32, then -∞ above the diagonal. -/
def logitK (q k : A3) : T3 := fun b i j => if j.val ≤ i.val then score q k b i j * ((1 / 32 : ℝ) : EReal) else ⊥

/-- A column's maximum over the query index, from -∞. -/
def colMax (t : T3) (b : Fin 8) (j : Fin 2048) : EReal := (Finset.univ : Finset (Fin 2048)).fold max ⊥ (fun i => t b i j)

/-- A column's exponentials, and their sum over the query index. -/
def colExp (t : T3) : T3 := fun b i j => Ideal.exp (t b i j - colMax t b j)
def colSum (t : T3) (b : Fin 8) (j : Fin 2048) : EReal := ∑ i : Fin 2048, colExp t b i j

/-- The softmax weight of query i on key j. -/
def weight (t : T3) : T3 := fun b i j => Ideal.div (colExp t b i j) (colSum t b j)

/-- The reference's output: every key. -/
def attn (t : T3) (v : A3) : A3 := fun b i e => ∑ j : Fin 2048, weight t b i j * v b j e

/-- Key jj of block jb. -/
def kidx (jb : Fin 8) (jj : Fin 256) : Fin 2048 := ⟨256 * jb.val + jj.val, by have := jb.isLt; have := jj.isLt; omega⟩

/-- One key block's contribution to output row i. -/
def contrib (t : T3) (v : A3) (b : Fin 8) (jb : Fin 8) (i : Fin 2048) (e : Fin 1024) : EReal :=
  ∑ jj : Fin 256, weight t b i (kidx jb jj) * v b (kidx jb jj) e

/-- The kernel's accumulation for a row in query chunk qc: zero plus block 0's contribution, then block n+1's is
    added while n+1 ≤ qc and the value is left alone afterwards. -/
def accum (c : Fin 8 → EReal) (qc : ℕ) : ℕ → EReal
  | 0 => 0 + c 0
  | n + 1 => if n + 1 ≤ qc then accum c qc n + c ⟨(n + 1) % 8, Nat.mod_lt _ (by decide)⟩ else accum c qc n

/-- The kernel's output. -/
def attnK (t : T3) (v : A3) : A3 := fun b i e => accum (fun jb => contrib t v b jb i e) (i.val / 256) 7

/-- The two programs' results as functions of the four arguments. -/
def G (x : A3) (wq wk wv : M2) : A3 := attn (logitR (proj x wq) (proj x wk)) (proj x wv)
def GK (x : A3) (wq wk wv : M2) : A3 := attnK (logitK (proj x wq) (proj x wk)) (proj x wv)

/-- An array read at three coordinates, and a matrix at two. -/
abbrev curry3 (a : (⟨3, ![8, 2048, 1024]⟩ : Shape).Idx → EReal) : A3 := fun b i e => a (ValueIdx.ix3 b i e)
abbrev curry2 (a : (⟨2, ![1024, 1024]⟩ : Shape).Idx → EReal) : M2 := fun d e => a (ValueIdx.ix2 d e)

/-- Every entry is a real number. -/
def Fin3 (x : A3) : Prop := ∀ b s d, ∃ r : ℝ, x b s d = (r : EReal)
def Fin2 (w : M2) : Prop := ∀ d e, ∃ r : ℝ, w d e = (r : EReal)

end Cert.Attn

end
-- ==== Proof.KIV.Array.lean ====
/-
  The attention region's output array, from what its 64 grid points leave.

  Point t = 8·b + jb works on batch b and key block jb.  The output block of batch b stays in its staging buffer over
  the eight key blocks: the point jb = 0 leaves 0 plus block 0's contribution, a point jb > 0 adds block jb's
  contribution on the query chunks qc ≥ jb and leaves the others alone — the kernel's accumulation — and the block
  is written back after jb = 7.  So the array ends holding the blocked attention of the logits and values the region
  finds, coordinate by coordinate.  The eight facts about one point's body are hypotheses here.
-/
import proofs.«157480_j6983616824221_2_alg».proof.Proof.Spec
import proofs.«157480_j6983616824221_2_alg».proof.Proof.KI.R1Dat
import Idealize.ShloMosaic.Lib.Pipeline.Value

set_option maxRecDepth 16384

noncomputable section

namespace Cert.Attn.R1A

open Cert.KernelIdeal Cert.KernelIdeal.Gen Cert.KernelIdeal.R1
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The logits and the values the region finds in its three input arrays. -/
abbrev T (c : Dev nD) : Cert.Attn.T3 := Cert.Attn.logitK (Cert.Attn.curry3 (V c main_v5)) (Cert.Attn.curry3 (V c main_v6))
abbrev vv (c : Dev nD) : Cert.Attn.A3 := Cert.Attn.curry3 (V c main_v7)

/-- The batch of grid point t = 8·b + jb. -/
def bOf (t : Fin cfg1.N) : Fin 8 := ⟨t.val / 8, by have := lt_of_lt_of_eq t.isLt N1; omega⟩

/-- What the body at key block j > 0 does to the output block it finds: the chunks qc ≥ j get block j's contribution. -/
abbrev StepHyp (c : Dev nD) (j : ℕ) (hj : j < 8)
    (f : (t : Fin cfg1.N) → t.val % 8 = j → Vec Ideal S1x2048x1024 .f32 → Vec Ideal S1x2048x1024 .f32) : Prop :=
  ∀ (t : Fin cfg1.N) (hk : t.val % 8 = j) (xo : Vec Ideal S1x2048x1024 .f32) (u : Fin 1) (i : Fin 2048) (e : Fin 1024),
    f t hk xo (ix3 u i e)
      = if j ≤ i.val / 256 then xo (ix3 (0 : Fin 1) i e) + Cert.Attn.contrib (T V c) (vv V c) (bOf t) ⟨j, hj⟩ i e
        else xo (ix3 (0 : Fin 1) i e)

/-- The accumulation's two equations. -/
theorem accum_zero (f : Fin 8 → EReal) (qc : ℕ) : Cert.Attn.accum f qc 0 = 0 + f 0 := rfl
theorem accum_succ (f : Fin 8 → EReal) (qc n : ℕ) :
    Cert.Attn.accum f qc (n + 1)
      = if n + 1 ≤ qc then Cert.Attn.accum f qc n + f ⟨(n + 1) % 8, Nat.mod_lt _ (by decide)⟩ else Cert.Attn.accum f qc n := rfl

/-- The output window's block index at point t: (t / 8, 0, 0), decided over the grid. -/
theorem index_facts : ∀ t : Fin cfg1.N, win1_3.index t (0 : Fin 3) = t.val / 8 ∧ win1_3.index t (1 : Fin 3) = 0
    ∧ win1_3.index t (2 : Fin 3) = 0 :=
  (by decide +kernel : ∀ t : Fin grid1.N, win1_3.index t (0 : Fin 3) = t.val / 8 ∧ win1_3.index t (1 : Fin 3) = 0
    ∧ win1_3.index t (2 : Fin 3) = 0)

/-- The whole output array as one function of its three coordinates. -/
abbrev Garr (c : Dev nD) : S8x2048x1024.Idx → EReal :=
  fun idx => Cert.Attn.attnK (T V c) (vv V c) (idx 0) (idx 1) (idx 2)

/-- The flushing points' blocks cover the array: batch b is point 8·b + 7's block. -/
theorem cover (idx : S8x2048x1024.Idx) :
    ∃ t : Fin cfg1.N, (cfg1.win 3).flush t = true ∧ idx ∈ ((cfg1.win 3).blk t).view.set := by
  have hb : (idx 0).val < 8 := (idx 0).isLt
  have hi : (idx 1).val < 2048 := (idx 1).isLt
  have he : (idx 2).val < 1024 := (idx 2).isLt
  have ht : 8 * (idx 0).val + 7 < cfg1.N := Nat.lt_of_lt_of_eq (by omega : 8 * (idx 0).val + 7 < 64) N1.symm
  obtain ⟨t, htv⟩ : ∃ t : Fin cfg1.N, t.val = 8 * (idx 0).val + 7 := ⟨⟨_, ht⟩, rfl⟩
  obtain ⟨e0, e1, e2⟩ := index_facts t
  refine ⟨t, (flush1_3 t).mpr (by omega), ?_⟩
  show idx ∈ ((View.whole main_v8).slice (win1_3.rect t)).set
  rw [View.set_slice_whole, Rect.mem_set_unit]
  intro a
  match a with
  | ⟨0, _⟩ =>
    show win1_3.index t (0 : Fin 3) * 1 ≤ (idx 0).val ∧ (idx 0).val < win1_3.index t (0 : Fin 3) * 1 + 1
    omega
  | ⟨1, _⟩ =>
    show win1_3.index t (1 : Fin 3) * 2048 ≤ (idx 1).val ∧ (idx 1).val < win1_3.index t (1 : Fin 3) * 2048 + 2048
    omega
  | ⟨2, _⟩ =>
    show win1_3.index t (2 : Fin 3) * 1024 ≤ (idx 2).val ∧ (idx 2).val < win1_3.index t (2 : Fin 3) * 1024 + 1024
    omega

section
variable (c : Dev nD)
  (H0 : ∀ (t : Fin cfg1.N) (hk : t.val % 8 = 0) (u : Fin 1) (i : Fin 2048) (e : Fin 1024),
    outAt_0 V c t hk (ix3 u i e) = 0 + Cert.Attn.contrib (T V c) (vv V c) (bOf t) ⟨0, by decide⟩ i e)
  (H1 : StepHyp V c 1 (by decide) (outAt_1 V c)) (H2 : StepHyp V c 2 (by decide) (outAt_2 V c))
  (H3 : StepHyp V c 3 (by decide) (outAt_3 V c)) (H4 : StepHyp V c 4 (by decide) (outAt_4 V c))
  (H5 : StepHyp V c 5 (by decide) (outAt_5 V c)) (H6 : StepHyp V c 6 (by decide) (outAt_6 V c))
  (H7 : StepHyp V c 7 (by decide) (outAt_7 V c))
include H0 H1 H2 H3 H4 H5 H6 H7

/-- One point with key block j > 0, uniformly in j: the output block the point before left, plus block j's
    contribution on the chunks qc ≥ j. -/
theorem step (j : ℕ) (hj0 : 0 < j) (hj : j < 8) (t : Fin cfg1.N) (hk : t.val % 8 = j) (u : Fin 1) (i : Fin 2048)
    (e : Fin 1024) :
    outsAt V c t.val t.isLt (ix3 u i e)
      = if j ≤ i.val / 256 then
          outsAt V c (t.val - 1) (Nat.lt_of_le_of_lt (Nat.sub_le _ _) t.isLt) (ix3 (0 : Fin 1) i e)
            + Cert.Attn.contrib (T V c) (vv V c) (bOf t) ⟨j, hj⟩ i e
        else outsAt V c (t.val - 1) (Nat.lt_of_le_of_lt (Nat.sub_le _ _) t.isLt) (ix3 (0 : Fin 1) i e) := by
  rcases (by omega : j = 1 ∨ j = 2 ∨ j = 3 ∨ j = 4 ∨ j = 5 ∨ j = 6 ∨ j = 7) with rfl | rfl | rfl | rfl | rfl | rfl | rfl
  · exact (congrFun (outsAt_1 V c t hk) _).trans (H1 t hk _ u i e)
  · exact (congrFun (outsAt_2 V c t hk) _).trans (H2 t hk _ u i e)
  · exact (congrFun (outsAt_3 V c t hk) _).trans (H3 t hk _ u i e)
  · exact (congrFun (outsAt_4 V c t hk) _).trans (H4 t hk _ u i e)
  · exact (congrFun (outsAt_5 V c t hk) _).trans (H5 t hk _ u i e)
  · exact (congrFun (outsAt_6 V c t hk) _).trans (H6 t hk _ u i e)
  · exact (congrFun (outsAt_7 V c t hk) _).trans (H7 t hk _ u i e)

/-- THE OUTPUT BLOCK AFTER POINT n = 8·b + jb is the kernel's accumulation over the key blocks 0 … jb of batch b. -/
theorem outs_eq : ∀ (n : ℕ) (hn : n < cfg1.N) (u : Fin 1) (i : Fin 2048) (e : Fin 1024),
    outsAt V c n hn (ix3 u i e)
      = Cert.Attn.accum (fun jb => Cert.Attn.contrib (T V c) (vv V c) (bOf ⟨n, hn⟩) jb i e) (i.val / 256) (n % 8)
  | 0, hn, u, i, e =>
    (congrFun (outsAt_0 V c ⟨0, hn⟩ rfl) _).trans ((H0 ⟨0, hn⟩ rfl u i e).trans rfl)
  | n + 1, hn, u, i, e => by
    have hN : n + 1 < 64 := lt_of_lt_of_eq hn N1
    by_cases h0 : (n + 1) % 8 = 0
    · refine (congrFun (outsAt_0 V c ⟨n + 1, hn⟩ h0) _).trans ((H0 ⟨n + 1, hn⟩ h0 u i e).trans ?_)
      rw [h0]
      rfl
    · obtain ⟨m, hm⟩ : ∃ m, (n + 1) % 8 = m + 1 := ⟨(n + 1) % 8 - 1, by omega⟩
      have hm8 : m + 1 < 8 := by omega
      have hm' : n % 8 = m := by omega
      refine (step V c H0 H1 H2 H3 H4 H5 H6 H7 (m + 1) (Nat.succ_pos m) hm8 ⟨n + 1, hn⟩ hm u i e).trans ?_
      have ih := outs_eq n (Nat.lt_of_succ_lt hn) (0 : Fin 1) i e
      have hb : bOf ⟨n, Nat.lt_of_succ_lt hn⟩ = bOf ⟨n + 1, hn⟩ := Fin.ext (by show n / 8 = (n + 1) / 8; omega)
      rw [hb, hm'] at ih
      have hfin : (⟨(m + 1) % 8, Nat.mod_lt _ (by decide)⟩ : Fin 8) = ⟨m + 1, hm8⟩ := Fin.ext (Nat.mod_eq_of_lt hm8)
      rw [hm, accum_succ, hfin]
      by_cases hq : m + 1 ≤ i.val / 256
      · rw [if_pos hq, if_pos hq]
        exact congrArg (· + Cert.Attn.contrib (T V c) (vv V c) (bOf ⟨n + 1, hn⟩) ⟨m + 1, hm8⟩ i e) ih
      · rw [if_neg hq, if_neg hq]
        exact ih

/-- WHAT A FLUSHING POINT WRITES BACK (jb = 7) is block b of the whole-array function. -/
theorem flushed_eq (t : Fin cfg1.N) (hf : (cfg1.win 3).flush t = true) :
    (dat1 (F := Ideal) V c).flushed 3 t = ((cfg1.win 3).blk t).view.read (Elt Ideal) (Garr V c) := by
  have h7 : t.val % 8 = 7 := (flush1_3 t).mp hf
  obtain ⟨e0, e1, e2⟩ := index_facts t
  show (cfg1.win 3).cut (grid1.coords t) ((dat1 (F := Ideal) V c).after 3 t) = _
  rw [after1_3]
  funext j
  obtain ⟨u, i, e, rfl⟩ : ∃ (u : Fin 1) (i : Fin 2048) (e : Fin 1024), j = ix3 u i e := ⟨j 0, j 1, j 2, eq_ix3 j⟩
  have hemb : ((cfg1.win 3).blk t).view.emb (ix3 u i e) = ix3 (bOf t) i e := by
    funext a; apply Fin.ext
    match a with
    | ⟨0, _⟩ => show win1_3.index t (0 : Fin 3) * 1 + 1 * u.val = t.val / 8; have := u.isLt; omega
    | ⟨1, _⟩ => show win1_3.index t (1 : Fin 3) * 2048 + 1 * i.val = i.val; omega
    | ⟨2, _⟩ => show win1_3.index t (2 : Fin 3) * 1024 + 1 * e.val = e.val; omega
  show outsAt V c t.val t.isLt (ix3 u i e) = Garr V c (((cfg1.win 3).blk t).view.emb (ix3 u i e))
  rw [hemb, outs_eq V c H0 H1 H2 H3 H4 H5 H6 H7 t.val t.isLt u i e, h7]
  rfl

/-- THE ATTENTION REGION'S ARRAY after the run: the kernel's blocked attention of the logits and values it finds. -/
theorem R1_value (b : Fin 8) (i : Fin 2048) (e : Fin 1024) :
    (dat1 (F := Ideal) V c).arrAt 3 cfg1.N (ix3 b i e) = Cert.Attn.attnK (T V c) (vv V c) b i e :=
  congrFun ((dat1 (F := Ideal) V c).arrAt_eq_of_cover 3 (Garr V c)
    (flushed_eq V c H0 H1 H2 H3 H4 H5 H6 H7) cover) (ix3 b i e)

end

end Cert.Attn.R1A

end
-- ==== Proof.KIV.Sem.lean ====
/-
  What one grid point of the attention computes, from the three blocks it is handed.

  The point is given the whole query block xq of its batch (2048 rows), the key block xk and the value block xv of its
  key block jb (256 rows each).  S r jj is the masked, scaled score of query row r against key jj of the block;
  M jj its column maximum from -∞; Z jj the column's sum of exponentials; W r jj the weight; C r e the block's
  contribution to output row r.
-/
import proofs.«157480_j6983616824221_2_alg».proof.Proof.Gen.KernelIdeal
import Idealize.ShloMosaic.PureOps.Ideal
import Idealize.ShloMosaic.Lib.ValueIdx

noncomputable section

namespace Cert.KernelIdeal.Sem

open Cert.KernelIdeal Idealize.ShloMosaic Idealize.ShloMosaic.ValueIdx

variable (jb : ℕ) (xq : Vec Ideal S1x2048x1024 .bf16) (xk xv : Vec Ideal S1x256x1024 .bf16)

def Scur (r : Fin 2048) (jj : Fin 256) : EReal :=
  if 256 * jb + jj.val ≤ r.val then (∑ e : Fin 1024, xq (ix3 (0 : Fin 1) r e) * xk (ix3 (0 : Fin 1) jj e)) * ((1 / 32 : ℝ) : EReal) else ⊥
def Mfun (jj : Fin 256) : EReal := (Finset.univ : Finset (Fin 2048)).fold max ⊥ (fun r => Scur jb xq xk r jj)
def Zfun (jj : Fin 256) : EReal := ∑ r : Fin 2048, Ideal.exp (Scur jb xq xk r jj - Mfun jb xq xk jj)
def Wfun (r : Fin 2048) (jj : Fin 256) : EReal := Ideal.div (Ideal.exp (Scur jb xq xk r jj - Mfun jb xq xk jj)) (Zfun jb xq xk jj)
def Cfun (r : Fin 2048) (e : Fin 1024) : EReal := ∑ jj : Fin 256, Wfun jb xq xk r jj * xv (ix3 (0 : Fin 1) jj e)

end Cert.KernelIdeal.Sem

end
-- ==== Proof.KIV.PointMath.lean ====
import proofs.«157480_j6983616824221_2_alg».proof.Proof.Spec
import proofs.«157480_j6983616824221_2_alg».proof.Proof.KIV.Sem

noncomputable section

namespace Cert.Attn.Pt

open Cert.KernelIdeal Cert.KernelIdeal.Sem Idealize.ShloMosaic Idealize.ShloMosaic.ValueIdx

/-! One grid point's quantities are the specification's, once its three blocks are rows of the arrays q, k, v:
    the query block is batch b of q, the key and value blocks are the 256 rows of key block jb of batch b of k and v. -/

section
variable (jb b : Fin 8) (Q K W : A3) (xq : Vec Ideal S1x2048x1024 .bf16) (xk xv : Vec Ideal S1x256x1024 .bf16)
variable (hq : ∀ (r : Fin 2048) (e : Fin 1024), xq (ix3 (0 : Fin 1) r e) = Q b r e)
variable (hk : ∀ (jj : Fin 256) (e : Fin 1024), xk (ix3 (0 : Fin 1) jj e) = K b (kidx jb jj) e)
variable (hv : ∀ (jj : Fin 256) (e : Fin 1024), xv (ix3 (0 : Fin 1) jj e) = W b (kidx jb jj) e)
include hq hk

/-- The point's masked, scaled score of row r against key jj of its block is the logit at key 256·jb + jj. -/
theorem Scur_eq (r : Fin 2048) (jj : Fin 256) : Scur jb.val xq xk r jj = logitK Q K b r (kidx jb jj) := by
  unfold Scur logitK score
  simp only [hq, hk]
  rfl

/-- Its column maximum is the specification's. -/
theorem Mfun_eq (jj : Fin 256) : Mfun jb.val xq xk jj = colMax (logitK Q K) b (kidx jb jj) := by
  unfold Mfun colMax
  simp only [Scur_eq jb b Q K xq xk hq hk]

/-- Its column sum of exponentials is the specification's. -/
theorem Zfun_eq (jj : Fin 256) : Zfun jb.val xq xk jj = colSum (logitK Q K) b (kidx jb jj) := by
  unfold Zfun colSum colExp
  simp only [Scur_eq jb b Q K xq xk hq hk, Mfun_eq jb b Q K xq xk hq hk]

/-- Its weight is the specification's. -/
theorem Wfun_eq (r : Fin 2048) (jj : Fin 256) : Wfun jb.val xq xk r jj = weight (logitK Q K) b r (kidx jb jj) := by
  unfold Wfun weight colExp
  simp only [Scur_eq jb b Q K xq xk hq hk, Mfun_eq jb b Q K xq xk hq hk, Zfun_eq jb b Q K xq xk hq hk]

include hv

/-- Its contribution to output row r is the specification's contribution of key block jb. -/
theorem Cfun_eq (r : Fin 2048) (e : Fin 1024) : Cfun jb.val xq xk xv r e = contrib (logitK Q K) W b jb r e := by
  unfold Cfun contrib
  simp only [Wfun_eq jb b Q K xq xk hq hk, hv]

end

end Cert.Attn.Pt

end
-- ==== Proof.KIV.Point.lean ====
import proofs.«157480_j6983616824221_2_alg».proof.Proof.Spec
import proofs.«157480_j6983616824221_2_alg».proof.Proof.KIV.Sem
import proofs.«157480_j6983616824221_2_alg».proof.Proof.KIV.PointMath
import proofs.«157480_j6983616824221_2_alg».proof.Proof.KI.R1Dat

set_option maxRecDepth 16384

noncomputable section

namespace Cert.Attn.Pt

open Cert.KernelIdeal Cert.KernelIdeal.Gen Cert.KernelIdeal.R1 Cert.KernelIdeal.Sem
open Idealize.ShloMosaic Idealize.ShloMosaic.ValueIdx Idealize.ShloMosaic.TcCoe Idealize.SL.Sem

/-! The attention's grid point t = 8·b + jb is handed batch b of q whole and the 256 rows of key block jb of batch b
    of k and v; so what it computes from them is the specification's contribution of key block jb to batch b. -/

/-- The point's coordinates: (b, jb) = (t / 8, t % 8). -/
theorem coords_eq : ∀ t : Fin cfg1.N, (grid1.coords t 0).val = t.val / 8 ∧ (grid1.coords t 1).val = t.val % 8 :=
  (by decide +kernel : ∀ t : Fin grid1.N, _)

/-- The three input windows' block indices at the point, axis by axis. -/
theorem idx_facts : ∀ t : Fin cfg1.N,
    win1_0.index t (0 : Fin 3) = t.val / 8 ∧ win1_0.index t (1 : Fin 3) = 0 ∧ win1_0.index t (2 : Fin 3) = 0
    ∧ win1_1.index t (0 : Fin 3) = t.val / 8 ∧ win1_1.index t (1 : Fin 3) = t.val % 8 ∧ win1_1.index t (2 : Fin 3) = 0
    ∧ win1_2.index t (0 : Fin 3) = t.val / 8 ∧ win1_2.index t (1 : Fin 3) = t.val % 8 ∧ win1_2.index t (2 : Fin 3) = 0 :=
  (by decide +kernel : ∀ t : Fin grid1.N, _)

theorem N_eq : cfg1.N = 64 := by decide

/-- The point's batch and key block. -/
def bOf (t : Fin cfg1.N) : Fin 8 := ⟨t.val / 8, by have := lt_of_lt_of_eq t.isLt N_eq; omega⟩
def jbOf (t : Fin cfg1.N) : Fin 8 := ⟨t.val % 8, Nat.mod_lt _ (by decide)⟩

variable (V : (c : Dev nD) → (b : Ref sig .tc) → Buf (Elt Ideal) ((c : Thread nD τ).loc b))

/-- The query block is batch b of q, whole. -/
theorem blk0_apply (c : Dev nD) (t : Fin cfg1.N) (u : Fin 1) (r : Fin 2048) (e : Fin 1024) :
    iblk1 V c 0 t (ix3 u r e) = V c main_v5 (ix3 (bOf t) r e) := by
  show V c main_v5 (((cfg1.win 0).blk t).view.emb (ix3 u r e)) = _
  refine congrArg (V c main_v5) (funext fun a => Fin.ext ?_)
  obtain ⟨e0, e1, e2, -⟩ := idx_facts t
  have hu := u.isLt
  match a with
  | ⟨0, _⟩ => show win1_0.index t (0 : Fin 3) * 1 + 1 * u.val = t.val / 8; omega
  | ⟨1, _⟩ => show win1_0.index t (1 : Fin 3) * 2048 + 1 * r.val = r.val; omega
  | ⟨2, _⟩ => show win1_0.index t (2 : Fin 3) * 1024 + 1 * e.val = e.val; omega

/-- The key block is rows 256·jb … 256·jb + 255 of batch b of k. -/
theorem blk1_apply (c : Dev nD) (t : Fin cfg1.N) (u : Fin 1) (jj : Fin 256) (e : Fin 1024) :
    iblk1 V c 1 t (ix3 u jj e) = V c main_v6 (ix3 (bOf t) (kidx (jbOf t) jj) e) := by
  show V c main_v6 (((cfg1.win 1).blk t).view.emb (ix3 u jj e)) = _
  refine congrArg (V c main_v6) (funext fun a => Fin.ext ?_)
  obtain ⟨-, -, -, e0, e1, e2, -⟩ := idx_facts t
  have hu := u.isLt
  match a with
  | ⟨0, _⟩ => show win1_1.index t (0 : Fin 3) * 1 + 1 * u.val = t.val / 8; omega
  | ⟨1, _⟩ => show win1_1.index t (1 : Fin 3) * 256 + 1 * jj.val = 256 * (t.val % 8) + jj.val; omega
  | ⟨2, _⟩ => show win1_1.index t (2 : Fin 3) * 1024 + 1 * e.val = e.val; omega

/-- The value block is the same rows of batch b of v. -/
theorem blk2_apply (c : Dev nD) (t : Fin cfg1.N) (u : Fin 1) (jj : Fin 256) (e : Fin 1024) :
    iblk1 V c 2 t (ix3 u jj e) = V c main_v7 (ix3 (bOf t) (kidx (jbOf t) jj) e) := by
  show V c main_v7 (((cfg1.win 2).blk t).view.emb (ix3 u jj e)) = _
  refine congrArg (V c main_v7) (funext fun a => Fin.ext ?_)
  obtain ⟨-, -, -, -, -, -, e0, e1, e2⟩ := idx_facts t
  have hu := u.isLt
  match a with
  | ⟨0, _⟩ => show win1_2.index t (0 : Fin 3) * 1 + 1 * u.val = t.val / 8; omega
  | ⟨1, _⟩ => show win1_2.index t (1 : Fin 3) * 256 + 1 * jj.val = 256 * (t.val % 8) + jj.val; omega
  | ⟨2, _⟩ => show win1_2.index t (2 : Fin 3) * 1024 + 1 * e.val = e.val; omega

/-- THE BRIDGE: what point t computes from its three blocks is key block jb's contribution to batch b. -/
theorem Cfun_at (c : Dev nD) (t : Fin cfg1.N) (r : Fin 2048) (e : Fin 1024) :
    Cfun (t.val % 8) (iblk1 V c 0 t) (iblk1 V c 1 t) (iblk1 V c 2 t) r e
      = contrib (logitK (curry3 (V c main_v5)) (curry3 (V c main_v6))) (curry3 (V c main_v7)) (bOf t) (jbOf t) r e :=
  Cfun_eq (jbOf t) (bOf t) (curry3 (V c main_v5)) (curry3 (V c main_v6)) (curry3 (V c main_v7))
    (iblk1 V c 0 t) (iblk1 V c 1 t) (iblk1 V c 2 t)
    (fun r e => blk0_apply V c t 0 r e) (fun jj e => blk1_apply V c t 0 jj e) (fun jj e => blk2_apply V c t 0 jj e) r e

end Cert.Attn.Pt

end
-- ==== Proof.KIV.Glue.lean ====
import proofs.«157480_j6983616824221_2_alg».proof.Proof.KIV.Array
import proofs.«157480_j6983616824221_2_alg».proof.Proof.KIV.Point

set_option maxRecDepth 16384

noncomputable section

namespace Cert.Attn.Glue

open Cert.KernelIdeal Cert.KernelIdeal.Gen Cert.KernelIdeal.R1 Cert.KernelIdeal.Sem Cert.Attn.Pt
open Idealize.ShloMosaic Idealize.ShloMosaic.TcCoe Idealize.ShloMosaic.ValueIdx Idealize.SL.Sem

/-! From the eight facts about the body at one key block, each stated on arbitrary staging buffers and blocks, to the
    attention region's array: at a grid point the blocks are rows of q, k, v, so the body's contribution is the
    specification's, and the points' accumulation is the kernel's blocked attention. -/

/-- The body at key block 0, on any staging buffers and blocks: the output block is left at zero plus block 0's
    contribution. -/
abbrev Gen0 : Prop :=
  ∀ (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : init i) (ha0 : act i 256#32) (ha1 : act i 512#32) (ha2 : act i 768#32) (ha3 : act i 1024#32) (ha4 : act i 1280#32) (ha5 : act i 1536#32) (ha6 : act i 1792#32) (ha7 : act i 2048#32)
    (xq : Vec Ideal S1x2048x1024 .bf16) (xk xv : Vec Ideal S1x256x1024 .bf16)
    (hi : (i 1).val = 0) (u : Fin 1) (r : Fin 2048) (e : Fin 1024),
    out_0 (F := Ideal) c i arg2 harg2 arg3 harg3 arg4 harg4 arg5 harg5 arg6 harg6 hz ha0 ha1 ha2 ha3 ha4 ha5 ha6 ha7 xq xk xv (ix3 u r e) = 0 + Cfun 0 xq xk xv r e

/-- The body at key block 1, on any staging buffers and blocks: the query chunks qc ≥ 1 of the output block it finds
    get block 1's contribution, the others are left alone. -/
abbrev Gen1 : Prop :=
  ∀ (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : act i 512#32) (ha2 : act i 768#32) (ha3 : act i 1024#32) (ha4 : act i 1280#32) (ha5 : act i 1536#32) (ha6 : act i 1792#32) (ha7 : act i 2048#32)
    (xq : Vec Ideal S1x2048x1024 .bf16) (xk xv : Vec Ideal S1x256x1024 .bf16) (xo : Vec Ideal S1x2048x1024 .f32)
    (hi : (i 1).val = 1) (u : Fin 1) (r : Fin 2048) (e : Fin 1024),
    out_1 (F := Ideal) c i arg2 harg2 arg3 harg3 arg4 harg4 arg5 harg5 arg6 harg6 hz ha0 ha1 ha2 ha3 ha4 ha5 ha6 ha7 xq xk xv xo (ix3 u r e)
      = if 1 ≤ r.val / 256 then xo (ix3 (0 : Fin 1) r e) + Cfun 1 xq xk xv r e else xo (ix3 (0 : Fin 1) r e)

/-- The body at key block 2, on any staging buffers and blocks: the query chunks qc ≥ 2 of the output block it finds
    get block 2's contribution, the others are left alone. -/
abbrev Gen2 : Prop :=
  ∀ (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : ¬act i 512#32) (ha2 : act i 768#32) (ha3 : act i 1024#32) (ha4 : act i 1280#32) (ha5 : act i 1536#32) (ha6 : act i 1792#32) (ha7 : act i 2048#32)
    (xq : Vec Ideal S1x2048x1024 .bf16) (xk xv : Vec Ideal S1x256x1024 .bf16) (xo : Vec Ideal S1x2048x1024 .f32)
    (hi : (i 1).val = 2) (u : Fin 1) (r : Fin 2048) (e : Fin 1024),
    out_2 (F := Ideal) c i arg2 harg2 arg3 harg3 arg4 harg4 arg5 harg5 arg6 harg6 hz ha0 ha1 ha2 ha3 ha4 ha5 ha6 ha7 xq xk xv xo (ix3 u r e)
      = if 2 ≤ r.val / 256 then xo (ix3 (0 : Fin 1) r e) + Cfun 2 xq xk xv r e else xo (ix3 (0 : Fin 1) r e)

/-- The body at key block 3, on any staging buffers and blocks: the query chunks qc ≥ 3 of the output block it finds
    get block 3's contribution, the others are left alone. -/
abbrev Gen3 : Prop :=
  ∀ (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : ¬act i 512#32) (ha2 : ¬act i 768#32) (ha3 : act i 1024#32) (ha4 : act i 1280#32) (ha5 : act i 1536#32) (ha6 : act i 1792#32) (ha7 : act i 2048#32)
    (xq : Vec Ideal S1x2048x1024 .bf16) (xk xv : Vec Ideal S1x256x1024 .bf16) (xo : Vec Ideal S1x2048x1024 .f32)
    (hi : (i 1).val = 3) (u : Fin 1) (r : Fin 2048) (e : Fin 1024),
    out_3 (F := Ideal) c i arg2 harg2 arg3 harg3 arg4 harg4 arg5 harg5 arg6 harg6 hz ha0 ha1 ha2 ha3 ha4 ha5 ha6 ha7 xq xk xv xo (ix3 u r e)
      = if 3 ≤ r.val / 256 then xo (ix3 (0 : Fin 1) r e) + Cfun 3 xq xk xv r e else xo (ix3 (0 : Fin 1) r e)

/-- The body at key block 4, on any staging buffers and blocks: the query chunks qc ≥ 4 of the output block it finds
    get block 4's contribution, the others are left alone. -/
abbrev Gen4 : Prop :=
  ∀ (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : ¬act i 512#32) (ha2 : ¬act i 768#32) (ha3 : ¬act i 1024#32) (ha4 : act i 1280#32) (ha5 : act i 1536#32) (ha6 : act i 1792#32) (ha7 : act i 2048#32)
    (xq : Vec Ideal S1x2048x1024 .bf16) (xk xv : Vec Ideal S1x256x1024 .bf16) (xo : Vec Ideal S1x2048x1024 .f32)
    (hi : (i 1).val = 4) (u : Fin 1) (r : Fin 2048) (e : Fin 1024),
    out_4 (F := Ideal) c i arg2 harg2 arg3 harg3 arg4 harg4 arg5 harg5 arg6 harg6 hz ha0 ha1 ha2 ha3 ha4 ha5 ha6 ha7 xq xk xv xo (ix3 u r e)
      = if 4 ≤ r.val / 256 then xo (ix3 (0 : Fin 1) r e) + Cfun 4 xq xk xv r e else xo (ix3 (0 : Fin 1) r e)

/-- The body at key block 5, on any staging buffers and blocks: the query chunks qc ≥ 5 of the output block it finds
    get block 5's contribution, the others are left alone. -/
abbrev Gen5 : Prop :=
  ∀ (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : ¬act i 512#32) (ha2 : ¬act i 768#32) (ha3 : ¬act i 1024#32) (ha4 : ¬act i 1280#32) (ha5 : act i 1536#32) (ha6 : act i 1792#32) (ha7 : act i 2048#32)
    (xq : Vec Ideal S1x2048x1024 .bf16) (xk xv : Vec Ideal S1x256x1024 .bf16) (xo : Vec Ideal S1x2048x1024 .f32)
    (hi : (i 1).val = 5) (u : Fin 1) (r : Fin 2048) (e : Fin 1024),
    out_5 (F := Ideal) c i arg2 harg2 arg3 harg3 arg4 harg4 arg5 harg5 arg6 harg6 hz ha0 ha1 ha2 ha3 ha4 ha5 ha6 ha7 xq xk xv xo (ix3 u r e)
      = if 5 ≤ r.val / 256 then xo (ix3 (0 : Fin 1) r e) + Cfun 5 xq xk xv r e else xo (ix3 (0 : Fin 1) r e)

/-- The body at key block 6, on any staging buffers and blocks: the query chunks qc ≥ 6 of the output block it finds
    get block 6's contribution, the others are left alone. -/
abbrev Gen6 : Prop :=
  ∀ (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : ¬act i 512#32) (ha2 : ¬act i 768#32) (ha3 : ¬act i 1024#32) (ha4 : ¬act i 1280#32) (ha5 : ¬act i 1536#32) (ha6 : act i 1792#32) (ha7 : act i 2048#32)
    (xq : Vec Ideal S1x2048x1024 .bf16) (xk xv : Vec Ideal S1x256x1024 .bf16) (xo : Vec Ideal S1x2048x1024 .f32)
    (hi : (i 1).val = 6) (u : Fin 1) (r : Fin 2048) (e : Fin 1024),
    out_6 (F := Ideal) c i arg2 harg2 arg3 harg3 arg4 harg4 arg5 harg5 arg6 harg6 hz ha0 ha1 ha2 ha3 ha4 ha5 ha6 ha7 xq xk xv xo (ix3 u r e)
      = if 6 ≤ r.val / 256 then xo (ix3 (0 : Fin 1) r e) + Cfun 6 xq xk xv r e else xo (ix3 (0 : Fin 1) r e)

/-- The body at key block 7, on any staging buffers and blocks: the query chunks qc ≥ 7 of the output block it finds
    get block 7's contribution, the others are left alone. -/
abbrev Gen7 : Prop :=
  ∀ (c : Dev nD) (i : grid1.Coords)
    (arg2 : Memref sig .tc .vmem S1x2048x1024 .bf16) (harg2 : arg2.IsWhole)
    (arg3 : Memref sig .tc .vmem S1x256x1024 .bf16) (harg3 : arg3.IsWhole)
    (arg4 : Memref sig .tc .vmem S1x256x1024 .bf16) (harg4 : arg4.IsWhole)
    (arg5 : Memref sig .tc .vmem S1x2048x1024 .f32) (harg5 : arg5.IsWhole)
    (arg6 : Memref sig .tc .vmem S2048x256 .f32) (harg6 : arg6.IsWhole)
    (hz : ¬init i) (ha0 : ¬act i 256#32) (ha1 : ¬act i 512#32) (ha2 : ¬act i 768#32) (ha3 : ¬act i 1024#32) (ha4 : ¬act i 1280#32) (ha5 : ¬act i 1536#32) (ha6 : ¬act i 1792#32) (ha7 : act i 2048#32)
    (xq : Vec Ideal S1x2048x1024 .bf16) (xk xv : Vec Ideal S1x256x1024 .bf16) (xo : Vec Ideal S1x2048x1024 .f32)
    (hi : (i 1).val = 7) (u : Fin 1) (r : Fin 2048) (e : Fin 1024),
    out_7 (F := Ideal) c i arg2 harg2 arg3 harg3 arg4 harg4 arg5 harg5 arg6 harg6 hz ha0 ha1 ha2 ha3 ha4 ha5 ha6 ha7 xq xk xv xo (ix3 u r e)
      = if 7 ≤ r.val / 256 then xo (ix3 (0 : Fin 1) r e) + Cfun 7 xq xk xv r e else xo (ix3 (0 : Fin 1) r e)

variable (V : (c : Dev nD) → (b : Ref sig .tc) → Buf (Elt Ideal) ((c : Thread nD τ).loc b))

/-- At a point with key block 0 the output block is zero plus the specification's contribution of block 0. -/
theorem step0 (h : Gen0) (c : Dev nD) (t : Fin cfg1.N) (hk : t.val % 8 = 0) (u : Fin 1) (i : Fin 2048) (e : Fin 1024) :
    outAt_0 V c t hk (ix3 u i e)
      = 0 + contrib (R1A.T V c) (R1A.vv V c) (R1A.bOf t) ⟨0, by decide⟩ i e := by
  have hC := Cfun_at V c t i e
  rw [hk, show jbOf t = (⟨0, by decide⟩ : Fin 8) from Fin.ext hk] at hC
  unfold outAt_0
  refine (h _ _ _ _ _ _ _ _ _ _ _ _ _ _ _ _ _ _ _ _ _ _ _ _ ((coords_eq t).2.trans hk) u i e).trans ?_
  rw [hC]
  rfl

/-! At a point with key block k > 0: the chunks qc ≥ k get the specification's contribution of block k. -/

theorem step1 (h : Gen1) (c : Dev nD) : R1A.StepHyp V c 1 (by decide) (outAt_1 V c) := by
  intro t hk xo u i e
  have hC := Cfun_at V c t i e
  rw [hk, show jbOf t = (⟨1, by decide⟩ : Fin 8) from Fin.ext hk] at hC
  unfold outAt_1
  refine (h _ _ _ _ _ _ _ _ _ _ _ _ _ _ _ _ _ _ _ _ _ _ _ _ xo ((coords_eq t).2.trans hk) u i e).trans ?_
  rw [hC]
  rfl

theorem step2 (h : Gen2) (c : Dev nD) : R1A.StepHyp V c 2 (by decide) (outAt_2 V c) := by
  intro t hk xo u i e
  have hC := Cfun_at V c t i e
  rw [hk, show jbOf t = (⟨2, by decide⟩ : Fin 8) from Fin.ext hk] at hC
  unfold outAt_2
  refine (h _ _ _ _ _ _ _ _ _ _ _ _ _ _ _ _ _ _ _ _ _ _ _ _ xo ((coords_eq t).2.trans hk) u i e).trans ?_
  rw [hC]
  rfl

theorem step3 (h : Gen3) (c : Dev nD) : R1A.StepHyp V c 3 (by decide) (outAt_3 V c) := by
  intro t hk xo u i e
  have hC := Cfun_at V c t i e
  rw [hk, show jbOf t = (⟨3, by decide⟩ : Fin 8) from Fin.ext hk] at hC
  unfold outAt_3
  refine (h _ _ _ _ _ _ _ _ _ _ _ _ _ _ _ _ _ _ _ _ _ _ _ _ xo ((coords_eq t).2.trans hk) u i e).trans ?_
  rw [hC]
  rfl

theorem step4 (h : Gen4) (c : Dev nD) : R1A.StepHyp V c 4 (by decide) (outAt_4 V c) := by
  intro t hk xo u i e
  have hC := Cfun_at V c t i e
  rw [hk, show jbOf t = (⟨4, by decide⟩ : Fin 8) from Fin.ext hk] at hC
  unfold outAt_4
  refine (h _ _ _ _ _ _ _ _ _ _ _ _ _ _ _ _ _ _ _ _ _ _ _ _ xo ((coords_eq t).2.trans hk) u i e).trans ?_
  rw [hC]
  rfl

theorem step5 (h : Gen5) (c : Dev nD) : R1A.StepHyp V c 5 (by decide) (outAt_5 V c) := by
  intro t hk xo u i e
  have hC := Cfun_at V c t i e
  rw [hk, show jbOf t = (⟨5, by decide⟩ : Fin 8) from Fin.ext hk] at hC
  unfold outAt_5
  refine (h _ _ _ _ _ _ _ _ _ _ _ _ _ _ _ _ _ _ _ _ _ _ _ _ xo ((coords_eq t).2.trans hk) u i e).trans ?_
  rw [hC]
  rfl

theorem step6 (h : Gen6) (c : Dev nD) : R1A.StepHyp V c 6 (by decide) (outAt_6 V c) := by
  intro t hk xo u i e
  have hC := Cfun_at V c t i e
  rw [hk, show jbOf t = (⟨6, by decide⟩ : Fin 8) from Fin.ext hk] at hC
  unfold outAt_6
  refine (h _ _ _ _ _ _ _ _ _ _ _ _ _ _ _ _ _ _ _ _ _ _ _ _ xo ((coords_eq t).2.trans hk) u i e).trans ?_
  rw [hC]
  rfl

theorem step7 (h : Gen7) (c : Dev nD) : R1A.StepHyp V c 7 (by decide) (outAt_7 V c) := by
  intro t hk xo u i e
  have hC := Cfun_at V c t i e
  rw [hk, show jbOf t = (⟨7, by decide⟩ : Fin 8) from Fin.ext hk] at hC
  unfold outAt_7
  refine (h _ _ _ _ _ _ _ _ _ _ _ _ _ _ _ _ _ _ _ _ _ _ _ _ xo ((coords_eq t).2.trans hk) u i e).trans ?_
  rw [hC]
  rfl

/-- THE ATTENTION REGION'S ARRAY, from the eight facts: the kernel's blocked attention of the logits and values it
    finds, coordinate by coordinate. -/
theorem R1_of_cases (h0 : Gen0) (h1 : Gen1) (h2 : Gen2) (h3 : Gen3) (h4 : Gen4) (h5 : Gen5) (h6 : Gen6) (h7 : Gen7)
    (V : (c : Dev nD) → (b : Ref sig .tc) → Buf (Elt Ideal) ((c : Thread nD τ).loc b))
    (c : Dev nD) (b : Fin 8) (i : Fin 2048) (e : Fin 1024) :
    (dat1 (F := Ideal) V c).arrAt 3 cfg1.N (ix3 b i e)
      = attnK (logitK (curry3 (V c main_v5)) (curry3 (V c main_v6))) (curry3 (V c main_v7)) b i e :=
  R1A.R1_value V c (step0 V h0 c) (step1 V h1 c) (step2 V h2 c) (step3 V h3 c) (step4 V h4 c) (step5 V h5 c)
    (step6 V h6 c) (step7 V h7 c) b i e

end Cert.Attn.Glue

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.KIV.Geom.lean ====
/-
  Where a chunk of rows sits in its buffer, and what a load of it reads.

  The score scratch is 2048 × 256 and a chunk is its rows Q … Q+255; the output block is 1 × 2048 × 1024 and a chunk is
  its rows Q … Q+255 of the one plane.  Entry (r, ·) of a chunk is entry (Q + r, ·) of the buffer; a buffer entry lies in
  the chunk exactly when its row is in Q … Q+255.  A load of a chunk from a buffer whose contents are known reads those
  contents at the chunk's rows.
-/
import proofs.«157480_j6983616824221_2_alg».proof.Proof.Gen.KernelIdeal.Skeleton
import proofs.«157480_j6983616824221_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Idealize.ShloMosaic.Lib.Pipeline.FrameBody
import Idealize.ShloMosaic.Lib.Pipeline.Frame

set_option maxRecDepth 16384

noncomputable section

namespace Cert.KernelIdeal.Pay

open Cert.KernelIdeal Cert.KernelIdeal.Gen
open Idealize.ShloMosaic Idealize.ShloMosaic.ValueIdx

open Idealize.ShloMosaic.View

/-- Entry (r, jj) of the scratch chunk at row Q. -/
theorem emb2 (Q : ℕ) (inb : ∀ a, (![Q, 0] : Fin 2 → ℕ) a + S256x256.size a ≤ S2048x256.size a) (r jj : Fin 256) (h : Q + r.val < 2048) :
    (Rect.unit (s := S2048x256) ![Q, 0] S256x256.size inb).emb (ix2 r jj) = ix2 (⟨Q + r.val, h⟩ : Fin 2048) jj :=
  funext fun a => Fin.ext (by
    match a with
    | ⟨0, _⟩ => show Q + 1 * r.val = Q + r.val; omega
    | ⟨1, _⟩ => show 0 + 1 * jj.val = jj.val; omega)

/-- Entry (u, r, e) of the output chunk at row Q. -/
theorem emb3 (Q : ℕ) (inb : ∀ a, (![0, Q, 0] : Fin 3 → ℕ) a + S1x256x1024.size a ≤ S1x2048x1024.size a) (u : Fin 1) (r : Fin 256) (e : Fin 1024)
    (h : Q + r.val < 2048) :
    (Rect.unit (s := S1x2048x1024) ![0, Q, 0] S1x256x1024.size inb).emb (ix3 u r e) = ix3 (0 : Fin 1) (⟨Q + r.val, h⟩ : Fin 2048) e :=
  funext fun a => Fin.ext (by
    match a with
    | ⟨0, _⟩ => show 0 + 1 * u.val = 0; omega
    | ⟨1, _⟩ => show Q + 1 * r.val = Q + r.val; omega
    | ⟨2, _⟩ => show 0 + 1 * e.val = e.val; omega)

/-- A scratch entry lies in the chunk at row Q exactly when its row does. -/
theorem mem2 (Q : ℕ) (inb : ∀ a, (![Q, 0] : Fin 2 → ℕ) a + S256x256.size a ≤ S2048x256.size a) (r : Fin 2048) (jj : Fin 256) :
    ix2 r jj ∈ (Rect.unit (s := S2048x256) ![Q, 0] S256x256.size inb).set ↔ Q ≤ r.val ∧ r.val < Q + 256 := by
  rw [Rect.mem_set_unit]
  constructor
  · intro h; exact h 0
  · intro h a
    match a with
    | ⟨0, _⟩ => exact h
    | ⟨1, _⟩ => exact ⟨Nat.zero_le _, by show jj.val < 0 + 256; omega⟩

/-- An output entry lies in the chunk at row Q exactly when its row does. -/
theorem mem3 (Q : ℕ) (inb : ∀ a, (![0, Q, 0] : Fin 3 → ℕ) a + S1x256x1024.size a ≤ S1x2048x1024.size a) (u : Fin 1) (r : Fin 2048) (e : Fin 1024) :
    ix3 u r e ∈ (Rect.unit (s := S1x2048x1024) ![0, Q, 0] S1x256x1024.size inb).set ↔ Q ≤ r.val ∧ r.val < Q + 256 := by
  rw [Rect.mem_set_unit]
  constructor
  · intro h; exact h 1
  · intro h a
    match a with
    | ⟨0, _⟩ => exact ⟨Nat.zero_le _, by show u.val < 0 + 1; omega⟩
    | ⟨1, _⟩ => exact h
    | ⟨2, _⟩ => exact ⟨Nat.zero_le _, by show e.val < 0 + 1024; omega⟩

/-- A load of the output chunk at row Q from known contents. -/
theorem ld3 {φ : EltTy} (X : Vec Ideal S1x2048x1024 φ) (Q : ℕ) (inb : ∀ a, (![0, Q, 0] : Fin 3 → ℕ) a + S1x256x1024.size a ≤ S1x2048x1024.size a)
    (u : Fin 1) (r : Fin 256) (e : Fin 1024) (h : Q + r.val < 2048) :
    View.ld (Val := Elt Ideal) X (Rect.unit (s := S1x2048x1024) ![0, Q, 0] S1x256x1024.size inb) (ix3 u r e) = X (ix3 (0 : Fin 1) (⟨Q + r.val, h⟩ : Fin 2048) e) :=
  congrArg X (emb3 Q inb u r e h)

/-- A load of the whole key or value block from known contents. -/
theorem ldk {φ : EltTy} (X : Vec Ideal S1x256x1024 φ) (inb : ∀ a, (![0, 0, 0] : Fin 3 → ℕ) a + S1x256x1024.size a ≤ S1x256x1024.size a)
    (u : Fin 1) (jj : Fin 256) (e : Fin 1024) :
    View.ld (Val := Elt Ideal) X (Rect.unit (s := S1x256x1024) ![0, 0, 0] S1x256x1024.size inb) (ix3 u jj e) = X (ix3 (0 : Fin 1) jj e) :=
  congrArg X (funext fun a => Fin.ext (by
    match a with
    | ⟨0, _⟩ => show 0 + 1 * u.val = 0; omega
    | ⟨1, _⟩ => show 0 + 1 * jj.val = jj.val; omega
    | ⟨2, _⟩ => show 0 + 1 * e.val = e.val; omega))

end Cert.KernelIdeal.Pay

end
-- ==== Proof.KIV.Pay.lean ====
/-
  The attention body's arithmetic read at an index, over the extended reals.

  The column statistics of a 2048 × 256 score block: its maximum down each column from -∞, and the sum down each
  column of the exponentials of the differences.  The contribution of a 256-row chunk of weights to the output
  chunk: what was there plus weights times values, the weight of row r on key jj being
  exp(score − column max) / column sum.
-/
import proofs.«157480_j6983616824221_2_alg».proof.Proof.Gen.KernelIdeal.Skeleton
import proofs.«157480_j6983616824221_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

set_option maxRecDepth 16384

noncomputable section

namespace Cert.KernelIdeal.Pay

open Cert.KernelIdeal Cert.KernelIdeal.Gen
open Idealize.ShloMosaic Idealize.ShloMosaic.ValueIdx

/-- The named fill value is -∞. -/
theorem neg_big : Named.named (F := Ideal) κ "neg_big" (φ := .f32) 0xFF333332#32 = (⊥ : EReal) :=
  IdealRules.named_const.ideal_named_scalar _ _ _ _ rfl

/-- The score scratch's fill: -∞ everywhere. -/
theorem pay8_apply (y : S2048x256.Idx) : k1_pay8 (F := Ideal) y = ⊥ := by
  unfold k1_pay8
  rw [shapeCast_self]
  exact neg_big

/-- The output block's first store at the first key block: zero everywhere. -/
theorem pay5_apply (u : Fin 1) (r : Fin 2048) (e : Fin 1024) : k1_pay5 (F := Ideal) (ix3 u r e) = 0 := by
  unfold k1_pay5
  rw [shapeCast_ab_1ab_apply]
  exact Ideal.ofBits_zero_f32

/-- The key block and the value block with their unit axis dropped. -/
theorem pay6_apply (v4 : Vec Ideal S1x256x1024 .bf16) (jj : Fin 256) (e : Fin 1024) : k1_pay6 (F := Ideal) v4 (ix2 jj e) = v4 (ix3 (0 : Fin 1) jj e) := by
  unfold k1_pay6
  rw [shapeCast_1ab_ab_apply]
theorem pay7_apply (v6 : Vec Ideal S1x256x1024 .bf16) (jj : Fin 256) (e : Fin 1024) : k1_pay7 (F := Ideal) v6 (ix2 jj e) = v6 (ix3 (0 : Fin 1) jj e) := by
  unfold k1_pay7
  rw [shapeCast_1ab_ab_apply]

/-- A column's maximum from -∞. -/
theorem lift_eq (h : Shape.Reduces S2048x256 [0] S256) (jj : Fin 256) (r : Fin 2048) : h.lift (ix1 jj) r = ix2 r jj :=
  funext fun a => Fin.ext (by match a with | ⟨0, _⟩ => rfl | ⟨1, _⟩ => rfl)

theorem colmax_apply (v36 : FVec Ideal S2048x256 .f32) (h : Shape.Reduces S2048x256 [0] S256) (hφ : FKind.Formats .f32)
    (hacc : (0xFF800000#32 : BitVec 32) = FKind.maximumf.neutral .f32 hφ) (jj : Fin 256) :
    multiReduction .maximumf [0] S256 v36 0xFF800000#32 h hφ hacc (ix1 jj)
      = (Finset.univ : Finset (Fin 2048)).fold max ⊥ (fun r => v36 (ix2 r jj)) := by
  refine (Ideal.multiReduction_maximumf_single v36 _ h hφ hacc (ix1 jj)).trans ?_
  have e0 : FloatOps.ofBits (F := Ideal) .f32 0xFF800000#32 = (⊥ : EReal) := by simp [Ideal.ofBits, Ideal.ieee]
  rw [e0]
  exact congrArg (fun g : Fin 2048 → EReal => (Finset.univ : Finset (Fin 2048)).fold max ⊥ g) (funext fun r => congrArg v36 (lift_eq h jj r))

theorem pay17_apply (v36 : FVec Ideal S2048x256 .f32) (u : Fin 1) (jj : Fin 256) :
    k1_pay17 (F := Ideal) v36 (ix2 u jj) = (Finset.univ : Finset (Fin 2048)).fold max ⊥ (fun r => v36 (ix2 r jj)) := by
  unfold k1_pay17
  rw [shapeCast_a_1a_apply]
  exact colmax_apply v36 _ _ _ jj

/-- A column's sum. -/
theorem colsum_apply (v42 : FVec Ideal S2048x256 .f32) (h : Shape.Reduces S2048x256 [0] S256) (hφ : FKind.Formats .f32)
    (hacc : (0x00000000#32 : BitVec 32) = FKind.add.neutral .f32 hφ) (jj : Fin 256) :
    multiReduction .add [0] S256 v42 0x00000000#32 h hφ hacc (ix1 jj) = ∑ r : Fin 2048, v42 (ix2 r jj) := by
  refine (Ideal.multiReduction_add_single v42 _ h hφ hacc (ix1 jj)).trans ?_
  exact Finset.sum_congr rfl fun r _ => congrArg v42 (lift_eq h jj r)

theorem pay18_apply (v36 v39 : FVec Ideal S2048x256 .f32) (u : Fin 1) (jj : Fin 256) :
    k1_pay18 (F := Ideal) v36 v39 (ix2 u jj) = ∑ r : Fin 2048, Ideal.exp (v39 (ix2 r jj) - k1_pay17 (F := Ideal) v36 (ix2 (0 : Fin 1) jj)) := by
  unfold k1_pay18
  rw [shapeCast_a_1a_apply]
  refine (colsum_apply _ _ _ _ jj).trans ?_
  refine Finset.sum_congr rfl fun r _ => ?_
  refine congrArg Ideal.exp ?_
  refine congrArg (v39 (ix2 r jj) - ·) ?_
  exact broadcastTo_1b_ab_apply _ _ r jj

/-- A chunk's contribution added to what the output chunk held. -/
theorem pay1_apply (v7 : FVec Ideal S256x1024 .bf16) (v38 v44 : FVec Ideal S1x256 .f32) (v69 : Vec Ideal S256x256 .f32)
    (v77 : Vec Ideal S1x256x1024 .f32) (u : Fin 1) (r : Fin 256) (e : Fin 1024) :
    k1_pay1 (F := Ideal) v7 v38 v44 v69 v77 (ix3 u r e)
      = v77 (ix3 (0 : Fin 1) r e)
        + ∑ jj : Fin 256, Ideal.div (Ideal.exp (v69 (ix2 r jj) - v38 (ix2 (0 : Fin 1) jj))) (v44 (ix2 (0 : Fin 1) jj)) * v7 (ix2 jj e) := by
  unfold k1_pay1
  rw [shapeCast_ab_1ab_apply]
  refine congrArg₂ (· + ·) (shapeCast_1ab_ab_apply _ _ r e) ?_
  refine (Cert.LibPlainDot.matmul_zero_apply _ ⟨rfl, rfl, rfl, rfl, rfl, rfl⟩ none _ _ r e).trans ?_
  refine Finset.sum_congr rfl fun jj _ => ?_
  refine congrArg (· * v7 (ix2 jj e)) ?_
  refine congrArg₂ Ideal.div (congrArg Ideal.exp (congrArg (v69 (ix2 r jj) - ·) (broadcastTo_1b_ab_apply _ _ r jj))) (broadcastTo_1b_ab_apply _ _ r jj)

end Cert.KernelIdeal.Pay

end
-- ==== Proof.KIV.Score.lean ====
/-
  The masked, scaled scores of one 256-row query chunk against the 256 keys of the block, at an index.

  Entry (r, jj) of the chunk that starts at query row Q, for the key block that starts at key row 256·jb, is the
  inner product of query row r with key row jj times 1/32 when key 256·jb + jj is not after query Q + r, and -∞
  otherwise.  The comparison is made on 32-bit words; all the numbers involved are below 2³¹, so the signed word
  comparison is the comparison of the numbers.
-/
import proofs.«157480_j6983616824221_2_alg».proof.Proof.Gen.KernelIdeal.Skeleton
import proofs.«157480_j6983616824221_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Idealize.ShloMosaic.Lib.Affine
import proofs.«157480_j6983616824221_2_alg».proof.Proof.KIV.Pay

set_option maxRecDepth 16384

noncomputable section

namespace Cert.KernelIdeal.Pay

open Cert.KernelIdeal Cert.KernelIdeal.Gen
open Idealize.ShloMosaic Idealize.ShloMosaic.ValueIdx

/-- A number below 2³¹ is its word's signed reading. -/
theorem toInt_small (a : ℕ) (h : a < 2 ^ 31) : (BitVec.ofNat 32 a).toInt = (a : ℤ) := by
  have h1 : (BitVec.ofNat 32 a).toNat = a := by rw [BitVec.toNat_ofNat]; omega
  rw [BitVec.toInt_eq_toNat_cond, h1]
  split <;> omega

/-- The mask bit: query row Q + r against key row 256·jb + jj. -/
theorem mask_bit (r jj Q jb : ℕ) (hr : r < 256) (hjj : jj < 256) (hQ : Q ≤ 1792) (hjb : jb < 8) :
    IntOp.cmpi .sge (IntOp.addi (BitVec.ofNat 32 r) (BitVec.ofNat 32 Q))
        (IntOp.addi (BitVec.ofNat 32 jj) (IntOp.muli (BitVec.ofNat 32 jb) 256#32)) = 1#1
      ↔ 256 * jb + jj ≤ Q + r := by
  rw [IntOp.cmpi_sge]
  have e1 : IntOp.addi (BitVec.ofNat 32 r) (BitVec.ofNat 32 Q) = BitVec.ofNat 32 (r + Q) := (BitVec.ofNat_add r Q).symm
  have e2 : IntOp.addi (BitVec.ofNat 32 jj) (IntOp.muli (BitVec.ofNat 32 jb) 256#32) = BitVec.ofNat 32 (jj + jb * 256) := by
    show BitVec.ofNat 32 jj + BitVec.ofNat 32 jb * BitVec.ofNat 32 256 = _
    rw [← BitVec.ofNat_mul, ← BitVec.ofNat_add]
  rw [e1, e2, toInt_small _ (by omega), toInt_small _ (by omega)]
  omega

/-- The printed score payload with the chunk's first row as a parameter. -/
def scoreBody (Q v0 : BitVec 32) (v5 : FVec Ideal S256x1024 .bf16) (v69 : Vec Ideal S1x256x1024 .bf16) : FVec Ideal S256x256 .f32 :=
  have v70 : FVec Ideal S256x1024 .bf16 := shapeCast S256x1024 v69 shapeCasts_S1x256x1024_S256x1024
  have v71 : FVec Ideal S1024x256 .bf16 := transpose S1024x256 [1, 0] v5 transposes_S256x1024_p1_0_S1024x256
  have cst_41 : FVec Ideal S256x256 .f32 := constant S256x256 .f32 0x00000000#32
  have v72 : FVec Ideal S256x256 .f32 := matmul dot_S256x1024_S1024x256_S256x256_1_0_0_1_n_n none v70 v71 cst_41
  have cst_42 : Ideal .f32 := Scalar.ofBits .f32 0x3D000000#32
  have v73 : FVec Ideal S256x256 .f32 := broadcast S256x256 cst_42
  have v74 : FVec Ideal S256x256 .f32 := mulf v72 v73
  have v75 : IVec S256x256 32 := iota .tc S256x256 32 [0] iota_S256x256_d0_w32
  have v76 : IVec S256x256 32 := broadcast S256x256 Q
  have v77 : IVec S256x256 32 := addi v75 v76
  have v78 : IVec S256x256 32 := iota .tc S256x256 32 [1] iota_S256x256_d1_w32
  have v79 : IVec S256x256 32 := broadcast S256x256 v0
  have v80 : IVec S256x256 32 := addi v78 v79
  have v81 : IVec S256x256 1 := cmpi .sge v77 v80
  have cst_44 : Ideal .f32 := Named.named κ "neg_big" 0xFF333332#32
  have v82 : FVec Ideal S256x256 .f32 := broadcast S256x256 cst_44
  have v83 : FVec Ideal S256x256 .f32 := select v81 v74 v82
  have v86 : FVec Ideal S256x256 .f32 := shapeCast S256x256 v83 shapeCasts_S256x256_S256x256
  v86

/-- 0x3D000000 is 1/32. -/
theorem scale_val : Scalar.ofBits (F := Ideal) .f32 0x3D000000#32 = ((1 / 32 : ℝ) : EReal) := by
  simp [Scalar.ofBits, Ideal.ofBits, Ideal.ieee, -EReal.coe_mul]
  norm_num

theorem scoreBody_apply (Q jb : ℕ) (hQ : Q ≤ 1792) (hjb : jb < 8) (v5 : FVec Ideal S256x1024 .bf16) (v69 : Vec Ideal S1x256x1024 .bf16)
    (r jj : Fin 256) :
    scoreBody (BitVec.ofNat 32 Q) (IntOp.muli (BitVec.ofNat 32 jb) 256#32) v5 v69 (ix2 r jj)
      = if 256 * jb + jj.val ≤ Q + r.val then (∑ e : Fin 1024, v69 (ix3 (0 : Fin 1) r e) * v5 (ix2 jj e)) * ((1 / 32 : ℝ) : EReal) else ⊥ := by
  unfold scoreBody
  rw [shapeCast_self]
  show Scalar.select (IntOp.cmpi .sge (IntOp.addi (iota .tc S256x256 32 [0] iota_S256x256_d0_w32 (ix2 r jj)) (BitVec.ofNat 32 Q))
      (IntOp.addi (iota .tc S256x256 32 [1] iota_S256x256_d1_w32 (ix2 r jj)) (IntOp.muli (BitVec.ofNat 32 jb) 256#32)))
    (FloatOps.matmul dot_S256x1024_S1024x256_S256x256_1_0_0_1_n_n none (shapeCast S256x1024 v69 shapeCasts_S1x256x1024_S256x1024)
        (transpose S1024x256 [1, 0] v5 transposes_S256x1024_p1_0_S1024x256) (constant S256x256 .f32 0x00000000#32) (ix2 r jj)
      * Scalar.ofBits (F := Ideal) .f32 0x3D000000#32)
    (Named.named (F := Ideal) κ "neg_big" (φ := .f32) 0xFF333332#32) = _
  rw [iota_single_apply, iota_single_apply, neg_big, scale_val,
    Cert.LibPlainDot.matmul_zero_apply _ ⟨rfl, rfl, rfl, rfl, rfl, rfl⟩ none _ _ r jj]
  have hsum : (∑ e : Fin 1024, shapeCast S256x1024 v69 shapeCasts_S1x256x1024_S256x1024 (ix2 r e)
        * transpose S1024x256 [1, 0] v5 transposes_S256x1024_p1_0_S1024x256 (ix2 e jj))
      = ∑ e : Fin 1024, v69 (ix3 (0 : Fin 1) r e) * v5 (ix2 jj e) :=
    Finset.sum_congr rfl fun e _ => by rw [shapeCast_1ab_ab_apply, transpose_ix2_apply]
  rw [hsum]
  by_cases hc : 256 * jb + jj.val ≤ Q + r.val
  · rw [if_pos hc, (mask_bit r.val jj.val Q jb r.isLt jj.isLt hQ hjb).mpr hc]
    exact select_one _ _
  · rw [if_neg hc, eq_zero_of_ne_one (fun h => hc ((mask_bit r.val jj.val Q jb r.isLt jj.isLt hQ hjb).mp h))]
    exact select_zero _ _

end Cert.KernelIdeal.Pay

end
-- ==== Proof.LibCanonOver.lean ====
import Idealize.ShloMosaic.Lib.Pipeline.CanonAppend
import Idealize.ShloMosaic.Lib.Writes

/-!
# Stores that are blocks of one function, over something else

A list of stores is written last made first.  If the later stores are each a block of one function `G` of the
buffer's index, then wherever one of them reaches the buffer holds `G`.  Two complements for what lies beneath:

* beneath them lies ONE earlier store (a fill) that agrees with `G` wherever none of the later stores reaches:
  then the buffer holds `G` everywhere the fill reaches (`canon_blocks_over`);
* beneath them lie given contents `f`: then an element none of the stores reaches still reads `f`, and an element
  one of them reaches reads `G` (`read_writes_blocks`).
-/

noncomputable section

namespace Cert.LibCanonOver

open Idealize.ShloMosaic Idealize.ShloMosaic.View

variable {Val : EltTy → Type} {S : Shape} {e : EltTy}

/-- Stores that do not reach an index are invisible there. -/
theorem canon_append_of_forall_not_mem [∀ e, Nonempty (Val e)] (L L' : List (Piece Val S e)) (y : S.Idx)
    (h : ∀ q ∈ L, y ∉ q.1.set) : canon (L ++ L') y = canon L' y := by
  induction L with
  | nil => rfl
  | cons p L ih =>
    rw [List.cons_append, canon_cons_of_not_mem _ _ (h p List.mem_cons_self)]
    exact ih fun q hq => h q (List.mem_cons_of_mem _ hq)

/-- Blocks of `G` over one earlier store that agrees with `G` off the blocks: `G` wherever that store reaches. -/
theorem canon_blocks_over [∀ e, Nonempty (Val e)] (G : S.Idx → Val e) (L : List (Piece Val S e)) (p : Piece Val S e)
    (hL : ∀ q ∈ L, ∀ x : q.1.shape.Idx, q.2 x = G (q.1.emb x))
    (hp : ∀ x : p.1.shape.Idx, (∀ q ∈ L, p.1.emb x ∉ q.1.set) → p.2 x = G (p.1.emb x))
    (y : S.Idx) (hy : y ∈ p.1.set) : canon (L ++ [p]) y = G y := by
  by_cases hc : ∃ q ∈ L, y ∈ q.1.set
  · exact canon_append_of_pieces G [p] L hL y hc
  · have hn : ∀ q ∈ L, y ∉ q.1.set := fun q hq hyq => hc ⟨q, hq, hyq⟩
    rw [canon_append_of_forall_not_mem L [p] y hn]
    obtain ⟨x, rfl⟩ : ∃ x, p.1.emb x = y := p.1.exists_idx_of_mem hy
    obtain ⟨r, w⟩ := p
    rw [canon_cons_emb]
    exact hp x hn

/-- Blocks of `G` written over contents `f`: `G` where a block reaches, `f` elsewhere. -/
theorem read_writes_blocks {sig : RefSig} {κ : Kind} {sp : Space} (v : View sig κ sp S e) (f : v.ty.Contents Val)
    (G : S.Idx → Val e) (L : List (Piece Val S e)) (hL : ∀ q ∈ L, ∀ x : q.1.shape.Idx, q.2 x = G (q.1.emb x)) (y : S.Idx) :
    (∃ q ∈ L, y ∈ q.1.set) → v.read Val (v.writes Val f L) y = G y :=
  read_writes_apply_of_pieces v f G L hL y

theorem read_writes_off {sig : RefSig} {κ : Kind} {sp : Space} (v : View sig κ sp S e) (f : v.ty.Contents Val)
    (L : List (Piece Val S e)) (y : S.Idx) (h : ∀ q ∈ L, y ∉ q.1.set) :
    v.read Val (v.writes Val f L) y = v.read Val f y :=
  read_writes_apply_of_forall_not_mem v f y L h

end Cert.LibCanonOver

end
-- ==== Proof.KIV.Lists.lean ====
/-
  The stores and loads of one grid point of the attention, named, and what each holds.

  The point's loads of the key block, the value block and a query chunk read the blocks it was handed.  The store of
  an active query chunk's scores into the scratch is a block of ONE function of the scratch index, the masked scaled
  score S; the fill beneath is -∞, which is S on every row before the key block's first row.
-/
import proofs.«157480_j6983616824221_2_alg».proof.Proof.Gen.KernelIdeal.Skeleton
import proofs.«157480_j6983616824221_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Idealize.ShloMosaic.Lib.Pipeline.FrameBody
import Idealize.ShloMosaic.Lib.Pipeline.Frame
import proofs.«157480_j6983616824221_2_alg».proof.Proof.KIV.Geom
import proofs.«157480_j6983616824221_2_alg».proof.Proof.KIV.Score
import proofs.«157480_j6983616824221_2_alg».proof.Proof.KIV.Sem
import proofs.«157480_j6983616824221_2_alg».proof.Proof.LibCanonOver

set_option maxRecDepth 16384

noncomputable section

namespace Cert.KernelIdeal.Pay

open Cert.KernelIdeal Cert.KernelIdeal.Gen
open Idealize.ShloMosaic Idealize.ShloMosaic.ValueIdx

open Idealize.ShloMosaic.View Cert.KernelIdeal.Sem

section

variable (i : grid1.Coords)
  (arg2 : Memref sig .tc .vmem S1x2048x1024 .bf16) (harg2 : arg2.IsWhole)
  (arg3 : Memref sig .tc .vmem S1x256x1024 .bf16) (harg3 : arg3.IsWhole)
  (arg4 : Memref sig .tc .vmem S1x256x1024 .bf16) (harg4 : arg4.IsWhole)
  (xq : Vec Ideal S1x2048x1024 .bf16) (xk xv : Vec Ideal S1x256x1024 .bf16)

/-- The key block's first row as a word: 256 · jb. -/
abbrev V0w : BitVec 32 := Scalar.muli (BitVec.ofNat 32 (i 1).val) 256#32
/-- The key block and the value block as loaded. -/
abbrev Kld : Vec Ideal S1x256x1024 .bf16 :=
  View.readAt (Elt Ideal) arg3.view (Rect.unit (s := S1x256x1024) ![0, 0, 0] S1x256x1024.size inb_S1x256x1024_S1x256x1024_0_0_0).toLoadRect (harg3.unread xk)
abbrev Vld : Vec Ideal S1x256x1024 .bf16 :=
  View.readAt (Elt Ideal) arg4.view (Rect.unit (s := S1x256x1024) ![0, 0, 0] S1x256x1024.size inb_S1x256x1024_S1x256x1024_0_0_0).toLoadRect (harg4.unread xv)
/-- The query chunk at row Q as loaded. -/
abbrev Qld (Q : ℕ) (inb : ∀ a, (![0, Q, 0] : Fin 3 → ℕ) a + S1x256x1024.size a ≤ S1x2048x1024.size a) : Vec Ideal S1x256x1024 .bf16 :=
  View.readAt (Elt Ideal) arg2.view (Rect.unit (s := S1x2048x1024) ![0, Q, 0] S1x256x1024.size inb).toLoadRect (harg2.unread xq)

theorem Kld_apply (u : Fin 1) (jj : Fin 256) (e : Fin 1024) : Kld arg3 harg3 xk (ix3 u jj e) = xk (ix3 (0 : Fin 1) jj e) := by
  unfold Kld
  rw [View.readAt_eq_ld, harg3.read_unread]
  exact ldk xk _ u jj e
theorem Vld_apply (u : Fin 1) (jj : Fin 256) (e : Fin 1024) : Vld arg4 harg4 xv (ix3 u jj e) = xv (ix3 (0 : Fin 1) jj e) := by
  unfold Vld
  rw [View.readAt_eq_ld, harg4.read_unread]
  exact ldk xv _ u jj e
theorem Qld_apply (Q : ℕ) (inb) (u : Fin 1) (r : Fin 256) (e : Fin 1024) (h : Q + r.val < 2048) :
    Qld arg2 harg2 xq Q inb (ix3 u r e) = xq (ix3 (0 : Fin 1) (⟨Q + r.val, h⟩ : Fin 2048) e) := by
  unfold Qld
  rw [View.readAt_eq_ld, harg2.read_unread]
  exact ld3 xq Q inb u r e h

/-- The printed score payloads are the shared body at their chunk's first row. -/
theorem pay9_eq (v4 v69 : Vec Ideal S1x256x1024 .bf16) : k1_pay9 (F := Ideal) i v4 v69 = scoreBody (BitVec.ofNat 32 0) (V0w i) (k1_pay6 v4) v69 := rfl
theorem pay10_eq (v4 v69 : Vec Ideal S1x256x1024 .bf16) : k1_pay10 (F := Ideal) i v4 v69 = scoreBody (BitVec.ofNat 32 256) (V0w i) (k1_pay6 v4) v69 := rfl
theorem pay11_eq (v4 v69 : Vec Ideal S1x256x1024 .bf16) : k1_pay11 (F := Ideal) i v4 v69 = scoreBody (BitVec.ofNat 32 512) (V0w i) (k1_pay6 v4) v69 := rfl
theorem pay12_eq (v4 v69 : Vec Ideal S1x256x1024 .bf16) : k1_pay12 (F := Ideal) i v4 v69 = scoreBody (BitVec.ofNat 32 768) (V0w i) (k1_pay6 v4) v69 := rfl
theorem pay13_eq (v4 v69 : Vec Ideal S1x256x1024 .bf16) : k1_pay13 (F := Ideal) i v4 v69 = scoreBody (BitVec.ofNat 32 1024) (V0w i) (k1_pay6 v4) v69 := rfl
theorem pay14_eq (v0 : BitVec 32) (v5 : FVec Ideal S256x1024 .bf16) (v69 : Vec Ideal S1x256x1024 .bf16) : k1_pay14 (F := Ideal) v0 v5 v69 = scoreBody (BitVec.ofNat 32 1280) v0 v5 v69 := rfl
theorem pay15_eq (v0 : BitVec 32) (v5 : FVec Ideal S256x1024 .bf16) (v69 : Vec Ideal S1x256x1024 .bf16) : k1_pay15 (F := Ideal) v0 v5 v69 = scoreBody (BitVec.ofNat 32 1536) v0 v5 v69 := rfl
theorem pay16_eq (v0 : BitVec 32) (v5 : FVec Ideal S256x1024 .bf16) (v69 : Vec Ideal S1x256x1024 .bf16) : k1_pay16 (F := Ideal) v0 v5 v69 = scoreBody (BitVec.ofNat 32 1792) v0 v5 v69 := rfl

/-- The masked scaled score as a function of the scratch index. -/
def Gs (jb : ℕ) : S2048x256.Idx → EReal := fun y => Scur jb xq xk (⟨(y 0).val, (y 0).isLt⟩ : Fin 2048) (⟨(y 1).val, (y 1).isLt⟩ : Fin 256)

theorem Gs_ix2 (jb : ℕ) (r : Fin 2048) (jj : Fin 256) : Gs xq xk jb (ix2 r jj) = Scur jb xq xk r jj := rfl

/-- The scores of the chunk at row Q are a block of S. -/
theorem chunk_block (Q jb : ℕ) (hQ : Q ≤ 1792) (hjb : jb < 8) (hi : (i 1).val = jb)
    (inb2 : ∀ a, (![Q, 0] : Fin 2 → ℕ) a + S256x256.size a ≤ S2048x256.size a)
    (inb3 : ∀ a, (![0, Q, 0] : Fin 3 → ℕ) a + S1x256x1024.size a ≤ S1x2048x1024.size a)
    (x : (Rect.unit (s := S2048x256) ![Q, 0] S256x256.size inb2).shape.Idx) :
    scoreBody (BitVec.ofNat 32 Q) (V0w i) (k1_pay6 (Kld arg3 harg3 xk)) (Qld arg2 harg2 xq Q inb3) x
      = Gs xq xk jb ((Rect.unit (s := S2048x256) ![Q, 0] S256x256.size inb2).emb x) := by
  obtain ⟨r, jj, rfl⟩ : ∃ (r jj : Fin 256), x = ix2 r jj := ⟨x 0, x 1, eq_ix2 x⟩
  have hr : Q + r.val < 2048 := by have := r.isLt; omega
  rw [emb2 Q inb2 r jj hr, Gs_ix2]
  have hv0 : V0w i = IntOp.muli (BitVec.ofNat 32 jb) 256#32 := by rw [← hi]; rfl
  rw [hv0, scoreBody_apply Q jb hQ hjb]
  unfold Scur
  have hs : (∑ e : Fin 1024, Qld arg2 harg2 xq Q inb3 (ix3 (0 : Fin 1) r e) * k1_pay6 (Kld arg3 harg3 xk) (ix2 jj e))
      = ∑ e : Fin 1024, xq (ix3 (0 : Fin 1) (⟨Q + r.val, hr⟩ : Fin 2048) e) * xk (ix3 (0 : Fin 1) jj e) :=
    Finset.sum_congr rfl fun e _ => by rw [Qld_apply arg2 harg2 xq Q inb3 0 r e hr, pay6_apply, Kld_apply]
  rw [hs]

/-- The fill is S on the rows before the key block. -/
theorem fill_block (jb : ℕ) (r : Fin 2048) (jj : Fin 256) (h : r.val < 256 * jb) : (⊥ : EReal) = Scur jb xq xk r jj := by
  unfold Scur
  rw [if_neg (by omega)]

end

end Cert.KernelIdeal.Pay

end
-- ==== Proof.KIV.Lists2.lean ====
/-
  An active chunk's store into the output block, given what the score scratch holds.

  When the scratch holds the masked scaled scores S everywhere, the column maximum and column sum the body computes
  are M and Z, the weights are W, and the store of chunk Q into the output block is a block of ONE function of the
  output index: what the block held before plus the key block's contribution C.
-/
import proofs.«157480_j6983616824221_2_alg».proof.Proof.Gen.KernelIdeal.Skeleton
import proofs.«157480_j6983616824221_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import proofs.«157480_j6983616824221_2_alg».proof.Proof.KIV.Lists

set_option maxRecDepth 16384

noncomputable section

namespace Cert.KernelIdeal.Pay

open Cert.KernelIdeal Cert.KernelIdeal.Gen
open Idealize.ShloMosaic Idealize.ShloMosaic.ValueIdx

open Idealize.ShloMosaic.View Cert.KernelIdeal.Sem

/-- The accumulate payloads share one body. -/
theorem pay2_eq (v7 : FVec Ideal S256x1024 .bf16) (v38 v44 : FVec Ideal S1x256 .f32) (v69 : Vec Ideal S256x256 .f32) (v77 : Vec Ideal S1x256x1024 .f32) : k1_pay2 (F := Ideal) v7 v38 v44 v69 v77 = k1_pay1 v7 v38 v44 v69 v77 := rfl
theorem pay3_eq (v7 : FVec Ideal S256x1024 .bf16) (v38 v44 : FVec Ideal S1x256 .f32) (v69 : Vec Ideal S256x256 .f32) (v77 : Vec Ideal S1x256x1024 .f32) : k1_pay3 (F := Ideal) v7 v38 v44 v69 v77 = k1_pay1 v7 v38 v44 v69 v77 := rfl
theorem pay4_eq (v7 : FVec Ideal S256x1024 .bf16) (v38 v44 : FVec Ideal S1x256 .f32) (v69 : Vec Ideal S256x256 .f32) (v77 : Vec Ideal S1x256x1024 .f32) : k1_pay4 (F := Ideal) v7 v38 v44 v69 v77 = k1_pay1 v7 v38 v44 v69 v77 := rfl
theorem pay19_eq (v7 : FVec Ideal S256x1024 .bf16) (v36 v39 : Vec Ideal S2048x256 .f32) (v69 : Vec Ideal S256x256 .f32) (v77 : Vec Ideal S1x256x1024 .f32) :
    k1_pay19 (F := Ideal) v7 v36 v39 v69 v77 = k1_pay1 v7 (k1_pay17 v36) (k1_pay18 v36 v39) v69 v77 := rfl
theorem pay20_eq (v7 : FVec Ideal S256x1024 .bf16) (v36 v39 : Vec Ideal S2048x256 .f32) (v69 : Vec Ideal S256x256 .f32) (v77 : Vec Ideal S1x256x1024 .f32) :
    k1_pay20 (F := Ideal) v7 v36 v39 v69 v77 = k1_pay1 v7 (k1_pay17 v36) (k1_pay18 v36 v39) v69 v77 := rfl
theorem pay21_eq (v7 : FVec Ideal S256x1024 .bf16) (v36 v39 : Vec Ideal S2048x256 .f32) (v69 : Vec Ideal S256x256 .f32) (v77 : Vec Ideal S1x256x1024 .f32) :
    k1_pay21 (F := Ideal) v7 v36 v39 v69 v77 = k1_pay1 v7 (k1_pay17 v36) (k1_pay18 v36 v39) v69 v77 := rfl
theorem pay22_eq (v7 : FVec Ideal S256x1024 .bf16) (v36 v39 : Vec Ideal S2048x256 .f32) (v69 : Vec Ideal S256x256 .f32) (v77 : Vec Ideal S1x256x1024 .f32) :
    k1_pay22 (F := Ideal) v7 v36 v39 v69 v77 = k1_pay1 v7 (k1_pay17 v36) (k1_pay18 v36 v39) v69 v77 := rfl

section

variable (jb : ℕ)
  (arg4 : Memref sig .tc .vmem S1x256x1024 .bf16) (harg4 : arg4.IsWhole)
  (arg6 : Memref sig .tc .vmem S2048x256 .f32)
  (xq : Vec Ideal S1x2048x1024 .bf16) (xk xv : Vec Ideal S1x256x1024 .bf16)
  (LS : List (View.Piece (Elt Ideal) S2048x256 .f32))
  (hscr : ∀ (r : Fin 2048) (jj : Fin 256), View.canon LS (ix2 r jj) = Scur jb xq xk r jj)

/-- The whole scratch as the body loads it. -/
abbrev whole2 : Rect S2048x256 := Rect.unit (s := S2048x256) ![0, 0] S2048x256.size inb_S2048x256_S2048x256_0_0

theorem whole2_idx (r : Fin 2048) (jj : Fin 256) : (whole2).toLoadRect.idx (ix2 r jj) = ix2 r jj :=
  funext fun a => Fin.ext (by
    match a with
    | ⟨0, _⟩ => show 0 + 1 * r.val = r.val; omega
    | ⟨1, _⟩ => show 0 + 1 * jj.val = jj.val; omega)

include hscr in
/-- The whole scratch read back holds S. -/
theorem scr_whole (r : Fin 2048) (jj : Fin 256) : arg6.view.readCov LS (whole2).toLoadRect (ix2 r jj) = Scur jb xq xk r jj := by
  rw [View.readCov_eq_canon']
  show View.canon LS ((whole2).toLoadRect.idx (ix2 r jj)) = _
  rw [whole2_idx, hscr]

include hscr in
/-- A scratch chunk read back holds S at the chunk's rows. -/
theorem scr_chunk (Q : ℕ) (inb2 : ∀ a, (![Q, 0] : Fin 2 → ℕ) a + S256x256.size a ≤ S2048x256.size a) (r jj : Fin 256) (h : Q + r.val < 2048) :
    arg6.view.readCov LS (Rect.unit (s := S2048x256) ![Q, 0] S256x256.size inb2).toLoadRect (ix2 r jj)
      = Scur jb xq xk (⟨Q + r.val, h⟩ : Fin 2048) jj := by
  rw [View.readCov_eq_canon']
  show View.canon LS ((Rect.unit (s := S2048x256) ![Q, 0] S256x256.size inb2).emb (ix2 r jj)) = _
  rw [emb2 Q inb2 r jj h, hscr]

include hscr in
theorem max_eq (jj : Fin 256) : k1_pay17 (F := Ideal) (arg6.view.readCov LS (whole2).toLoadRect) (ix2 (0 : Fin 1) jj) = Mfun jb xq xk jj := by
  rw [pay17_apply]
  unfold Mfun
  exact congrArg (fun g : Fin 2048 → EReal => (Finset.univ : Finset (Fin 2048)).fold max ⊥ g)
    (funext fun r => scr_whole jb arg6 xq xk LS hscr r jj)

include hscr in
theorem sum_eq (jj : Fin 256) :
    k1_pay18 (F := Ideal) (arg6.view.readCov LS (whole2).toLoadRect) (arg6.view.readCov LS (whole2).toLoadRect) (ix2 (0 : Fin 1) jj)
      = Zfun jb xq xk jj := by
  rw [pay18_apply]
  unfold Zfun
  refine Finset.sum_congr rfl fun r _ => ?_
  rw [scr_whole jb arg6 xq xk LS hscr r jj, max_eq jb arg6 xq xk LS hscr jj]

/-- What an output entry holds after the point, where a chunk was added to. -/
def Go (xo : Vec Ideal S1x2048x1024 .f32) : S1x2048x1024.Idx → EReal := fun y =>
  xo (ix3 (0 : Fin 1) (⟨(y 1).val, (y 1).isLt⟩ : Fin 2048) (⟨(y 2).val, (y 2).isLt⟩ : Fin 1024))
    + Cfun jb xq xk xv (⟨(y 1).val, (y 1).isLt⟩ : Fin 2048) (⟨(y 2).val, (y 2).isLt⟩ : Fin 1024)

theorem Go_ix3 (xo : Vec Ideal S1x2048x1024 .f32) (u : Fin 1) (r : Fin 2048) (e : Fin 1024) :
    Go jb xq xk xv xo (ix3 u r e) = xo (ix3 (0 : Fin 1) r e) + Cfun jb xq xk xv r e := rfl

include hscr in
/-- The store of the chunk at row Q into the output block is a block of that function, whatever the chunk's load of
    the output reads being the previous contents X at the chunk's rows. -/
theorem out_piece_block (xo : Vec Ideal S1x2048x1024 .f32) (Q : ℕ) (hQ : Q ≤ 1792)
    (inb2 : ∀ a, (![Q, 0] : Fin 2 → ℕ) a + S256x256.size a ≤ S2048x256.size a)
    (inb3 : ∀ a, (![0, Q, 0] : Fin 3 → ℕ) a + S1x256x1024.size a ≤ S1x2048x1024.size a)
    (v77 : Vec Ideal S1x256x1024 .f32)
    (hv77 : ∀ (u : Fin 1) (r : Fin 256) (e : Fin 1024) (h : Q + r.val < 2048), v77 (ix3 u r e) = xo (ix3 (0 : Fin 1) (⟨Q + r.val, h⟩ : Fin 2048) e))
    (x : (Rect.unit (s := S1x2048x1024) ![0, Q, 0] S1x256x1024.size inb3).shape.Idx) :
    k1_pay1 (F := Ideal) (k1_pay7 (Vld arg4 harg4 xv)) (k1_pay17 (arg6.view.readCov LS (whole2).toLoadRect))
        (k1_pay18 (arg6.view.readCov LS (whole2).toLoadRect) (arg6.view.readCov LS (whole2).toLoadRect))
        (arg6.view.readCov LS (Rect.unit (s := S2048x256) ![Q, 0] S256x256.size inb2).toLoadRect) v77 x
      = Go jb xq xk xv xo ((Rect.unit (s := S1x2048x1024) ![0, Q, 0] S1x256x1024.size inb3).emb x) := by
  obtain ⟨u, r, e, rfl⟩ : ∃ (u : Fin 1) (r : Fin 256) (e : Fin 1024), x = ix3 u r e := ⟨x 0, x 1, x 2, eq_ix3 x⟩
  have hr : Q + r.val < 2048 := by have := r.isLt; omega
  rw [emb3 Q inb3 u r e hr, Go_ix3, pay1_apply, hv77 0 r e hr]
  refine congrArg (xo (ix3 (0 : Fin 1) (⟨Q + r.val, hr⟩ : Fin 2048) e) + ·) ?_
  unfold Cfun Wfun
  refine Finset.sum_congr rfl fun jj _ => ?_
  rw [scr_chunk jb arg6 xq xk LS hscr Q inb2 r jj hr, max_eq jb arg6 xq xk LS hscr jj, sum_eq jb arg6 xq xk LS hscr jj,
    pay7_apply, Vld_apply]

end

end Cert.KernelIdeal.Pay

end
-- ==== Proof.KIV.Case0.lean ====
/-
  The attention body at key block jb = 0, opened.

  The body fills the score scratch with -∞ and stores the masked scaled scores of all eight query chunks over the
  fill: the scratch holds the masked scaled score S of every query row.  It stores zeros over the whole output block
  and then, chunk by chunk for the chunks 0 … 7, loads the chunk back through the stores made so far — which reads
  the zeros, no earlier chunk reaching those rows — and stores the zeros plus the key block's contribution C.  The
  eight chunks cover every row: the block ends holding 0 + C.
-/
import proofs.«157480_j6983616824221_2_alg».proof.Proof.KIV.Lists2
import proofs.«157480_j6983616824221_2_alg».proof.Proof.KI.R1Dat
import proofs.«157480_j6983616824221_2_alg».proof.Proof.KIV.Glue

set_option maxRecDepth 16384

noncomputable section

namespace Cert.KernelIdeal.Case0

open Cert.KernelIdeal Cert.KernelIdeal.Gen Cert.KernelIdeal.R1 Cert.KernelIdeal.Pay Cert.KernelIdeal.Sem
open Idealize.ShloMosaic Idealize.ShloMosaic.ValueIdx Idealize.ShloMosaic.View Idealize.ShloMosaic.Tactic

/-- The scratch's chunk stores, last made first, and the fill beneath them. -/
def LSc (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) : List (View.Piece (Elt Ideal) S2048x256 .f32) :=
  [ ⟨Rect.unit (s := S2048x256) ![1792, 0] S256x256.size inb_S2048x256_S256x256_1792_0, k1_pay16 (V0w i) (k1_pay6 (Kld arg3 harg3 xk)) (Qld arg2 harg2 xq 1792 inb_S1x2048x1024_S1x256x1024_0_1792_0)⟩,
    ⟨Rect.unit (s := S2048x256) ![1536, 0] S256x256.size inb_S2048x256_S256x256_1536_0, k1_pay15 (V0w i) (k1_pay6 (Kld arg3 harg3 xk)) (Qld arg2 harg2 xq 1536 inb_S1x2048x1024_S1x256x1024_0_1536_0)⟩,
    ⟨Rect.unit (s := S2048x256) ![1280, 0] S256x256.size inb_S2048x256_S256x256_1280_0, k1_pay14 (V0w i) (k1_pay6 (Kld arg3 harg3 xk)) (Qld arg2 harg2 xq 1280 inb_S1x2048x1024_S1x256x1024_0_1280_0)⟩,
    ⟨Rect.unit (s := S2048x256) ![1024, 0] S256x256.size inb_S2048x256_S256x256_1024_0, k1_pay13 i (Kld arg3 harg3 xk) (Qld arg2 harg2 xq 1024 inb_S1x2048x1024_S1x256x1024_0_1024_0)⟩,
    ⟨Rect.unit (s := S2048x256) ![768, 0] S256x256.size inb_S2048x256_S256x256_768_0, k1_pay12 i (Kld arg3 harg3 xk) (Qld arg2 harg2 xq 768 inb_S1x2048x1024_S1x256x1024_0_768_0)⟩,
    ⟨Rect.unit (s := S2048x256) ![512, 0] S256x256.size inb_S2048x256_S256x256_512_0, k1_pay11 i (Kld arg3 harg3 xk) (Qld arg2 harg2 xq 512 inb_S1x2048x1024_S1x256x1024_0_512_0)⟩,
    ⟨Rect.unit (s := S2048x256) ![256, 0] S256x256.size inb_S2048x256_S256x256_256_0, k1_pay10 i (Kld arg3 harg3 xk) (Qld arg2 harg2 xq 256 inb_S1x2048x1024_S1x256x1024_0_256_0)⟩,
    ⟨Rect.unit (s := S2048x256) ![0, 0] S256x256.size inb_S2048x256_S256x256_0_0, k1_pay9 i (Kld arg3 harg3 xk) (Qld arg2 harg2 xq 0 inb_S1x2048x1024_S1x256x1024_0_0_0)⟩ ]
def fillP : View.Piece (Elt Ideal) S2048x256 .f32 :=
  ⟨Rect.unit (s := S2048x256) ![0, 0] S2048x256.size inb_S2048x256_S2048x256_0_0, k1_pay8 (F := Ideal)⟩

/-- The zeros stored over the whole output block. -/
def zeroP : View.Piece (Elt Ideal) S1x2048x1024 .f32 :=
  ⟨Rect.unit (s := S1x2048x1024) ![0, 0, 0] S1x2048x1024.size inb_S1x2048x1024_S1x2048x1024_0_0_0, k1_pay5 (F := Ideal)⟩

/-- The output block's stores after the zeros and the chunks before chunk q, last made first; chunk q's store loads
    the chunk back through them. -/
def P0 : List (View.Piece (Elt Ideal) S1x2048x1024 .f32) := [zeroP]
def op0 (i : grid1.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x1024 .f32) (arg6 : Memref sig .tc .vmem S2048x256 .f32) (xq : Vec Ideal S1x2048x1024 .bf16) (xk xv : Vec Ideal S1x256x1024 .bf16) (P : List (View.Piece (Elt Ideal) S1x2048x1024 .f32)) : View.Piece (Elt Ideal) S1x2048x1024 .f32 :=
  ⟨Rect.unit (s := S1x2048x1024) ![0, 0, 0] S1x256x1024.size inb_S1x2048x1024_S1x256x1024_0_0_0, k1_pay19 (k1_pay7 (Vld arg4 harg4 xv)) (arg6.view.readCov (LSc i arg2 harg2 arg3 harg3 xq xk ++ [fillP]) (whole2).toLoadRect) (arg6.view.readCov (LSc i arg2 harg2 arg3 harg3 xq xk ++ [fillP]) (whole2).toLoadRect) (arg6.view.readCov (LSc i arg2 harg2 arg3 harg3 xq xk ++ [fillP]) (Rect.unit (s := S2048x256) ![0, 0] S256x256.size inb_S2048x256_S256x256_0_0).toLoadRect) (arg5.view.readCov P (Rect.unit (s := S1x2048x1024) ![0, 0, 0] S1x256x1024.size inb_S1x2048x1024_S1x256x1024_0_0_0).toLoadRect)⟩
def P1 (i : grid1.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x1024 .f32) (arg6 : Memref sig .tc .vmem S2048x256 .f32) (xq : Vec Ideal S1x2048x1024 .bf16) (xk xv : Vec Ideal S1x256x1024 .bf16) : List (View.Piece (Elt Ideal) S1x2048x1024 .f32) :=
  op0 i arg2 harg2 arg3 harg3 arg4 harg4 arg5 arg6 xq xk xv P0 :: P0
def op1 (i : grid1.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x1024 .f32) (arg6 : Memref sig .tc .vmem S2048x256 .f32) (xq : Vec Ideal S1x2048x1024 .bf16) (xk xv : Vec Ideal S1x256x1024 .bf16) (P : List (View.Piece (Elt Ideal) S1x2048x1024 .f32)) : View.Piece (Elt Ideal) S1x2048x1024 .f32 :=
  ⟨Rect.unit (s := S1x2048x1024) ![0, 256, 0] S1x256x1024.size inb_S1x2048x1024_S1x256x1024_0_256_0, k1_pay20 (k1_pay7 (Vld arg4 harg4 xv)) (arg6.view.readCov (LSc i arg2 harg2 arg3 harg3 xq xk ++ [fillP]) (whole2).toLoadRect) (arg6.view.readCov (LSc i arg2 harg2 arg3 harg3 xq xk ++ [fillP]) (whole2).toLoadRect) (arg6.view.readCov (LSc i arg2 harg2 arg3 harg3 xq xk ++ [fillP]) (Rect.unit (s := S2048x256) ![256, 0] S256x256.size inb_S2048x256_S256x256_256_0).toLoadRect) (arg5.view.readCov P (Rect.unit (s := S1x2048x1024) ![0, 256, 0] S1x256x1024.size inb_S1x2048x1024_S1x256x1024_0_256_0).toLoadRect)⟩
def P2 (i : grid1.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x1024 .f32) (arg6 : Memref sig .tc .vmem S2048x256 .f32) (xq : Vec Ideal S1x2048x1024 .bf16) (xk xv : Vec Ideal S1x256x1024 .bf16) : List (View.Piece (Elt Ideal) S1x2048x1024 .f32) :=
  op1 i arg2 harg2 arg3 harg3 arg4 harg4 arg5 arg6 xq xk xv (P1 i arg2 harg2 arg3 harg3 arg4 harg4 arg5 arg6 xq xk xv) :: (P1 i arg2 harg2 arg3 harg3 arg4 harg4 arg5 arg6 xq xk xv)
def op2 (i : grid1.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x1024 .f32) (arg6 : Memref sig .tc .vmem S2048x256 .f32) (xq : Vec Ideal S1x2048x1024 .bf16) (xk xv : Vec Ideal S1x256x1024 .bf16) (P : List (View.Piece (Elt Ideal) S1x2048x1024 .f32)) : View.Piece (Elt Ideal) S1x2048x1024 .f32 :=
  ⟨Rect.unit (s := S1x2048x1024) ![0, 512, 0] S1x256x1024.size inb_S1x2048x1024_S1x256x1024_0_512_0, k1_pay21 (k1_pay7 (Vld arg4 harg4 xv)) (arg6.view.readCov (LSc i arg2 harg2 arg3 harg3 xq xk ++ [fillP]) (whole2).toLoadRect) (arg6.view.readCov (LSc i arg2 harg2 arg3 harg3 xq xk ++ [fillP]) (whole2).toLoadRect) (arg6.view.readCov (LSc i arg2 harg2 arg3 harg3 xq xk ++ [fillP]) (Rect.unit (s := S2048x256) ![512, 0] S256x256.size inb_S2048x256_S256x256_512_0).toLoadRect) (arg5.view.readCov P (Rect.unit (s := S1x2048x1024) ![0, 512, 0] S1x256x1024.size inb_S1x2048x1024_S1x256x1024_0_512_0).toLoadRect)⟩
def P3 (i : grid1.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x1024 .f32) (arg6 : Memref sig .tc .vmem S2048x256 .f32) (xq : Vec Ideal S1x2048x1024 .bf16) (xk xv : Vec Ideal S1x256x1024 .bf16) : List (View.Piece (Elt Ideal) S1x2048x1024 .f32) :=
  op2 i arg2 harg2 arg3 harg3 arg4 harg4 arg5 arg6 xq xk xv (P2 i arg2 harg2 arg3 harg3 arg4 harg4 arg5 arg6 xq xk xv) :: (P2 i arg2 harg2 arg3 harg3 arg4 harg4 arg5 arg6 xq xk xv)
def op3 (i : grid1.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x1024 .f32) (arg6 : Memref sig .tc .vmem S2048x256 .f32) (xq : Vec Ideal S1x2048x1024 .bf16) (xk xv : Vec Ideal S1x256x1024 .bf16) (P : List (View.Piece (Elt Ideal) S1x2048x1024 .f32)) : View.Piece (Elt Ideal) S1x2048x1024 .f32 :=
  ⟨Rect.unit (s := S1x2048x1024) ![0, 768, 0] S1x256x1024.size inb_S1x2048x1024_S1x256x1024_0_768_0, k1_pay22 (k1_pay7 (Vld arg4 harg4 xv)) (arg6.view.readCov (LSc i arg2 harg2 arg3 harg3 xq xk ++ [fillP]) (whole2).toLoadRect) (arg6.view.readCov (LSc i arg2 harg2 arg3 harg3 xq xk ++ [fillP]) (whole2).toLoadRect) (arg6.view.readCov (LSc i arg2 harg2 arg3 harg3 xq xk ++ [fillP]) (Rect.unit (s := S2048x256) ![768, 0] S256x256.size inb_S2048x256_S256x256_768_0).toLoadRect) (arg5.view.readCov P (Rect.unit (s := S1x2048x1024) ![0, 768, 0] S1x256x1024.size inb_S1x2048x1024_S1x256x1024_0_768_0).toLoadRect)⟩
def P4 (i : grid1.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x1024 .f32) (arg6 : Memref sig .tc .vmem S2048x256 .f32) (xq : Vec Ideal S1x2048x1024 .bf16) (xk xv : Vec Ideal S1x256x1024 .bf16) : List (View.Piece (Elt Ideal) S1x2048x1024 .f32) :=
  op3 i arg2 harg2 arg3 harg3 arg4 harg4 arg5 arg6 xq xk xv (P3 i arg2 harg2 arg3 harg3 arg4 harg4 arg5 arg6 xq xk xv) :: (P3 i arg2 harg2 arg3 harg3 arg4 harg4 arg5 arg6 xq xk xv)
def op4 (i : grid1.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x1024 .f32) (arg6 : Memref sig .tc .vmem S2048x256 .f32) (xq : Vec Ideal S1x2048x1024 .bf16) (xk xv : Vec Ideal S1x256x1024 .bf16) (P : List (View.Piece (Elt Ideal) S1x2048x1024 .f32)) : View.Piece (Elt Ideal) S1x2048x1024 .f32 :=
  ⟨Rect.unit (s := S1x2048x1024) ![0, 1024, 0] S1x256x1024.size inb_S1x2048x1024_S1x256x1024_0_1024_0, k1_pay1 (k1_pay7 (Vld arg4 harg4 xv)) (k1_pay17 (arg6.view.readCov (LSc i arg2 harg2 arg3 harg3 xq xk ++ [fillP]) (whole2).toLoadRect)) (k1_pay18 (arg6.view.readCov (LSc i arg2 harg2 arg3 harg3 xq xk ++ [fillP]) (whole2).toLoadRect) (arg6.view.readCov (LSc i arg2 harg2 arg3 harg3 xq xk ++ [fillP]) (whole2).toLoadRect)) (arg6.view.readCov (LSc i arg2 harg2 arg3 harg3 xq xk ++ [fillP]) (Rect.unit (s := S2048x256) ![1024, 0] S256x256.size inb_S2048x256_S256x256_1024_0).toLoadRect) (arg5.view.readCov P (Rect.unit (s := S1x2048x1024) ![0, 1024, 0] S1x256x1024.size inb_S1x2048x1024_S1x256x1024_0_1024_0).toLoadRect)⟩
def P5 (i : grid1.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x1024 .f32) (arg6 : Memref sig .tc .vmem S2048x256 .f32) (xq : Vec Ideal S1x2048x1024 .bf16) (xk xv : Vec Ideal S1x256x1024 .bf16) : List (View.Piece (Elt Ideal) S1x2048x1024 .f32) :=
  op4 i arg2 harg2 arg3 harg3 arg4 harg4 arg5 arg6 xq xk xv (P4 i arg2 harg2 arg3 harg3 arg4 harg4 arg5 arg6 xq xk xv) :: (P4 i arg2 harg2 arg3 harg3 arg4 harg4 arg5 arg6 xq xk xv)
def op5 (i : grid1.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x1024 .f32) (arg6 : Memref sig .tc .vmem S2048x256 .f32) (xq : Vec Ideal S1x2048x1024 .bf16) (xk xv : Vec Ideal S1x256x1024 .bf16) (P : List (View.Piece (Elt Ideal) S1x2048x1024 .f32)) : View.Piece (Elt Ideal) S1x2048x1024 .f32 :=
  ⟨Rect.unit (s := S1x2048x1024) ![0, 1280, 0] S1x256x1024.size inb_S1x2048x1024_S1x256x1024_0_1280_0, k1_pay2 (k1_pay7 (Vld arg4 harg4 xv)) (k1_pay17 (arg6.view.readCov (LSc i arg2 harg2 arg3 harg3 xq xk ++ [fillP]) (whole2).toLoadRect)) (k1_pay18 (arg6.view.readCov (LSc i arg2 harg2 arg3 harg3 xq xk ++ [fillP]) (whole2).toLoadRect) (arg6.view.readCov (LSc i arg2 harg2 arg3 harg3 xq xk ++ [fillP]) (whole2).toLoadRect)) (arg6.view.readCov (LSc i arg2 harg2 arg3 harg3 xq xk ++ [fillP]) (Rect.unit (s := S2048x256) ![1280, 0] S256x256.size inb_S2048x256_S256x256_1280_0).toLoadRect) (arg5.view.readCov P (Rect.unit (s := S1x2048x1024) ![0, 1280, 0] S1x256x1024.size inb_S1x2048x1024_S1x256x1024_0_1280_0).toLoadRect)⟩
def P6 (i : grid1.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x1024 .f32) (arg6 : Memref sig .tc .vmem S2048x256 .f32) (xq : Vec Ideal S1x2048x1024 .bf16) (xk xv : Vec Ideal S1x256x1024 .bf16) : List (View.Piece (Elt Ideal) S1x2048x1024 .f32) :=
  op5 i arg2 harg2 arg3 harg3 arg4 harg4 arg5 arg6 xq xk xv (P5 i arg2 harg2 arg3 harg3 arg4 harg4 arg5 arg6 xq xk xv) :: (P5 i arg2 harg2 arg3 harg3 arg4 harg4 arg5 arg6 xq xk xv)
def op6 (i : grid1.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x1024 .f32) (arg6 : Memref sig .tc .vmem S2048x256 .f32) (xq : Vec Ideal S1x2048x1024 .bf16) (xk xv : Vec Ideal S1x256x1024 .bf16) (P : List (View.Piece (Elt Ideal) S1x2048x1024 .f32)) : View.Piece (Elt Ideal) S1x2048x1024 .f32 :=
  ⟨Rect.unit (s := S1x2048x1024) ![0, 1536, 0] S1x256x1024.size inb_S1x2048x1024_S1x256x1024_0_1536_0, k1_pay3 (k1_pay7 (Vld arg4 harg4 xv)) (k1_pay17 (arg6.view.readCov (LSc i arg2 harg2 arg3 harg3 xq xk ++ [fillP]) (whole2).toLoadRect)) (k1_pay18 (arg6.view.readCov (LSc i arg2 harg2 arg3 harg3 xq xk ++ [fillP]) (whole2).toLoadRect) (arg6.view.readCov (LSc i arg2 harg2 arg3 harg3 xq xk ++ [fillP]) (whole2).toLoadRect)) (arg6.view.readCov (LSc i arg2 harg2 arg3 harg3 xq xk ++ [fillP]) (Rect.unit (s := S2048x256) ![1536, 0] S256x256.size inb_S2048x256_S256x256_1536_0).toLoadRect) (arg5.view.readCov P (Rect.unit (s := S1x2048x1024) ![0, 1536, 0] S1x256x1024.size inb_S1x2048x1024_S1x256x1024_0_1536_0).toLoadRect)⟩
def P7 (i : grid1.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x1024 .f32) (arg6 : Memref sig .tc .vmem S2048x256 .f32) (xq : Vec Ideal S1x2048x1024 .bf16) (xk xv : Vec Ideal S1x256x1024 .bf16) : List (View.Piece (Elt Ideal) S1x2048x1024 .f32) :=
  op6 i arg2 harg2 arg3 harg3 arg4 harg4 arg5 arg6 xq xk xv (P6 i arg2 harg2 arg3 harg3 arg4 harg4 arg5 arg6 xq xk xv) :: (P6 i arg2 harg2 arg3 harg3 arg4 harg4 arg5 arg6 xq xk xv)
def op7 (i : grid1.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x1024 .f32) (arg6 : Memref sig .tc .vmem S2048x256 .f32) (xq : Vec Ideal S1x2048x1024 .bf16) (xk xv : Vec Ideal S1x256x1024 .bf16) (P : List (View.Piece (Elt Ideal) S1x2048x1024 .f32)) : View.Piece (Elt Ideal) S1x2048x1024 .f32 :=
  ⟨Rect.unit (s := S1x2048x1024) ![0, 1792, 0] S1x256x1024.size inb_S1x2048x1024_S1x256x1024_0_1792_0, k1_pay4 (k1_pay7 (Vld arg4 harg4 xv)) (k1_pay17 (arg6.view.readCov (LSc i arg2 harg2 arg3 harg3 xq xk ++ [fillP]) (whole2).toLoadRect)) (k1_pay18 (arg6.view.readCov (LSc i arg2 harg2 arg3 harg3 xq xk ++ [fillP]) (whole2).toLoadRect) (arg6.view.readCov (LSc i arg2 harg2 arg3 harg3 xq xk ++ [fillP]) (whole2).toLoadRect)) (arg6.view.readCov (LSc i arg2 harg2 arg3 harg3 xq xk ++ [fillP]) (Rect.unit (s := S2048x256) ![1792, 0] S256x256.size inb_S2048x256_S256x256_1792_0).toLoadRect) (arg5.view.readCov P (Rect.unit (s := S1x2048x1024) ![0, 1792, 0] S1x256x1024.size inb_S1x2048x1024_S1x256x1024_0_1792_0).toLoadRect)⟩
def P8 (i : grid1.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x1024 .f32) (arg6 : Memref sig .tc .vmem S2048x256 .f32) (xq : Vec Ideal S1x2048x1024 .bf16) (xk xv : Vec Ideal S1x256x1024 .bf16) : List (View.Piece (Elt Ideal) S1x2048x1024 .f32) :=
  op7 i arg2 harg2 arg3 harg3 arg4 harg4 arg5 arg6 xq xk xv (P7 i arg2 harg2 arg3 harg3 arg4 harg4 arg5 arg6 xq xk xv) :: (P7 i arg2 harg2 arg3 harg3 arg4 harg4 arg5 arg6 xq xk xv)

/-- The eight chunk stores alone. -/
def Ops (i : grid1.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x1024 .f32) (arg6 : Memref sig .tc .vmem S2048x256 .f32) (xq : Vec Ideal S1x2048x1024 .bf16) (xk xv : Vec Ideal S1x256x1024 .bf16) : List (View.Piece (Elt Ideal) S1x2048x1024 .f32) :=
  [ op7 i arg2 harg2 arg3 harg3 arg4 harg4 arg5 arg6 xq xk xv (P7 i arg2 harg2 arg3 harg3 arg4 harg4 arg5 arg6 xq xk xv),
    op6 i arg2 harg2 arg3 harg3 arg4 harg4 arg5 arg6 xq xk xv (P6 i arg2 harg2 arg3 harg3 arg4 harg4 arg5 arg6 xq xk xv),
    op5 i arg2 harg2 arg3 harg3 arg4 harg4 arg5 arg6 xq xk xv (P5 i arg2 harg2 arg3 harg3 arg4 harg4 arg5 arg6 xq xk xv),
    op4 i arg2 harg2 arg3 harg3 arg4 harg4 arg5 arg6 xq xk xv (P4 i arg2 harg2 arg3 harg3 arg4 harg4 arg5 arg6 xq xk xv),
    op3 i arg2 harg2 arg3 harg3 arg4 harg4 arg5 arg6 xq xk xv (P3 i arg2 harg2 arg3 harg3 arg4 harg4 arg5 arg6 xq xk xv),
    op2 i arg2 harg2 arg3 harg3 arg4 harg4 arg5 arg6 xq xk xv (P2 i arg2 harg2 arg3 harg3 arg4 harg4 arg5 arg6 xq xk xv),
    op1 i arg2 harg2 arg3 harg3 arg4 harg4 arg5 arg6 xq xk xv (P1 i arg2 harg2 arg3 harg3 arg4 harg4 arg5 arg6 xq xk xv),
    op0 i arg2 harg2 arg3 harg3 arg4 harg4 arg5 arg6 xq xk xv P0 ]

theorem P8_eq (i : grid1.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x1024 .f32) (arg6 : Memref sig .tc .vmem S2048x256 .f32) (xq : Vec Ideal S1x2048x1024 .bf16) (xk xv : Vec Ideal S1x256x1024 .bf16) : P8 i arg2 harg2 arg3 harg3 arg4 harg4 arg5 arg6 xq xk xv = Ops i arg2 harg2 arg3 harg3 arg4 harg4 arg5 arg6 xq xk xv ++ [zeroP] := rfl

theorem hz3 : (![0, 0, 0] : Fin 3 → ℕ) = fun _ => 0 := funext fun a => by
  match a with
  | ⟨0, _⟩ => rfl
  | ⟨1, _⟩ => rfl
  | ⟨2, _⟩ => rfl

set_option maxHeartbeats 16000000 in
/-- The scratch holds the masked scaled scores. -/
theorem scr (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) (hi : (i 1).val = 0) (r : Fin 2048) (jj : Fin 256) :
    View.canon (LSc i arg2 harg2 arg3 harg3 xq xk ++ [fillP]) (ix2 r jj) = Scur 0 xq xk r jj := by
  refine (Cert.LibCanonOver.canon_blocks_over (Gs xq xk 0) (LSc i arg2 harg2 arg3 harg3 xq xk) fillP ?hL ?hp (ix2 r jj) ?hy).trans (Gs_ix2 xq xk 0 r jj)
  case hL =>
    intro p hp
    simp only [LSc, List.mem_cons, List.mem_nil_iff, or_false] at hp
    rcases hp with rfl | rfl | rfl | rfl | rfl | rfl | rfl | rfl
    · intro x; rw [pay16_eq]; exact chunk_block i arg2 harg2 arg3 harg3 xq xk 1792 0 (by omega) (by omega) hi inb_S2048x256_S256x256_1792_0 inb_S1x2048x1024_S1x256x1024_0_1792_0 x
    · intro x; rw [pay15_eq]; exact chunk_block i arg2 harg2 arg3 harg3 xq xk 1536 0 (by omega) (by omega) hi inb_S2048x256_S256x256_1536_0 inb_S1x2048x1024_S1x256x1024_0_1536_0 x
    · intro x; rw [pay14_eq]; exact chunk_block i arg2 harg2 arg3 harg3 xq xk 1280 0 (by omega) (by omega) hi inb_S2048x256_S256x256_1280_0 inb_S1x2048x1024_S1x256x1024_0_1280_0 x
    · intro x; rw [pay13_eq]; exact chunk_block i arg2 harg2 arg3 harg3 xq xk 1024 0 (by omega) (by omega) hi inb_S2048x256_S256x256_1024_0 inb_S1x2048x1024_S1x256x1024_0_1024_0 x
    · intro x; rw [pay12_eq]; exact chunk_block i arg2 harg2 arg3 harg3 xq xk 768 0 (by omega) (by omega) hi inb_S2048x256_S256x256_768_0 inb_S1x2048x1024_S1x256x1024_0_768_0 x
    · intro x; rw [pay11_eq]; exact chunk_block i arg2 harg2 arg3 harg3 xq xk 512 0 (by omega) (by omega) hi inb_S2048x256_S256x256_512_0 inb_S1x2048x1024_S1x256x1024_0_512_0 x
    · intro x; rw [pay10_eq]; exact chunk_block i arg2 harg2 arg3 harg3 xq xk 256 0 (by omega) (by omega) hi inb_S2048x256_S256x256_256_0 inb_S1x2048x1024_S1x256x1024_0_256_0 x
    · intro x; rw [pay9_eq]; exact chunk_block i arg2 harg2 arg3 harg3 xq xk 0 0 (by omega) (by omega) hi inb_S2048x256_S256x256_0_0 inb_S1x2048x1024_S1x256x1024_0_0_0 x
  case hp =>
    intro x hx
    obtain ⟨r', jj', rfl⟩ : ∃ (r' : Fin 2048) (jj' : Fin 256), x = ix2 r' jj' := ⟨x 0, x 1, eq_ix2 x⟩
    have hemb : fillP.1.emb (ix2 r' jj') = ix2 r' jj' := funext fun a => Fin.ext (by
      match a with
      | ⟨0, _⟩ => show 0 + 1 * r'.val = r'.val; omega
      | ⟨1, _⟩ => show 0 + 1 * jj'.val = jj'.val; omega)
    rw [hemb] at hx ⊢
    rw [Gs_ix2]
    show k1_pay8 (F := Ideal) (ix2 r' jj') = _
    rw [pay8_apply]
    refine fill_block xq xk 0 r' jj' ?_
    have h7 : ¬(1792 ≤ r'.val ∧ r'.val < 1792 + 256) := fun h => hx _ (List.mem_cons_self) ((mem2 1792 inb_S2048x256_S256x256_1792_0 r' jj').mpr h)
    have h6 : ¬(1536 ≤ r'.val ∧ r'.val < 1536 + 256) := fun h => hx _ (List.mem_cons_of_mem _ (List.mem_cons_self)) ((mem2 1536 inb_S2048x256_S256x256_1536_0 r' jj').mpr h)
    have h5 : ¬(1280 ≤ r'.val ∧ r'.val < 1280 + 256) := fun h => hx _ (List.mem_cons_of_mem _ (List.mem_cons_of_mem _ (List.mem_cons_self))) ((mem2 1280 inb_S2048x256_S256x256_1280_0 r' jj').mpr h)
    have h4 : ¬(1024 ≤ r'.val ∧ r'.val < 1024 + 256) := fun h => hx _ (List.mem_cons_of_mem _ (List.mem_cons_of_mem _ (List.mem_cons_of_mem _ (List.mem_cons_self)))) ((mem2 1024 inb_S2048x256_S256x256_1024_0 r' jj').mpr h)
    have h3 : ¬(768 ≤ r'.val ∧ r'.val < 768 + 256) := fun h => hx _ (List.mem_cons_of_mem _ (List.mem_cons_of_mem _ (List.mem_cons_of_mem _ (List.mem_cons_of_mem _ (List.mem_cons_self))))) ((mem2 768 inb_S2048x256_S256x256_768_0 r' jj').mpr h)
    have h2 : ¬(512 ≤ r'.val ∧ r'.val < 512 + 256) := fun h => hx _ (List.mem_cons_of_mem _ (List.mem_cons_of_mem _ (List.mem_cons_of_mem _ (List.mem_cons_of_mem _ (List.mem_cons_of_mem _ (List.mem_cons_self)))))) ((mem2 512 inb_S2048x256_S256x256_512_0 r' jj').mpr h)
    have h1 : ¬(256 ≤ r'.val ∧ r'.val < 256 + 256) := fun h => hx _ (List.mem_cons_of_mem _ (List.mem_cons_of_mem _ (List.mem_cons_of_mem _ (List.mem_cons_of_mem _ (List.mem_cons_of_mem _ (List.mem_cons_of_mem _ (List.mem_cons_self))))))) ((mem2 256 inb_S2048x256_S256x256_256_0 r' jj').mpr h)
    have h0 : ¬(0 ≤ r'.val ∧ r'.val < 0 + 256) := fun h => hx _ (List.mem_cons_of_mem _ (List.mem_cons_of_mem _ (List.mem_cons_of_mem _ (List.mem_cons_of_mem _ (List.mem_cons_of_mem _ (List.mem_cons_of_mem _ (List.mem_cons_of_mem _ (List.mem_cons_self)))))))) ((mem2 0 inb_S2048x256_S256x256_0_0 r' jj').mpr h)
    have := r'.isLt
    omega
  case hy =>
    show ix2 r jj ∈ (Rect.unit (s := S2048x256) ![0, 0] S2048x256.size inb_S2048x256_S2048x256_0_0).set
    rw [Rect.mem_set_unit]
    intro a
    match a with
    | ⟨0, _⟩ => exact ⟨Nat.zero_le _, by show r.val < 0 + 2048; omega⟩
    | ⟨1, _⟩ => exact ⟨Nat.zero_le _, by show jj.val < 0 + 256; omega⟩

/-- Through the zeros and the chunks before chunk q, the rows from chunk q on still read zero. -/
theorem z0 (r : Fin 2048) (e : Fin 1024) : View.canon P0 (ix3 (0 : Fin 1) r e) = 0 := by
  show View.canon [(⟨Rect.unit (s := S1x2048x1024) ![0, 0, 0] S1x2048x1024.size inb_S1x2048x1024_S1x2048x1024_0_0_0, k1_pay5 (F := Ideal)⟩ : View.Piece (Elt Ideal) S1x2048x1024 .f32)] (ix3 (0 : Fin 1) r e) = 0
  rw [View.canon_unit_zero hz3]
  exact pay5_apply 0 r e
theorem z1 (i : grid1.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x1024 .f32) (arg6 : Memref sig .tc .vmem S2048x256 .f32) (xq : Vec Ideal S1x2048x1024 .bf16) (xk xv : Vec Ideal S1x256x1024 .bf16) (r : Fin 2048) (e : Fin 1024) (h : 256 ≤ r.val) : View.canon (P1 i arg2 harg2 arg3 harg3 arg4 harg4 arg5 arg6 xq xk xv) (ix3 (0 : Fin 1) r e) = 0 := by
  show View.canon (op0 i arg2 harg2 arg3 harg3 arg4 harg4 arg5 arg6 xq xk xv P0 :: P0) (ix3 (0 : Fin 1) r e) = 0
  rw [View.canon_cons_of_not_mem _ _ (fun hm => by have := (mem3 0 inb_S1x2048x1024_S1x256x1024_0_0_0 0 r e).mp hm; omega)]
  exact z0 r e
theorem z2 (i : grid1.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x1024 .f32) (arg6 : Memref sig .tc .vmem S2048x256 .f32) (xq : Vec Ideal S1x2048x1024 .bf16) (xk xv : Vec Ideal S1x256x1024 .bf16) (r : Fin 2048) (e : Fin 1024) (h : 512 ≤ r.val) : View.canon (P2 i arg2 harg2 arg3 harg3 arg4 harg4 arg5 arg6 xq xk xv) (ix3 (0 : Fin 1) r e) = 0 := by
  show View.canon (op1 i arg2 harg2 arg3 harg3 arg4 harg4 arg5 arg6 xq xk xv (P1 i arg2 harg2 arg3 harg3 arg4 harg4 arg5 arg6 xq xk xv) :: (P1 i arg2 harg2 arg3 harg3 arg4 harg4 arg5 arg6 xq xk xv)) (ix3 (0 : Fin 1) r e) = 0
  rw [View.canon_cons_of_not_mem _ _ (fun hm => by have := (mem3 256 inb_S1x2048x1024_S1x256x1024_0_256_0 0 r e).mp hm; omega)]
  exact z1 i arg2 harg2 arg3 harg3 arg4 harg4 arg5 arg6 xq xk xv r e (by omega)
theorem z3 (i : grid1.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x1024 .f32) (arg6 : Memref sig .tc .vmem S2048x256 .f32) (xq : Vec Ideal S1x2048x1024 .bf16) (xk xv : Vec Ideal S1x256x1024 .bf16) (r : Fin 2048) (e : Fin 1024) (h : 768 ≤ r.val) : View.canon (P3 i arg2 harg2 arg3 harg3 arg4 harg4 arg5 arg6 xq xk xv) (ix3 (0 : Fin 1) r e) = 0 := by
  show View.canon (op2 i arg2 harg2 arg3 harg3 arg4 harg4 arg5 arg6 xq xk xv (P2 i arg2 harg2 arg3 harg3 arg4 harg4 arg5 arg6 xq xk xv) :: (P2 i arg2 harg2 arg3 harg3 arg4 harg4 arg5 arg6 xq xk xv)) (ix3 (0 : Fin 1) r e) = 0
  rw [View.canon_cons_of_not_mem _ _ (fun hm => by have := (mem3 512 inb_S1x2048x1024_S1x256x1024_0_512_0 0 r e).mp hm; omega)]
  exact z2 i arg2 harg2 arg3 harg3 arg4 harg4 arg5 arg6 xq xk xv r e (by omega)
theorem z4 (i : grid1.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x1024 .f32) (arg6 : Memref sig .tc .vmem S2048x256 .f32) (xq : Vec Ideal S1x2048x1024 .bf16) (xk xv : Vec Ideal S1x256x1024 .bf16) (r : Fin 2048) (e : Fin 1024) (h : 1024 ≤ r.val) : View.canon (P4 i arg2 harg2 arg3 harg3 arg4 harg4 arg5 arg6 xq xk xv) (ix3 (0 : Fin 1) r e) = 0 := by
  show View.canon (op3 i arg2 harg2 arg3 harg3 arg4 harg4 arg5 arg6 xq xk xv (P3 i arg2 harg2 arg3 harg3 arg4 harg4 arg5 arg6 xq xk xv) :: (P3 i arg2 harg2 arg3 harg3 arg4 harg4 arg5 arg6 xq xk xv)) (ix3 (0 : Fin 1) r e) = 0
  rw [View.canon_cons_of_not_mem _ _ (fun hm => by have := (mem3 768 inb_S1x2048x1024_S1x256x1024_0_768_0 0 r e).mp hm; omega)]
  exact z3 i arg2 harg2 arg3 harg3 arg4 harg4 arg5 arg6 xq xk xv r e (by omega)
theorem z5 (i : grid1.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x1024 .f32) (arg6 : Memref sig .tc .vmem S2048x256 .f32) (xq : Vec Ideal S1x2048x1024 .bf16) (xk xv : Vec Ideal S1x256x1024 .bf16) (r : Fin 2048) (e : Fin 1024) (h : 1280 ≤ r.val) : View.canon (P5 i arg2 harg2 arg3 harg3 arg4 harg4 arg5 arg6 xq xk xv) (ix3 (0 : Fin 1) r e) = 0 := by
  show View.canon (op4 i arg2 harg2 arg3 harg3 arg4 harg4 arg5 arg6 xq xk xv (P4 i arg2 harg2 arg3 harg3 arg4 harg4 arg5 arg6 xq xk xv) :: (P4 i arg2 harg2 arg3 harg3 arg4 harg4 arg5 arg6 xq xk xv)) (ix3 (0 : Fin 1) r e) = 0
  rw [View.canon_cons_of_not_mem _ _ (fun hm => by have := (mem3 1024 inb_S1x2048x1024_S1x256x1024_0_1024_0 0 r e).mp hm; omega)]
  exact z4 i arg2 harg2 arg3 harg3 arg4 harg4 arg5 arg6 xq xk xv r e (by omega)
theorem z6 (i : grid1.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x1024 .f32) (arg6 : Memref sig .tc .vmem S2048x256 .f32) (xq : Vec Ideal S1x2048x1024 .bf16) (xk xv : Vec Ideal S1x256x1024 .bf16) (r : Fin 2048) (e : Fin 1024) (h : 1536 ≤ r.val) : View.canon (P6 i arg2 harg2 arg3 harg3 arg4 harg4 arg5 arg6 xq xk xv) (ix3 (0 : Fin 1) r e) = 0 := by
  show View.canon (op5 i arg2 harg2 arg3 harg3 arg4 harg4 arg5 arg6 xq xk xv (P5 i arg2 harg2 arg3 harg3 arg4 harg4 arg5 arg6 xq xk xv) :: (P5 i arg2 harg2 arg3 harg3 arg4 harg4 arg5 arg6 xq xk xv)) (ix3 (0 : Fin 1) r e) = 0
  rw [View.canon_cons_of_not_mem _ _ (fun hm => by have := (mem3 1280 inb_S1x2048x1024_S1x256x1024_0_1280_0 0 r e).mp hm; omega)]
  exact z5 i arg2 harg2 arg3 harg3 arg4 harg4 arg5 arg6 xq xk xv r e (by omega)
theorem z7 (i : grid1.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x1024 .f32) (arg6 : Memref sig .tc .vmem S2048x256 .f32) (xq : Vec Ideal S1x2048x1024 .bf16) (xk xv : Vec Ideal S1x256x1024 .bf16) (r : Fin 2048) (e : Fin 1024) (h : 1792 ≤ r.val) : View.canon (P7 i arg2 harg2 arg3 harg3 arg4 harg4 arg5 arg6 xq xk xv) (ix3 (0 : Fin 1) r e) = 0 := by
  show View.canon (op6 i arg2 harg2 arg3 harg3 arg4 harg4 arg5 arg6 xq xk xv (P6 i arg2 harg2 arg3 harg3 arg4 harg4 arg5 arg6 xq xk xv) :: (P6 i arg2 harg2 arg3 harg3 arg4 harg4 arg5 arg6 xq xk xv)) (ix3 (0 : Fin 1) r e) = 0
  rw [View.canon_cons_of_not_mem _ _ (fun hm => by have := (mem3 1536 inb_S1x2048x1024_S1x256x1024_0_1536_0 0 r e).mp hm; omega)]
  exact z6 i arg2 harg2 arg3 harg3 arg4 harg4 arg5 arg6 xq xk xv r e (by omega)
theorem z8 (i : grid1.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x1024 .f32) (arg6 : Memref sig .tc .vmem S2048x256 .f32) (xq : Vec Ideal S1x2048x1024 .bf16) (xk xv : Vec Ideal S1x256x1024 .bf16) (r : Fin 2048) (e : Fin 1024) (h : 2048 ≤ r.val) : View.canon (P8 i arg2 harg2 arg3 harg3 arg4 harg4 arg5 arg6 xq xk xv) (ix3 (0 : Fin 1) r e) = 0 := by
  show View.canon (op7 i arg2 harg2 arg3 harg3 arg4 harg4 arg5 arg6 xq xk xv (P7 i arg2 harg2 arg3 harg3 arg4 harg4 arg5 arg6 xq xk xv) :: (P7 i arg2 harg2 arg3 harg3 arg4 harg4 arg5 arg6 xq xk xv)) (ix3 (0 : Fin 1) r e) = 0
  rw [View.canon_cons_of_not_mem _ _ (fun hm => by have := (mem3 1792 inb_S1x2048x1024_S1x256x1024_0_1792_0 0 r e).mp hm; omega)]
  exact z7 i arg2 harg2 arg3 harg3 arg4 harg4 arg5 arg6 xq xk xv r e (by omega)

set_option maxHeartbeats 4000000 in
/-- The lists the body's run found are these. -/
theorem run_eq (c : Dev nD) (i : grid1.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x1024 .f32) (arg6 : Memref sig .tc .vmem S2048x256 .f32) (xq : Vec Ideal S1x2048x1024 .bf16) (xk xv : Vec Ideal S1x256x1024 .bf16) (harg5 : arg5.IsWhole) (harg6 : arg6.IsWhole) (hz : init i) (ha0 : act i 256#32) (ha1 : act i 512#32) (ha2 : act i 768#32) (ha3 : act i 1024#32) (ha4 : act i 1280#32) (ha5 : act i 1536#32) (ha6 : act i 1792#32) (ha7 : act i 2048#32) :
    (run0 (F := Ideal) c i arg2 harg2 arg3 harg3 arg4 harg4 arg5 harg5 arg6 harg6 hz ha0 ha1 ha2 ha3 ha4 ha5 ha6 ha7 xq xk xv).1
      = P8 i arg2 harg2 arg3 harg3 arg4 harg4 arg5 arg6 xq xk xv := by
  unfold run0
  dsimp only
  sl_unfold_run_names
  rfl

set_option maxHeartbeats 4000000 in
/-- What the output block holds after the body at the first key block: zero plus the block's contribution. -/
theorem case0 : Cert.Attn.Glue.Gen0 := by
  intro c i arg2 harg2 arg3 harg3 arg4 harg4 arg5 harg5 arg6 harg6 hz ha0 ha1 ha2 ha3 ha4 ha5 ha6 ha7 xq xk xv hi u r e
  have hu : u = 0 := Subsingleton.elim _ _
  subst hu
  unfold out_0
  rw [run_eq, View.read_writes_junk_eq_canon, P8_eq]
  have hr := r.isLt
  refine (View.canon_append_of_pieces (Go 0 xq xk xv (fun _ => 0)) [zeroP] (Ops i arg2 harg2 arg3 harg3 arg4 harg4 arg5 arg6 xq xk xv) ?hL (ix3 0 r e) ?hcov).trans
    (Go_ix3 0 xq xk xv (fun _ => 0) 0 r e)
  case hL =>
    intro p hp
    simp only [Ops, List.mem_cons, List.mem_nil_iff, or_false] at hp
    rcases hp with rfl | rfl | rfl | rfl | rfl | rfl | rfl | rfl
    · intro x
      dsimp only [op7]
      rw [pay4_eq]
      exact out_piece_block 0 arg4 harg4 arg6 xq xk xv (LSc i arg2 harg2 arg3 harg3 xq xk ++ [fillP]) (scr i arg2 harg2 arg3 harg3 xq xk hi) (fun _ => 0) 1792 (by omega) inb_S2048x256_S256x256_1792_0 inb_S1x2048x1024_S1x256x1024_0_1792_0 _
        (fun u r e h => by
          rw [View.readCov_eq_canon']
          show View.canon (P7 i arg2 harg2 arg3 harg3 arg4 harg4 arg5 arg6 xq xk xv) ((Rect.unit (s := S1x2048x1024) ![0, 1792, 0] S1x256x1024.size inb_S1x2048x1024_S1x256x1024_0_1792_0).emb (ix3 u r e)) = 0
          rw [emb3 1792 inb_S1x2048x1024_S1x256x1024_0_1792_0 u r e h]
          exact z7 i arg2 harg2 arg3 harg3 arg4 harg4 arg5 arg6 xq xk xv ⟨1792 + r.val, h⟩ e (by show 1792 ≤ 1792 + r.val; omega)) x
    · intro x
      dsimp only [op6]
      rw [pay3_eq]
      exact out_piece_block 0 arg4 harg4 arg6 xq xk xv (LSc i arg2 harg2 arg3 harg3 xq xk ++ [fillP]) (scr i arg2 harg2 arg3 harg3 xq xk hi) (fun _ => 0) 1536 (by omega) inb_S2048x256_S256x256_1536_0 inb_S1x2048x1024_S1x256x1024_0_1536_0 _
        (fun u r e h => by
          rw [View.readCov_eq_canon']
          show View.canon (P6 i arg2 harg2 arg3 harg3 arg4 harg4 arg5 arg6 xq xk xv) ((Rect.unit (s := S1x2048x1024) ![0, 1536, 0] S1x256x1024.size inb_S1x2048x1024_S1x256x1024_0_1536_0).emb (ix3 u r e)) = 0
          rw [emb3 1536 inb_S1x2048x1024_S1x256x1024_0_1536_0 u r e h]
          exact z6 i arg2 harg2 arg3 harg3 arg4 harg4 arg5 arg6 xq xk xv ⟨1536 + r.val, h⟩ e (by show 1536 ≤ 1536 + r.val; omega)) x
    · intro x
      dsimp only [op5]
      rw [pay2_eq]
      exact out_piece_block 0 arg4 harg4 arg6 xq xk xv (LSc i arg2 harg2 arg3 harg3 xq xk ++ [fillP]) (scr i arg2 harg2 arg3 harg3 xq xk hi) (fun _ => 0) 1280 (by omega) inb_S2048x256_S256x256_1280_0 inb_S1x2048x1024_S1x256x1024_0_1280_0 _
        (fun u r e h => by
          rw [View.readCov_eq_canon']
          show View.canon (P5 i arg2 harg2 arg3 harg3 arg4 harg4 arg5 arg6 xq xk xv) ((Rect.unit (s := S1x2048x1024) ![0, 1280, 0] S1x256x1024.size inb_S1x2048x1024_S1x256x1024_0_1280_0).emb (ix3 u r e)) = 0
          rw [emb3 1280 inb_S1x2048x1024_S1x256x1024_0_1280_0 u r e h]
          exact z5 i arg2 harg2 arg3 harg3 arg4 harg4 arg5 arg6 xq xk xv ⟨1280 + r.val, h⟩ e (by show 1280 ≤ 1280 + r.val; omega)) x
    · intro x
      dsimp only [op4]
      exact out_piece_block 0 arg4 harg4 arg6 xq xk xv (LSc i arg2 harg2 arg3 harg3 xq xk ++ [fillP]) (scr i arg2 harg2 arg3 harg3 xq xk hi) (fun _ => 0) 1024 (by omega) inb_S2048x256_S256x256_1024_0 inb_S1x2048x1024_S1x256x1024_0_1024_0 _
        (fun u r e h => by
          rw [View.readCov_eq_canon']
          show View.canon (P4 i arg2 harg2 arg3 harg3 arg4 harg4 arg5 arg6 xq xk xv) ((Rect.unit (s := S1x2048x1024) ![0, 1024, 0] S1x256x1024.size inb_S1x2048x1024_S1x256x1024_0_1024_0).emb (ix3 u r e)) = 0
          rw [emb3 1024 inb_S1x2048x1024_S1x256x1024_0_1024_0 u r e h]
          exact z4 i arg2 harg2 arg3 harg3 arg4 harg4 arg5 arg6 xq xk xv ⟨1024 + r.val, h⟩ e (by show 1024 ≤ 1024 + r.val; omega)) x
    · intro x
      dsimp only [op3]
      rw [pay22_eq]
      exact out_piece_block 0 arg4 harg4 arg6 xq xk xv (LSc i arg2 harg2 arg3 harg3 xq xk ++ [fillP]) (scr i arg2 harg2 arg3 harg3 xq xk hi) (fun _ => 0) 768 (by omega) inb_S2048x256_S256x256_768_0 inb_S1x2048x1024_S1x256x1024_0_768_0 _
        (fun u r e h => by
          rw [View.readCov_eq_canon']
          show View.canon (P3 i arg2 harg2 arg3 harg3 arg4 harg4 arg5 arg6 xq xk xv) ((Rect.unit (s := S1x2048x1024) ![0, 768, 0] S1x256x1024.size inb_S1x2048x1024_S1x256x1024_0_768_0).emb (ix3 u r e)) = 0
          rw [emb3 768 inb_S1x2048x1024_S1x256x1024_0_768_0 u r e h]
          exact z3 i arg2 harg2 arg3 harg3 arg4 harg4 arg5 arg6 xq xk xv ⟨768 + r.val, h⟩ e (by show 768 ≤ 768 + r.val; omega)) x
    · intro x
      dsimp only [op2]
      rw [pay21_eq]
      exact out_piece_block 0 arg4 harg4 arg6 xq xk xv (LSc i arg2 harg2 arg3 harg3 xq xk ++ [fillP]) (scr i arg2 harg2 arg3 harg3 xq xk hi) (fun _ => 0) 512 (by omega) inb_S2048x256_S256x256_512_0 inb_S1x2048x1024_S1x256x1024_0_512_0 _
        (fun u r e h => by
          rw [View.readCov_eq_canon']
          show View.canon (P2 i arg2 harg2 arg3 harg3 arg4 harg4 arg5 arg6 xq xk xv) ((Rect.unit (s := S1x2048x1024) ![0, 512, 0] S1x256x1024.size inb_S1x2048x1024_S1x256x1024_0_512_0).emb (ix3 u r e)) = 0
          rw [emb3 512 inb_S1x2048x1024_S1x256x1024_0_512_0 u r e h]
          exact z2 i arg2 harg2 arg3 harg3 arg4 harg4 arg5 arg6 xq xk xv ⟨512 + r.val, h⟩ e (by show 512 ≤ 512 + r.val; omega)) x
    · intro x
      dsimp only [op1]
      rw [pay20_eq]
      exact out_piece_block 0 arg4 harg4 arg6 xq xk xv (LSc i arg2 harg2 arg3 harg3 xq xk ++ [fillP]) (scr i arg2 harg2 arg3 harg3 xq xk hi) (fun _ => 0) 256 (by omega) inb_S2048x256_S256x256_256_0 inb_S1x2048x1024_S1x256x1024_0_256_0 _
        (fun u r e h => by
          rw [View.readCov_eq_canon']
          show View.canon (P1 i arg2 harg2 arg3 harg3 arg4 harg4 arg5 arg6 xq xk xv) ((Rect.unit (s := S1x2048x1024) ![0, 256, 0] S1x256x1024.size inb_S1x2048x1024_S1x256x1024_0_256_0).emb (ix3 u r e)) = 0
          rw [emb3 256 inb_S1x2048x1024_S1x256x1024_0_256_0 u r e h]
          exact z1 i arg2 harg2 arg3 harg3 arg4 harg4 arg5 arg6 xq xk xv ⟨256 + r.val, h⟩ e (by show 256 ≤ 256 + r.val; omega)) x
    · intro x
      dsimp only [op0]
      rw [pay19_eq]
      exact out_piece_block 0 arg4 harg4 arg6 xq xk xv (LSc i arg2 harg2 arg3 harg3 xq xk ++ [fillP]) (scr i arg2 harg2 arg3 harg3 xq xk hi) (fun _ => 0) 0 (by omega) inb_S2048x256_S256x256_0_0 inb_S1x2048x1024_S1x256x1024_0_0_0 _
        (fun u r e h => by
          rw [View.readCov_eq_canon']
          show View.canon P0 ((Rect.unit (s := S1x2048x1024) ![0, 0, 0] S1x256x1024.size inb_S1x2048x1024_S1x256x1024_0_0_0).emb (ix3 u r e)) = 0
          rw [emb3 0 inb_S1x2048x1024_S1x256x1024_0_0_0 u r e h]
          exact z0 ⟨0 + r.val, h⟩ e) x
  case hcov =>
    rcases (show r.val / 256 = 7 ∨ r.val / 256 = 6 ∨ r.val / 256 = 5 ∨ r.val / 256 = 4 ∨ r.val / 256 = 3 ∨ r.val / 256 = 2 ∨ r.val / 256 = 1 ∨ r.val / 256 = 0 from by omega) with h | h | h | h | h | h | h | h
    · exact ⟨_, (List.mem_cons_self), (mem3 1792 inb_S1x2048x1024_S1x256x1024_0_1792_0 0 r e).mpr (by omega)⟩
    · exact ⟨_, (List.mem_cons_of_mem _ (List.mem_cons_self)), (mem3 1536 inb_S1x2048x1024_S1x256x1024_0_1536_0 0 r e).mpr (by omega)⟩
    · exact ⟨_, (List.mem_cons_of_mem _ (List.mem_cons_of_mem _ (List.mem_cons_self))), (mem3 1280 inb_S1x2048x1024_S1x256x1024_0_1280_0 0 r e).mpr (by omega)⟩
    · exact ⟨_, (List.mem_cons_of_mem _ (List.mem_cons_of_mem _ (List.mem_cons_of_mem _ (List.mem_cons_self)))), (mem3 1024 inb_S1x2048x1024_S1x256x1024_0_1024_0 0 r e).mpr (by omega)⟩
    · exact ⟨_, (List.mem_cons_of_mem _ (List.mem_cons_of_mem _ (List.mem_cons_of_mem _ (List.mem_cons_of_mem _ (List.mem_cons_self))))), (mem3 768 inb_S1x2048x1024_S1x256x1024_0_768_0 0 r e).mpr (by omega)⟩
    · exact ⟨_, (List.mem_cons_of_mem _ (List.mem_cons_of_mem _ (List.mem_cons_of_mem _ (List.mem_cons_of_mem _ (List.mem_cons_of_mem _ (List.mem_cons_self)))))), (mem3 512 inb_S1x2048x1024_S1x256x1024_0_512_0 0 r e).mpr (by omega)⟩
    · exact ⟨_, (List.mem_cons_of_mem _ (List.mem_cons_of_mem _ (List.mem_cons_of_mem _ (List.mem_cons_of_mem _ (List.mem_cons_of_mem _ (List.mem_cons_of_mem _ (List.mem_cons_self))))))), (mem3 256 inb_S1x2048x1024_S1x256x1024_0_256_0 0 r e).mpr (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_self)))))))), (mem3 0 inb_S1x2048x1024_S1x256x1024_0_0_0 0 r e).mpr (by omega)⟩

end Cert.KernelIdeal.Case0

end
-- ==== Proof.KIV.Case1.lean ====
/-
  The attention body at key block jb = 1, opened.

  The body fills the score scratch with -∞ and stores the masked scaled scores of the query chunks 1 … 7 over the
  fill: so the scratch holds the masked scaled score S of every query row (rows before 256·1 lie wholly above the
  diagonal, where S is -∞).  It then adds, chunk by chunk for the chunks 1 … 7, the key block's contribution C to
  what the output block held, and leaves the rows of chunks 0 … 0 as they were.
-/
import proofs.«157480_j6983616824221_2_alg».proof.Proof.KIV.Lists2
import proofs.«157480_j6983616824221_2_alg».proof.Proof.KI.R1Dat

set_option maxRecDepth 16384

noncomputable section

namespace Cert.KernelIdeal.Case1

open Cert.KernelIdeal Cert.KernelIdeal.Gen Cert.KernelIdeal.R1 Cert.KernelIdeal.Pay Cert.KernelIdeal.Sem
open Idealize.ShloMosaic Idealize.ShloMosaic.ValueIdx Idealize.ShloMosaic.View Idealize.ShloMosaic.Tactic

/-- The scratch's chunk stores, last made first, and the fill beneath them. -/
def LSc (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) : List (View.Piece (Elt Ideal) S2048x256 .f32) :=
  [ ⟨Rect.unit (s := S2048x256) ![1792, 0] S256x256.size inb_S2048x256_S256x256_1792_0, k1_pay16 (V0w i) (k1_pay6 (Kld arg3 harg3 xk)) (Qld arg2 harg2 xq 1792 inb_S1x2048x1024_S1x256x1024_0_1792_0)⟩,
    ⟨Rect.unit (s := S2048x256) ![1536, 0] S256x256.size inb_S2048x256_S256x256_1536_0, k1_pay15 (V0w i) (k1_pay6 (Kld arg3 harg3 xk)) (Qld arg2 harg2 xq 1536 inb_S1x2048x1024_S1x256x1024_0_1536_0)⟩,
    ⟨Rect.unit (s := S2048x256) ![1280, 0] S256x256.size inb_S2048x256_S256x256_1280_0, k1_pay14 (V0w i) (k1_pay6 (Kld arg3 harg3 xk)) (Qld arg2 harg2 xq 1280 inb_S1x2048x1024_S1x256x1024_0_1280_0)⟩,
    ⟨Rect.unit (s := S2048x256) ![1024, 0] S256x256.size inb_S2048x256_S256x256_1024_0, k1_pay13 i (Kld arg3 harg3 xk) (Qld arg2 harg2 xq 1024 inb_S1x2048x1024_S1x256x1024_0_1024_0)⟩,
    ⟨Rect.unit (s := S2048x256) ![768, 0] S256x256.size inb_S2048x256_S256x256_768_0, k1_pay12 i (Kld arg3 harg3 xk) (Qld arg2 harg2 xq 768 inb_S1x2048x1024_S1x256x1024_0_768_0)⟩,
    ⟨Rect.unit (s := S2048x256) ![512, 0] S256x256.size inb_S2048x256_S256x256_512_0, k1_pay11 i (Kld arg3 harg3 xk) (Qld arg2 harg2 xq 512 inb_S1x2048x1024_S1x256x1024_0_512_0)⟩,
    ⟨Rect.unit (s := S2048x256) ![256, 0] S256x256.size inb_S2048x256_S256x256_256_0, k1_pay10 i (Kld arg3 harg3 xk) (Qld arg2 harg2 xq 256 inb_S1x2048x1024_S1x256x1024_0_256_0)⟩ ]
def fillP : View.Piece (Elt Ideal) S2048x256 .f32 :=
  ⟨Rect.unit (s := S2048x256) ![0, 0] S2048x256.size inb_S2048x256_S2048x256_0_0, k1_pay8 (F := Ideal)⟩

/-- The output block's stores, last made first. -/
def LO (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) (arg4 : Memref sig .tc .vmem S1x256x1024 .bf16) (harg4 : arg4.IsWhole) (arg5 : Memref sig .tc .vmem S1x2048x1024 .f32) (harg5 : arg5.IsWhole) (arg6 : Memref sig .tc .vmem S2048x256 .f32) (xv : Vec Ideal S1x256x1024 .bf16) (xo : Vec Ideal S1x2048x1024 .f32) : List (View.Piece (Elt Ideal) S1x2048x1024 .f32) :=
  [ ⟨Rect.unit (s := S1x2048x1024) ![0, 1792, 0] S1x256x1024.size inb_S1x2048x1024_S1x256x1024_0_1792_0, k1_pay4 (k1_pay7 (Vld arg4 harg4 xv)) (k1_pay17 (arg6.view.readCov (LSc i arg2 harg2 arg3 harg3 xq xk ++ [fillP]) (whole2).toLoadRect)) (k1_pay18 (arg6.view.readCov (LSc i arg2 harg2 arg3 harg3 xq xk ++ [fillP]) (whole2).toLoadRect) (arg6.view.readCov (LSc i arg2 harg2 arg3 harg3 xq xk ++ [fillP]) (whole2).toLoadRect)) (arg6.view.readCov (LSc i arg2 harg2 arg3 harg3 xq xk ++ [fillP]) (Rect.unit (s := S2048x256) ![1792, 0] S256x256.size inb_S2048x256_S256x256_1792_0).toLoadRect) (View.readAt (Elt Ideal) arg5.view (Rect.unit (s := S1x2048x1024) ![0, 1792, 0] S1x256x1024.size inb_S1x2048x1024_S1x256x1024_0_1792_0).toLoadRect (harg5.unread xo))⟩,
    ⟨Rect.unit (s := S1x2048x1024) ![0, 1536, 0] S1x256x1024.size inb_S1x2048x1024_S1x256x1024_0_1536_0, k1_pay3 (k1_pay7 (Vld arg4 harg4 xv)) (k1_pay17 (arg6.view.readCov (LSc i arg2 harg2 arg3 harg3 xq xk ++ [fillP]) (whole2).toLoadRect)) (k1_pay18 (arg6.view.readCov (LSc i arg2 harg2 arg3 harg3 xq xk ++ [fillP]) (whole2).toLoadRect) (arg6.view.readCov (LSc i arg2 harg2 arg3 harg3 xq xk ++ [fillP]) (whole2).toLoadRect)) (arg6.view.readCov (LSc i arg2 harg2 arg3 harg3 xq xk ++ [fillP]) (Rect.unit (s := S2048x256) ![1536, 0] S256x256.size inb_S2048x256_S256x256_1536_0).toLoadRect) (View.readAt (Elt Ideal) arg5.view (Rect.unit (s := S1x2048x1024) ![0, 1536, 0] S1x256x1024.size inb_S1x2048x1024_S1x256x1024_0_1536_0).toLoadRect (harg5.unread xo))⟩,
    ⟨Rect.unit (s := S1x2048x1024) ![0, 1280, 0] S1x256x1024.size inb_S1x2048x1024_S1x256x1024_0_1280_0, k1_pay2 (k1_pay7 (Vld arg4 harg4 xv)) (k1_pay17 (arg6.view.readCov (LSc i arg2 harg2 arg3 harg3 xq xk ++ [fillP]) (whole2).toLoadRect)) (k1_pay18 (arg6.view.readCov (LSc i arg2 harg2 arg3 harg3 xq xk ++ [fillP]) (whole2).toLoadRect) (arg6.view.readCov (LSc i arg2 harg2 arg3 harg3 xq xk ++ [fillP]) (whole2).toLoadRect)) (arg6.view.readCov (LSc i arg2 harg2 arg3 harg3 xq xk ++ [fillP]) (Rect.unit (s := S2048x256) ![1280, 0] S256x256.size inb_S2048x256_S256x256_1280_0).toLoadRect) (View.readAt (Elt Ideal) arg5.view (Rect.unit (s := S1x2048x1024) ![0, 1280, 0] S1x256x1024.size inb_S1x2048x1024_S1x256x1024_0_1280_0).toLoadRect (harg5.unread xo))⟩,
    ⟨Rect.unit (s := S1x2048x1024) ![0, 1024, 0] S1x256x1024.size inb_S1x2048x1024_S1x256x1024_0_1024_0, k1_pay1 (k1_pay7 (Vld arg4 harg4 xv)) (k1_pay17 (arg6.view.readCov (LSc i arg2 harg2 arg3 harg3 xq xk ++ [fillP]) (whole2).toLoadRect)) (k1_pay18 (arg6.view.readCov (LSc i arg2 harg2 arg3 harg3 xq xk ++ [fillP]) (whole2).toLoadRect) (arg6.view.readCov (LSc i arg2 harg2 arg3 harg3 xq xk ++ [fillP]) (whole2).toLoadRect)) (arg6.view.readCov (LSc i arg2 harg2 arg3 harg3 xq xk ++ [fillP]) (Rect.unit (s := S2048x256) ![1024, 0] S256x256.size inb_S2048x256_S256x256_1024_0).toLoadRect) (View.readAt (Elt Ideal) arg5.view (Rect.unit (s := S1x2048x1024) ![0, 1024, 0] S1x256x1024.size inb_S1x2048x1024_S1x256x1024_0_1024_0).toLoadRect (harg5.unread xo))⟩,
    ⟨Rect.unit (s := S1x2048x1024) ![0, 768, 0] S1x256x1024.size inb_S1x2048x1024_S1x256x1024_0_768_0, k1_pay22 (k1_pay7 (Vld arg4 harg4 xv)) (arg6.view.readCov (LSc i arg2 harg2 arg3 harg3 xq xk ++ [fillP]) (whole2).toLoadRect) (arg6.view.readCov (LSc i arg2 harg2 arg3 harg3 xq xk ++ [fillP]) (whole2).toLoadRect) (arg6.view.readCov (LSc i arg2 harg2 arg3 harg3 xq xk ++ [fillP]) (Rect.unit (s := S2048x256) ![768, 0] S256x256.size inb_S2048x256_S256x256_768_0).toLoadRect) (View.readAt (Elt Ideal) arg5.view (Rect.unit (s := S1x2048x1024) ![0, 768, 0] S1x256x1024.size inb_S1x2048x1024_S1x256x1024_0_768_0).toLoadRect (harg5.unread xo))⟩,
    ⟨Rect.unit (s := S1x2048x1024) ![0, 512, 0] S1x256x1024.size inb_S1x2048x1024_S1x256x1024_0_512_0, k1_pay21 (k1_pay7 (Vld arg4 harg4 xv)) (arg6.view.readCov (LSc i arg2 harg2 arg3 harg3 xq xk ++ [fillP]) (whole2).toLoadRect) (arg6.view.readCov (LSc i arg2 harg2 arg3 harg3 xq xk ++ [fillP]) (whole2).toLoadRect) (arg6.view.readCov (LSc i arg2 harg2 arg3 harg3 xq xk ++ [fillP]) (Rect.unit (s := S2048x256) ![512, 0] S256x256.size inb_S2048x256_S256x256_512_0).toLoadRect) (View.readAt (Elt Ideal) arg5.view (Rect.unit (s := S1x2048x1024) ![0, 512, 0] S1x256x1024.size inb_S1x2048x1024_S1x256x1024_0_512_0).toLoadRect (harg5.unread xo))⟩,
    ⟨Rect.unit (s := S1x2048x1024) ![0, 256, 0] S1x256x1024.size inb_S1x2048x1024_S1x256x1024_0_256_0, k1_pay20 (k1_pay7 (Vld arg4 harg4 xv)) (arg6.view.readCov (LSc i arg2 harg2 arg3 harg3 xq xk ++ [fillP]) (whole2).toLoadRect) (arg6.view.readCov (LSc i arg2 harg2 arg3 harg3 xq xk ++ [fillP]) (whole2).toLoadRect) (arg6.view.readCov (LSc i arg2 harg2 arg3 harg3 xq xk ++ [fillP]) (Rect.unit (s := S2048x256) ![256, 0] S256x256.size inb_S2048x256_S256x256_256_0).toLoadRect) (View.readAt (Elt Ideal) arg5.view (Rect.unit (s := S1x2048x1024) ![0, 256, 0] S1x256x1024.size inb_S1x2048x1024_S1x256x1024_0_256_0).toLoadRect (harg5.unread xo))⟩ ]

set_option maxHeartbeats 40000000 in
/-- The scratch holds the masked scaled scores. -/
theorem scr (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) (hi : (i 1).val = 1) (r : Fin 2048) (jj : Fin 256) :
    View.canon (LSc i arg2 harg2 arg3 harg3 xq xk ++ [fillP]) (ix2 r jj) = Scur 1 xq xk r jj := by
  refine (Cert.LibCanonOver.canon_blocks_over (Gs xq xk 1) (LSc i arg2 harg2 arg3 harg3 xq xk) fillP ?hL ?hp (ix2 r jj) ?hy).trans (Gs_ix2 xq xk 1 r jj)
  case hL =>
    intro p hp
    simp only [LSc, List.mem_cons, List.mem_nil_iff, or_false] at hp
    rcases hp with rfl | rfl | rfl | rfl | rfl | rfl | rfl
    · intro x; rw [pay16_eq]; exact chunk_block i arg2 harg2 arg3 harg3 xq xk 1792 1 (by omega) (by omega) hi inb_S2048x256_S256x256_1792_0 inb_S1x2048x1024_S1x256x1024_0_1792_0 x
    · intro x; rw [pay15_eq]; exact chunk_block i arg2 harg2 arg3 harg3 xq xk 1536 1 (by omega) (by omega) hi inb_S2048x256_S256x256_1536_0 inb_S1x2048x1024_S1x256x1024_0_1536_0 x
    · intro x; rw [pay14_eq]; exact chunk_block i arg2 harg2 arg3 harg3 xq xk 1280 1 (by omega) (by omega) hi inb_S2048x256_S256x256_1280_0 inb_S1x2048x1024_S1x256x1024_0_1280_0 x
    · intro x; rw [pay13_eq]; exact chunk_block i arg2 harg2 arg3 harg3 xq xk 1024 1 (by omega) (by omega) hi inb_S2048x256_S256x256_1024_0 inb_S1x2048x1024_S1x256x1024_0_1024_0 x
    · intro x; rw [pay12_eq]; exact chunk_block i arg2 harg2 arg3 harg3 xq xk 768 1 (by omega) (by omega) hi inb_S2048x256_S256x256_768_0 inb_S1x2048x1024_S1x256x1024_0_768_0 x
    · intro x; rw [pay11_eq]; exact chunk_block i arg2 harg2 arg3 harg3 xq xk 512 1 (by omega) (by omega) hi inb_S2048x256_S256x256_512_0 inb_S1x2048x1024_S1x256x1024_0_512_0 x
    · intro x; rw [pay10_eq]; exact chunk_block i arg2 harg2 arg3 harg3 xq xk 256 1 (by omega) (by omega) hi inb_S2048x256_S256x256_256_0 inb_S1x2048x1024_S1x256x1024_0_256_0 x
  case hp =>
    intro x hx
    obtain ⟨r', jj', rfl⟩ : ∃ (r' : Fin 2048) (jj' : Fin 256), x = ix2 r' jj' := ⟨x 0, x 1, eq_ix2 x⟩
    have hemb : fillP.1.emb (ix2 r' jj') = ix2 r' jj' := funext fun a => Fin.ext (by
      match a with
      | ⟨0, _⟩ => show 0 + 1 * r'.val = r'.val; omega
      | ⟨1, _⟩ => show 0 + 1 * jj'.val = jj'.val; omega)
    rw [hemb] at hx ⊢
    rw [Gs_ix2]
    show k1_pay8 (F := Ideal) (ix2 r' jj') = _
    rw [pay8_apply]
    refine fill_block xq xk 1 r' jj' ?_
    have h7 : ¬(1792 ≤ r'.val ∧ r'.val < 1792 + 256) := fun h => hx _ (List.mem_cons_self) ((mem2 1792 inb_S2048x256_S256x256_1792_0 r' jj').mpr h)
    have h6 : ¬(1536 ≤ r'.val ∧ r'.val < 1536 + 256) := fun h => hx _ (List.mem_cons_of_mem _ (List.mem_cons_self)) ((mem2 1536 inb_S2048x256_S256x256_1536_0 r' jj').mpr h)
    have h5 : ¬(1280 ≤ r'.val ∧ r'.val < 1280 + 256) := fun h => hx _ (List.mem_cons_of_mem _ (List.mem_cons_of_mem _ (List.mem_cons_self))) ((mem2 1280 inb_S2048x256_S256x256_1280_0 r' jj').mpr h)
    have h4 : ¬(1024 ≤ r'.val ∧ r'.val < 1024 + 256) := fun h => hx _ (List.mem_cons_of_mem _ (List.mem_cons_of_mem _ (List.mem_cons_of_mem _ (List.mem_cons_self)))) ((mem2 1024 inb_S2048x256_S256x256_1024_0 r' jj').mpr h)
    have h3 : ¬(768 ≤ r'.val ∧ r'.val < 768 + 256) := fun h => hx _ (List.mem_cons_of_mem _ (List.mem_cons_of_mem _ (List.mem_cons_of_mem _ (List.mem_cons_of_mem _ (List.mem_cons_self))))) ((mem2 768 inb_S2048x256_S256x256_768_0 r' jj').mpr h)
    have h2 : ¬(512 ≤ r'.val ∧ r'.val < 512 + 256) := fun h => hx _ (List.mem_cons_of_mem _ (List.mem_cons_of_mem _ (List.mem_cons_of_mem _ (List.mem_cons_of_mem _ (List.mem_cons_of_mem _ (List.mem_cons_self)))))) ((mem2 512 inb_S2048x256_S256x256_512_0 r' jj').mpr h)
    have h1 : ¬(256 ≤ r'.val ∧ r'.val < 256 + 256) := fun h => hx _ (List.mem_cons_of_mem _ (List.mem_cons_of_mem _ (List.mem_cons_of_mem _ (List.mem_cons_of_mem _ (List.mem_cons_of_mem _ (List.mem_cons_of_mem _ (List.mem_cons_self))))))) ((mem2 256 inb_S2048x256_S256x256_256_0 r' jj').mpr h)
    have := r'.isLt
    omega
  case hy =>
    show ix2 r jj ∈ (Rect.unit (s := S2048x256) ![0, 0] S2048x256.size inb_S2048x256_S2048x256_0_0).set
    rw [Rect.mem_set_unit]
    intro a
    match a with
    | ⟨0, _⟩ => exact ⟨Nat.zero_le _, by show r.val < 0 + 2048; omega⟩
    | ⟨1, _⟩ => exact ⟨Nat.zero_le _, by show jj.val < 0 + 256; omega⟩

set_option maxHeartbeats 40000000 in
/-- The lists the body's run found are these. -/
theorem run_eq (c : Dev nD) (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) (arg4 : Memref sig .tc .vmem S1x256x1024 .bf16) (harg4 : arg4.IsWhole) (arg5 : Memref sig .tc .vmem S1x2048x1024 .f32) (harg5 : arg5.IsWhole) (arg6 : Memref sig .tc .vmem S2048x256 .f32) (xv : Vec Ideal S1x256x1024 .bf16) (harg6 : arg6.IsWhole) (hz : ¬init i) (ha0 : ¬act i 256#32) (ha1 : act i 512#32) (ha2 : act i 768#32) (ha3 : act i 1024#32) (ha4 : act i 1280#32) (ha5 : act i 1536#32) (ha6 : act i 1792#32) (ha7 : act i 2048#32) (xo : Vec Ideal S1x2048x1024 .f32) :
    (run1 (F := Ideal) c i arg2 harg2 arg3 harg3 arg4 harg4 arg5 harg5 arg6 harg6 hz ha0 ha1 ha2 ha3 ha4 ha5 ha6 ha7 xq xk xv xo).1
      = LO i arg2 harg2 arg3 harg3 xq xk arg4 harg4 arg5 harg5 arg6 xv xo := by
  unfold run1
  dsimp only
  sl_unfold_run_names
  rfl

set_option maxHeartbeats 80000000 in
/-- What the output block holds after the body. -/
theorem out_apply (c : Dev nD) (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) (arg4 : Memref sig .tc .vmem S1x256x1024 .bf16) (harg4 : arg4.IsWhole) (arg5 : Memref sig .tc .vmem S1x2048x1024 .f32) (harg5 : arg5.IsWhole) (arg6 : Memref sig .tc .vmem S2048x256 .f32) (xv : Vec Ideal S1x256x1024 .bf16) (harg6 : arg6.IsWhole) (hz : ¬init i) (ha0 : ¬act i 256#32) (ha1 : act i 512#32) (ha2 : act i 768#32) (ha3 : act i 1024#32) (ha4 : act i 1280#32) (ha5 : act i 1536#32) (ha6 : act i 1792#32) (ha7 : act i 2048#32) (xo : Vec Ideal S1x2048x1024 .f32)
    (hi : (i 1).val = 1) (u : Fin 1) (r : Fin 2048) (e : Fin 1024) :
    out_1 (F := Ideal) c i arg2 harg2 arg3 harg3 arg4 harg4 arg5 harg5 arg6 harg6 hz ha0 ha1 ha2 ha3 ha4 ha5 ha6 ha7 xq xk xv xo (ix3 u r e)
      = if 1 ≤ r.val / 256 then xo (ix3 (0 : Fin 1) r e) + Cfun 1 xq xk xv r e else xo (ix3 (0 : Fin 1) r e) := by
  have hu : u = 0 := Subsingleton.elim _ _
  subst hu
  unfold out_1
  rw [run_eq]
  have hr := r.isLt
  by_cases hc : 1 ≤ r.val / 256
  · rw [if_pos hc]
    refine (Cert.LibCanonOver.read_writes_blocks arg5.view (harg5.unread xo) (Go 1 xq xk xv xo) (LO i arg2 harg2 arg3 harg3 xq xk arg4 harg4 arg5 harg5 arg6 xv xo) ?hL (ix3 0 r e) ?hcov).trans
      (Go_ix3 1 xq xk xv xo 0 r e)
    case hL =>
      intro p hp
      simp only [LO, List.mem_cons, List.mem_nil_iff, or_false] at hp
      rcases hp with rfl | rfl | rfl | rfl | rfl | rfl | rfl
      · intro x; rw [pay4_eq]
        exact out_piece_block 1 arg4 harg4 arg6 xq xk xv (LSc i arg2 harg2 arg3 harg3 xq xk ++ [fillP]) (scr i arg2 harg2 arg3 harg3 xq xk hi) xo 1792 (by omega) inb_S2048x256_S256x256_1792_0 inb_S1x2048x1024_S1x256x1024_0_1792_0 _
          (fun u r e h => by rw [View.readAt_eq_ld, harg5.read_unread]; exact ld3 xo 1792 _ u r e h) x
      · intro x; rw [pay3_eq]
        exact out_piece_block 1 arg4 harg4 arg6 xq xk xv (LSc i arg2 harg2 arg3 harg3 xq xk ++ [fillP]) (scr i arg2 harg2 arg3 harg3 xq xk hi) xo 1536 (by omega) inb_S2048x256_S256x256_1536_0 inb_S1x2048x1024_S1x256x1024_0_1536_0 _
          (fun u r e h => by rw [View.readAt_eq_ld, harg5.read_unread]; exact ld3 xo 1536 _ u r e h) x
      · intro x; rw [pay2_eq]
        exact out_piece_block 1 arg4 harg4 arg6 xq xk xv (LSc i arg2 harg2 arg3 harg3 xq xk ++ [fillP]) (scr i arg2 harg2 arg3 harg3 xq xk hi) xo 1280 (by omega) inb_S2048x256_S256x256_1280_0 inb_S1x2048x1024_S1x256x1024_0_1280_0 _
          (fun u r e h => by rw [View.readAt_eq_ld, harg5.read_unread]; exact ld3 xo 1280 _ u r e h) x
      · intro x
        exact out_piece_block 1 arg4 harg4 arg6 xq xk xv (LSc i arg2 harg2 arg3 harg3 xq xk ++ [fillP]) (scr i arg2 harg2 arg3 harg3 xq xk hi) xo 1024 (by omega) inb_S2048x256_S256x256_1024_0 inb_S1x2048x1024_S1x256x1024_0_1024_0 _
          (fun u r e h => by rw [View.readAt_eq_ld, harg5.read_unread]; exact ld3 xo 1024 _ u r e h) x
      · intro x; rw [pay22_eq]
        exact out_piece_block 1 arg4 harg4 arg6 xq xk xv (LSc i arg2 harg2 arg3 harg3 xq xk ++ [fillP]) (scr i arg2 harg2 arg3 harg3 xq xk hi) xo 768 (by omega) inb_S2048x256_S256x256_768_0 inb_S1x2048x1024_S1x256x1024_0_768_0 _
          (fun u r e h => by rw [View.readAt_eq_ld, harg5.read_unread]; exact ld3 xo 768 _ u r e h) x
      · intro x; rw [pay21_eq]
        exact out_piece_block 1 arg4 harg4 arg6 xq xk xv (LSc i arg2 harg2 arg3 harg3 xq xk ++ [fillP]) (scr i arg2 harg2 arg3 harg3 xq xk hi) xo 512 (by omega) inb_S2048x256_S256x256_512_0 inb_S1x2048x1024_S1x256x1024_0_512_0 _
          (fun u r e h => by rw [View.readAt_eq_ld, harg5.read_unread]; exact ld3 xo 512 _ u r e h) x
      · intro x; rw [pay20_eq]
        exact out_piece_block 1 arg4 harg4 arg6 xq xk xv (LSc i arg2 harg2 arg3 harg3 xq xk ++ [fillP]) (scr i arg2 harg2 arg3 harg3 xq xk hi) xo 256 (by omega) inb_S2048x256_S256x256_256_0 inb_S1x2048x1024_S1x256x1024_0_256_0 _
          (fun u r e h => by rw [View.readAt_eq_ld, harg5.read_unread]; exact ld3 xo 256 _ u r e h) x
    case hcov =>
      rcases (show r.val / 256 = 7 ∨ r.val / 256 = 6 ∨ r.val / 256 = 5 ∨ r.val / 256 = 4 ∨ r.val / 256 = 3 ∨ r.val / 256 = 2 ∨ r.val / 256 = 1 from by omega) with h | h | h | h | h | h | h
      · exact ⟨_, (List.mem_cons_self), (mem3 1792 inb_S1x2048x1024_S1x256x1024_0_1792_0 0 r e).mpr (by omega)⟩
      · exact ⟨_, (List.mem_cons_of_mem _ (List.mem_cons_self)), (mem3 1536 inb_S1x2048x1024_S1x256x1024_0_1536_0 0 r e).mpr (by omega)⟩
      · exact ⟨_, (List.mem_cons_of_mem _ (List.mem_cons_of_mem _ (List.mem_cons_self))), (mem3 1280 inb_S1x2048x1024_S1x256x1024_0_1280_0 0 r e).mpr (by omega)⟩
      · exact ⟨_, (List.mem_cons_of_mem _ (List.mem_cons_of_mem _ (List.mem_cons_of_mem _ (List.mem_cons_self)))), (mem3 1024 inb_S1x2048x1024_S1x256x1024_0_1024_0 0 r e).mpr (by omega)⟩
      · exact ⟨_, (List.mem_cons_of_mem _ (List.mem_cons_of_mem _ (List.mem_cons_of_mem _ (List.mem_cons_of_mem _ (List.mem_cons_self))))), (mem3 768 inb_S1x2048x1024_S1x256x1024_0_768_0 0 r e).mpr (by omega)⟩
      · exact ⟨_, (List.mem_cons_of_mem _ (List.mem_cons_of_mem _ (List.mem_cons_of_mem _ (List.mem_cons_of_mem _ (List.mem_cons_of_mem _ (List.mem_cons_self)))))), (mem3 512 inb_S1x2048x1024_S1x256x1024_0_512_0 0 r e).mpr (by omega)⟩
      · exact ⟨_, (List.mem_cons_of_mem _ (List.mem_cons_of_mem _ (List.mem_cons_of_mem _ (List.mem_cons_of_mem _ (List.mem_cons_of_mem _ (List.mem_cons_of_mem _ (List.mem_cons_self))))))), (mem3 256 inb_S1x2048x1024_S1x256x1024_0_256_0 0 r e).mpr (by omega)⟩
  · rw [if_neg hc]
    rw [Cert.LibCanonOver.read_writes_off arg5.view (harg5.unread xo) (LO i arg2 harg2 arg3 harg3 xq xk arg4 harg4 arg5 harg5 arg6 xv xo) (ix3 0 r e) ?_]
    · exact congrFun (harg5.read_unread xo) _
    · intro p hp
      simp only [LO, List.mem_cons, List.mem_nil_iff, or_false] at hp
      rcases hp with rfl | rfl | rfl | rfl | rfl | rfl | rfl
      · exact fun h => hc (by have := (mem3 1792 inb_S1x2048x1024_S1x256x1024_0_1792_0 0 r e).mp h; omega)
      · exact fun h => hc (by have := (mem3 1536 inb_S1x2048x1024_S1x256x1024_0_1536_0 0 r e).mp h; omega)
      · exact fun h => hc (by have := (mem3 1280 inb_S1x2048x1024_S1x256x1024_0_1280_0 0 r e).mp h; omega)
      · exact fun h => hc (by have := (mem3 1024 inb_S1x2048x1024_S1x256x1024_0_1024_0 0 r e).mp h; omega)
      · exact fun h => hc (by have := (mem3 768 inb_S1x2048x1024_S1x256x1024_0_768_0 0 r e).mp h; omega)
      · exact fun h => hc (by have := (mem3 512 inb_S1x2048x1024_S1x256x1024_0_512_0 0 r e).mp h; omega)
      · exact fun h => hc (by have := (mem3 256 inb_S1x2048x1024_S1x256x1024_0_256_0 0 r e).mp h; omega)

end Cert.KernelIdeal.Case1

end
-- ==== Proof.KIV.Case2.lean ====
/-
  The attention body at key block jb = 2, opened.

  The body fills the score scratch with -∞ and stores the masked scaled scores of the query chunks 2 … 7 over the
  fill: so the scratch holds the masked scaled score S of every query row (rows before 256·2 lie wholly above the
  diagonal, where S is -∞).  It then adds, chunk by chunk for the chunks 2 … 7, the key block's contribution C to
  what the output block held, and leaves the rows of chunks 0 … 1 as they were.
-/
import proofs.«157480_j6983616824221_2_alg».proof.Proof.KIV.Lists2
import proofs.«157480_j6983616824221_2_alg».proof.Proof.KI.R1Dat

set_option maxRecDepth 16384

noncomputable section

namespace Cert.KernelIdeal.Case2

open Cert.KernelIdeal Cert.KernelIdeal.Gen Cert.KernelIdeal.R1 Cert.KernelIdeal.Pay Cert.KernelIdeal.Sem
open Idealize.ShloMosaic Idealize.ShloMosaic.ValueIdx Idealize.ShloMosaic.View Idealize.ShloMosaic.Tactic

/-- The scratch's chunk stores, last made first, and the fill beneath them. -/
def LSc (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) : List (View.Piece (Elt Ideal) S2048x256 .f32) :=
  [ ⟨Rect.unit (s := S2048x256) ![1792, 0] S256x256.size inb_S2048x256_S256x256_1792_0, k1_pay16 (V0w i) (k1_pay6 (Kld arg3 harg3 xk)) (Qld arg2 harg2 xq 1792 inb_S1x2048x1024_S1x256x1024_0_1792_0)⟩,
    ⟨Rect.unit (s := S2048x256) ![1536, 0] S256x256.size inb_S2048x256_S256x256_1536_0, k1_pay15 (V0w i) (k1_pay6 (Kld arg3 harg3 xk)) (Qld arg2 harg2 xq 1536 inb_S1x2048x1024_S1x256x1024_0_1536_0)⟩,
    ⟨Rect.unit (s := S2048x256) ![1280, 0] S256x256.size inb_S2048x256_S256x256_1280_0, k1_pay14 (V0w i) (k1_pay6 (Kld arg3 harg3 xk)) (Qld arg2 harg2 xq 1280 inb_S1x2048x1024_S1x256x1024_0_1280_0)⟩,
    ⟨Rect.unit (s := S2048x256) ![1024, 0] S256x256.size inb_S2048x256_S256x256_1024_0, k1_pay13 i (Kld arg3 harg3 xk) (Qld arg2 harg2 xq 1024 inb_S1x2048x1024_S1x256x1024_0_1024_0)⟩,
    ⟨Rect.unit (s := S2048x256) ![768, 0] S256x256.size inb_S2048x256_S256x256_768_0, k1_pay12 i (Kld arg3 harg3 xk) (Qld arg2 harg2 xq 768 inb_S1x2048x1024_S1x256x1024_0_768_0)⟩,
    ⟨Rect.unit (s := S2048x256) ![512, 0] S256x256.size inb_S2048x256_S256x256_512_0, k1_pay11 i (Kld arg3 harg3 xk) (Qld arg2 harg2 xq 512 inb_S1x2048x1024_S1x256x1024_0_512_0)⟩ ]
def fillP : View.Piece (Elt Ideal) S2048x256 .f32 :=
  ⟨Rect.unit (s := S2048x256) ![0, 0] S2048x256.size inb_S2048x256_S2048x256_0_0, k1_pay8 (F := Ideal)⟩

/-- The output block's stores, last made first. -/
def LO (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) (arg4 : Memref sig .tc .vmem S1x256x1024 .bf16) (harg4 : arg4.IsWhole) (arg5 : Memref sig .tc .vmem S1x2048x1024 .f32) (harg5 : arg5.IsWhole) (arg6 : Memref sig .tc .vmem S2048x256 .f32) (xv : Vec Ideal S1x256x1024 .bf16) (xo : Vec Ideal S1x2048x1024 .f32) : List (View.Piece (Elt Ideal) S1x2048x1024 .f32) :=
  [ ⟨Rect.unit (s := S1x2048x1024) ![0, 1792, 0] S1x256x1024.size inb_S1x2048x1024_S1x256x1024_0_1792_0, k1_pay4 (k1_pay7 (Vld arg4 harg4 xv)) (k1_pay17 (arg6.view.readCov (LSc i arg2 harg2 arg3 harg3 xq xk ++ [fillP]) (whole2).toLoadRect)) (k1_pay18 (arg6.view.readCov (LSc i arg2 harg2 arg3 harg3 xq xk ++ [fillP]) (whole2).toLoadRect) (arg6.view.readCov (LSc i arg2 harg2 arg3 harg3 xq xk ++ [fillP]) (whole2).toLoadRect)) (arg6.view.readCov (LSc i arg2 harg2 arg3 harg3 xq xk ++ [fillP]) (Rect.unit (s := S2048x256) ![1792, 0] S256x256.size inb_S2048x256_S256x256_1792_0).toLoadRect) (View.readAt (Elt Ideal) arg5.view (Rect.unit (s := S1x2048x1024) ![0, 1792, 0] S1x256x1024.size inb_S1x2048x1024_S1x256x1024_0_1792_0).toLoadRect (harg5.unread xo))⟩,
    ⟨Rect.unit (s := S1x2048x1024) ![0, 1536, 0] S1x256x1024.size inb_S1x2048x1024_S1x256x1024_0_1536_0, k1_pay3 (k1_pay7 (Vld arg4 harg4 xv)) (k1_pay17 (arg6.view.readCov (LSc i arg2 harg2 arg3 harg3 xq xk ++ [fillP]) (whole2).toLoadRect)) (k1_pay18 (arg6.view.readCov (LSc i arg2 harg2 arg3 harg3 xq xk ++ [fillP]) (whole2).toLoadRect) (arg6.view.readCov (LSc i arg2 harg2 arg3 harg3 xq xk ++ [fillP]) (whole2).toLoadRect)) (arg6.view.readCov (LSc i arg2 harg2 arg3 harg3 xq xk ++ [fillP]) (Rect.unit (s := S2048x256) ![1536, 0] S256x256.size inb_S2048x256_S256x256_1536_0).toLoadRect) (View.readAt (Elt Ideal) arg5.view (Rect.unit (s := S1x2048x1024) ![0, 1536, 0] S1x256x1024.size inb_S1x2048x1024_S1x256x1024_0_1536_0).toLoadRect (harg5.unread xo))⟩,
    ⟨Rect.unit (s := S1x2048x1024) ![0, 1280, 0] S1x256x1024.size inb_S1x2048x1024_S1x256x1024_0_1280_0, k1_pay2 (k1_pay7 (Vld arg4 harg4 xv)) (k1_pay17 (arg6.view.readCov (LSc i arg2 harg2 arg3 harg3 xq xk ++ [fillP]) (whole2).toLoadRect)) (k1_pay18 (arg6.view.readCov (LSc i arg2 harg2 arg3 harg3 xq xk ++ [fillP]) (whole2).toLoadRect) (arg6.view.readCov (LSc i arg2 harg2 arg3 harg3 xq xk ++ [fillP]) (whole2).toLoadRect)) (arg6.view.readCov (LSc i arg2 harg2 arg3 harg3 xq xk ++ [fillP]) (Rect.unit (s := S2048x256) ![1280, 0] S256x256.size inb_S2048x256_S256x256_1280_0).toLoadRect) (View.readAt (Elt Ideal) arg5.view (Rect.unit (s := S1x2048x1024) ![0, 1280, 0] S1x256x1024.size inb_S1x2048x1024_S1x256x1024_0_1280_0).toLoadRect (harg5.unread xo))⟩,
    ⟨Rect.unit (s := S1x2048x1024) ![0, 1024, 0] S1x256x1024.size inb_S1x2048x1024_S1x256x1024_0_1024_0, k1_pay1 (k1_pay7 (Vld arg4 harg4 xv)) (k1_pay17 (arg6.view.readCov (LSc i arg2 harg2 arg3 harg3 xq xk ++ [fillP]) (whole2).toLoadRect)) (k1_pay18 (arg6.view.readCov (LSc i arg2 harg2 arg3 harg3 xq xk ++ [fillP]) (whole2).toLoadRect) (arg6.view.readCov (LSc i arg2 harg2 arg3 harg3 xq xk ++ [fillP]) (whole2).toLoadRect)) (arg6.view.readCov (LSc i arg2 harg2 arg3 harg3 xq xk ++ [fillP]) (Rect.unit (s := S2048x256) ![1024, 0] S256x256.size inb_S2048x256_S256x256_1024_0).toLoadRect) (View.readAt (Elt Ideal) arg5.view (Rect.unit (s := S1x2048x1024) ![0, 1024, 0] S1x256x1024.size inb_S1x2048x1024_S1x256x1024_0_1024_0).toLoadRect (harg5.unread xo))⟩,
    ⟨Rect.unit (s := S1x2048x1024) ![0, 768, 0] S1x256x1024.size inb_S1x2048x1024_S1x256x1024_0_768_0, k1_pay22 (k1_pay7 (Vld arg4 harg4 xv)) (arg6.view.readCov (LSc i arg2 harg2 arg3 harg3 xq xk ++ [fillP]) (whole2).toLoadRect) (arg6.view.readCov (LSc i arg2 harg2 arg3 harg3 xq xk ++ [fillP]) (whole2).toLoadRect) (arg6.view.readCov (LSc i arg2 harg2 arg3 harg3 xq xk ++ [fillP]) (Rect.unit (s := S2048x256) ![768, 0] S256x256.size inb_S2048x256_S256x256_768_0).toLoadRect) (View.readAt (Elt Ideal) arg5.view (Rect.unit (s := S1x2048x1024) ![0, 768, 0] S1x256x1024.size inb_S1x2048x1024_S1x256x1024_0_768_0).toLoadRect (harg5.unread xo))⟩,
    ⟨Rect.unit (s := S1x2048x1024) ![0, 512, 0] S1x256x1024.size inb_S1x2048x1024_S1x256x1024_0_512_0, k1_pay21 (k1_pay7 (Vld arg4 harg4 xv)) (arg6.view.readCov (LSc i arg2 harg2 arg3 harg3 xq xk ++ [fillP]) (whole2).toLoadRect) (arg6.view.readCov (LSc i arg2 harg2 arg3 harg3 xq xk ++ [fillP]) (whole2).toLoadRect) (arg6.view.readCov (LSc i arg2 harg2 arg3 harg3 xq xk ++ [fillP]) (Rect.unit (s := S2048x256) ![512, 0] S256x256.size inb_S2048x256_S256x256_512_0).toLoadRect) (View.readAt (Elt Ideal) arg5.view (Rect.unit (s := S1x2048x1024) ![0, 512, 0] S1x256x1024.size inb_S1x2048x1024_S1x256x1024_0_512_0).toLoadRect (harg5.unread xo))⟩ ]

set_option maxHeartbeats 40000000 in
/-- The scratch holds the masked scaled scores. -/
theorem scr (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) (hi : (i 1).val = 2) (r : Fin 2048) (jj : Fin 256) :
    View.canon (LSc i arg2 harg2 arg3 harg3 xq xk ++ [fillP]) (ix2 r jj) = Scur 2 xq xk r jj := by
  refine (Cert.LibCanonOver.canon_blocks_over (Gs xq xk 2) (LSc i arg2 harg2 arg3 harg3 xq xk) fillP ?hL ?hp (ix2 r jj) ?hy).trans (Gs_ix2 xq xk 2 r jj)
  case hL =>
    intro p hp
    simp only [LSc, List.mem_cons, List.mem_nil_iff, or_false] at hp
    rcases hp with rfl | rfl | rfl | rfl | rfl | rfl
    · intro x; rw [pay16_eq]; exact chunk_block i arg2 harg2 arg3 harg3 xq xk 1792 2 (by omega) (by omega) hi inb_S2048x256_S256x256_1792_0 inb_S1x2048x1024_S1x256x1024_0_1792_0 x
    · intro x; rw [pay15_eq]; exact chunk_block i arg2 harg2 arg3 harg3 xq xk 1536 2 (by omega) (by omega) hi inb_S2048x256_S256x256_1536_0 inb_S1x2048x1024_S1x256x1024_0_1536_0 x
    · intro x; rw [pay14_eq]; exact chunk_block i arg2 harg2 arg3 harg3 xq xk 1280 2 (by omega) (by omega) hi inb_S2048x256_S256x256_1280_0 inb_S1x2048x1024_S1x256x1024_0_1280_0 x
    · intro x; rw [pay13_eq]; exact chunk_block i arg2 harg2 arg3 harg3 xq xk 1024 2 (by omega) (by omega) hi inb_S2048x256_S256x256_1024_0 inb_S1x2048x1024_S1x256x1024_0_1024_0 x
    · intro x; rw [pay12_eq]; exact chunk_block i arg2 harg2 arg3 harg3 xq xk 768 2 (by omega) (by omega) hi inb_S2048x256_S256x256_768_0 inb_S1x2048x1024_S1x256x1024_0_768_0 x
    · intro x; rw [pay11_eq]; exact chunk_block i arg2 harg2 arg3 harg3 xq xk 512 2 (by omega) (by omega) hi inb_S2048x256_S256x256_512_0 inb_S1x2048x1024_S1x256x1024_0_512_0 x
  case hp =>
    intro x hx
    obtain ⟨r', jj', rfl⟩ : ∃ (r' : Fin 2048) (jj' : Fin 256), x = ix2 r' jj' := ⟨x 0, x 1, eq_ix2 x⟩
    have hemb : fillP.1.emb (ix2 r' jj') = ix2 r' jj' := funext fun a => Fin.ext (by
      match a with
      | ⟨0, _⟩ => show 0 + 1 * r'.val = r'.val; omega
      | ⟨1, _⟩ => show 0 + 1 * jj'.val = jj'.val; omega)
    rw [hemb] at hx ⊢
    rw [Gs_ix2]
    show k1_pay8 (F := Ideal) (ix2 r' jj') = _
    rw [pay8_apply]
    refine fill_block xq xk 2 r' jj' ?_
    have h7 : ¬(1792 ≤ r'.val ∧ r'.val < 1792 + 256) := fun h => hx _ (List.mem_cons_self) ((mem2 1792 inb_S2048x256_S256x256_1792_0 r' jj').mpr h)
    have h6 : ¬(1536 ≤ r'.val ∧ r'.val < 1536 + 256) := fun h => hx _ (List.mem_cons_of_mem _ (List.mem_cons_self)) ((mem2 1536 inb_S2048x256_S256x256_1536_0 r' jj').mpr h)
    have h5 : ¬(1280 ≤ r'.val ∧ r'.val < 1280 + 256) := fun h => hx _ (List.mem_cons_of_mem _ (List.mem_cons_of_mem _ (List.mem_cons_self))) ((mem2 1280 inb_S2048x256_S256x256_1280_0 r' jj').mpr h)
    have h4 : ¬(1024 ≤ r'.val ∧ r'.val < 1024 + 256) := fun h => hx _ (List.mem_cons_of_mem _ (List.mem_cons_of_mem _ (List.mem_cons_of_mem _ (List.mem_cons_self)))) ((mem2 1024 inb_S2048x256_S256x256_1024_0 r' jj').mpr h)
    have h3 : ¬(768 ≤ r'.val ∧ r'.val < 768 + 256) := fun h => hx _ (List.mem_cons_of_mem _ (List.mem_cons_of_mem _ (List.mem_cons_of_mem _ (List.mem_cons_of_mem _ (List.mem_cons_self))))) ((mem2 768 inb_S2048x256_S256x256_768_0 r' jj').mpr h)
    have h2 : ¬(512 ≤ r'.val ∧ r'.val < 512 + 256) := fun h => hx _ (List.mem_cons_of_mem _ (List.mem_cons_of_mem _ (List.mem_cons_of_mem _ (List.mem_cons_of_mem _ (List.mem_cons_of_mem _ (List.mem_cons_self)))))) ((mem2 512 inb_S2048x256_S256x256_512_0 r' jj').mpr h)
    have := r'.isLt
    omega
  case hy =>
    show ix2 r jj ∈ (Rect.unit (s := S2048x256) ![0, 0] S2048x256.size inb_S2048x256_S2048x256_0_0).set
    rw [Rect.mem_set_unit]
    intro a
    match a with
    | ⟨0, _⟩ => exact ⟨Nat.zero_le _, by show r.val < 0 + 2048; omega⟩
    | ⟨1, _⟩ => exact ⟨Nat.zero_le _, by show jj.val < 0 + 256; omega⟩

set_option maxHeartbeats 40000000 in
/-- The lists the body's run found are these. -/
theorem run_eq (c : Dev nD) (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) (arg4 : Memref sig .tc .vmem S1x256x1024 .bf16) (harg4 : arg4.IsWhole) (arg5 : Memref sig .tc .vmem S1x2048x1024 .f32) (harg5 : arg5.IsWhole) (arg6 : Memref sig .tc .vmem S2048x256 .f32) (xv : Vec Ideal S1x256x1024 .bf16) (harg6 : arg6.IsWhole) (hz : ¬init i) (ha0 : ¬act i 256#32) (ha1 : ¬act i 512#32) (ha2 : act i 768#32) (ha3 : act i 1024#32) (ha4 : act i 1280#32) (ha5 : act i 1536#32) (ha6 : act i 1792#32) (ha7 : act i 2048#32) (xo : Vec Ideal S1x2048x1024 .f32) :
    (run2 (F := Ideal) c i arg2 harg2 arg3 harg3 arg4 harg4 arg5 harg5 arg6 harg6 hz ha0 ha1 ha2 ha3 ha4 ha5 ha6 ha7 xq xk xv xo).1
      = LO i arg2 harg2 arg3 harg3 xq xk arg4 harg4 arg5 harg5 arg6 xv xo := by
  unfold run2
  dsimp only
  sl_unfold_run_names
  rfl

set_option maxHeartbeats 80000000 in
/-- What the output block holds after the body. -/
theorem out_apply (c : Dev nD) (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) (arg4 : Memref sig .tc .vmem S1x256x1024 .bf16) (harg4 : arg4.IsWhole) (arg5 : Memref sig .tc .vmem S1x2048x1024 .f32) (harg5 : arg5.IsWhole) (arg6 : Memref sig .tc .vmem S2048x256 .f32) (xv : Vec Ideal S1x256x1024 .bf16) (harg6 : arg6.IsWhole) (hz : ¬init i) (ha0 : ¬act i 256#32) (ha1 : ¬act i 512#32) (ha2 : act i 768#32) (ha3 : act i 1024#32) (ha4 : act i 1280#32) (ha5 : act i 1536#32) (ha6 : act i 1792#32) (ha7 : act i 2048#32) (xo : Vec Ideal S1x2048x1024 .f32)
    (hi : (i 1).val = 2) (u : Fin 1) (r : Fin 2048) (e : Fin 1024) :
    out_2 (F := Ideal) c i arg2 harg2 arg3 harg3 arg4 harg4 arg5 harg5 arg6 harg6 hz ha0 ha1 ha2 ha3 ha4 ha5 ha6 ha7 xq xk xv xo (ix3 u r e)
      = if 2 ≤ r.val / 256 then xo (ix3 (0 : Fin 1) r e) + Cfun 2 xq xk xv r e else xo (ix3 (0 : Fin 1) r e) := by
  have hu : u = 0 := Subsingleton.elim _ _
  subst hu
  unfold out_2
  rw [run_eq]
  have hr := r.isLt
  by_cases hc : 2 ≤ r.val / 256
  · rw [if_pos hc]
    refine (Cert.LibCanonOver.read_writes_blocks arg5.view (harg5.unread xo) (Go 2 xq xk xv xo) (LO i arg2 harg2 arg3 harg3 xq xk arg4 harg4 arg5 harg5 arg6 xv xo) ?hL (ix3 0 r e) ?hcov).trans
      (Go_ix3 2 xq xk xv xo 0 r e)
    case hL =>
      intro p hp
      simp only [LO, List.mem_cons, List.mem_nil_iff, or_false] at hp
      rcases hp with rfl | rfl | rfl | rfl | rfl | rfl
      · intro x; rw [pay4_eq]
        exact out_piece_block 2 arg4 harg4 arg6 xq xk xv (LSc i arg2 harg2 arg3 harg3 xq xk ++ [fillP]) (scr i arg2 harg2 arg3 harg3 xq xk hi) xo 1792 (by omega) inb_S2048x256_S256x256_1792_0 inb_S1x2048x1024_S1x256x1024_0_1792_0 _
          (fun u r e h => by rw [View.readAt_eq_ld, harg5.read_unread]; exact ld3 xo 1792 _ u r e h) x
      · intro x; rw [pay3_eq]
        exact out_piece_block 2 arg4 harg4 arg6 xq xk xv (LSc i arg2 harg2 arg3 harg3 xq xk ++ [fillP]) (scr i arg2 harg2 arg3 harg3 xq xk hi) xo 1536 (by omega) inb_S2048x256_S256x256_1536_0 inb_S1x2048x1024_S1x256x1024_0_1536_0 _
          (fun u r e h => by rw [View.readAt_eq_ld, harg5.read_unread]; exact ld3 xo 1536 _ u r e h) x
      · intro x; rw [pay2_eq]
        exact out_piece_block 2 arg4 harg4 arg6 xq xk xv (LSc i arg2 harg2 arg3 harg3 xq xk ++ [fillP]) (scr i arg2 harg2 arg3 harg3 xq xk hi) xo 1280 (by omega) inb_S2048x256_S256x256_1280_0 inb_S1x2048x1024_S1x256x1024_0_1280_0 _
          (fun u r e h => by rw [View.readAt_eq_ld, harg5.read_unread]; exact ld3 xo 1280 _ u r e h) x
      · intro x
        exact out_piece_block 2 arg4 harg4 arg6 xq xk xv (LSc i arg2 harg2 arg3 harg3 xq xk ++ [fillP]) (scr i arg2 harg2 arg3 harg3 xq xk hi) xo 1024 (by omega) inb_S2048x256_S256x256_1024_0 inb_S1x2048x1024_S1x256x1024_0_1024_0 _
          (fun u r e h => by rw [View.readAt_eq_ld, harg5.read_unread]; exact ld3 xo 1024 _ u r e h) x
      · intro x; rw [pay22_eq]
        exact out_piece_block 2 arg4 harg4 arg6 xq xk xv (LSc i arg2 harg2 arg3 harg3 xq xk ++ [fillP]) (scr i arg2 harg2 arg3 harg3 xq xk hi) xo 768 (by omega) inb_S2048x256_S256x256_768_0 inb_S1x2048x1024_S1x256x1024_0_768_0 _
          (fun u r e h => by rw [View.readAt_eq_ld, harg5.read_unread]; exact ld3 xo 768 _ u r e h) x
      · intro x; rw [pay21_eq]
        exact out_piece_block 2 arg4 harg4 arg6 xq xk xv (LSc i arg2 harg2 arg3 harg3 xq xk ++ [fillP]) (scr i arg2 harg2 arg3 harg3 xq xk hi) xo 512 (by omega) inb_S2048x256_S256x256_512_0 inb_S1x2048x1024_S1x256x1024_0_512_0 _
          (fun u r e h => by rw [View.readAt_eq_ld, harg5.read_unread]; exact ld3 xo 512 _ u r e h) x
    case hcov =>
      rcases (show r.val / 256 = 7 ∨ r.val / 256 = 6 ∨ r.val / 256 = 5 ∨ r.val / 256 = 4 ∨ r.val / 256 = 3 ∨ r.val / 256 = 2 from by omega) with h | h | h | h | h | h
      · exact ⟨_, (List.mem_cons_self), (mem3 1792 inb_S1x2048x1024_S1x256x1024_0_1792_0 0 r e).mpr (by omega)⟩
      · exact ⟨_, (List.mem_cons_of_mem _ (List.mem_cons_self)), (mem3 1536 inb_S1x2048x1024_S1x256x1024_0_1536_0 0 r e).mpr (by omega)⟩
      · exact ⟨_, (List.mem_cons_of_mem _ (List.mem_cons_of_mem _ (List.mem_cons_self))), (mem3 1280 inb_S1x2048x1024_S1x256x1024_0_1280_0 0 r e).mpr (by omega)⟩
      · exact ⟨_, (List.mem_cons_of_mem _ (List.mem_cons_of_mem _ (List.mem_cons_of_mem _ (List.mem_cons_self)))), (mem3 1024 inb_S1x2048x1024_S1x256x1024_0_1024_0 0 r e).mpr (by omega)⟩
      · exact ⟨_, (List.mem_cons_of_mem _ (List.mem_cons_of_mem _ (List.mem_cons_of_mem _ (List.mem_cons_of_mem _ (List.mem_cons_self))))), (mem3 768 inb_S1x2048x1024_S1x256x1024_0_768_0 0 r e).mpr (by omega)⟩
      · exact ⟨_, (List.mem_cons_of_mem _ (List.mem_cons_of_mem _ (List.mem_cons_of_mem _ (List.mem_cons_of_mem _ (List.mem_cons_of_mem _ (List.mem_cons_self)))))), (mem3 512 inb_S1x2048x1024_S1x256x1024_0_512_0 0 r e).mpr (by omega)⟩
  · rw [if_neg hc]
    rw [Cert.LibCanonOver.read_writes_off arg5.view (harg5.unread xo) (LO i arg2 harg2 arg3 harg3 xq xk arg4 harg4 arg5 harg5 arg6 xv xo) (ix3 0 r e) ?_]
    · exact congrFun (harg5.read_unread xo) _
    · intro p hp
      simp only [LO, List.mem_cons, List.mem_nil_iff, or_false] at hp
      rcases hp with rfl | rfl | rfl | rfl | rfl | rfl
      · exact fun h => hc (by have := (mem3 1792 inb_S1x2048x1024_S1x256x1024_0_1792_0 0 r e).mp h; omega)
      · exact fun h => hc (by have := (mem3 1536 inb_S1x2048x1024_S1x256x1024_0_1536_0 0 r e).mp h; omega)
      · exact fun h => hc (by have := (mem3 1280 inb_S1x2048x1024_S1x256x1024_0_1280_0 0 r e).mp h; omega)
      · exact fun h => hc (by have := (mem3 1024 inb_S1x2048x1024_S1x256x1024_0_1024_0 0 r e).mp h; omega)
      · exact fun h => hc (by have := (mem3 768 inb_S1x2048x1024_S1x256x1024_0_768_0 0 r e).mp h; omega)
      · exact fun h => hc (by have := (mem3 512 inb_S1x2048x1024_S1x256x1024_0_512_0 0 r e).mp h; omega)

end Cert.KernelIdeal.Case2

end
-- ==== Proof.KIV.Case3.lean ====
/-
  The attention body at key block jb = 3, opened.

  The body fills the score scratch with -∞ and stores the masked scaled scores of the query chunks 3 … 7 over the
  fill: so the scratch holds the masked scaled score S of every query row (rows before 256·3 lie wholly above the
  diagonal, where S is -∞).  It then adds, chunk by chunk for the chunks 3 … 7, the key block's contribution C to
  what the output block held, and leaves the rows of chunks 0 … 2 as they were.
-/
import proofs.«157480_j6983616824221_2_alg».proof.Proof.KIV.Lists2
import proofs.«157480_j6983616824221_2_alg».proof.Proof.KI.R1Dat

set_option maxRecDepth 16384

noncomputable section

namespace Cert.KernelIdeal.Case3

open Cert.KernelIdeal Cert.KernelIdeal.Gen Cert.KernelIdeal.R1 Cert.KernelIdeal.Pay Cert.KernelIdeal.Sem
open Idealize.ShloMosaic Idealize.ShloMosaic.ValueIdx Idealize.ShloMosaic.View Idealize.ShloMosaic.Tactic

/-- The scratch's chunk stores, last made first, and the fill beneath them. -/
def LSc (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) : List (View.Piece (Elt Ideal) S2048x256 .f32) :=
  [ ⟨Rect.unit (s := S2048x256) ![1792, 0] S256x256.size inb_S2048x256_S256x256_1792_0, k1_pay16 (V0w i) (k1_pay6 (Kld arg3 harg3 xk)) (Qld arg2 harg2 xq 1792 inb_S1x2048x1024_S1x256x1024_0_1792_0)⟩,
    ⟨Rect.unit (s := S2048x256) ![1536, 0] S256x256.size inb_S2048x256_S256x256_1536_0, k1_pay15 (V0w i) (k1_pay6 (Kld arg3 harg3 xk)) (Qld arg2 harg2 xq 1536 inb_S1x2048x1024_S1x256x1024_0_1536_0)⟩,
    ⟨Rect.unit (s := S2048x256) ![1280, 0] S256x256.size inb_S2048x256_S256x256_1280_0, k1_pay14 (V0w i) (k1_pay6 (Kld arg3 harg3 xk)) (Qld arg2 harg2 xq 1280 inb_S1x2048x1024_S1x256x1024_0_1280_0)⟩,
    ⟨Rect.unit (s := S2048x256) ![1024, 0] S256x256.size inb_S2048x256_S256x256_1024_0, k1_pay13 i (Kld arg3 harg3 xk) (Qld arg2 harg2 xq 1024 inb_S1x2048x1024_S1x256x1024_0_1024_0)⟩,
    ⟨Rect.unit (s := S2048x256) ![768, 0] S256x256.size inb_S2048x256_S256x256_768_0, k1_pay12 i (Kld arg3 harg3 xk) (Qld arg2 harg2 xq 768 inb_S1x2048x1024_S1x256x1024_0_768_0)⟩ ]
def fillP : View.Piece (Elt Ideal) S2048x256 .f32 :=
  ⟨Rect.unit (s := S2048x256) ![0, 0] S2048x256.size inb_S2048x256_S2048x256_0_0, k1_pay8 (F := Ideal)⟩

/-- The output block's stores, last made first. -/
def LO (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) (arg4 : Memref sig .tc .vmem S1x256x1024 .bf16) (harg4 : arg4.IsWhole) (arg5 : Memref sig .tc .vmem S1x2048x1024 .f32) (harg5 : arg5.IsWhole) (arg6 : Memref sig .tc .vmem S2048x256 .f32) (xv : Vec Ideal S1x256x1024 .bf16) (xo : Vec Ideal S1x2048x1024 .f32) : List (View.Piece (Elt Ideal) S1x2048x1024 .f32) :=
  [ ⟨Rect.unit (s := S1x2048x1024) ![0, 1792, 0] S1x256x1024.size inb_S1x2048x1024_S1x256x1024_0_1792_0, k1_pay4 (k1_pay7 (Vld arg4 harg4 xv)) (k1_pay17 (arg6.view.readCov (LSc i arg2 harg2 arg3 harg3 xq xk ++ [fillP]) (whole2).toLoadRect)) (k1_pay18 (arg6.view.readCov (LSc i arg2 harg2 arg3 harg3 xq xk ++ [fillP]) (whole2).toLoadRect) (arg6.view.readCov (LSc i arg2 harg2 arg3 harg3 xq xk ++ [fillP]) (whole2).toLoadRect)) (arg6.view.readCov (LSc i arg2 harg2 arg3 harg3 xq xk ++ [fillP]) (Rect.unit (s := S2048x256) ![1792, 0] S256x256.size inb_S2048x256_S256x256_1792_0).toLoadRect) (View.readAt (Elt Ideal) arg5.view (Rect.unit (s := S1x2048x1024) ![0, 1792, 0] S1x256x1024.size inb_S1x2048x1024_S1x256x1024_0_1792_0).toLoadRect (harg5.unread xo))⟩,
    ⟨Rect.unit (s := S1x2048x1024) ![0, 1536, 0] S1x256x1024.size inb_S1x2048x1024_S1x256x1024_0_1536_0, k1_pay3 (k1_pay7 (Vld arg4 harg4 xv)) (k1_pay17 (arg6.view.readCov (LSc i arg2 harg2 arg3 harg3 xq xk ++ [fillP]) (whole2).toLoadRect)) (k1_pay18 (arg6.view.readCov (LSc i arg2 harg2 arg3 harg3 xq xk ++ [fillP]) (whole2).toLoadRect) (arg6.view.readCov (LSc i arg2 harg2 arg3 harg3 xq xk ++ [fillP]) (whole2).toLoadRect)) (arg6.view.readCov (LSc i arg2 harg2 arg3 harg3 xq xk ++ [fillP]) (Rect.unit (s := S2048x256) ![1536, 0] S256x256.size inb_S2048x256_S256x256_1536_0).toLoadRect) (View.readAt (Elt Ideal) arg5.view (Rect.unit (s := S1x2048x1024) ![0, 1536, 0] S1x256x1024.size inb_S1x2048x1024_S1x256x1024_0_1536_0).toLoadRect (harg5.unread xo))⟩,
    ⟨Rect.unit (s := S1x2048x1024) ![0, 1280, 0] S1x256x1024.size inb_S1x2048x1024_S1x256x1024_0_1280_0, k1_pay2 (k1_pay7 (Vld arg4 harg4 xv)) (k1_pay17 (arg6.view.readCov (LSc i arg2 harg2 arg3 harg3 xq xk ++ [fillP]) (whole2).toLoadRect)) (k1_pay18 (arg6.view.readCov (LSc i arg2 harg2 arg3 harg3 xq xk ++ [fillP]) (whole2).toLoadRect) (arg6.view.readCov (LSc i arg2 harg2 arg3 harg3 xq xk ++ [fillP]) (whole2).toLoadRect)) (arg6.view.readCov (LSc i arg2 harg2 arg3 harg3 xq xk ++ [fillP]) (Rect.unit (s := S2048x256) ![1280, 0] S256x256.size inb_S2048x256_S256x256_1280_0).toLoadRect) (View.readAt (Elt Ideal) arg5.view (Rect.unit (s := S1x2048x1024) ![0, 1280, 0] S1x256x1024.size inb_S1x2048x1024_S1x256x1024_0_1280_0).toLoadRect (harg5.unread xo))⟩,
    ⟨Rect.unit (s := S1x2048x1024) ![0, 1024, 0] S1x256x1024.size inb_S1x2048x1024_S1x256x1024_0_1024_0, k1_pay1 (k1_pay7 (Vld arg4 harg4 xv)) (k1_pay17 (arg6.view.readCov (LSc i arg2 harg2 arg3 harg3 xq xk ++ [fillP]) (whole2).toLoadRect)) (k1_pay18 (arg6.view.readCov (LSc i arg2 harg2 arg3 harg3 xq xk ++ [fillP]) (whole2).toLoadRect) (arg6.view.readCov (LSc i arg2 harg2 arg3 harg3 xq xk ++ [fillP]) (whole2).toLoadRect)) (arg6.view.readCov (LSc i arg2 harg2 arg3 harg3 xq xk ++ [fillP]) (Rect.unit (s := S2048x256) ![1024, 0] S256x256.size inb_S2048x256_S256x256_1024_0).toLoadRect) (View.readAt (Elt Ideal) arg5.view (Rect.unit (s := S1x2048x1024) ![0, 1024, 0] S1x256x1024.size inb_S1x2048x1024_S1x256x1024_0_1024_0).toLoadRect (harg5.unread xo))⟩,
    ⟨Rect.unit (s := S1x2048x1024) ![0, 768, 0] S1x256x1024.size inb_S1x2048x1024_S1x256x1024_0_768_0, k1_pay22 (k1_pay7 (Vld arg4 harg4 xv)) (arg6.view.readCov (LSc i arg2 harg2 arg3 harg3 xq xk ++ [fillP]) (whole2).toLoadRect) (arg6.view.readCov (LSc i arg2 harg2 arg3 harg3 xq xk ++ [fillP]) (whole2).toLoadRect) (arg6.view.readCov (LSc i arg2 harg2 arg3 harg3 xq xk ++ [fillP]) (Rect.unit (s := S2048x256) ![768, 0] S256x256.size inb_S2048x256_S256x256_768_0).toLoadRect) (View.readAt (Elt Ideal) arg5.view (Rect.unit (s := S1x2048x1024) ![0, 768, 0] S1x256x1024.size inb_S1x2048x1024_S1x256x1024_0_768_0).toLoadRect (harg5.unread xo))⟩ ]

set_option maxHeartbeats 40000000 in
/-- The scratch holds the masked scaled scores. -/
theorem scr (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) (hi : (i 1).val = 3) (r : Fin 2048) (jj : Fin 256) :
    View.canon (LSc i arg2 harg2 arg3 harg3 xq xk ++ [fillP]) (ix2 r jj) = Scur 3 xq xk r jj := by
  refine (Cert.LibCanonOver.canon_blocks_over (Gs xq xk 3) (LSc i arg2 harg2 arg3 harg3 xq xk) fillP ?hL ?hp (ix2 r jj) ?hy).trans (Gs_ix2 xq xk 3 r jj)
  case hL =>
    intro p hp
    simp only [LSc, List.mem_cons, List.mem_nil_iff, or_false] at hp
    rcases hp with rfl | rfl | rfl | rfl | rfl
    · intro x; rw [pay16_eq]; exact chunk_block i arg2 harg2 arg3 harg3 xq xk 1792 3 (by omega) (by omega) hi inb_S2048x256_S256x256_1792_0 inb_S1x2048x1024_S1x256x1024_0_1792_0 x
    · intro x; rw [pay15_eq]; exact chunk_block i arg2 harg2 arg3 harg3 xq xk 1536 3 (by omega) (by omega) hi inb_S2048x256_S256x256_1536_0 inb_S1x2048x1024_S1x256x1024_0_1536_0 x
    · intro x; rw [pay14_eq]; exact chunk_block i arg2 harg2 arg3 harg3 xq xk 1280 3 (by omega) (by omega) hi inb_S2048x256_S256x256_1280_0 inb_S1x2048x1024_S1x256x1024_0_1280_0 x
    · intro x; rw [pay13_eq]; exact chunk_block i arg2 harg2 arg3 harg3 xq xk 1024 3 (by omega) (by omega) hi inb_S2048x256_S256x256_1024_0 inb_S1x2048x1024_S1x256x1024_0_1024_0 x
    · intro x; rw [pay12_eq]; exact chunk_block i arg2 harg2 arg3 harg3 xq xk 768 3 (by omega) (by omega) hi inb_S2048x256_S256x256_768_0 inb_S1x2048x1024_S1x256x1024_0_768_0 x
  case hp =>
    intro x hx
    obtain ⟨r', jj', rfl⟩ : ∃ (r' : Fin 2048) (jj' : Fin 256), x = ix2 r' jj' := ⟨x 0, x 1, eq_ix2 x⟩
    have hemb : fillP.1.emb (ix2 r' jj') = ix2 r' jj' := funext fun a => Fin.ext (by
      match a with
      | ⟨0, _⟩ => show 0 + 1 * r'.val = r'.val; omega
      | ⟨1, _⟩ => show 0 + 1 * jj'.val = jj'.val; omega)
    rw [hemb] at hx ⊢
    rw [Gs_ix2]
    show k1_pay8 (F := Ideal) (ix2 r' jj') = _
    rw [pay8_apply]
    refine fill_block xq xk 3 r' jj' ?_
    have h7 : ¬(1792 ≤ r'.val ∧ r'.val < 1792 + 256) := fun h => hx _ (List.mem_cons_self) ((mem2 1792 inb_S2048x256_S256x256_1792_0 r' jj').mpr h)
    have h6 : ¬(1536 ≤ r'.val ∧ r'.val < 1536 + 256) := fun h => hx _ (List.mem_cons_of_mem _ (List.mem_cons_self)) ((mem2 1536 inb_S2048x256_S256x256_1536_0 r' jj').mpr h)
    have h5 : ¬(1280 ≤ r'.val ∧ r'.val < 1280 + 256) := fun h => hx _ (List.mem_cons_of_mem _ (List.mem_cons_of_mem _ (List.mem_cons_self))) ((mem2 1280 inb_S2048x256_S256x256_1280_0 r' jj').mpr h)
    have h4 : ¬(1024 ≤ r'.val ∧ r'.val < 1024 + 256) := fun h => hx _ (List.mem_cons_of_mem _ (List.mem_cons_of_mem _ (List.mem_cons_of_mem _ (List.mem_cons_self)))) ((mem2 1024 inb_S2048x256_S256x256_1024_0 r' jj').mpr h)
    have h3 : ¬(768 ≤ r'.val ∧ r'.val < 768 + 256) := fun h => hx _ (List.mem_cons_of_mem _ (List.mem_cons_of_mem _ (List.mem_cons_of_mem _ (List.mem_cons_of_mem _ (List.mem_cons_self))))) ((mem2 768 inb_S2048x256_S256x256_768_0 r' jj').mpr h)
    have := r'.isLt
    omega
  case hy =>
    show ix2 r jj ∈ (Rect.unit (s := S2048x256) ![0, 0] S2048x256.size inb_S2048x256_S2048x256_0_0).set
    rw [Rect.mem_set_unit]
    intro a
    match a with
    | ⟨0, _⟩ => exact ⟨Nat.zero_le _, by show r.val < 0 + 2048; omega⟩
    | ⟨1, _⟩ => exact ⟨Nat.zero_le _, by show jj.val < 0 + 256; omega⟩

set_option maxHeartbeats 40000000 in
/-- The lists the body's run found are these. -/
theorem run_eq (c : Dev nD) (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) (arg4 : Memref sig .tc .vmem S1x256x1024 .bf16) (harg4 : arg4.IsWhole) (arg5 : Memref sig .tc .vmem S1x2048x1024 .f32) (harg5 : arg5.IsWhole) (arg6 : Memref sig .tc .vmem S2048x256 .f32) (xv : Vec Ideal S1x256x1024 .bf16) (harg6 : arg6.IsWhole) (hz : ¬init i) (ha0 : ¬act i 256#32) (ha1 : ¬act i 512#32) (ha2 : ¬act i 768#32) (ha3 : act i 1024#32) (ha4 : act i 1280#32) (ha5 : act i 1536#32) (ha6 : act i 1792#32) (ha7 : act i 2048#32) (xo : Vec Ideal S1x2048x1024 .f32) :
    (run3 (F := Ideal) c i arg2 harg2 arg3 harg3 arg4 harg4 arg5 harg5 arg6 harg6 hz ha0 ha1 ha2 ha3 ha4 ha5 ha6 ha7 xq xk xv xo).1
      = LO i arg2 harg2 arg3 harg3 xq xk arg4 harg4 arg5 harg5 arg6 xv xo := by
  unfold run3
  dsimp only
  sl_unfold_run_names
  rfl

set_option maxHeartbeats 80000000 in
/-- What the output block holds after the body. -/
theorem out_apply (c : Dev nD) (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) (arg4 : Memref sig .tc .vmem S1x256x1024 .bf16) (harg4 : arg4.IsWhole) (arg5 : Memref sig .tc .vmem S1x2048x1024 .f32) (harg5 : arg5.IsWhole) (arg6 : Memref sig .tc .vmem S2048x256 .f32) (xv : Vec Ideal S1x256x1024 .bf16) (harg6 : arg6.IsWhole) (hz : ¬init i) (ha0 : ¬act i 256#32) (ha1 : ¬act i 512#32) (ha2 : ¬act i 768#32) (ha3 : act i 1024#32) (ha4 : act i 1280#32) (ha5 : act i 1536#32) (ha6 : act i 1792#32) (ha7 : act i 2048#32) (xo : Vec Ideal S1x2048x1024 .f32)
    (hi : (i 1).val = 3) (u : Fin 1) (r : Fin 2048) (e : Fin 1024) :
    out_3 (F := Ideal) c i arg2 harg2 arg3 harg3 arg4 harg4 arg5 harg5 arg6 harg6 hz ha0 ha1 ha2 ha3 ha4 ha5 ha6 ha7 xq xk xv xo (ix3 u r e)
      = if 3 ≤ r.val / 256 then xo (ix3 (0 : Fin 1) r e) + Cfun 3 xq xk xv r e else xo (ix3 (0 : Fin 1) r e) := by
  have hu : u = 0 := Subsingleton.elim _ _
  subst hu
  unfold out_3
  rw [run_eq]
  have hr := r.isLt
  by_cases hc : 3 ≤ r.val / 256
  · rw [if_pos hc]
    refine (Cert.LibCanonOver.read_writes_blocks arg5.view (harg5.unread xo) (Go 3 xq xk xv xo) (LO i arg2 harg2 arg3 harg3 xq xk arg4 harg4 arg5 harg5 arg6 xv xo) ?hL (ix3 0 r e) ?hcov).trans
      (Go_ix3 3 xq xk xv xo 0 r e)
    case hL =>
      intro p hp
      simp only [LO, List.mem_cons, List.mem_nil_iff, or_false] at hp
      rcases hp with rfl | rfl | rfl | rfl | rfl
      · intro x; rw [pay4_eq]
        exact out_piece_block 3 arg4 harg4 arg6 xq xk xv (LSc i arg2 harg2 arg3 harg3 xq xk ++ [fillP]) (scr i arg2 harg2 arg3 harg3 xq xk hi) xo 1792 (by omega) inb_S2048x256_S256x256_1792_0 inb_S1x2048x1024_S1x256x1024_0_1792_0 _
          (fun u r e h => by rw [View.readAt_eq_ld, harg5.read_unread]; exact ld3 xo 1792 _ u r e h) x
      · intro x; rw [pay3_eq]
        exact out_piece_block 3 arg4 harg4 arg6 xq xk xv (LSc i arg2 harg2 arg3 harg3 xq xk ++ [fillP]) (scr i arg2 harg2 arg3 harg3 xq xk hi) xo 1536 (by omega) inb_S2048x256_S256x256_1536_0 inb_S1x2048x1024_S1x256x1024_0_1536_0 _
          (fun u r e h => by rw [View.readAt_eq_ld, harg5.read_unread]; exact ld3 xo 1536 _ u r e h) x
      · intro x; rw [pay2_eq]
        exact out_piece_block 3 arg4 harg4 arg6 xq xk xv (LSc i arg2 harg2 arg3 harg3 xq xk ++ [fillP]) (scr i arg2 harg2 arg3 harg3 xq xk hi) xo 1280 (by omega) inb_S2048x256_S256x256_1280_0 inb_S1x2048x1024_S1x256x1024_0_1280_0 _
          (fun u r e h => by rw [View.readAt_eq_ld, harg5.read_unread]; exact ld3 xo 1280 _ u r e h) x
      · intro x
        exact out_piece_block 3 arg4 harg4 arg6 xq xk xv (LSc i arg2 harg2 arg3 harg3 xq xk ++ [fillP]) (scr i arg2 harg2 arg3 harg3 xq xk hi) xo 1024 (by omega) inb_S2048x256_S256x256_1024_0 inb_S1x2048x1024_S1x256x1024_0_1024_0 _
          (fun u r e h => by rw [View.readAt_eq_ld, harg5.read_unread]; exact ld3 xo 1024 _ u r e h) x
      · intro x; rw [pay22_eq]
        exact out_piece_block 3 arg4 harg4 arg6 xq xk xv (LSc i arg2 harg2 arg3 harg3 xq xk ++ [fillP]) (scr i arg2 harg2 arg3 harg3 xq xk hi) xo 768 (by omega) inb_S2048x256_S256x256_768_0 inb_S1x2048x1024_S1x256x1024_0_768_0 _
          (fun u r e h => by rw [View.readAt_eq_ld, harg5.read_unread]; exact ld3 xo 768 _ u r e h) x
    case hcov =>
      rcases (show r.val / 256 = 7 ∨ r.val / 256 = 6 ∨ r.val / 256 = 5 ∨ r.val / 256 = 4 ∨ r.val / 256 = 3 from by omega) with h | h | h | h | h
      · exact ⟨_, (List.mem_cons_self), (mem3 1792 inb_S1x2048x1024_S1x256x1024_0_1792_0 0 r e).mpr (by omega)⟩
      · exact ⟨_, (List.mem_cons_of_mem _ (List.mem_cons_self)), (mem3 1536 inb_S1x2048x1024_S1x256x1024_0_1536_0 0 r e).mpr (by omega)⟩
      · exact ⟨_, (List.mem_cons_of_mem _ (List.mem_cons_of_mem _ (List.mem_cons_self))), (mem3 1280 inb_S1x2048x1024_S1x256x1024_0_1280_0 0 r e).mpr (by omega)⟩
      · exact ⟨_, (List.mem_cons_of_mem _ (List.mem_cons_of_mem _ (List.mem_cons_of_mem _ (List.mem_cons_self)))), (mem3 1024 inb_S1x2048x1024_S1x256x1024_0_1024_0 0 r e).mpr (by omega)⟩
      · exact ⟨_, (List.mem_cons_of_mem _ (List.mem_cons_of_mem _ (List.mem_cons_of_mem _ (List.mem_cons_of_mem _ (List.mem_cons_self))))), (mem3 768 inb_S1x2048x1024_S1x256x1024_0_768_0 0 r e).mpr (by omega)⟩
  · rw [if_neg hc]
    rw [Cert.LibCanonOver.read_writes_off arg5.view (harg5.unread xo) (LO i arg2 harg2 arg3 harg3 xq xk arg4 harg4 arg5 harg5 arg6 xv xo) (ix3 0 r e) ?_]
    · exact congrFun (harg5.read_unread xo) _
    · intro p hp
      simp only [LO, List.mem_cons, List.mem_nil_iff, or_false] at hp
      rcases hp with rfl | rfl | rfl | rfl | rfl
      · exact fun h => hc (by have := (mem3 1792 inb_S1x2048x1024_S1x256x1024_0_1792_0 0 r e).mp h; omega)
      · exact fun h => hc (by have := (mem3 1536 inb_S1x2048x1024_S1x256x1024_0_1536_0 0 r e).mp h; omega)
      · exact fun h => hc (by have := (mem3 1280 inb_S1x2048x1024_S1x256x1024_0_1280_0 0 r e).mp h; omega)
      · exact fun h => hc (by have := (mem3 1024 inb_S1x2048x1024_S1x256x1024_0_1024_0 0 r e).mp h; omega)
      · exact fun h => hc (by have := (mem3 768 inb_S1x2048x1024_S1x256x1024_0_768_0 0 r e).mp h; omega)

end Cert.KernelIdeal.Case3

end
-- ==== Proof.KIV.Case4.lean ====
/-
  The attention body at key block jb = 4, opened.

  The body fills the score scratch with -∞ and stores the masked scaled scores of the query chunks 4 … 7 over the
  fill: so the scratch holds the masked scaled score S of every query row (rows before 256·4 lie wholly above the
  diagonal, where S is -∞).  It then adds, chunk by chunk for the chunks 4 … 7, the key block's contribution C to
  what the output block held, and leaves the rows of chunks 0 … 3 as they were.
-/
import proofs.«157480_j6983616824221_2_alg».proof.Proof.KIV.Lists2
import proofs.«157480_j6983616824221_2_alg».proof.Proof.KI.R1Dat

set_option maxRecDepth 16384

noncomputable section

namespace Cert.KernelIdeal.Case4

open Cert.KernelIdeal Cert.KernelIdeal.Gen Cert.KernelIdeal.R1 Cert.KernelIdeal.Pay Cert.KernelIdeal.Sem
open Idealize.ShloMosaic Idealize.ShloMosaic.ValueIdx Idealize.ShloMosaic.View Idealize.ShloMosaic.Tactic

/-- The scratch's chunk stores, last made first, and the fill beneath them. -/
def LSc (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) : List (View.Piece (Elt Ideal) S2048x256 .f32) :=
  [ ⟨Rect.unit (s := S2048x256) ![1792, 0] S256x256.size inb_S2048x256_S256x256_1792_0, k1_pay16 (V0w i) (k1_pay6 (Kld arg3 harg3 xk)) (Qld arg2 harg2 xq 1792 inb_S1x2048x1024_S1x256x1024_0_1792_0)⟩,
    ⟨Rect.unit (s := S2048x256) ![1536, 0] S256x256.size inb_S2048x256_S256x256_1536_0, k1_pay15 (V0w i) (k1_pay6 (Kld arg3 harg3 xk)) (Qld arg2 harg2 xq 1536 inb_S1x2048x1024_S1x256x1024_0_1536_0)⟩,
    ⟨Rect.unit (s := S2048x256) ![1280, 0] S256x256.size inb_S2048x256_S256x256_1280_0, k1_pay14 (V0w i) (k1_pay6 (Kld arg3 harg3 xk)) (Qld arg2 harg2 xq 1280 inb_S1x2048x1024_S1x256x1024_0_1280_0)⟩,
    ⟨Rect.unit (s := S2048x256) ![1024, 0] S256x256.size inb_S2048x256_S256x256_1024_0, k1_pay13 i (Kld arg3 harg3 xk) (Qld arg2 harg2 xq 1024 inb_S1x2048x1024_S1x256x1024_0_1024_0)⟩ ]
def fillP : View.Piece (Elt Ideal) S2048x256 .f32 :=
  ⟨Rect.unit (s := S2048x256) ![0, 0] S2048x256.size inb_S2048x256_S2048x256_0_0, k1_pay8 (F := Ideal)⟩

/-- The output block's stores, last made first. -/
def LO (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) (arg4 : Memref sig .tc .vmem S1x256x1024 .bf16) (harg4 : arg4.IsWhole) (arg5 : Memref sig .tc .vmem S1x2048x1024 .f32) (harg5 : arg5.IsWhole) (arg6 : Memref sig .tc .vmem S2048x256 .f32) (xv : Vec Ideal S1x256x1024 .bf16) (xo : Vec Ideal S1x2048x1024 .f32) : List (View.Piece (Elt Ideal) S1x2048x1024 .f32) :=
  [ ⟨Rect.unit (s := S1x2048x1024) ![0, 1792, 0] S1x256x1024.size inb_S1x2048x1024_S1x256x1024_0_1792_0, k1_pay4 (k1_pay7 (Vld arg4 harg4 xv)) (k1_pay17 (arg6.view.readCov (LSc i arg2 harg2 arg3 harg3 xq xk ++ [fillP]) (whole2).toLoadRect)) (k1_pay18 (arg6.view.readCov (LSc i arg2 harg2 arg3 harg3 xq xk ++ [fillP]) (whole2).toLoadRect) (arg6.view.readCov (LSc i arg2 harg2 arg3 harg3 xq xk ++ [fillP]) (whole2).toLoadRect)) (arg6.view.readCov (LSc i arg2 harg2 arg3 harg3 xq xk ++ [fillP]) (Rect.unit (s := S2048x256) ![1792, 0] S256x256.size inb_S2048x256_S256x256_1792_0).toLoadRect) (View.readAt (Elt Ideal) arg5.view (Rect.unit (s := S1x2048x1024) ![0, 1792, 0] S1x256x1024.size inb_S1x2048x1024_S1x256x1024_0_1792_0).toLoadRect (harg5.unread xo))⟩,
    ⟨Rect.unit (s := S1x2048x1024) ![0, 1536, 0] S1x256x1024.size inb_S1x2048x1024_S1x256x1024_0_1536_0, k1_pay3 (k1_pay7 (Vld arg4 harg4 xv)) (k1_pay17 (arg6.view.readCov (LSc i arg2 harg2 arg3 harg3 xq xk ++ [fillP]) (whole2).toLoadRect)) (k1_pay18 (arg6.view.readCov (LSc i arg2 harg2 arg3 harg3 xq xk ++ [fillP]) (whole2).toLoadRect) (arg6.view.readCov (LSc i arg2 harg2 arg3 harg3 xq xk ++ [fillP]) (whole2).toLoadRect)) (arg6.view.readCov (LSc i arg2 harg2 arg3 harg3 xq xk ++ [fillP]) (Rect.unit (s := S2048x256) ![1536, 0] S256x256.size inb_S2048x256_S256x256_1536_0).toLoadRect) (View.readAt (Elt Ideal) arg5.view (Rect.unit (s := S1x2048x1024) ![0, 1536, 0] S1x256x1024.size inb_S1x2048x1024_S1x256x1024_0_1536_0).toLoadRect (harg5.unread xo))⟩,
    ⟨Rect.unit (s := S1x2048x1024) ![0, 1280, 0] S1x256x1024.size inb_S1x2048x1024_S1x256x1024_0_1280_0, k1_pay2 (k1_pay7 (Vld arg4 harg4 xv)) (k1_pay17 (arg6.view.readCov (LSc i arg2 harg2 arg3 harg3 xq xk ++ [fillP]) (whole2).toLoadRect)) (k1_pay18 (arg6.view.readCov (LSc i arg2 harg2 arg3 harg3 xq xk ++ [fillP]) (whole2).toLoadRect) (arg6.view.readCov (LSc i arg2 harg2 arg3 harg3 xq xk ++ [fillP]) (whole2).toLoadRect)) (arg6.view.readCov (LSc i arg2 harg2 arg3 harg3 xq xk ++ [fillP]) (Rect.unit (s := S2048x256) ![1280, 0] S256x256.size inb_S2048x256_S256x256_1280_0).toLoadRect) (View.readAt (Elt Ideal) arg5.view (Rect.unit (s := S1x2048x1024) ![0, 1280, 0] S1x256x1024.size inb_S1x2048x1024_S1x256x1024_0_1280_0).toLoadRect (harg5.unread xo))⟩,
    ⟨Rect.unit (s := S1x2048x1024) ![0, 1024, 0] S1x256x1024.size inb_S1x2048x1024_S1x256x1024_0_1024_0, k1_pay1 (k1_pay7 (Vld arg4 harg4 xv)) (k1_pay17 (arg6.view.readCov (LSc i arg2 harg2 arg3 harg3 xq xk ++ [fillP]) (whole2).toLoadRect)) (k1_pay18 (arg6.view.readCov (LSc i arg2 harg2 arg3 harg3 xq xk ++ [fillP]) (whole2).toLoadRect) (arg6.view.readCov (LSc i arg2 harg2 arg3 harg3 xq xk ++ [fillP]) (whole2).toLoadRect)) (arg6.view.readCov (LSc i arg2 harg2 arg3 harg3 xq xk ++ [fillP]) (Rect.unit (s := S2048x256) ![1024, 0] S256x256.size inb_S2048x256_S256x256_1024_0).toLoadRect) (View.readAt (Elt Ideal) arg5.view (Rect.unit (s := S1x2048x1024) ![0, 1024, 0] S1x256x1024.size inb_S1x2048x1024_S1x256x1024_0_1024_0).toLoadRect (harg5.unread xo))⟩ ]

set_option maxHeartbeats 2000000 in
/-- The scratch holds the masked scaled scores. -/
theorem scr (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) (hi : (i 1).val = 4) (r : Fin 2048) (jj : Fin 256) :
    View.canon (LSc i arg2 harg2 arg3 harg3 xq xk ++ [fillP]) (ix2 r jj) = Scur 4 xq xk r jj := by
  refine (Cert.LibCanonOver.canon_blocks_over (Gs xq xk 4) (LSc i arg2 harg2 arg3 harg3 xq xk) fillP ?hL ?hp (ix2 r jj) ?hy).trans (Gs_ix2 xq xk 4 r jj)
  case hL =>
    intro p hp
    simp only [LSc, List.mem_cons, List.mem_nil_iff, or_false] at hp
    rcases hp with rfl | rfl | rfl | rfl
    · intro x; rw [pay16_eq]; exact chunk_block i arg2 harg2 arg3 harg3 xq xk 1792 4 (by omega) (by omega) hi inb_S2048x256_S256x256_1792_0 inb_S1x2048x1024_S1x256x1024_0_1792_0 x
    · intro x; rw [pay15_eq]; exact chunk_block i arg2 harg2 arg3 harg3 xq xk 1536 4 (by omega) (by omega) hi inb_S2048x256_S256x256_1536_0 inb_S1x2048x1024_S1x256x1024_0_1536_0 x
    · intro x; rw [pay14_eq]; exact chunk_block i arg2 harg2 arg3 harg3 xq xk 1280 4 (by omega) (by omega) hi inb_S2048x256_S256x256_1280_0 inb_S1x2048x1024_S1x256x1024_0_1280_0 x
    · intro x; rw [pay13_eq]; exact chunk_block i arg2 harg2 arg3 harg3 xq xk 1024 4 (by omega) (by omega) hi inb_S2048x256_S256x256_1024_0 inb_S1x2048x1024_S1x256x1024_0_1024_0 x
  case hp =>
    intro x hx
    obtain ⟨r', jj', rfl⟩ : ∃ (r' : Fin 2048) (jj' : Fin 256), x = ix2 r' jj' := ⟨x 0, x 1, eq_ix2 x⟩
    have hemb : fillP.1.emb (ix2 r' jj') = ix2 r' jj' := funext fun a => Fin.ext (by
      match a with
      | ⟨0, _⟩ => show 0 + 1 * r'.val = r'.val; omega
      | ⟨1, _⟩ => show 0 + 1 * jj'.val = jj'.val; omega)
    rw [hemb] at hx ⊢
    rw [Gs_ix2]
    show k1_pay8 (F := Ideal) (ix2 r' jj') = _
    rw [pay8_apply]
    refine fill_block xq xk 4 r' jj' ?_
    have h7 : ¬(1792 ≤ r'.val ∧ r'.val < 1792 + 256) := fun h => hx _ (List.mem_cons_self) ((mem2 1792 inb_S2048x256_S256x256_1792_0 r' jj').mpr h)
    have h6 : ¬(1536 ≤ r'.val ∧ r'.val < 1536 + 256) := fun h => hx _ (List.mem_cons_of_mem _ (List.mem_cons_self)) ((mem2 1536 inb_S2048x256_S256x256_1536_0 r' jj').mpr h)
    have h5 : ¬(1280 ≤ r'.val ∧ r'.val < 1280 + 256) := fun h => hx _ (List.mem_cons_of_mem _ (List.mem_cons_of_mem _ (List.mem_cons_self))) ((mem2 1280 inb_S2048x256_S256x256_1280_0 r' jj').mpr h)
    have h4 : ¬(1024 ≤ r'.val ∧ r'.val < 1024 + 256) := fun h => hx _ (List.mem_cons_of_mem _ (List.mem_cons_of_mem _ (List.mem_cons_of_mem _ (List.mem_cons_self)))) ((mem2 1024 inb_S2048x256_S256x256_1024_0 r' jj').mpr h)
    have := r'.isLt
    omega
  case hy =>
    show ix2 r jj ∈ (Rect.unit (s := S2048x256) ![0, 0] S2048x256.size inb_S2048x256_S2048x256_0_0).set
    rw [Rect.mem_set_unit]
    intro a
    match a with
    | ⟨0, _⟩ => exact ⟨Nat.zero_le _, by show r.val < 0 + 2048; omega⟩
    | ⟨1, _⟩ => exact ⟨Nat.zero_le _, by show jj.val < 0 + 256; omega⟩

set_option maxHeartbeats 4000000 in
/-- The lists the body's run found are these. -/
theorem run_eq (c : Dev nD) (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) (arg4 : Memref sig .tc .vmem S1x256x1024 .bf16) (harg4 : arg4.IsWhole) (arg5 : Memref sig .tc .vmem S1x2048x1024 .f32) (harg5 : arg5.IsWhole) (arg6 : Memref sig .tc .vmem S2048x256 .f32) (xv : Vec Ideal S1x256x1024 .bf16) (harg6 : arg6.IsWhole) (hz : ¬init i) (ha0 : ¬act i 256#32) (ha1 : ¬act i 512#32) (ha2 : ¬act i 768#32) (ha3 : ¬act i 1024#32) (ha4 : act i 1280#32) (ha5 : act i 1536#32) (ha6 : act i 1792#32) (ha7 : act i 2048#32) (xo : Vec Ideal S1x2048x1024 .f32) :
    (run4 (F := Ideal) c i arg2 harg2 arg3 harg3 arg4 harg4 arg5 harg5 arg6 harg6 hz ha0 ha1 ha2 ha3 ha4 ha5 ha6 ha7 xq xk xv xo).1
      = LO i arg2 harg2 arg3 harg3 xq xk arg4 harg4 arg5 harg5 arg6 xv xo := by
  unfold run4
  dsimp only
  sl_unfold_run_names
  rfl

set_option maxHeartbeats 4000000 in
/-- What the output block holds after the body. -/
theorem out_apply (c : Dev nD) (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) (arg4 : Memref sig .tc .vmem S1x256x1024 .bf16) (harg4 : arg4.IsWhole) (arg5 : Memref sig .tc .vmem S1x2048x1024 .f32) (harg5 : arg5.IsWhole) (arg6 : Memref sig .tc .vmem S2048x256 .f32) (xv : Vec Ideal S1x256x1024 .bf16) (harg6 : arg6.IsWhole) (hz : ¬init i) (ha0 : ¬act i 256#32) (ha1 : ¬act i 512#32) (ha2 : ¬act i 768#32) (ha3 : ¬act i 1024#32) (ha4 : act i 1280#32) (ha5 : act i 1536#32) (ha6 : act i 1792#32) (ha7 : act i 2048#32) (xo : Vec Ideal S1x2048x1024 .f32)
    (hi : (i 1).val = 4) (u : Fin 1) (r : Fin 2048) (e : Fin 1024) :
    out_4 (F := Ideal) c i arg2 harg2 arg3 harg3 arg4 harg4 arg5 harg5 arg6 harg6 hz ha0 ha1 ha2 ha3 ha4 ha5 ha6 ha7 xq xk xv xo (ix3 u r e)
      = if 4 ≤ r.val / 256 then xo (ix3 (0 : Fin 1) r e) + Cfun 4 xq xk xv r e else xo (ix3 (0 : Fin 1) r e) := by
  have hu : u = 0 := Subsingleton.elim _ _
  subst hu
  unfold out_4
  rw [run_eq]
  have hr := r.isLt
  by_cases hc : 4 ≤ r.val / 256
  · rw [if_pos hc]
    refine (Cert.LibCanonOver.read_writes_blocks arg5.view (harg5.unread xo) (Go 4 xq xk xv xo) (LO i arg2 harg2 arg3 harg3 xq xk arg4 harg4 arg5 harg5 arg6 xv xo) ?hL (ix3 0 r e) ?hcov).trans
      (Go_ix3 4 xq xk xv xo 0 r e)
    case hL =>
      intro p hp
      simp only [LO, List.mem_cons, List.mem_nil_iff, or_false] at hp
      rcases hp with rfl | rfl | rfl | rfl
      · intro x; rw [pay4_eq]
        exact out_piece_block 4 arg4 harg4 arg6 xq xk xv (LSc i arg2 harg2 arg3 harg3 xq xk ++ [fillP]) (scr i arg2 harg2 arg3 harg3 xq xk hi) xo 1792 (by omega) inb_S2048x256_S256x256_1792_0 inb_S1x2048x1024_S1x256x1024_0_1792_0 _
          (fun u r e h => by rw [View.readAt_eq_ld, harg5.read_unread]; exact ld3 xo 1792 _ u r e h) x
      · intro x; rw [pay3_eq]
        exact out_piece_block 4 arg4 harg4 arg6 xq xk xv (LSc i arg2 harg2 arg3 harg3 xq xk ++ [fillP]) (scr i arg2 harg2 arg3 harg3 xq xk hi) xo 1536 (by omega) inb_S2048x256_S256x256_1536_0 inb_S1x2048x1024_S1x256x1024_0_1536_0 _
          (fun u r e h => by rw [View.readAt_eq_ld, harg5.read_unread]; exact ld3 xo 1536 _ u r e h) x
      · intro x; rw [pay2_eq]
        exact out_piece_block 4 arg4 harg4 arg6 xq xk xv (LSc i arg2 harg2 arg3 harg3 xq xk ++ [fillP]) (scr i arg2 harg2 arg3 harg3 xq xk hi) xo 1280 (by omega) inb_S2048x256_S256x256_1280_0 inb_S1x2048x1024_S1x256x1024_0_1280_0 _
          (fun u r e h => by rw [View.readAt_eq_ld, harg5.read_unread]; exact ld3 xo 1280 _ u r e h) x
      · intro x
        exact out_piece_block 4 arg4 harg4 arg6 xq xk xv (LSc i arg2 harg2 arg3 harg3 xq xk ++ [fillP]) (scr i arg2 harg2 arg3 harg3 xq xk hi) xo 1024 (by omega) inb_S2048x256_S256x256_1024_0 inb_S1x2048x1024_S1x256x1024_0_1024_0 _
          (fun u r e h => by rw [View.readAt_eq_ld, harg5.read_unread]; exact ld3 xo 1024 _ u r e h) x
    case hcov =>
      rcases (show r.val / 256 = 7 ∨ r.val / 256 = 6 ∨ r.val / 256 = 5 ∨ r.val / 256 = 4 from by omega) with h | h | h | h
      · exact ⟨_, (List.mem_cons_self), (mem3 1792 inb_S1x2048x1024_S1x256x1024_0_1792_0 0 r e).mpr (by omega)⟩
      · exact ⟨_, (List.mem_cons_of_mem _ (List.mem_cons_self)), (mem3 1536 inb_S1x2048x1024_S1x256x1024_0_1536_0 0 r e).mpr (by omega)⟩
      · exact ⟨_, (List.mem_cons_of_mem _ (List.mem_cons_of_mem _ (List.mem_cons_self))), (mem3 1280 inb_S1x2048x1024_S1x256x1024_0_1280_0 0 r e).mpr (by omega)⟩
      · exact ⟨_, (List.mem_cons_of_mem _ (List.mem_cons_of_mem _ (List.mem_cons_of_mem _ (List.mem_cons_self)))), (mem3 1024 inb_S1x2048x1024_S1x256x1024_0_1024_0 0 r e).mpr (by omega)⟩
  · rw [if_neg hc]
    rw [Cert.LibCanonOver.read_writes_off arg5.view (harg5.unread xo) (LO i arg2 harg2 arg3 harg3 xq xk arg4 harg4 arg5 harg5 arg6 xv xo) (ix3 0 r e) ?_]
    · exact congrFun (harg5.read_unread xo) _
    · intro p hp
      simp only [LO, List.mem_cons, List.mem_nil_iff, or_false] at hp
      rcases hp with rfl | rfl | rfl | rfl
      · exact fun h => hc (by have := (mem3 1792 inb_S1x2048x1024_S1x256x1024_0_1792_0 0 r e).mp h; omega)
      · exact fun h => hc (by have := (mem3 1536 inb_S1x2048x1024_S1x256x1024_0_1536_0 0 r e).mp h; omega)
      · exact fun h => hc (by have := (mem3 1280 inb_S1x2048x1024_S1x256x1024_0_1280_0 0 r e).mp h; omega)
      · exact fun h => hc (by have := (mem3 1024 inb_S1x2048x1024_S1x256x1024_0_1024_0 0 r e).mp h; omega)

end Cert.KernelIdeal.Case4

end
-- ==== Proof.KIV.Case5.lean ====
/-
  The attention body at key block jb = 5, opened.

  The body fills the score scratch with -∞ and stores the masked scaled scores of the query chunks 5 … 7 over the
  fill: so the scratch holds the masked scaled score S of every query row (rows before 256·5 lie wholly above the
  diagonal, where S is -∞).  It then adds, chunk by chunk for the chunks 5 … 7, the key block's contribution C to
  what the output block held, and leaves the rows of chunks 0 … 4 as they were.
-/
import proofs.«157480_j6983616824221_2_alg».proof.Proof.KIV.Lists2
import proofs.«157480_j6983616824221_2_alg».proof.Proof.KI.R1Dat

set_option maxRecDepth 16384

noncomputable section

namespace Cert.KernelIdeal.Case5

open Cert.KernelIdeal Cert.KernelIdeal.Gen Cert.KernelIdeal.R1 Cert.KernelIdeal.Pay Cert.KernelIdeal.Sem
open Idealize.ShloMosaic Idealize.ShloMosaic.ValueIdx Idealize.ShloMosaic.View Idealize.ShloMosaic.Tactic

/-- The scratch's chunk stores, last made first, and the fill beneath them. -/
def LSc (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) : List (View.Piece (Elt Ideal) S2048x256 .f32) :=
  [ ⟨Rect.unit (s := S2048x256) ![1792, 0] S256x256.size inb_S2048x256_S256x256_1792_0, k1_pay16 (V0w i) (k1_pay6 (Kld arg3 harg3 xk)) (Qld arg2 harg2 xq 1792 inb_S1x2048x1024_S1x256x1024_0_1792_0)⟩,
    ⟨Rect.unit (s := S2048x256) ![1536, 0] S256x256.size inb_S2048x256_S256x256_1536_0, k1_pay15 (V0w i) (k1_pay6 (Kld arg3 harg3 xk)) (Qld arg2 harg2 xq 1536 inb_S1x2048x1024_S1x256x1024_0_1536_0)⟩,
    ⟨Rect.unit (s := S2048x256) ![1280, 0] S256x256.size inb_S2048x256_S256x256_1280_0, k1_pay14 (V0w i) (k1_pay6 (Kld arg3 harg3 xk)) (Qld arg2 harg2 xq 1280 inb_S1x2048x1024_S1x256x1024_0_1280_0)⟩ ]
def fillP : View.Piece (Elt Ideal) S2048x256 .f32 :=
  ⟨Rect.unit (s := S2048x256) ![0, 0] S2048x256.size inb_S2048x256_S2048x256_0_0, k1_pay8 (F := Ideal)⟩

/-- The output block's stores, last made first. -/
def LO (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) (arg4 : Memref sig .tc .vmem S1x256x1024 .bf16) (harg4 : arg4.IsWhole) (arg5 : Memref sig .tc .vmem S1x2048x1024 .f32) (harg5 : arg5.IsWhole) (arg6 : Memref sig .tc .vmem S2048x256 .f32) (xv : Vec Ideal S1x256x1024 .bf16) (xo : Vec Ideal S1x2048x1024 .f32) : List (View.Piece (Elt Ideal) S1x2048x1024 .f32) :=
  [ ⟨Rect.unit (s := S1x2048x1024) ![0, 1792, 0] S1x256x1024.size inb_S1x2048x1024_S1x256x1024_0_1792_0, k1_pay4 (k1_pay7 (Vld arg4 harg4 xv)) (k1_pay17 (arg6.view.readCov (LSc i arg2 harg2 arg3 harg3 xq xk ++ [fillP]) (whole2).toLoadRect)) (k1_pay18 (arg6.view.readCov (LSc i arg2 harg2 arg3 harg3 xq xk ++ [fillP]) (whole2).toLoadRect) (arg6.view.readCov (LSc i arg2 harg2 arg3 harg3 xq xk ++ [fillP]) (whole2).toLoadRect)) (arg6.view.readCov (LSc i arg2 harg2 arg3 harg3 xq xk ++ [fillP]) (Rect.unit (s := S2048x256) ![1792, 0] S256x256.size inb_S2048x256_S256x256_1792_0).toLoadRect) (View.readAt (Elt Ideal) arg5.view (Rect.unit (s := S1x2048x1024) ![0, 1792, 0] S1x256x1024.size inb_S1x2048x1024_S1x256x1024_0_1792_0).toLoadRect (harg5.unread xo))⟩,
    ⟨Rect.unit (s := S1x2048x1024) ![0, 1536, 0] S1x256x1024.size inb_S1x2048x1024_S1x256x1024_0_1536_0, k1_pay3 (k1_pay7 (Vld arg4 harg4 xv)) (k1_pay17 (arg6.view.readCov (LSc i arg2 harg2 arg3 harg3 xq xk ++ [fillP]) (whole2).toLoadRect)) (k1_pay18 (arg6.view.readCov (LSc i arg2 harg2 arg3 harg3 xq xk ++ [fillP]) (whole2).toLoadRect) (arg6.view.readCov (LSc i arg2 harg2 arg3 harg3 xq xk ++ [fillP]) (whole2).toLoadRect)) (arg6.view.readCov (LSc i arg2 harg2 arg3 harg3 xq xk ++ [fillP]) (Rect.unit (s := S2048x256) ![1536, 0] S256x256.size inb_S2048x256_S256x256_1536_0).toLoadRect) (View.readAt (Elt Ideal) arg5.view (Rect.unit (s := S1x2048x1024) ![0, 1536, 0] S1x256x1024.size inb_S1x2048x1024_S1x256x1024_0_1536_0).toLoadRect (harg5.unread xo))⟩,
    ⟨Rect.unit (s := S1x2048x1024) ![0, 1280, 0] S1x256x1024.size inb_S1x2048x1024_S1x256x1024_0_1280_0, k1_pay2 (k1_pay7 (Vld arg4 harg4 xv)) (k1_pay17 (arg6.view.readCov (LSc i arg2 harg2 arg3 harg3 xq xk ++ [fillP]) (whole2).toLoadRect)) (k1_pay18 (arg6.view.readCov (LSc i arg2 harg2 arg3 harg3 xq xk ++ [fillP]) (whole2).toLoadRect) (arg6.view.readCov (LSc i arg2 harg2 arg3 harg3 xq xk ++ [fillP]) (whole2).toLoadRect)) (arg6.view.readCov (LSc i arg2 harg2 arg3 harg3 xq xk ++ [fillP]) (Rect.unit (s := S2048x256) ![1280, 0] S256x256.size inb_S2048x256_S256x256_1280_0).toLoadRect) (View.readAt (Elt Ideal) arg5.view (Rect.unit (s := S1x2048x1024) ![0, 1280, 0] S1x256x1024.size inb_S1x2048x1024_S1x256x1024_0_1280_0).toLoadRect (harg5.unread xo))⟩ ]

set_option maxHeartbeats 2000000 in
/-- The scratch holds the masked scaled scores. -/
theorem scr (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) (hi : (i 1).val = 5) (r : Fin 2048) (jj : Fin 256) :
    View.canon (LSc i arg2 harg2 arg3 harg3 xq xk ++ [fillP]) (ix2 r jj) = Scur 5 xq xk r jj := by
  refine (Cert.LibCanonOver.canon_blocks_over (Gs xq xk 5) (LSc i arg2 harg2 arg3 harg3 xq xk) fillP ?hL ?hp (ix2 r jj) ?hy).trans (Gs_ix2 xq xk 5 r jj)
  case hL =>
    intro p hp
    simp only [LSc, List.mem_cons, List.mem_nil_iff, or_false] at hp
    rcases hp with rfl | rfl | rfl
    · intro x; rw [pay16_eq]; exact chunk_block i arg2 harg2 arg3 harg3 xq xk 1792 5 (by omega) (by omega) hi inb_S2048x256_S256x256_1792_0 inb_S1x2048x1024_S1x256x1024_0_1792_0 x
    · intro x; rw [pay15_eq]; exact chunk_block i arg2 harg2 arg3 harg3 xq xk 1536 5 (by omega) (by omega) hi inb_S2048x256_S256x256_1536_0 inb_S1x2048x1024_S1x256x1024_0_1536_0 x
    · intro x; rw [pay14_eq]; exact chunk_block i arg2 harg2 arg3 harg3 xq xk 1280 5 (by omega) (by omega) hi inb_S2048x256_S256x256_1280_0 inb_S1x2048x1024_S1x256x1024_0_1280_0 x
  case hp =>
    intro x hx
    obtain ⟨r', jj', rfl⟩ : ∃ (r' : Fin 2048) (jj' : Fin 256), x = ix2 r' jj' := ⟨x 0, x 1, eq_ix2 x⟩
    have hemb : fillP.1.emb (ix2 r' jj') = ix2 r' jj' := funext fun a => Fin.ext (by
      match a with
      | ⟨0, _⟩ => show 0 + 1 * r'.val = r'.val; omega
      | ⟨1, _⟩ => show 0 + 1 * jj'.val = jj'.val; omega)
    rw [hemb] at hx ⊢
    rw [Gs_ix2]
    show k1_pay8 (F := Ideal) (ix2 r' jj') = _
    rw [pay8_apply]
    refine fill_block xq xk 5 r' jj' ?_
    have h7 : ¬(1792 ≤ r'.val ∧ r'.val < 1792 + 256) := fun h => hx _ (List.mem_cons_self) ((mem2 1792 inb_S2048x256_S256x256_1792_0 r' jj').mpr h)
    have h6 : ¬(1536 ≤ r'.val ∧ r'.val < 1536 + 256) := fun h => hx _ (List.mem_cons_of_mem _ (List.mem_cons_self)) ((mem2 1536 inb_S2048x256_S256x256_1536_0 r' jj').mpr h)
    have h5 : ¬(1280 ≤ r'.val ∧ r'.val < 1280 + 256) := fun h => hx _ (List.mem_cons_of_mem _ (List.mem_cons_of_mem _ (List.mem_cons_self))) ((mem2 1280 inb_S2048x256_S256x256_1280_0 r' jj').mpr h)
    have := r'.isLt
    omega
  case hy =>
    show ix2 r jj ∈ (Rect.unit (s := S2048x256) ![0, 0] S2048x256.size inb_S2048x256_S2048x256_0_0).set
    rw [Rect.mem_set_unit]
    intro a
    match a with
    | ⟨0, _⟩ => exact ⟨Nat.zero_le _, by show r.val < 0 + 2048; omega⟩
    | ⟨1, _⟩ => exact ⟨Nat.zero_le _, by show jj.val < 0 + 256; omega⟩

set_option maxHeartbeats 4000000 in
/-- The lists the body's run found are these. -/
theorem run_eq (c : Dev nD) (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) (arg4 : Memref sig .tc .vmem S1x256x1024 .bf16) (harg4 : arg4.IsWhole) (arg5 : Memref sig .tc .vmem S1x2048x1024 .f32) (harg5 : arg5.IsWhole) (arg6 : Memref sig .tc .vmem S2048x256 .f32) (xv : Vec Ideal S1x256x1024 .bf16) (harg6 : arg6.IsWhole) (hz : ¬init i) (ha0 : ¬act i 256#32) (ha1 : ¬act i 512#32) (ha2 : ¬act i 768#32) (ha3 : ¬act i 1024#32) (ha4 : ¬act i 1280#32) (ha5 : act i 1536#32) (ha6 : act i 1792#32) (ha7 : act i 2048#32) (xo : Vec Ideal S1x2048x1024 .f32) :
    (run5 (F := Ideal) c i arg2 harg2 arg3 harg3 arg4 harg4 arg5 harg5 arg6 harg6 hz ha0 ha1 ha2 ha3 ha4 ha5 ha6 ha7 xq xk xv xo).1
      = LO i arg2 harg2 arg3 harg3 xq xk arg4 harg4 arg5 harg5 arg6 xv xo := by
  unfold run5
  dsimp only
  sl_unfold_run_names
  rfl

set_option maxHeartbeats 4000000 in
/-- What the output block holds after the body. -/
theorem out_apply (c : Dev nD) (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) (arg4 : Memref sig .tc .vmem S1x256x1024 .bf16) (harg4 : arg4.IsWhole) (arg5 : Memref sig .tc .vmem S1x2048x1024 .f32) (harg5 : arg5.IsWhole) (arg6 : Memref sig .tc .vmem S2048x256 .f32) (xv : Vec Ideal S1x256x1024 .bf16) (harg6 : arg6.IsWhole) (hz : ¬init i) (ha0 : ¬act i 256#32) (ha1 : ¬act i 512#32) (ha2 : ¬act i 768#32) (ha3 : ¬act i 1024#32) (ha4 : ¬act i 1280#32) (ha5 : act i 1536#32) (ha6 : act i 1792#32) (ha7 : act i 2048#32) (xo : Vec Ideal S1x2048x1024 .f32)
    (hi : (i 1).val = 5) (u : Fin 1) (r : Fin 2048) (e : Fin 1024) :
    out_5 (F := Ideal) c i arg2 harg2 arg3 harg3 arg4 harg4 arg5 harg5 arg6 harg6 hz ha0 ha1 ha2 ha3 ha4 ha5 ha6 ha7 xq xk xv xo (ix3 u r e)
      = if 5 ≤ r.val / 256 then xo (ix3 (0 : Fin 1) r e) + Cfun 5 xq xk xv r e else xo (ix3 (0 : Fin 1) r e) := by
  have hu : u = 0 := Subsingleton.elim _ _
  subst hu
  unfold out_5
  rw [run_eq]
  have hr := r.isLt
  by_cases hc : 5 ≤ r.val / 256
  · rw [if_pos hc]
    refine (Cert.LibCanonOver.read_writes_blocks arg5.view (harg5.unread xo) (Go 5 xq xk xv xo) (LO i arg2 harg2 arg3 harg3 xq xk arg4 harg4 arg5 harg5 arg6 xv xo) ?hL (ix3 0 r e) ?hcov).trans
      (Go_ix3 5 xq xk xv xo 0 r e)
    case hL =>
      intro p hp
      simp only [LO, List.mem_cons, List.mem_nil_iff, or_false] at hp
      rcases hp with rfl | rfl | rfl
      · intro x; rw [pay4_eq]
        exact out_piece_block 5 arg4 harg4 arg6 xq xk xv (LSc i arg2 harg2 arg3 harg3 xq xk ++ [fillP]) (scr i arg2 harg2 arg3 harg3 xq xk hi) xo 1792 (by omega) inb_S2048x256_S256x256_1792_0 inb_S1x2048x1024_S1x256x1024_0_1792_0 _
          (fun u r e h => by rw [View.readAt_eq_ld, harg5.read_unread]; exact ld3 xo 1792 _ u r e h) x
      · intro x; rw [pay3_eq]
        exact out_piece_block 5 arg4 harg4 arg6 xq xk xv (LSc i arg2 harg2 arg3 harg3 xq xk ++ [fillP]) (scr i arg2 harg2 arg3 harg3 xq xk hi) xo 1536 (by omega) inb_S2048x256_S256x256_1536_0 inb_S1x2048x1024_S1x256x1024_0_1536_0 _
          (fun u r e h => by rw [View.readAt_eq_ld, harg5.read_unread]; exact ld3 xo 1536 _ u r e h) x
      · intro x; rw [pay2_eq]
        exact out_piece_block 5 arg4 harg4 arg6 xq xk xv (LSc i arg2 harg2 arg3 harg3 xq xk ++ [fillP]) (scr i arg2 harg2 arg3 harg3 xq xk hi) xo 1280 (by omega) inb_S2048x256_S256x256_1280_0 inb_S1x2048x1024_S1x256x1024_0_1280_0 _
          (fun u r e h => by rw [View.readAt_eq_ld, harg5.read_unread]; exact ld3 xo 1280 _ u r e h) x
    case hcov =>
      rcases (show r.val / 256 = 7 ∨ r.val / 256 = 6 ∨ r.val / 256 = 5 from by omega) with h | h | h
      · exact ⟨_, (List.mem_cons_self), (mem3 1792 inb_S1x2048x1024_S1x256x1024_0_1792_0 0 r e).mpr (by omega)⟩
      · exact ⟨_, (List.mem_cons_of_mem _ (List.mem_cons_self)), (mem3 1536 inb_S1x2048x1024_S1x256x1024_0_1536_0 0 r e).mpr (by omega)⟩
      · exact ⟨_, (List.mem_cons_of_mem _ (List.mem_cons_of_mem _ (List.mem_cons_self))), (mem3 1280 inb_S1x2048x1024_S1x256x1024_0_1280_0 0 r e).mpr (by omega)⟩
  · rw [if_neg hc]
    rw [Cert.LibCanonOver.read_writes_off arg5.view (harg5.unread xo) (LO i arg2 harg2 arg3 harg3 xq xk arg4 harg4 arg5 harg5 arg6 xv xo) (ix3 0 r e) ?_]
    · exact congrFun (harg5.read_unread xo) _
    · intro p hp
      simp only [LO, List.mem_cons, List.mem_nil_iff, or_false] at hp
      rcases hp with rfl | rfl | rfl
      · exact fun h => hc (by have := (mem3 1792 inb_S1x2048x1024_S1x256x1024_0_1792_0 0 r e).mp h; omega)
      · exact fun h => hc (by have := (mem3 1536 inb_S1x2048x1024_S1x256x1024_0_1536_0 0 r e).mp h; omega)
      · exact fun h => hc (by have := (mem3 1280 inb_S1x2048x1024_S1x256x1024_0_1280_0 0 r e).mp h; omega)

end Cert.KernelIdeal.Case5

end
-- ==== Proof.KIV.Case6.lean ====
/-
  The attention body at key block jb = 6, opened.

  The body fills the score scratch with -∞ and stores the masked scaled scores of the query chunks 6 … 7 over the
  fill: so the scratch holds the masked scaled score S of every query row (rows before 256·6 lie wholly above the
  diagonal, where S is -∞).  It then adds, chunk by chunk for the chunks 6 … 7, the key block's contribution C to
  what the output block held, and leaves the rows of chunks 0 … 5 as they were.
-/
import proofs.«157480_j6983616824221_2_alg».proof.Proof.KIV.Lists2
import proofs.«157480_j6983616824221_2_alg».proof.Proof.KI.R1Dat

set_option maxRecDepth 16384

noncomputable section

namespace Cert.KernelIdeal.Case6

open Cert.KernelIdeal Cert.KernelIdeal.Gen Cert.KernelIdeal.R1 Cert.KernelIdeal.Pay Cert.KernelIdeal.Sem
open Idealize.ShloMosaic Idealize.ShloMosaic.ValueIdx Idealize.ShloMosaic.View Idealize.ShloMosaic.Tactic

/-- The scratch's chunk stores, last made first, and the fill beneath them. -/
def LSc (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) : List (View.Piece (Elt Ideal) S2048x256 .f32) :=
  [ ⟨Rect.unit (s := S2048x256) ![1792, 0] S256x256.size inb_S2048x256_S256x256_1792_0, k1_pay16 (V0w i) (k1_pay6 (Kld arg3 harg3 xk)) (Qld arg2 harg2 xq 1792 inb_S1x2048x1024_S1x256x1024_0_1792_0)⟩,
    ⟨Rect.unit (s := S2048x256) ![1536, 0] S256x256.size inb_S2048x256_S256x256_1536_0, k1_pay15 (V0w i) (k1_pay6 (Kld arg3 harg3 xk)) (Qld arg2 harg2 xq 1536 inb_S1x2048x1024_S1x256x1024_0_1536_0)⟩ ]
def fillP : View.Piece (Elt Ideal) S2048x256 .f32 :=
  ⟨Rect.unit (s := S2048x256) ![0, 0] S2048x256.size inb_S2048x256_S2048x256_0_0, k1_pay8 (F := Ideal)⟩

/-- The output block's stores, last made first. -/
def LO (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) (arg4 : Memref sig .tc .vmem S1x256x1024 .bf16) (harg4 : arg4.IsWhole) (arg5 : Memref sig .tc .vmem S1x2048x1024 .f32) (harg5 : arg5.IsWhole) (arg6 : Memref sig .tc .vmem S2048x256 .f32) (xv : Vec Ideal S1x256x1024 .bf16) (xo : Vec Ideal S1x2048x1024 .f32) : List (View.Piece (Elt Ideal) S1x2048x1024 .f32) :=
  [ ⟨Rect.unit (s := S1x2048x1024) ![0, 1792, 0] S1x256x1024.size inb_S1x2048x1024_S1x256x1024_0_1792_0, k1_pay4 (k1_pay7 (Vld arg4 harg4 xv)) (k1_pay17 (arg6.view.readCov (LSc i arg2 harg2 arg3 harg3 xq xk ++ [fillP]) (whole2).toLoadRect)) (k1_pay18 (arg6.view.readCov (LSc i arg2 harg2 arg3 harg3 xq xk ++ [fillP]) (whole2).toLoadRect) (arg6.view.readCov (LSc i arg2 harg2 arg3 harg3 xq xk ++ [fillP]) (whole2).toLoadRect)) (arg6.view.readCov (LSc i arg2 harg2 arg3 harg3 xq xk ++ [fillP]) (Rect.unit (s := S2048x256) ![1792, 0] S256x256.size inb_S2048x256_S256x256_1792_0).toLoadRect) (View.readAt (Elt Ideal) arg5.view (Rect.unit (s := S1x2048x1024) ![0, 1792, 0] S1x256x1024.size inb_S1x2048x1024_S1x256x1024_0_1792_0).toLoadRect (harg5.unread xo))⟩,
    ⟨Rect.unit (s := S1x2048x1024) ![0, 1536, 0] S1x256x1024.size inb_S1x2048x1024_S1x256x1024_0_1536_0, k1_pay3 (k1_pay7 (Vld arg4 harg4 xv)) (k1_pay17 (arg6.view.readCov (LSc i arg2 harg2 arg3 harg3 xq xk ++ [fillP]) (whole2).toLoadRect)) (k1_pay18 (arg6.view.readCov (LSc i arg2 harg2 arg3 harg3 xq xk ++ [fillP]) (whole2).toLoadRect) (arg6.view.readCov (LSc i arg2 harg2 arg3 harg3 xq xk ++ [fillP]) (whole2).toLoadRect)) (arg6.view.readCov (LSc i arg2 harg2 arg3 harg3 xq xk ++ [fillP]) (Rect.unit (s := S2048x256) ![1536, 0] S256x256.size inb_S2048x256_S256x256_1536_0).toLoadRect) (View.readAt (Elt Ideal) arg5.view (Rect.unit (s := S1x2048x1024) ![0, 1536, 0] S1x256x1024.size inb_S1x2048x1024_S1x256x1024_0_1536_0).toLoadRect (harg5.unread xo))⟩ ]

set_option maxHeartbeats 2000000 in
/-- The scratch holds the masked scaled scores. -/
theorem scr (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) (hi : (i 1).val = 6) (r : Fin 2048) (jj : Fin 256) :
    View.canon (LSc i arg2 harg2 arg3 harg3 xq xk ++ [fillP]) (ix2 r jj) = Scur 6 xq xk r jj := by
  refine (Cert.LibCanonOver.canon_blocks_over (Gs xq xk 6) (LSc i arg2 harg2 arg3 harg3 xq xk) fillP ?hL ?hp (ix2 r jj) ?hy).trans (Gs_ix2 xq xk 6 r jj)
  case hL =>
    intro p hp
    simp only [LSc, List.mem_cons, List.mem_nil_iff, or_false] at hp
    rcases hp with rfl | rfl
    · intro x; rw [pay16_eq]; exact chunk_block i arg2 harg2 arg3 harg3 xq xk 1792 6 (by omega) (by omega) hi inb_S2048x256_S256x256_1792_0 inb_S1x2048x1024_S1x256x1024_0_1792_0 x
    · intro x; rw [pay15_eq]; exact chunk_block i arg2 harg2 arg3 harg3 xq xk 1536 6 (by omega) (by omega) hi inb_S2048x256_S256x256_1536_0 inb_S1x2048x1024_S1x256x1024_0_1536_0 x
  case hp =>
    intro x hx
    obtain ⟨r', jj', rfl⟩ : ∃ (r' : Fin 2048) (jj' : Fin 256), x = ix2 r' jj' := ⟨x 0, x 1, eq_ix2 x⟩
    have hemb : fillP.1.emb (ix2 r' jj') = ix2 r' jj' := funext fun a => Fin.ext (by
      match a with
      | ⟨0, _⟩ => show 0 + 1 * r'.val = r'.val; omega
      | ⟨1, _⟩ => show 0 + 1 * jj'.val = jj'.val; omega)
    rw [hemb] at hx ⊢
    rw [Gs_ix2]
    show k1_pay8 (F := Ideal) (ix2 r' jj') = _
    rw [pay8_apply]
    refine fill_block xq xk 6 r' jj' ?_
    have h7 : ¬(1792 ≤ r'.val ∧ r'.val < 1792 + 256) := fun h => hx _ (List.mem_cons_self) ((mem2 1792 inb_S2048x256_S256x256_1792_0 r' jj').mpr h)
    have h6 : ¬(1536 ≤ r'.val ∧ r'.val < 1536 + 256) := fun h => hx _ (List.mem_cons_of_mem _ (List.mem_cons_self)) ((mem2 1536 inb_S2048x256_S256x256_1536_0 r' jj').mpr h)
    have := r'.isLt
    omega
  case hy =>
    show ix2 r jj ∈ (Rect.unit (s := S2048x256) ![0, 0] S2048x256.size inb_S2048x256_S2048x256_0_0).set
    rw [Rect.mem_set_unit]
    intro a
    match a with
    | ⟨0, _⟩ => exact ⟨Nat.zero_le _, by show r.val < 0 + 2048; omega⟩
    | ⟨1, _⟩ => exact ⟨Nat.zero_le _, by show jj.val < 0 + 256; omega⟩

set_option maxHeartbeats 4000000 in
/-- The lists the body's run found are these. -/
theorem run_eq (c : Dev nD) (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) (arg4 : Memref sig .tc .vmem S1x256x1024 .bf16) (harg4 : arg4.IsWhole) (arg5 : Memref sig .tc .vmem S1x2048x1024 .f32) (harg5 : arg5.IsWhole) (arg6 : Memref sig .tc .vmem S2048x256 .f32) (xv : Vec Ideal S1x256x1024 .bf16) (harg6 : arg6.IsWhole) (hz : ¬init i) (ha0 : ¬act i 256#32) (ha1 : ¬act i 512#32) (ha2 : ¬act i 768#32) (ha3 : ¬act i 1024#32) (ha4 : ¬act i 1280#32) (ha5 : ¬act i 1536#32) (ha6 : act i 1792#32) (ha7 : act i 2048#32) (xo : Vec Ideal S1x2048x1024 .f32) :
    (run6 (F := Ideal) c i arg2 harg2 arg3 harg3 arg4 harg4 arg5 harg5 arg6 harg6 hz ha0 ha1 ha2 ha3 ha4 ha5 ha6 ha7 xq xk xv xo).1
      = LO i arg2 harg2 arg3 harg3 xq xk arg4 harg4 arg5 harg5 arg6 xv xo := by
  unfold run6
  dsimp only
  sl_unfold_run_names
  rfl

set_option maxHeartbeats 4000000 in
/-- What the output block holds after the body. -/
theorem out_apply (c : Dev nD) (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) (arg4 : Memref sig .tc .vmem S1x256x1024 .bf16) (harg4 : arg4.IsWhole) (arg5 : Memref sig .tc .vmem S1x2048x1024 .f32) (harg5 : arg5.IsWhole) (arg6 : Memref sig .tc .vmem S2048x256 .f32) (xv : Vec Ideal S1x256x1024 .bf16) (harg6 : arg6.IsWhole) (hz : ¬init i) (ha0 : ¬act i 256#32) (ha1 : ¬act i 512#32) (ha2 : ¬act i 768#32) (ha3 : ¬act i 1024#32) (ha4 : ¬act i 1280#32) (ha5 : ¬act i 1536#32) (ha6 : act i 1792#32) (ha7 : act i 2048#32) (xo : Vec Ideal S1x2048x1024 .f32)
    (hi : (i 1).val = 6) (u : Fin 1) (r : Fin 2048) (e : Fin 1024) :
    out_6 (F := Ideal) c i arg2 harg2 arg3 harg3 arg4 harg4 arg5 harg5 arg6 harg6 hz ha0 ha1 ha2 ha3 ha4 ha5 ha6 ha7 xq xk xv xo (ix3 u r e)
      = if 6 ≤ r.val / 256 then xo (ix3 (0 : Fin 1) r e) + Cfun 6 xq xk xv r e else xo (ix3 (0 : Fin 1) r e) := by
  have hu : u = 0 := Subsingleton.elim _ _
  subst hu
  unfold out_6
  rw [run_eq]
  have hr := r.isLt
  by_cases hc : 6 ≤ r.val / 256
  · rw [if_pos hc]
    refine (Cert.LibCanonOver.read_writes_blocks arg5.view (harg5.unread xo) (Go 6 xq xk xv xo) (LO i arg2 harg2 arg3 harg3 xq xk arg4 harg4 arg5 harg5 arg6 xv xo) ?hL (ix3 0 r e) ?hcov).trans
      (Go_ix3 6 xq xk xv xo 0 r e)
    case hL =>
      intro p hp
      simp only [LO, List.mem_cons, List.mem_nil_iff, or_false] at hp
      rcases hp with rfl | rfl
      · intro x; rw [pay4_eq]
        exact out_piece_block 6 arg4 harg4 arg6 xq xk xv (LSc i arg2 harg2 arg3 harg3 xq xk ++ [fillP]) (scr i arg2 harg2 arg3 harg3 xq xk hi) xo 1792 (by omega) inb_S2048x256_S256x256_1792_0 inb_S1x2048x1024_S1x256x1024_0_1792_0 _
          (fun u r e h => by rw [View.readAt_eq_ld, harg5.read_unread]; exact ld3 xo 1792 _ u r e h) x
      · intro x; rw [pay3_eq]
        exact out_piece_block 6 arg4 harg4 arg6 xq xk xv (LSc i arg2 harg2 arg3 harg3 xq xk ++ [fillP]) (scr i arg2 harg2 arg3 harg3 xq xk hi) xo 1536 (by omega) inb_S2048x256_S256x256_1536_0 inb_S1x2048x1024_S1x256x1024_0_1536_0 _
          (fun u r e h => by rw [View.readAt_eq_ld, harg5.read_unread]; exact ld3 xo 1536 _ u r e h) x
    case hcov =>
      rcases (show r.val / 256 = 7 ∨ r.val / 256 = 6 from by omega) with h | h
      · exact ⟨_, (List.mem_cons_self), (mem3 1792 inb_S1x2048x1024_S1x256x1024_0_1792_0 0 r e).mpr (by omega)⟩
      · exact ⟨_, (List.mem_cons_of_mem _ (List.mem_cons_self)), (mem3 1536 inb_S1x2048x1024_S1x256x1024_0_1536_0 0 r e).mpr (by omega)⟩
  · rw [if_neg hc]
    rw [Cert.LibCanonOver.read_writes_off arg5.view (harg5.unread xo) (LO i arg2 harg2 arg3 harg3 xq xk arg4 harg4 arg5 harg5 arg6 xv xo) (ix3 0 r e) ?_]
    · exact congrFun (harg5.read_unread xo) _
    · intro p hp
      simp only [LO, List.mem_cons, List.mem_nil_iff, or_false] at hp
      rcases hp with rfl | rfl
      · exact fun h => hc (by have := (mem3 1792 inb_S1x2048x1024_S1x256x1024_0_1792_0 0 r e).mp h; omega)
      · exact fun h => hc (by have := (mem3 1536 inb_S1x2048x1024_S1x256x1024_0_1536_0 0 r e).mp h; omega)

end Cert.KernelIdeal.Case6

end
-- ==== Proof.KIV.Case7.lean ====
/-
  The attention body at key block jb = 7, opened.

  The body fills the score scratch with -∞ and stores the masked scaled scores of the query chunks 7 … 7 over the
  fill: so the scratch holds the masked scaled score S of every query row (rows before 256·7 lie wholly above the
  diagonal, where S is -∞).  It then adds, chunk by chunk for the chunks 7 … 7, the key block's contribution C to
  what the output block held, and leaves the rows of chunks 0 … 6 as they were.
-/
import proofs.«157480_j6983616824221_2_alg».proof.Proof.KIV.Lists2
import proofs.«157480_j6983616824221_2_alg».proof.Proof.KI.R1Dat

set_option maxRecDepth 16384

noncomputable section

namespace Cert.KernelIdeal.Case7

open Cert.KernelIdeal Cert.KernelIdeal.Gen Cert.KernelIdeal.R1 Cert.KernelIdeal.Pay Cert.KernelIdeal.Sem
open Idealize.ShloMosaic Idealize.ShloMosaic.ValueIdx Idealize.ShloMosaic.View Idealize.ShloMosaic.Tactic

/-- The scratch's chunk stores, last made first, and the fill beneath them. -/
def LSc (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) : List (View.Piece (Elt Ideal) S2048x256 .f32) :=
  [ ⟨Rect.unit (s := S2048x256) ![1792, 0] S256x256.size inb_S2048x256_S256x256_1792_0, k1_pay16 (V0w i) (k1_pay6 (Kld arg3 harg3 xk)) (Qld arg2 harg2 xq 1792 inb_S1x2048x1024_S1x256x1024_0_1792_0)⟩ ]
def fillP : View.Piece (Elt Ideal) S2048x256 .f32 :=
  ⟨Rect.unit (s := S2048x256) ![0, 0] S2048x256.size inb_S2048x256_S2048x256_0_0, k1_pay8 (F := Ideal)⟩

/-- The output block's stores, last made first. -/
def LO (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) (arg4 : Memref sig .tc .vmem S1x256x1024 .bf16) (harg4 : arg4.IsWhole) (arg5 : Memref sig .tc .vmem S1x2048x1024 .f32) (harg5 : arg5.IsWhole) (arg6 : Memref sig .tc .vmem S2048x256 .f32) (xv : Vec Ideal S1x256x1024 .bf16) (xo : Vec Ideal S1x2048x1024 .f32) : List (View.Piece (Elt Ideal) S1x2048x1024 .f32) :=
  [ ⟨Rect.unit (s := S1x2048x1024) ![0, 1792, 0] S1x256x1024.size inb_S1x2048x1024_S1x256x1024_0_1792_0, k1_pay4 (k1_pay7 (Vld arg4 harg4 xv)) (k1_pay17 (arg6.view.readCov (LSc i arg2 harg2 arg3 harg3 xq xk ++ [fillP]) (whole2).toLoadRect)) (k1_pay18 (arg6.view.readCov (LSc i arg2 harg2 arg3 harg3 xq xk ++ [fillP]) (whole2).toLoadRect) (arg6.view.readCov (LSc i arg2 harg2 arg3 harg3 xq xk ++ [fillP]) (whole2).toLoadRect)) (arg6.view.readCov (LSc i arg2 harg2 arg3 harg3 xq xk ++ [fillP]) (Rect.unit (s := S2048x256) ![1792, 0] S256x256.size inb_S2048x256_S256x256_1792_0).toLoadRect) (View.readAt (Elt Ideal) arg5.view (Rect.unit (s := S1x2048x1024) ![0, 1792, 0] S1x256x1024.size inb_S1x2048x1024_S1x256x1024_0_1792_0).toLoadRect (harg5.unread xo))⟩ ]

set_option maxHeartbeats 2000000 in
/-- The scratch holds the masked scaled scores. -/
theorem scr (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) (hi : (i 1).val = 7) (r : Fin 2048) (jj : Fin 256) :
    View.canon (LSc i arg2 harg2 arg3 harg3 xq xk ++ [fillP]) (ix2 r jj) = Scur 7 xq xk r jj := by
  refine (Cert.LibCanonOver.canon_blocks_over (Gs xq xk 7) (LSc i arg2 harg2 arg3 harg3 xq xk) fillP ?hL ?hp (ix2 r jj) ?hy).trans (Gs_ix2 xq xk 7 r jj)
  case hL =>
    intro p hp
    simp only [LSc, List.mem_cons, List.mem_nil_iff, or_false] at hp
    rcases hp with rfl
    · intro x; rw [pay16_eq]; exact chunk_block i arg2 harg2 arg3 harg3 xq xk 1792 7 (by omega) (by omega) hi inb_S2048x256_S256x256_1792_0 inb_S1x2048x1024_S1x256x1024_0_1792_0 x
  case hp =>
    intro x hx
    obtain ⟨r', jj', rfl⟩ : ∃ (r' : Fin 2048) (jj' : Fin 256), x = ix2 r' jj' := ⟨x 0, x 1, eq_ix2 x⟩
    have hemb : fillP.1.emb (ix2 r' jj') = ix2 r' jj' := funext fun a => Fin.ext (by
      match a with
      | ⟨0, _⟩ => show 0 + 1 * r'.val = r'.val; omega
      | ⟨1, _⟩ => show 0 + 1 * jj'.val = jj'.val; omega)
    rw [hemb] at hx ⊢
    rw [Gs_ix2]
    show k1_pay8 (F := Ideal) (ix2 r' jj') = _
    rw [pay8_apply]
    refine fill_block xq xk 7 r' jj' ?_
    have h7 : ¬(1792 ≤ r'.val ∧ r'.val < 1792 + 256) := fun h => hx _ (List.mem_cons_self) ((mem2 1792 inb_S2048x256_S256x256_1792_0 r' jj').mpr h)
    have := r'.isLt
    omega
  case hy =>
    show ix2 r jj ∈ (Rect.unit (s := S2048x256) ![0, 0] S2048x256.size inb_S2048x256_S2048x256_0_0).set
    rw [Rect.mem_set_unit]
    intro a
    match a with
    | ⟨0, _⟩ => exact ⟨Nat.zero_le _, by show r.val < 0 + 2048; omega⟩
    | ⟨1, _⟩ => exact ⟨Nat.zero_le _, by show jj.val < 0 + 256; omega⟩

set_option maxHeartbeats 4000000 in
/-- The lists the body's run found are these. -/
theorem run_eq (c : Dev nD) (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) (arg4 : Memref sig .tc .vmem S1x256x1024 .bf16) (harg4 : arg4.IsWhole) (arg5 : Memref sig .tc .vmem S1x2048x1024 .f32) (harg5 : arg5.IsWhole) (arg6 : Memref sig .tc .vmem S2048x256 .f32) (xv : Vec Ideal S1x256x1024 .bf16) (harg6 : arg6.IsWhole) (hz : ¬init i) (ha0 : ¬act i 256#32) (ha1 : ¬act i 512#32) (ha2 : ¬act i 768#32) (ha3 : ¬act i 1024#32) (ha4 : ¬act i 1280#32) (ha5 : ¬act i 1536#32) (ha6 : ¬act i 1792#32) (ha7 : act i 2048#32) (xo : Vec Ideal S1x2048x1024 .f32) :
    (run7 (F := Ideal) c i arg2 harg2 arg3 harg3 arg4 harg4 arg5 harg5 arg6 harg6 hz ha0 ha1 ha2 ha3 ha4 ha5 ha6 ha7 xq xk xv xo).1
      = LO i arg2 harg2 arg3 harg3 xq xk arg4 harg4 arg5 harg5 arg6 xv xo := by
  unfold run7
  dsimp only
  sl_unfold_run_names
  rfl

set_option maxHeartbeats 4000000 in
/-- What the output block holds after the body. -/
theorem out_apply (c : Dev nD) (i : grid1.Coords) (arg2 : Memref sig .tc .vmem S1x2048x1024 .bf16) (harg2 : arg2.IsWhole) (arg3 : Memref sig .tc .vmem S1x256x1024 .bf16) (harg3 : arg3.IsWhole) (xq : Vec Ideal S1x2048x1024 .bf16) (xk : Vec Ideal S1x256x1024 .bf16) (arg4 : Memref sig .tc .vmem S1x256x1024 .bf16) (harg4 : arg4.IsWhole) (arg5 : Memref sig .tc .vmem S1x2048x1024 .f32) (harg5 : arg5.IsWhole) (arg6 : Memref sig .tc .vmem S2048x256 .f32) (xv : Vec Ideal S1x256x1024 .bf16) (harg6 : arg6.IsWhole) (hz : ¬init i) (ha0 : ¬act i 256#32) (ha1 : ¬act i 512#32) (ha2 : ¬act i 768#32) (ha3 : ¬act i 1024#32) (ha4 : ¬act i 1280#32) (ha5 : ¬act i 1536#32) (ha6 : ¬act i 1792#32) (ha7 : act i 2048#32) (xo : Vec Ideal S1x2048x1024 .f32)
    (hi : (i 1).val = 7) (u : Fin 1) (r : Fin 2048) (e : Fin 1024) :
    out_7 (F := Ideal) c i arg2 harg2 arg3 harg3 arg4 harg4 arg5 harg5 arg6 harg6 hz ha0 ha1 ha2 ha3 ha4 ha5 ha6 ha7 xq xk xv xo (ix3 u r e)
      = if 7 ≤ r.val / 256 then xo (ix3 (0 : Fin 1) r e) + Cfun 7 xq xk xv r e else xo (ix3 (0 : Fin 1) r e) := by
  have hu : u = 0 := Subsingleton.elim _ _
  subst hu
  unfold out_7
  rw [run_eq]
  have hr := r.isLt
  by_cases hc : 7 ≤ r.val / 256
  · rw [if_pos hc]
    refine (Cert.LibCanonOver.read_writes_blocks arg5.view (harg5.unread xo) (Go 7 xq xk xv xo) (LO i arg2 harg2 arg3 harg3 xq xk arg4 harg4 arg5 harg5 arg6 xv xo) ?hL (ix3 0 r e) ?hcov).trans
      (Go_ix3 7 xq xk xv xo 0 r e)
    case hL =>
      intro p hp
      simp only [LO, List.mem_cons, List.mem_nil_iff, or_false] at hp
      rcases hp with rfl
      · intro x; rw [pay4_eq]
        exact out_piece_block 7 arg4 harg4 arg6 xq xk xv (LSc i arg2 harg2 arg3 harg3 xq xk ++ [fillP]) (scr i arg2 harg2 arg3 harg3 xq xk hi) xo 1792 (by omega) inb_S2048x256_S256x256_1792_0 inb_S1x2048x1024_S1x256x1024_0_1792_0 _
          (fun u r e h => by rw [View.readAt_eq_ld, harg5.read_unread]; exact ld3 xo 1792 _ u r e h) x
    case hcov =>
      rcases (show r.val / 256 = 7 from by omega) with h
      · exact ⟨_, (List.mem_cons_self), (mem3 1792 inb_S1x2048x1024_S1x256x1024_0_1792_0 0 r e).mpr (by omega)⟩
  · rw [if_neg hc]
    rw [Cert.LibCanonOver.read_writes_off arg5.view (harg5.unread xo) (LO i arg2 harg2 arg3 harg3 xq xk arg4 harg4 arg5 harg5 arg6 xv xo) (ix3 0 r e) ?_]
    · exact congrFun (harg5.read_unread xo) _
    · intro p hp
      simp only [LO, List.mem_cons, List.mem_nil_iff, or_false] at hp
      rcases hp with rfl
      · exact fun h => hc (by have := (mem3 1792 inb_S1x2048x1024_S1x256x1024_0_1792_0 0 r e).mp h; omega)

end Cert.KernelIdeal.Case7

end
-- ==== Proof.KIV.R1Value.lean ====
/-
  The attention region's output array is the blocked accumulation.

  For each value of the key-block index the body's effect on the output block is known (one statement per value); along
  a batch the output block therefore accumulates the key blocks' contributions in order, and what is written back after
  the last key block is the blocked form of the attention.
-/
import proofs.«157480_j6983616824221_2_alg».proof.Proof.KIV.Glue
import proofs.«157480_j6983616824221_2_alg».proof.Proof.KIV.Case0
import proofs.«157480_j6983616824221_2_alg».proof.Proof.KIV.Case1
import proofs.«157480_j6983616824221_2_alg».proof.Proof.KIV.Case2
import proofs.«157480_j6983616824221_2_alg».proof.Proof.KIV.Case3
import proofs.«157480_j6983616824221_2_alg».proof.Proof.KIV.Case4
import proofs.«157480_j6983616824221_2_alg».proof.Proof.KIV.Case5
import proofs.«157480_j6983616824221_2_alg».proof.Proof.KIV.Case6
import proofs.«157480_j6983616824221_2_alg».proof.Proof.KIV.Case7

noncomputable section

namespace Cert.Attn.R1V

open Cert.KernelIdeal Cert.KernelIdeal.R1 Idealize.ShloMosaic Idealize.ShloMosaic.TcCoe Idealize.ShloMosaic.ValueIdx Idealize.SL.Sem

theorem case1 : Cert.Attn.Glue.Gen1 :=
  fun c i arg2 harg2 arg3 harg3 arg4 harg4 arg5 harg5 arg6 harg6 hz ha0 ha1 ha2 ha3 ha4 ha5 ha6 ha7 xq xk xv xo hi u r e =>
    Cert.KernelIdeal.Case1.out_apply c i arg2 harg2 arg3 harg3 xq xk arg4 harg4 arg5 harg5 arg6 xv harg6 hz ha0 ha1 ha2 ha3 ha4 ha5 ha6 ha7 xo hi u r e
theorem case2 : Cert.Attn.Glue.Gen2 :=
  fun c i arg2 harg2 arg3 harg3 arg4 harg4 arg5 harg5 arg6 harg6 hz ha0 ha1 ha2 ha3 ha4 ha5 ha6 ha7 xq xk xv xo hi u r e =>
    Cert.KernelIdeal.Case2.out_apply c i arg2 harg2 arg3 harg3 xq xk arg4 harg4 arg5 harg5 arg6 xv harg6 hz ha0 ha1 ha2 ha3 ha4 ha5 ha6 ha7 xo hi u r e
theorem case3 : Cert.Attn.Glue.Gen3 :=
  fun c i arg2 harg2 arg3 harg3 arg4 harg4 arg5 harg5 arg6 harg6 hz ha0 ha1 ha2 ha3 ha4 ha5 ha6 ha7 xq xk xv xo hi u r e =>
    Cert.KernelIdeal.Case3.out_apply c i arg2 harg2 arg3 harg3 xq xk arg4 harg4 arg5 harg5 arg6 xv harg6 hz ha0 ha1 ha2 ha3 ha4 ha5 ha6 ha7 xo hi u r e
theorem case4 : Cert.Attn.Glue.Gen4 :=
  fun c i arg2 harg2 arg3 harg3 arg4 harg4 arg5 harg5 arg6 harg6 hz ha0 ha1 ha2 ha3 ha4 ha5 ha6 ha7 xq xk xv xo hi u r e =>
    Cert.KernelIdeal.Case4.out_apply c i arg2 harg2 arg3 harg3 xq xk arg4 harg4 arg5 harg5 arg6 xv harg6 hz ha0 ha1 ha2 ha3 ha4 ha5 ha6 ha7 xo hi u r e
theorem case5 : Cert.Attn.Glue.Gen5 :=
  fun c i arg2 harg2 arg3 harg3 arg4 harg4 arg5 harg5 arg6 harg6 hz ha0 ha1 ha2 ha3 ha4 ha5 ha6 ha7 xq xk xv xo hi u r e =>
    Cert.KernelIdeal.Case5.out_apply c i arg2 harg2 arg3 harg3 xq xk arg4 harg4 arg5 harg5 arg6 xv harg6 hz ha0 ha1 ha2 ha3 ha4 ha5 ha6 ha7 xo hi u r e
theorem case6 : Cert.Attn.Glue.Gen6 :=
  fun c i arg2 harg2 arg3 harg3 arg4 harg4 arg5 harg5 arg6 harg6 hz ha0 ha1 ha2 ha3 ha4 ha5 ha6 ha7 xq xk xv xo hi u r e =>
    Cert.KernelIdeal.Case6.out_apply c i arg2 harg2 arg3 harg3 xq xk arg4 harg4 arg5 harg5 arg6 xv harg6 hz ha0 ha1 ha2 ha3 ha4 ha5 ha6 ha7 xo hi u r e
theorem case7 : Cert.Attn.Glue.Gen7 :=
  fun c i arg2 harg2 arg3 harg3 arg4 harg4 arg5 harg5 arg6 harg6 hz ha0 ha1 ha2 ha3 ha4 ha5 ha6 ha7 xq xk xv xo hi u r e =>
    Cert.KernelIdeal.Case7.out_apply c i arg2 harg2 arg3 harg3 xq xk arg4 harg4 arg5 harg5 arg6 xv harg6 hz ha0 ha1 ha2 ha3 ha4 ha5 ha6 ha7 xo hi u r e

/-- After the attention region the output array holds the blocked accumulation of its three input arrays. -/
theorem R1_value (V : (c : Dev nD) → (b : Ref sig .tc) → Buf (Elt Ideal) ((c : Thread nD τ).loc b)) (c : Dev nD)
    (b : Fin 8) (i : Fin 2048) (e : Fin 1024) :
    (dat1 (F := Ideal) V c).arrAt 3 cfg1.N (ix3 b i e)
      = Cert.Attn.attnK (Cert.Attn.logitK (Cert.Attn.curry3 (V c main_v5)) (Cert.Attn.curry3 (V c main_v6))) (Cert.Attn.curry3 (V c main_v7)) b i e :=
  Cert.Attn.Glue.R1_of_cases Cert.KernelIdeal.Case0.case0 case1 case2 case3 case4 case5 case6 case7 V c b i e

end Cert.Attn.R1V

end
-- ==== Proof.KV.Pay.lean ====
/-
  The projection body's arithmetic at one element.

  The body rounds its 512 × 1024 input block to bf16 (the identity on the extended reals), multiplies it with a
  1024 × 1024 weight matrix into a zero accumulator and rounds again: element (r, e) of what it stores is
  ∑ d, x (r, d) · w (d, e).
-/
import proofs.«157480_j6983616824221_2_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.Attn.KV

open Cert.KernelIdeal Cert.KernelIdeal.Gen
open Idealize.ShloMosaic Idealize.ShloMosaic.TcCoe Idealize.ShloMosaic.ValueIdx

/-- The body's one dot: rows of the block against columns of the weight. -/
abbrev D0 : DotDims S512x1024 S1024x1024 S512x1024 := dot_S512x1024_S1024x1024_S512x1024_1_0_0_1_n_n

theorem lhs_D0_0 (i : S512x1024.Idx) (q : D0.contr.Idx) : (D0.lhsIdx i q 0).val = (i 0).val := by
  unfold DotDims.lhsIdx
  rw [dif_neg (show ¬(0 : Fin S512x1024.rank) ∈ D0.lhsBatch by decide), dif_pos (show (0 : Fin S512x1024.rank) ∈ D0.lhsNonContracting by decide)]
  rfl
theorem lhs_D0_1 (i : S512x1024.Idx) (q : D0.contr.Idx) : (D0.lhsIdx i q 1).val = (q ⟨0, by decide⟩).val :=
  D0.lhsIdx_val_of_single rfl i q
theorem rhs_D0_0 (i : S512x1024.Idx) (q : D0.contr.Idx) : (D0.rhsIdx i q 0).val = (q ⟨0, by decide⟩).val :=
  D0.rhsIdx_val_of_single rfl i q
theorem rhs_D0_1 (i : S512x1024.Idx) (q : D0.contr.Idx) : (D0.rhsIdx i q 1).val = (i 1).val := by
  unfold DotDims.rhsIdx
  rw [dif_neg (show ¬(1 : Fin S1024x1024.rank) ∈ D0.rhsBatch by decide), dif_pos (show (1 : Fin S1024x1024.rank) ∈ D0.rhsNonContracting by decide)]
  rfl

/-- The product into a zero accumulator, at an element: the sum over the shared axis. -/
theorem dot0_apply (a : FVec Ideal S512x1024 .bf16) (w : FVec Ideal S1024x1024 .bf16) (r : Fin 512) (e : Fin 1024) :
    FloatOps.matmul D0 none a w (constant (F := Ideal) S512x1024 .f32 0x00000000#32) (ix2 r e)
      = ∑ d : Fin 1024, a (ix2 r d) * w (ix2 d e) := by
  refine (Ideal.matmul_constant_zero_apply D0 none a w (ix2 r e)).trans ?_
  rw [← Equiv.sum_comp (contrEquiv1 D0 1024 rfl rfl).symm]
  refine Finset.sum_congr rfl fun k _ => ?_
  have hk := contrEquiv1_symm_val D0 1024 rfl rfl k
  have el : D0.lhsIdx (ix2 r e) ((contrEquiv1 D0 1024 rfl rfl).symm k) = ix2 r k := funext fun a => Fin.ext (by
    match a with
    | ⟨0, _⟩ => exact lhs_D0_0 _ _
    | ⟨1, _⟩ => exact (lhs_D0_1 _ _).trans hk)
  have er : D0.rhsIdx (ix2 r e) ((contrEquiv1 D0 1024 rfl rfl).symm k) = ix2 k e := funext fun a => Fin.ext (by
    match a with
    | ⟨0, _⟩ => exact (rhs_D0_0 _ _).trans hk
    | ⟨1, _⟩ => exact rhs_D0_1 _ _)
  rw [el, er]

/-- The three payloads are one function of the block and the weight. -/
theorem pay3_eq (x : Vec Ideal S512x1024 .f32) (w : Vec Ideal S1024x1024 .bf16) : k0_pay3 (F := Ideal) x w = k0_pay2 x w := rfl
theorem pay4_eq (x : Vec Ideal S512x1024 .f32) (w : Vec Ideal S1024x1024 .bf16) : k0_pay4 (F := Ideal) x w = k0_pay2 x w := rfl

/-- Element (r, e) of the stored block. -/
theorem pay2_apply (x : Vec Ideal S512x1024 .f32) (w : Vec Ideal S1024x1024 .bf16) (r : Fin 512) (e : Fin 1024) :
    k0_pay2 (F := Ideal) x w (ix2 r e) = ∑ d : Fin 1024, x (ix2 r d) * w (ix2 d e) := by
  have hx : shapeCast S512x1024 x shapeCasts_S512x1024_S512x1024 = x := shapeCast_self _ _
  have hw : shapeCast S1024x1024 w shapeCasts_S1024x1024_S1024x1024 = w := shapeCast_self _ _
  unfold k0_pay2 k0_pay1
  dsimp only
  rw [hx, hw]
  exact dot0_apply (truncf .bf16 x bitsLt_bf16_f32) w r e

end Cert.Attn.KV

end
-- ==== Proof.KV.Out.lean ====
/-
  What the projection body leaves in an output block, at one element.

  The body stores each output block whole, once, and loads its input block and the weight matrix whole: the block
  it leaves is the payload of the two loaded arrays, so its element (r, e) is ∑ d, x (r, d) · w (d, e).
-/
import proofs.«157480_j6983616824221_2_alg».proof.Proof.KI.R0Body
import proofs.«157480_j6983616824221_2_alg».proof.Proof.KV.Pay

set_option maxRecDepth 16384

noncomputable section

namespace Cert.Attn.KV

open Cert.KernelIdeal Cert.KernelIdeal.Gen
open Idealize.ShloMosaic Idealize.ShloMosaic.TcCoe Idealize.ShloMosaic.ValueIdx

theorem hz : (![0, 0] : Fin 2 → Nat) = fun _ => 0 := funext fun a => by fin_cases a <;> rfl

/-- The q block is the first payload of the loaded block and weight. -/
theorem outQ_eq (x : Vec Ideal S512x1024 .f32) (w : Vec Ideal S1024x1024 .bf16) : R0.outQ x w = k0_pay2 x w := by
  unfold R0.outQ
  rw [View.canon_unit_zero hz]
  simp only [View.ld_unit_zero (S := S512x1024) hz, View.ld_unit_zero (S := S1024x1024) hz]
theorem outK_eq (x : Vec Ideal S512x1024 .f32) (w : Vec Ideal S1024x1024 .bf16) : R0.outK x w = k0_pay2 x w := by
  unfold R0.outK
  rw [View.canon_unit_zero hz]
  simp only [View.ld_unit_zero (S := S512x1024) hz, View.ld_unit_zero (S := S1024x1024) hz]
  exact pay3_eq x w
theorem outV_eq (x : Vec Ideal S512x1024 .f32) (w : Vec Ideal S1024x1024 .bf16) : R0.outV x w = k0_pay2 x w := by
  unfold R0.outV
  rw [View.canon_unit_zero hz]
  simp only [View.ld_unit_zero (S := S512x1024) hz, View.ld_unit_zero (S := S1024x1024) hz]
  exact pay4_eq x w

/-- Element (r, e) of each output block. -/
theorem outQ_apply (x : Vec Ideal S512x1024 .f32) (w : Vec Ideal S1024x1024 .bf16) (r : Fin 512) (e : Fin 1024) :
    R0.outQ x w (ix2 r e) = ∑ d : Fin 1024, x (ix2 r d) * w (ix2 d e) := by
  rw [outQ_eq]; exact pay2_apply x w r e
theorem outK_apply (x : Vec Ideal S512x1024 .f32) (w : Vec Ideal S1024x1024 .bf16) (r : Fin 512) (e : Fin 1024) :
    R0.outK x w (ix2 r e) = ∑ d : Fin 1024, x (ix2 r d) * w (ix2 d e) := by
  rw [outK_eq]; exact pay2_apply x w r e
theorem outV_apply (x : Vec Ideal S512x1024 .f32) (w : Vec Ideal S1024x1024 .bf16) (r : Fin 512) (e : Fin 1024) :
    R0.outV x w (ix2 r e) = ∑ d : Fin 1024, x (ix2 r d) * w (ix2 d e) := by
  rw [outV_eq]; exact pay2_apply x w r e

end Cert.Attn.KV

end
-- ==== Proof.KV.Blocks.lean ====
/-
  The projection region, from blocks to arrays: the vocabulary.

  The flattened input has 16384 rows of 1024; a weight matrix is 1024 × 1024.  The flattened projection puts at
  (R, E) the sum over d of input (R, d) · weight (d, E).  At grid point t the input block and the three output
  blocks are rows 512·t … 512·t + 511 and the weights are whole, so element (r, e) of an output block is element
  (512·t + r, e) of the flattened projection.
-/
import proofs.«157480_j6983616824221_2_alg».proof.Proof.KI.R0Dat
import proofs.«157480_j6983616824221_2_alg».proof.Proof.KV.Out

set_option maxRecDepth 16384

noncomputable section

namespace Cert.Attn.KV

open Cert.KernelIdeal Cert.KernelIdeal.Gen
open Idealize.ShloMosaic Idealize.ShloMosaic.TcCoe Idealize.ShloMosaic.ValueIdx

open Cert.KernelIdeal.R0

/-- Row R of the flattened input against column E of a weight matrix. -/
def rowdot (a : S16384x1024.Idx → EReal) (w : S1024x1024.Idx → EReal) (R : Fin 16384) (E : Fin 1024) : EReal :=
  ∑ d : Fin 1024, a (ix2 R d) * w (ix2 d E)

/-- The flattened projection: every row against every column. -/
def Gp (a : S16384x1024.Idx → EReal) (w : S1024x1024.Idx → EReal) : S16384x1024.Idx → EReal :=
  fun i => rowdot a w (i 0) (i 1)

theorem Gp_apply (a : S16384x1024.Idx → EReal) (w : S1024x1024.Idx → EReal) (R : Fin 16384) (E : Fin 1024) :
    Gp a w (ix2 R E) = ∑ d : Fin 1024, a (ix2 R d) * w (ix2 d E) := rfl

/-- Where the blocks sit: at point t the input and the three outputs are at block row t, block column 0; the weights
    at block (0, 0). Decided over the 32 points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- A block's element as an element of the flattened projection, given where the block's rows and the weight's
    columns sit in their arrays. -/
theorem blockQ_apply (x : Vec Ideal S512x1024 .f32) (w : Vec Ideal S1024x1024 .bf16)
    (a : S16384x1024.Idx → EReal) (b : S1024x1024.Idx → EReal) (r : Fin 512) (e : Fin 1024) (R : Fin 16384) (E : Fin 1024)
    (hx : ∀ d : Fin 1024, x (ix2 r d) = a (ix2 R d)) (hw : ∀ d : Fin 1024, w (ix2 d e) = b (ix2 d E)) :
    R0.outQ x w (ix2 r e) = rowdot a b R E := by
  rw [outQ_apply]; unfold rowdot
  exact Finset.sum_congr rfl fun d _ => by rw [hx d, hw d]
theorem blockK_apply (x : Vec Ideal S512x1024 .f32) (w : Vec Ideal S1024x1024 .bf16)
    (a : S16384x1024.Idx → EReal) (b : S1024x1024.Idx → EReal) (r : Fin 512) (e : Fin 1024) (R : Fin 16384) (E : Fin 1024)
    (hx : ∀ d : Fin 1024, x (ix2 r d) = a (ix2 R d)) (hw : ∀ d : Fin 1024, w (ix2 d e) = b (ix2 d E)) :
    R0.outK x w (ix2 r e) = rowdot a b R E := by
  rw [outK_apply]; unfold rowdot
  exact Finset.sum_congr rfl fun d _ => by rw [hx d, hw d]
theorem blockV_apply (x : Vec Ideal S512x1024 .f32) (w : Vec Ideal S1024x1024 .bf16)
    (a : S16384x1024.Idx → EReal) (b : S1024x1024.Idx → EReal) (r : Fin 512) (e : Fin 1024) (R : Fin 16384) (E : Fin 1024)
    (hx : ∀ d : Fin 1024, x (ix2 r d) = a (ix2 R d)) (hw : ∀ d : Fin 1024, w (ix2 d e) = b (ix2 d E)) :
    R0.outV x w (ix2 r e) = rowdot a b R E := by
  rw [outV_apply]; unfold rowdot
  exact Finset.sum_congr rfl fun d _ => by rw [hx d, hw d]

end Cert.Attn.KV

end
-- ==== Proof.KV.ArrQ.lean ====
/-
  The projection region's q array after the region: the flattened projection of the flattened input and the
  q weight.

  Point t writes back rows 512·t … 512·t + 511, and those are that block of the flattened projection; the 32
  blocks cover the 16384 rows (row R lies in the block of point R / 512).
-/
import proofs.«157480_j6983616824221_2_alg».proof.Proof.KV.Blocks
import Idealize.ShloMosaic.Lib.Pipeline.Value

set_option maxRecDepth 16384

noncomputable section

namespace Cert.Attn.KV

open Cert.KernelIdeal Cert.KernelIdeal.Gen
open Idealize.ShloMosaic Idealize.ShloMosaic.TcCoe Idealize.ShloMosaic.ValueIdx

open Cert.KernelIdeal.R0
open Idealize.ShloMosaic.Pipeline (Dat)

-- the contents of the core's buffers when the region is entered
variable (V : (c : Dev nD) → (b : Ref sig .tc) → Buf (Elt Ideal) ((c : Thread nD τ).loc b))

/-- What point t writes back is block t of the flattened projection. -/
theorem flushed4_eq (c : Dev nD) (t : Fin cfg0.N) :
    (dat0 V c).flushed 4 t = ((cfg0.win 4).blk t).view.read (Elt Ideal) (Gp (V c main_v0) (V c main_v1)) := by
  show (cfg0.win 4).cut (grid0.coords t) ((dat0 V c).after 4 t) = _
  rw [after0_4]
  obtain ⟨e00, e01, e10, e11, e20, e21, e30, e31, e40, e41, e50, e51, e60, e61⟩ := idx_facts t
  funext j
  have hj0 : (j 0).val < 512 := (j 0).isLt
  have hj1 : (j 1).val < 1024 := (j 1).isLt
  have hj : (cfg0.win 4).xinj (grid0.coords t) j = ix2 (⟨(j 0).val, hj0⟩ : Fin 512) (⟨(j 1).val, hj1⟩ : Fin 1024) :=
    funext fun a => by match a with | ⟨0, _⟩ => rfl | ⟨1, _⟩ => rfl
  show R0.outQ (iblk0 V c 0 t) (iblk0 V c 1 t) ((cfg0.win 4).xinj (grid0.coords t) j)
    = rowdot (V c main_v0) (V c main_v1) ((((cfg0.win 4).blk t).view.emb j) 0) ((((cfg0.win 4).blk t).view.emb j) 1)
  refine (congrArg (R0.outQ (iblk0 V c 0 t) (iblk0 V c 1 t)) hj).trans ?_
  refine blockQ_apply (iblk0 V c 0 t) (iblk0 V c 1 t) (V c main_v0) (V c main_v1) ⟨(j 0).val, hj0⟩ ⟨(j 1).val, hj1⟩ _ _ (fun d => ?_) (fun d => ?_)
  · show V c main_v0 (((cfg0.win 0).blk t).view.emb (ix2 (⟨(j 0).val, hj0⟩ : Fin 512) d)) = V c main_v0 _
    refine congrArg (V c main_v0) (funext fun a => Fin.ext ?_)
    match a with
    | ⟨0, _⟩ => show win0_0.index t (0 : Fin 2) * 512 + 1 * (j 0).val = win0_4.index t (0 : Fin 2) * 512 + 1 * (j 0).val; omega
    | ⟨1, _⟩ => show win0_0.index t (1 : Fin 2) * 1024 + 1 * d.val = d.val; omega
  · show V c main_v1 (((cfg0.win 1).blk t).view.emb (ix2 d (⟨(j 1).val, hj1⟩ : Fin 1024))) = V c main_v1 _
    refine congrArg (V c main_v1) (funext fun a => Fin.ext ?_)
    match a with
    | ⟨0, _⟩ => show win0_1.index t (0 : Fin 2) * 1024 + 1 * d.val = d.val; omega
    | ⟨1, _⟩ => show win0_1.index t (1 : Fin 2) * 1024 + 1 * (j 1).val = win0_4.index t (1 : Fin 2) * 1024 + 1 * (j 1).val; omega

/-- An index of the array is in point t's block iff each coordinate is in the block's range on its axis. -/
theorem mem_blk4 (t : Fin cfg0.N) (i : S16384x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v4_0).slice (win0_4.rect t)).set ↔ _
  rw [View.set_slice_whole, Rect.mem_set_unit]
  exact Iff.rfl

/-- Every index of the array is in the block of the point its row falls to. -/
theorem cover4 (i : S16384x1024.Idx) : ∃ t : Fin cfg0.N, (cfg0.win 4).flush t = true ∧ i ∈ ((cfg0.win 4).blk t).view.set := by
  have hi0 : (i 0).val < 16384 := (i 0).isLt
  have hi1 : (i 1).val < 1024 := (i 1).isLt
  have hN : cfg0.N = 32 := N_0
  obtain ⟨t, ht⟩ : ∃ t : Fin cfg0.N, t.val = (i 0).val / 512 := ⟨⟨(i 0).val / 512, by rw [hN]; omega⟩, rfl⟩
  obtain ⟨e00, e01, e10, e11, e20, e21, e30, e31, e40, e41, e50, e51, e60, e61⟩ := idx_facts t
  refine ⟨t, flush0_4 t, ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- The array after the region. -/
theorem final4 (c : Dev nD) : (dat0 V c).arrAt 4 cfg0.N = Gp (V c main_v0) (V c main_v1) :=
  (dat0 V c).arrAt_eq_of_cover 4 (Gp (V c main_v0) (V c main_v1)) (fun t _ => flushed4_eq V c t) cover4

end Cert.Attn.KV

end
-- ==== Proof.KV.ArrK.lean ====
/-
  The projection region's k array after the region: the flattened projection of the flattened input and the
  k weight.

  Point t writes back rows 512·t … 512·t + 511, and those are that block of the flattened projection; the 32
  blocks cover the 16384 rows (row R lies in the block of point R / 512).
-/
import proofs.«157480_j6983616824221_2_alg».proof.Proof.KV.Blocks
import Idealize.ShloMosaic.Lib.Pipeline.Value

set_option maxRecDepth 16384

noncomputable section

namespace Cert.Attn.KV

open Cert.KernelIdeal Cert.KernelIdeal.Gen
open Idealize.ShloMosaic Idealize.ShloMosaic.TcCoe Idealize.ShloMosaic.ValueIdx

open Cert.KernelIdeal.R0
open Idealize.ShloMosaic.Pipeline (Dat)

-- the contents of the core's buffers when the region is entered
variable (V : (c : Dev nD) → (b : Ref sig .tc) → Buf (Elt Ideal) ((c : Thread nD τ).loc b))

/-- What point t writes back is block t of the flattened projection. -/
theorem flushed5_eq (c : Dev nD) (t : Fin cfg0.N) :
    (dat0 V c).flushed 5 t = ((cfg0.win 5).blk t).view.read (Elt Ideal) (Gp (V c main_v0) (V c main_v2)) := by
  show (cfg0.win 5).cut (grid0.coords t) ((dat0 V c).after 5 t) = _
  rw [after0_5]
  obtain ⟨e00, e01, e10, e11, e20, e21, e30, e31, e40, e41, e50, e51, e60, e61⟩ := idx_facts t
  funext j
  have hj0 : (j 0).val < 512 := (j 0).isLt
  have hj1 : (j 1).val < 1024 := (j 1).isLt
  have hj : (cfg0.win 5).xinj (grid0.coords t) j = ix2 (⟨(j 0).val, hj0⟩ : Fin 512) (⟨(j 1).val, hj1⟩ : Fin 1024) :=
    funext fun a => by match a with | ⟨0, _⟩ => rfl | ⟨1, _⟩ => rfl
  show R0.outK (iblk0 V c 0 t) (iblk0 V c 2 t) ((cfg0.win 5).xinj (grid0.coords t) j)
    = rowdot (V c main_v0) (V c main_v2) ((((cfg0.win 5).blk t).view.emb j) 0) ((((cfg0.win 5).blk t).view.emb j) 1)
  refine (congrArg (R0.outK (iblk0 V c 0 t) (iblk0 V c 2 t)) hj).trans ?_
  refine blockK_apply (iblk0 V c 0 t) (iblk0 V c 2 t) (V c main_v0) (V c main_v2) ⟨(j 0).val, hj0⟩ ⟨(j 1).val, hj1⟩ _ _ (fun d => ?_) (fun d => ?_)
  · show V c main_v0 (((cfg0.win 0).blk t).view.emb (ix2 (⟨(j 0).val, hj0⟩ : Fin 512) d)) = V c main_v0 _
    refine congrArg (V c main_v0) (funext fun a => Fin.ext ?_)
    match a with
    | ⟨0, _⟩ => show win0_0.index t (0 : Fin 2) * 512 + 1 * (j 0).val = win0_5.index t (0 : Fin 2) * 512 + 1 * (j 0).val; omega
    | ⟨1, _⟩ => show win0_0.index t (1 : Fin 2) * 1024 + 1 * d.val = d.val; omega
  · show V c main_v2 (((cfg0.win 2).blk t).view.emb (ix2 d (⟨(j 1).val, hj1⟩ : Fin 1024))) = V c main_v2 _
    refine congrArg (V c main_v2) (funext fun a => Fin.ext ?_)
    match a with
    | ⟨0, _⟩ => show win0_2.index t (0 : Fin 2) * 1024 + 1 * d.val = d.val; omega
    | ⟨1, _⟩ => show win0_2.index t (1 : Fin 2) * 1024 + 1 * (j 1).val = win0_5.index t (1 : Fin 2) * 1024 + 1 * (j 1).val; omega

/-- An index of the array is in point t's block iff each coordinate is in the block's range on its axis. -/
theorem mem_blk5 (t : Fin cfg0.N) (i : S16384x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v4_1).slice (win0_5.rect t)).set ↔ _
  rw [View.set_slice_whole, Rect.mem_set_unit]
  exact Iff.rfl

/-- Every index of the array is in the block of the point its row falls to. -/
theorem cover5 (i : S16384x1024.Idx) : ∃ t : Fin cfg0.N, (cfg0.win 5).flush t = true ∧ i ∈ ((cfg0.win 5).blk t).view.set := by
  have hi0 : (i 0).val < 16384 := (i 0).isLt
  have hi1 : (i 1).val < 1024 := (i 1).isLt
  have hN : cfg0.N = 32 := N_0
  obtain ⟨t, ht⟩ : ∃ t : Fin cfg0.N, t.val = (i 0).val / 512 := ⟨⟨(i 0).val / 512, by rw [hN]; omega⟩, rfl⟩
  obtain ⟨e00, e01, e10, e11, e20, e21, e30, e31, e40, e41, e50, e51, e60, e61⟩ := idx_facts t
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- The array after the region. -/
theorem final5 (c : Dev nD) : (dat0 V c).arrAt 5 cfg0.N = Gp (V c main_v0) (V c main_v2) :=
  (dat0 V c).arrAt_eq_of_cover 5 (Gp (V c main_v0) (V c main_v2)) (fun t _ => flushed5_eq V c t) cover5

end Cert.Attn.KV

end
-- ==== Proof.KV.ArrV.lean ====
/-
  The projection region's v array after the region: the flattened projection of the flattened input and the
  v weight.

  Point t writes back rows 512·t … 512·t + 511, and those are that block of the flattened projection; the 32
  blocks cover the 16384 rows (row R lies in the block of point R / 512).
-/
import proofs.«157480_j6983616824221_2_alg».proof.Proof.KV.Blocks
import Idealize.ShloMosaic.Lib.Pipeline.Value

set_option maxRecDepth 16384

noncomputable section

namespace Cert.Attn.KV

open Cert.KernelIdeal Cert.KernelIdeal.Gen
open Idealize.ShloMosaic Idealize.ShloMosaic.TcCoe Idealize.ShloMosaic.ValueIdx

open Cert.KernelIdeal.R0
open Idealize.ShloMosaic.Pipeline (Dat)

-- the contents of the core's buffers when the region is entered
variable (V : (c : Dev nD) → (b : Ref sig .tc) → Buf (Elt Ideal) ((c : Thread nD τ).loc b))

/-- What point t writes back is block t of the flattened projection. -/
theorem flushed6_eq (c : Dev nD) (t : Fin cfg0.N) :
    (dat0 V c).flushed 6 t = ((cfg0.win 6).blk t).view.read (Elt Ideal) (Gp (V c main_v0) (V c main_v3)) := by
  show (cfg0.win 6).cut (grid0.coords t) ((dat0 V c).after 6 t) = _
  rw [after0_6]
  obtain ⟨e00, e01, e10, e11, e20, e21, e30, e31, e40, e41, e50, e51, e60, e61⟩ := idx_facts t
  funext j
  have hj0 : (j 0).val < 512 := (j 0).isLt
  have hj1 : (j 1).val < 1024 := (j 1).isLt
  have hj : (cfg0.win 6).xinj (grid0.coords t) j = ix2 (⟨(j 0).val, hj0⟩ : Fin 512) (⟨(j 1).val, hj1⟩ : Fin 1024) :=
    funext fun a => by match a with | ⟨0, _⟩ => rfl | ⟨1, _⟩ => rfl
  show R0.outV (iblk0 V c 0 t) (iblk0 V c 3 t) ((cfg0.win 6).xinj (grid0.coords t) j)
    = rowdot (V c main_v0) (V c main_v3) ((((cfg0.win 6).blk t).view.emb j) 0) ((((cfg0.win 6).blk t).view.emb j) 1)
  refine (congrArg (R0.outV (iblk0 V c 0 t) (iblk0 V c 3 t)) hj).trans ?_
  refine blockV_apply (iblk0 V c 0 t) (iblk0 V c 3 t) (V c main_v0) (V c main_v3) ⟨(j 0).val, hj0⟩ ⟨(j 1).val, hj1⟩ _ _ (fun d => ?_) (fun d => ?_)
  · show V c main_v0 (((cfg0.win 0).blk t).view.emb (ix2 (⟨(j 0).val, hj0⟩ : Fin 512) d)) = V c main_v0 _
    refine congrArg (V c main_v0) (funext fun a => Fin.ext ?_)
    match a with
    | ⟨0, _⟩ => show win0_0.index t (0 : Fin 2) * 512 + 1 * (j 0).val = win0_6.index t (0 : Fin 2) * 512 + 1 * (j 0).val; omega
    | ⟨1, _⟩ => show win0_0.index t (1 : Fin 2) * 1024 + 1 * d.val = d.val; omega
  · show V c main_v3 (((cfg0.win 3).blk t).view.emb (ix2 d (⟨(j 1).val, hj1⟩ : Fin 1024))) = V c main_v3 _
    refine congrArg (V c main_v3) (funext fun a => Fin.ext ?_)
    match a with
    | ⟨0, _⟩ => show win0_3.index t (0 : Fin 2) * 1024 + 1 * d.val = d.val; omega
    | ⟨1, _⟩ => show win0_3.index t (1 : Fin 2) * 1024 + 1 * (j 1).val = win0_6.index t (1 : Fin 2) * 1024 + 1 * (j 1).val; omega

/-- An index of the array is in point t's block iff each coordinate is in the block's range on its axis. -/
theorem mem_blk6 (t : Fin cfg0.N) (i : S16384x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v4_2).slice (win0_6.rect t)).set ↔ _
  rw [View.set_slice_whole, Rect.mem_set_unit]
  exact Iff.rfl

/-- Every index of the array is in the block of the point its row falls to. -/
theorem cover6 (i : S16384x1024.Idx) : ∃ t : Fin cfg0.N, (cfg0.win 6).flush t = true ∧ i ∈ ((cfg0.win 6).blk t).view.set := by
  have hi0 : (i 0).val < 16384 := (i 0).isLt
  have hi1 : (i 1).val < 1024 := (i 1).isLt
  have hN : cfg0.N = 32 := N_0
  obtain ⟨t, ht⟩ : ∃ t : Fin cfg0.N, t.val = (i 0).val / 512 := ⟨⟨(i 0).val / 512, by rw [hN]; omega⟩, rfl⟩
  obtain ⟨e00, e01, e10, e11, e20, e21, e30, e31, e40, e41, e50, e51, e60, e61⟩ := idx_facts t
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

/-- The array after the region. -/
theorem final6 (c : Dev nD) : (dat0 V c).arrAt 6 cfg0.N = Gp (V c main_v0) (V c main_v3) :=
  (dat0 V c).arrAt_eq_of_cover 6 (Gp (V c main_v0) (V c main_v3)) (fun t _ => flushed6_eq V c t) cover6

end Cert.Attn.KV

end
-- ==== Proof.KV.Host.lean ====
/-
  The host operations around the projection region.

  Before the region: the first argument is reshaped from 8 × 2048 × 1024 to 16384 × 1024, and each weight is rounded
  to bf16, which is the identity on the extended reals.  After it: each of the three 16384 × 1024 results is
  reshaped to 8 × 2048 × 1024.
-/
import proofs.«157480_j6983616824221_2_alg».proof.Proof.KI.Run
import Idealize.ShloMosaic.Lib.StableHlo.Run
import Idealize.ShloMosaic.Lib.ValueIdx
import Idealize.ShloMosaic.Lib.Pipeline.Value

set_option maxRecDepth 16384

noncomputable section

namespace Cert.Attn.KV

open Cert.KernelIdeal Cert.KernelIdeal.Gen
open Idealize.ShloMosaic Idealize.ShloMosaic.TcCoe Idealize.ShloMosaic.ValueIdx

open Cert.KernelIdeal.R0 Cert.KernelIdeal.Run
open Idealize.ShloMosaic.StableHlo

variable (m : (ℓ : Loc nD τ sig) → Buf (Elt Ideal) ℓ) (ρ : Dev nD → PrngReg)

/-- The projection finds the flattened input at the reshape of the first argument, -/
theorem V1_v0 (c : Dev nD) : (Run.V1 m ρ c main_v0 : S16384x1024.Idx → EReal)
    = shapeCast S16384x1024 (m ((c.tc : Thread nD τ).loc main_arg0) : S8x2048x1024.Idx → EReal) shapeCasts_S8x2048x1024_S16384x1024 := by
  dsimp only [Run.V1, Run.W1, Gen.hostOps0]
  after_results
  rfl

/-- and each weight at the argument itself: the rounding to bf16 is the identity on the extended reals. -/
theorem V1_v1 (c : Dev nD) : (Run.V1 m ρ c main_v1 : S1024x1024.Idx → EReal) = (m ((c.tc : Thread nD τ).loc main_arg1) : S1024x1024.Idx → EReal) := by
  dsimp only [Run.V1, Run.W1, Gen.hostOps0]
  after_results
  rfl
theorem V1_v2 (c : Dev nD) : (Run.V1 m ρ c main_v2 : S1024x1024.Idx → EReal) = (m ((c.tc : Thread nD τ).loc main_arg2) : S1024x1024.Idx → EReal) := by
  dsimp only [Run.V1, Run.W1, Gen.hostOps0]
  after_results
  rfl
theorem V1_v3 (c : Dev nD) : (Run.V1 m ρ c main_v3 : S1024x1024.Idx → EReal) = (m ((c.tc : Thread nD τ).loc main_arg3) : S1024x1024.Idx → EReal) := by
  dsimp only [Run.V1, Run.W1, Gen.hostOps0]
  after_results
  rfl

/-- The attention region finds q, k, v at the reshapes of what the projection's write-backs left. -/
theorem V3_v5 (c : Dev nD) : (Run.V3 m ρ c main_v5 : S8x2048x1024.Idx → EReal)
    = shapeCast S8x2048x1024 ((dat0 (Run.V1 m ρ) c).arrAt 4 cfg0.N : S16384x1024.Idx → EReal) shapeCasts_S16384x1024_S8x2048x1024 := by
  rw [← Run.W2_arr m ρ c 4]
  dsimp only [Run.V3, Run.W3, Gen.hostOps1]
  after_results
  rfl
theorem V3_v6 (c : Dev nD) : (Run.V3 m ρ c main_v6 : S8x2048x1024.Idx → EReal)
    = shapeCast S8x2048x1024 ((dat0 (Run.V1 m ρ) c).arrAt 5 cfg0.N : S16384x1024.Idx → EReal) shapeCasts_S16384x1024_S8x2048x1024 := by
  rw [← Run.W2_arr m ρ c 5]
  dsimp only [Run.V3, Run.W3, Gen.hostOps1]
  after_results
  rfl
theorem V3_v7 (c : Dev nD) : (Run.V3 m ρ c main_v7 : S8x2048x1024.Idx → EReal)
    = shapeCast S8x2048x1024 ((dat0 (Run.V1 m ρ) c).arrAt 6 cfg0.N : S16384x1024.Idx → EReal) shapeCasts_S16384x1024_S8x2048x1024 := by
  rw [← Run.W2_arr m ρ c 6]
  dsimp only [Run.V3, Run.W3, Gen.hostOps1]
  after_results
  rfl

/-- Row i of batch b is row 2048·b + i of the flattened array, and back. -/
theorem flat_row (b : Fin 8) (i : Fin 2048) : 2048 * b.val + i.val < 16384 := by
  have := b.isLt; have := i.isLt; omega

theorem flatten_apply (x : S8x2048x1024.Idx → EReal) (b : Fin 8) (i : Fin 2048) (d : Fin 1024) :
    shapeCast S16384x1024 x shapeCasts_S8x2048x1024_S16384x1024 (ix2 (⟨2048 * b.val + i.val, flat_row b i⟩ : Fin 16384) d) = x (ix3 b i d) := by
  refine shapeCast_apply x _ _ (ix3 b i d) ?_
  rw [Shape.rowMajor_val_three, Shape.rowMajor_val_two]
  show (b.val * 2048 + i.val) * 1024 + d.val = (2048 * b.val + i.val) * 1024 + d.val
  omega

theorem unflatten_apply (y : S16384x1024.Idx → EReal) (b : Fin 8) (i : Fin 2048) (e : Fin 1024) :
    shapeCast S8x2048x1024 y shapeCasts_S16384x1024_S8x2048x1024 (ix3 b i e) = y (ix2 (⟨2048 * b.val + i.val, flat_row b i⟩ : Fin 16384) e) := by
  refine shapeCast_apply y _ _ (ix2 (⟨2048 * b.val + i.val, flat_row b i⟩ : Fin 16384) e) ?_
  rw [Shape.rowMajor_val_three, Shape.rowMajor_val_two]
  show (2048 * b.val + i.val) * 1024 + e.val = (b.val * 2048 + i.val) * 1024 + e.val
  omega

end Cert.Attn.KV

end
-- ==== Proof.KV.Final.lean ====
/-
  The attention region's three input arrays are the projections of the arguments.

  The region finds q at the reshape of the projection region's q array; that array is the flattened projection of
  what the projection region found, which is the flattened first argument and the second argument; row 2048·b + i
  of the flattened arrays is row i of batch b.  So q (b, i, e) = ∑ d, x (b, i, d) · wq (d, e), and k, v likewise.
-/
import proofs.«157480_j6983616824221_2_alg».proof.Proof.Spec
import proofs.«157480_j6983616824221_2_alg».proof.Proof.KV.ArrQ
import proofs.«157480_j6983616824221_2_alg».proof.Proof.KV.ArrK
import proofs.«157480_j6983616824221_2_alg».proof.Proof.KV.ArrV
import proofs.«157480_j6983616824221_2_alg».proof.Proof.KV.Host

set_option maxRecDepth 16384

noncomputable section

namespace Cert.Attn.KV

open Cert.KernelIdeal Cert.KernelIdeal.Gen
open Idealize.ShloMosaic Idealize.ShloMosaic.TcCoe Idealize.ShloMosaic.ValueIdx

open Cert.KernelIdeal.R0 Cert.KernelIdeal.Run

variable (m : (ℓ : Loc nD τ sig) → Buf (Elt Ideal) ℓ) (ρ : Dev nD → PrngReg)

theorem V3_q (c : Dev nD) (b : Fin 8) (i : Fin 2048) (e : Fin 1024) :
    Run.V3 (F := Ideal) m ρ c main_v5 (ix3 b i e)
      = proj (curry3 (m ((c.tc : Thread nD τ).loc main_arg0))) (curry2 (m ((c.tc : Thread nD τ).loc main_arg1))) b i e := by
  refine (congrFun (V3_v5 m ρ c) (ix3 b i e)).trans ?_
  rw [final4 (Run.V1 m ρ) c]
  refine (unflatten_apply _ b i e).trans ?_
  refine (Gp_apply _ _ _ e).trans ?_
  show _ = ∑ d : Fin 1024, curry3 (m ((c.tc : Thread nD τ).loc main_arg0)) b i d * curry2 (m ((c.tc : Thread nD τ).loc main_arg1)) d e
  refine Finset.sum_congr rfl fun d _ => ?_
  rw [V1_v0 m ρ c, V1_v1 m ρ c, flatten_apply]

theorem V3_k (c : Dev nD) (b : Fin 8) (i : Fin 2048) (e : Fin 1024) :
    Run.V3 (F := Ideal) m ρ c main_v6 (ix3 b i e)
      = proj (curry3 (m ((c.tc : Thread nD τ).loc main_arg0))) (curry2 (m ((c.tc : Thread nD τ).loc main_arg2))) b i e := by
  refine (congrFun (V3_v6 m ρ c) (ix3 b i e)).trans ?_
  rw [final5 (Run.V1 m ρ) c]
  refine (unflatten_apply _ b i e).trans ?_
  refine (Gp_apply _ _ _ e).trans ?_
  show _ = ∑ d : Fin 1024, curry3 (m ((c.tc : Thread nD τ).loc main_arg0)) b i d * curry2 (m ((c.tc : Thread nD τ).loc main_arg2)) d e
  refine Finset.sum_congr rfl fun d _ => ?_
  rw [V1_v0 m ρ c, V1_v2 m ρ c, flatten_apply]

theorem V3_v (c : Dev nD) (b : Fin 8) (i : Fin 2048) (e : Fin 1024) :
    Run.V3 (F := Ideal) m ρ c main_v7 (ix3 b i e)
      = proj (curry3 (m ((c.tc : Thread nD τ).loc main_arg0))) (curry2 (m ((c.tc : Thread nD τ).loc main_arg3))) b i e := by
  refine (congrFun (V3_v7 m ρ c) (ix3 b i e)).trans ?_
  rw [final6 (Run.V1 m ρ) c]
  refine (unflatten_apply _ b i e).trans ?_
  refine (Gp_apply _ _ _ e).trans ?_
  show _ = ∑ d : Fin 1024, curry3 (m ((c.tc : Thread nD τ).loc main_arg0)) b i d * curry2 (m ((c.tc : Thread nD τ).loc main_arg3)) d e
  refine Finset.sum_congr rfl fun d _ => ?_
  rw [V1_v0 m ρ c, V1_v3 m ρ c, flatten_apply]

end Cert.Attn.KV

end
-- ==== Proof.Ref.Idx.lean ====
import proofs.«157480_j6983616824221_2_alg».proof.Proof.Spec
import proofs.«157480_j6983616824221_2_alg».proof.Proof.Gen.ReferenceIdeal.Read

noncomputable section

namespace Cert.Attn.Ref

open Cert.ReferenceIdeal Cert.ReferenceIdeal.Read Idealize.ShloMosaic Idealize.ShloMosaic.ValueIdx Idealize.ShloMosaic.TcCoe Idealize.SL.Sem

/-! Index arithmetic: each operand index of the reference, at an index given by its coordinates, is the index with
    the expected coordinates. -/

theorem lidx_v0 (b : Fin 8) (s : Fin 2048) (e k : Fin 1024) : lidx_main_v0 (ix3 b s e) k = ix3 b s k := by
  funext a; match a with | ⟨0, _⟩ => rfl | ⟨1, _⟩ => rfl | ⟨2, _⟩ => rfl
theorem ridx_v0 (b : Fin 8) (s : Fin 2048) (e k : Fin 1024) : ridx_main_v0 (ix3 b s e) k = ix2 k e := by
  funext a; match a with | ⟨0, _⟩ => rfl | ⟨1, _⟩ => rfl
theorem lidx_v1 (b : Fin 8) (s : Fin 2048) (e k : Fin 1024) : lidx_main_v1 (ix3 b s e) k = ix3 b s k := by
  funext a; match a with | ⟨0, _⟩ => rfl | ⟨1, _⟩ => rfl | ⟨2, _⟩ => rfl
theorem ridx_v1 (b : Fin 8) (s : Fin 2048) (e k : Fin 1024) : ridx_main_v1 (ix3 b s e) k = ix2 k e := by
  funext a; match a with | ⟨0, _⟩ => rfl | ⟨1, _⟩ => rfl
theorem lidx_v2 (b : Fin 8) (s : Fin 2048) (e k : Fin 1024) : lidx_main_v2 (ix3 b s e) k = ix3 b s k := by
  funext a; match a with | ⟨0, _⟩ => rfl | ⟨1, _⟩ => rfl | ⟨2, _⟩ => rfl
theorem ridx_v2 (b : Fin 8) (s : Fin 2048) (e k : Fin 1024) : ridx_main_v2 (ix3 b s e) k = ix2 k e := by
  funext a; match a with | ⟨0, _⟩ => rfl | ⟨1, _⟩ => rfl

theorem lidx_v3 (b : Fin 8) (i j : Fin 2048) (k : Fin 1024) : lidx_main_v3 (ix3 b i j) k = ix3 b i k := by
  funext a; match a with | ⟨0, _⟩ => rfl | ⟨1, _⟩ => rfl | ⟨2, _⟩ => rfl
theorem ridx_v3 (b : Fin 8) (i j : Fin 2048) (k : Fin 1024) : ridx_main_v3 (ix3 b i j) k = ix3 b j k := by
  funext a; match a with | ⟨0, _⟩ => rfl | ⟨1, _⟩ => rfl | ⟨2, _⟩ => rfl

theorem idx_call1_v1 (b : Fin 8) (i j : Fin 2048) : idx_main_call1_v1 (ix3 b i j) = ix3 (0 : Fin 1) i j := by
  funext a; match a with | ⟨0, _⟩ => rfl | ⟨1, _⟩ => rfl | ⟨2, _⟩ => rfl
theorem idx_v6 (z : Fin 1) (i j : Fin 2048) : idx_main_v6 (ix3 z i j) = ix2 i j := by
  funext a; match a with | ⟨0, _⟩ => rfl | ⟨1, _⟩ => rfl

theorem idx_v15 (b : Fin 8) (i j : Fin 2048) : idx_main_v15 (ix3 b i j) = ix3 b (0 : Fin 1) j := by
  funext a; match a with | ⟨0, _⟩ => rfl | ⟨1, _⟩ => rfl | ⟨2, _⟩ => rfl
theorem idx_v14 (b : Fin 8) (z : Fin 1) (j : Fin 2048) : idx_main_v14 (ix3 b z j) = ix2 b j := by
  funext a; match a with | ⟨0, _⟩ => rfl | ⟨1, _⟩ => rfl
theorem idx_v20 (b : Fin 8) (i j : Fin 2048) : idx_main_v20 (ix3 b i j) = ix3 b (0 : Fin 1) j := by
  funext a; match a with | ⟨0, _⟩ => rfl | ⟨1, _⟩ => rfl | ⟨2, _⟩ => rfl
theorem idx_v19 (b : Fin 8) (z : Fin 1) (j : Fin 2048) : idx_main_v19 (ix3 b z j) = ix2 b j := by
  funext a; match a with | ⟨0, _⟩ => rfl | ⟨1, _⟩ => rfl
theorem idx_v18 (b : Fin 8) (j k : Fin 2048) : idx_main_v18 (ix2 b j) k = ix3 b k j := by
  funext a; match a with | ⟨0, _⟩ => rfl | ⟨1, _⟩ => rfl | ⟨2, _⟩ => rfl

theorem lidx_v22 (b : Fin 8) (i : Fin 2048) (e : Fin 1024) (k : Fin 2048) : lidx_main_v22 (ix3 b i e) k = ix3 b i k := by
  funext a; match a with | ⟨0, _⟩ => rfl | ⟨1, _⟩ => rfl | ⟨2, _⟩ => rfl
theorem ridx_v22 (b : Fin 8) (i : Fin 2048) (e : Fin 1024) (k : Fin 2048) : ridx_main_v22 (ix3 b i e) k = ix3 b k e := by
  funext a; match a with | ⟨0, _⟩ => rfl | ⟨1, _⟩ => rfl | ⟨2, _⟩ => rfl

/-- The index over the result index (b, j) of the reduction along axis 1 whose coordinate on that axis is k. -/
theorem lift_d1 (h : Shape.Reduces S8x2048x2048 [1] S8x2048) (b : Fin 8) (j k : Fin 2048) :
    h.lift (ix2 b j) k = ix3 b k j := by
  funext a; refine Fin.ext ?_
  match a with | ⟨0, _⟩ => rfl | ⟨1, _⟩ => rfl | ⟨2, _⟩ => rfl

end Cert.Attn.Ref

end
-- ==== Proof.Ref.Proj.lean ====
import proofs.«157480_j6983616824221_2_alg».proof.Proof.Spec
import proofs.«157480_j6983616824221_2_alg».proof.Proof.Gen.ReferenceIdeal.Read
import proofs.«157480_j6983616824221_2_alg».proof.Proof.Ref.Idx

noncomputable section

namespace Cert.Attn.Ref

open Cert.ReferenceIdeal Cert.ReferenceIdeal.Read Idealize.ShloMosaic Idealize.ShloMosaic.ValueIdx Idealize.ShloMosaic.TcCoe Idealize.SL.Sem

/-! The three projections and the scores: each contraction of the reference, read at an index given by its
    coordinates, is the sum the specification names. -/

/-- q(b, s, e) = ∑ d, x(b, s, d) · wq(d, e). -/
theorem q_apply (x : FVec Ideal S8x2048x1024 .f32) (w : FVec Ideal S1024x1024 .f32) (b : Fin 8) (s : Fin 2048) (e : Fin 1024) :
    val_main_v0 (F := Ideal) x w (ix3 b s e) = proj (curry3 x) (curry2 w) b s e := by
  rw [val_main_v0_apply]
  unfold proj
  refine Finset.sum_congr rfl fun k _ => ?_
  rw [lidx_v0, ridx_v0]

/-- k(b, s, e) = ∑ d, x(b, s, d) · wk(d, e). -/
theorem k_apply (x : FVec Ideal S8x2048x1024 .f32) (w : FVec Ideal S1024x1024 .f32) (b : Fin 8) (s : Fin 2048) (e : Fin 1024) :
    val_main_v1 (F := Ideal) x w (ix3 b s e) = proj (curry3 x) (curry2 w) b s e := by
  rw [val_main_v1_apply]
  unfold proj
  refine Finset.sum_congr rfl fun k _ => ?_
  rw [lidx_v1, ridx_v1]

/-- v(b, s, e) = ∑ d, x(b, s, d) · wv(d, e). -/
theorem v_apply (x : FVec Ideal S8x2048x1024 .f32) (w : FVec Ideal S1024x1024 .f32) (b : Fin 8) (s : Fin 2048) (e : Fin 1024) :
    val_main_v2 (F := Ideal) x w (ix3 b s e) = proj (curry3 x) (curry2 w) b s e := by
  rw [val_main_v2_apply]
  unfold proj
  refine Finset.sum_congr rfl fun k _ => ?_
  rw [lidx_v2, ridx_v2]

/-- scores(b, i, j) = ∑ e, q(b, i, e) · k(b, j, e). -/
theorem score_apply (x : FVec Ideal S8x2048x1024 .f32) (wq wk : FVec Ideal S1024x1024 .f32) (b : Fin 8) (i j : Fin 2048) :
    val_main_v3 (F := Ideal) x wq wk (ix3 b i j)
      = score (proj (curry3 x) (curry2 wq)) (proj (curry3 x) (curry2 wk)) b i j := by
  rw [val_main_v3_apply]
  unfold score
  refine Finset.sum_congr rfl fun k _ => ?_
  rw [lidx_v3, ridx_v3, q_apply, k_apply]

end Cert.Attn.Ref

end
-- ==== Proof.Ref.Mask.lean ====
import proofs.«157480_j6983616824221_2_alg».proof.Proof.Spec
import proofs.«157480_j6983616824221_2_alg».proof.Proof.Gen.ReferenceIdeal.Read
import proofs.«157480_j6983616824221_2_alg».proof.Proof.Ref.Idx

noncomputable section

namespace Cert.Attn.Ref

open Cert.ReferenceIdeal Cert.ReferenceIdeal.Read Idealize.ShloMosaic Idealize.ShloMosaic.ValueIdx Idealize.ShloMosaic.TcCoe Idealize.SL.Sem

/-! The causal mask: the reference's one-bit array, read at (b, i, j), is 1 exactly above the diagonal. -/

/-- Row index plus zero against column index, signed, on coordinates below 2048: the bit is 1 exactly when j ≤ i. -/
theorem cmp_bit (i j : Fin 2048) :
    IntOp.cmpi .sge (IntOp.addi (BitVec.ofNat 32 i.val) 0#32) (BitVec.ofNat 32 j.val) = 1#1 ↔ j.val ≤ i.val := by
  rw [IntOp.cmpi_sge]
  have hi := i.isLt; have hj := j.isLt
  simp only [IntOp.addi, BitVec.add_zero, BitVec.toInt_ofNat']
  rw [Int.bmod_eq_of_le (by omega) (by omega), Int.bmod_eq_of_le (by omega) (by omega)]
  omega

/-- The lower-triangle select turns the all-ones array into: 0 where j ≤ i, 1 where i < j. -/
theorem tri_apply (i j : Fin 2048) :
    val_main_v5 (F := Ideal) (ix2 i j) = if i.val < j.val then 1#1 else 0#1 := by
  rw [val_main_v5_apply, val_main_call0_v4_apply, val_main_call0_v2_apply, val_main_call0_v0_apply,
    val_main_call0_v1_apply, val_main_call0_c_apply, val_main_call0_v3_apply, val_main_call0_v5_apply,
    val_main_call0_c_0_apply, val_main_v4_apply, val_main_c_apply]
  show Scalar.select (IntOp.cmpi .sge (IntOp.addi (BitVec.ofNat 32 i.val) 0#32) (BitVec.ofNat 32 j.val)) 0#1 1#1 = _
  by_cases h : j.val ≤ i.val
  · rw [(cmp_bit i j).mpr h, select_one, if_neg (by omega)]
  · rw [eq_zero_of_ne_one (fun hh => h ((cmp_bit i j).mp hh)), select_zero, if_pos (by omega)]

/-- Broadcast over the batch axis, the mask bit at (b, i, j) is 1 exactly when i < j. -/
theorem mask_apply (b : Fin 8) (i j : Fin 2048) :
    val_main_call1_v1 (F := Ideal) (ix3 b i j) = if i.val < j.val then 1#1 else 0#1 := by
  rw [val_main_call1_v1_apply, idx_call1_v1, val_main_v6_apply, idx_v6, tri_apply]

end Cert.Attn.Ref

end
-- ==== Proof.Ref.Consts.lean ====
import Idealize.ShloMosaic.PureOps.Ideal

noncomputable section

namespace Cert.Attn.Ref

open Idealize.ShloMosaic

/-! The float constants the reference spells, as the extended reals their patterns denote. -/

/-- The pattern of -∞ denotes ⊥. -/
theorem ofBits_neg_inf : Ideal.ofBits .f32 0xFF800000#32 = (⊥ : EReal) := by
  simp [Ideal.ofBits, Ideal.ieee]

/-- The pattern of 1024.0 denotes the real 1024. -/
theorem ofBits_1024 : Ideal.ofBits .f32 0x44800000#32 = ((1024 : ℝ) : EReal) := by
  simp [Ideal.ofBits, Ideal.ieee, -EReal.coe_mul]; norm_num

/-- The pattern of +0.0 denotes 0. -/
theorem ofBits_zero : Ideal.ofBits .f32 0x00000000#32 = (0 : EReal) := by
  simp [Ideal.ofBits, Ideal.ieee]

/-- √1024 = 32. -/
theorem sqrt_1024 : Ideal.sqrt ((1024 : ℝ) : EReal) = ((32 : ℝ) : EReal) := by
  rw [Ideal.sqrt_coe, if_neg (by norm_num)]
  congr 1
  rw [show (1024 : ℝ) = 32 * 32 by norm_num, Real.sqrt_mul_self (by norm_num)]

end Cert.Attn.Ref

end
-- ==== Proof.Ref.Logit.lean ====
import proofs.«157480_j6983616824221_2_alg».proof.Proof.Spec
import proofs.«157480_j6983616824221_2_alg».proof.Proof.Gen.ReferenceIdeal.Read
import proofs.«157480_j6983616824221_2_alg».proof.Proof.Ref.Proj
import proofs.«157480_j6983616824221_2_alg».proof.Proof.Ref.Mask
import proofs.«157480_j6983616824221_2_alg».proof.Proof.Ref.Consts

noncomputable section

namespace Cert.Attn.Ref

open Cert.ReferenceIdeal Cert.ReferenceIdeal.Read Idealize.ShloMosaic Idealize.ShloMosaic.ValueIdx Idealize.ShloMosaic.TcCoe Idealize.SL.Sem

/-! The masked and scaled scores: the reference's logits are the specification's. -/

/-- The masked score: -∞ above the diagonal, the score on and below it. -/
theorem masked_apply (x : FVec Ideal S8x2048x1024 .f32) (wq wk : FVec Ideal S1024x1024 .f32) (b : Fin 8) (i j : Fin 2048) :
    val_main_v7 (F := Ideal) x wq wk (ix3 b i j)
      = if i.val < j.val then (⊥ : EReal) else score (proj (curry3 x) (curry2 wq)) (proj (curry3 x) (curry2 wk)) b i j := by
  rw [val_main_v7_apply, mask_apply, val_main_call1_v2_apply, val_main_call1_v0_apply, val_main_cst_apply, score_apply]
  by_cases h : i.val < j.val
  · rw [if_pos h, if_pos h, select_one]; exact ofBits_neg_inf
  · rw [if_neg h, if_neg h, select_zero]

/-- The divisor, the square root of 1024 broadcast everywhere, is 32. -/
theorem divisor_apply (i : S8x2048x2048.Idx) : val_main_v9 (F := Ideal) i = ((32 : ℝ) : EReal) := by
  rw [val_main_v9_apply, val_main_v8_apply, val_main_cst_0_apply]
  show Ideal.sqrt (Ideal.ofBits .f32 0x44800000#32) = _
  rw [ofBits_1024, sqrt_1024]

/-- The logits: the masked score divided by 32. -/
theorem logit_apply (x : FVec Ideal S8x2048x1024 .f32) (wq wk : FVec Ideal S1024x1024 .f32) (b : Fin 8) (i j : Fin 2048) :
    val_main_v10 (F := Ideal) x wq wk (ix3 b i j)
      = logitR (proj (curry3 x) (curry2 wq)) (proj (curry3 x) (curry2 wk)) b i j := by
  rw [val_main_v10_apply, masked_apply, divisor_apply]
  rfl

end Cert.Attn.Ref

end
-- ==== Proof.Ref.Soft.lean ====
import proofs.«157480_j6983616824221_2_alg».proof.Proof.Spec
import proofs.«157480_j6983616824221_2_alg».proof.Proof.Gen.ReferenceIdeal.Read
import proofs.«157480_j6983616824221_2_alg».proof.Proof.Ref.Logit

noncomputable section

namespace Cert.Attn.Ref

open Cert.ReferenceIdeal Cert.ReferenceIdeal.Gen Cert.ReferenceIdeal.Read Idealize.ShloMosaic Idealize.ShloMosaic.ValueIdx Idealize.ShloMosaic.TcCoe Idealize.SL.Sem

/-! The softmax down each column: maximum, exponentials, sum and weights of the reference are the specification's. -/

/-- A maximum reduction along axis 1, at (b, j), is the fold of the maximum over the query index. -/
theorem reduce_max_apply (y : FVec Ideal S8x2048x2048 .f32) (init : FVec Ideal S_ .f32) (b : Fin 8) (j : Fin 2048) :
    Host.reduce FloatOps.maximumf y init reducesTo_S8x2048x2048_S8x2048_d1 h_S_ (ix2 b j)
      = (Finset.univ : Finset (Fin 2048)).fold max (init (Shape.Idx.first h_S_)) (fun k => y (ix3 b k j)) := by
  rw [Host.reduce_eq_fold_single FloatOps.maximumf y init reducesTo_S8x2048x2048_S8x2048_d1 (by decide) h_S_]
  have hc : (y ∘ (Shape.Reduces.lift (s := S8x2048x2048) (a := 1) (t := S8x2048) (by decide) (ix2 b j)))
      = fun k => y (ix3 b k j) := funext fun k => congrArg y (lift_d1 _ b j k)
  rw [hc]
  rfl

/-- The column maximum: the reduction from -∞, then the maximum with -∞. -/
theorem max_apply (x : FVec Ideal S8x2048x1024 .f32) (wq wk : FVec Ideal S1024x1024 .f32) (b : Fin 8) (j : Fin 2048) :
    val_main_v13 (F := Ideal) x wq wk (ix2 b j)
      = colMax (logitR (proj (curry3 x) (curry2 wq)) (proj (curry3 x) (curry2 wk))) b j := by
  rw [val_main_v13_apply, val_main_v12_apply, val_main_cst_2_apply]
  unfold val_main_v11
  rw [reduce_max_apply, val_main_cst_1_apply]
  show max (Ideal.ofBits .f32 0xFF800000#32) (Finset.univ.fold max (Ideal.ofBits .f32 0xFF800000#32) _) = _
  rw [ofBits_neg_inf, bot_sup_eq]
  unfold colMax
  refine congrArg (Finset.univ.fold max ⊥) (funext fun k => ?_)
  rw [logit_apply]

/-- The exponentials: each logit less its column's maximum, exponentiated. -/
theorem exp_apply (x : FVec Ideal S8x2048x1024 .f32) (wq wk : FVec Ideal S1024x1024 .f32) (b : Fin 8) (i j : Fin 2048) :
    val_main_v17 (F := Ideal) x wq wk (ix3 b i j)
      = colExp (logitR (proj (curry3 x) (curry2 wq)) (proj (curry3 x) (curry2 wk))) b i j := by
  rw [val_main_v17_apply, val_main_v16_apply, val_main_v15_apply, idx_v15, val_main_v14_apply, idx_v14, max_apply,
    logit_apply]
  rfl

/-- The column sums: zero plus the sum of the column's exponentials over the query index. -/
theorem sum_apply (x : FVec Ideal S8x2048x1024 .f32) (wq wk : FVec Ideal S1024x1024 .f32) (b : Fin 8) (j : Fin 2048) :
    val_main_v18 (F := Ideal) x wq wk (ix2 b j)
      = colSum (logitR (proj (curry3 x) (curry2 wq)) (proj (curry3 x) (curry2 wk))) b j := by
  rw [val_main_v18_apply, val_main_cst_3_apply]
  show Ideal.ofBits .f32 0x00000000#32 + _ = _
  rw [ofBits_zero, zero_add]
  unfold colSum
  refine Finset.sum_congr rfl fun k _ => ?_
  rw [idx_v18, exp_apply]

/-- The weights: each exponential divided by its column's sum. -/
theorem weight_apply (x : FVec Ideal S8x2048x1024 .f32) (wq wk : FVec Ideal S1024x1024 .f32) (b : Fin 8) (i j : Fin 2048) :
    val_main_v21 (F := Ideal) x wq wk (ix3 b i j)
      = weight (logitR (proj (curry3 x) (curry2 wq)) (proj (curry3 x) (curry2 wk))) b i j := by
  rw [val_main_v21_apply, val_main_v20_apply, idx_v20, val_main_v19_apply, idx_v19, sum_apply, exp_apply]
  rfl

end Cert.Attn.Ref

end
-- ==== Proof.Ref.Main.lean ====
import proofs.«157480_j6983616824221_2_alg».proof.Proof.Spec
import proofs.«157480_j6983616824221_2_alg».proof.Proof.Gen.ReferenceIdeal.Read
import proofs.«157480_j6983616824221_2_alg».proof.Proof.Ref.Soft

noncomputable section

namespace Cert.Attn.Ref

open Cert.ReferenceIdeal Cert.ReferenceIdeal.Gen Cert.ReferenceIdeal.Read Idealize.ShloMosaic Idealize.ShloMosaic.ValueIdx Idealize.ShloMosaic.TcCoe Idealize.SL.Sem

/-! The reference's result, entry by entry, is the specification's G of its four arguments. -/

/-- The output: the weights against v, summed over every key. -/
theorem out_apply (x : FVec Ideal S8x2048x1024 .f32) (wq wk wv : FVec Ideal S1024x1024 .f32) (b : Fin 8) (i : Fin 2048)
    (e : Fin 1024) :
    val_main_v22 (F := Ideal) x wq wk wv (ix3 b i e) = G (curry3 x) (curry2 wq) (curry2 wk) (curry2 wv) b i e := by
  rw [val_main_v22_apply]
  unfold G attn
  refine Finset.sum_congr rfl fun k _ => ?_
  rw [lidx_v22, ridx_v22, weight_apply, v_apply]

/-- The composed term the reference's run ends at, read at (b, i, e), is G of the four arguments' launch contents. -/
theorem ref_eq (m : (ℓ : Loc Cert.ReferenceIdeal.nD Cert.ReferenceIdeal.τ Cert.ReferenceIdeal.sig) → Buf (Elt Ideal) ℓ)
    (c : Dev Cert.ReferenceIdeal.nD) (b : Fin 8) (i : Fin 2048) (e : Fin 1024) :
    Cert.ReferenceIdeal.Value.res_main_v22 (F := Ideal) m c (ValueIdx.ix3 b i e)
      = Cert.Attn.G (Cert.Attn.curry3 (m ((c.tc : Thread Cert.ReferenceIdeal.nD Cert.ReferenceIdeal.τ).loc Cert.ReferenceIdeal.main_arg0)))
          (Cert.Attn.curry2 (m ((c.tc : Thread _ _).loc Cert.ReferenceIdeal.main_arg1)))
          (Cert.Attn.curry2 (m ((c.tc : Thread _ _).loc Cert.ReferenceIdeal.main_arg2)))
          (Cert.Attn.curry2 (m ((c.tc : Thread _ _).loc Cert.ReferenceIdeal.main_arg3))) b i e := by
  rw [val_main_v22_eq]
  exact out_apply _ _ _ _ b i e

end Cert.Attn.Ref

end
-- ==== Proof.Alg.Real.lean ====
/-
  Finite sums of products of real numbers are real numbers: the projections and the scores.
-/
import proofs.«157480_j6983616824221_2_alg».proof.Proof.Spec
import Mathlib.Algebra.BigOperators.Group.Finset.Basic

namespace Cert.Attn.Alg

open Cert.Attn Idealize.ShloMosaic

/-- A finite sum of real numbers, taken in the extended reals, is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A real array times a real matrix is a real array. -/
theorem proj_fin {x : A3} {w : M2} (hx : Fin3 x) (hw : Fin2 w) : Fin3 (proj x w) := by
  choose xr hxr using hx
  choose wr hwr using hw
  intro b s e
  refine ⟨∑ d : Fin 1024, xr b s d * wr d e, ?_⟩
  show ∑ d : Fin 1024, x b s d * w d e = _
  rw [← coe_sum]
  refine Finset.sum_congr rfl fun d _ => ?_
  rw [hxr, hwr, EReal.coe_mul]

/-- The score of two real arrays is real. -/
theorem score_real {q k : A3} (hq : Fin3 q) (hk : Fin3 k) (b : Fin 8) (i j : Fin 2048) :
    ∃ r : ℝ, score q k b i j = (r : EReal) := by
  choose qr hqr using hq
  choose kr hkr using hk
  refine ⟨∑ e : Fin 1024, qr b i e * kr b j e, ?_⟩
  show ∑ e : Fin 1024, q b i e * k b j e = _
  rw [← coe_sum]
  refine Finset.sum_congr rfl fun e _ => ?_
  rw [hqr, hkr, EReal.coe_mul]

end Cert.Attn.Alg
-- ==== Proof.Alg.Logit.lean ====
/-
  The two masked and scaled scores are one function: the quotient by 32 is the product with 1/32, at -∞ too.
-/
import proofs.«157480_j6983616824221_2_alg».proof.Proof.Spec

namespace Cert.Attn.Alg

open Cert.Attn Idealize.ShloMosaic

/-- Above the diagonal the reference's logit is -∞: -∞ divided by 32 is -∞. -/
theorem logitR_above (q k : A3) (b : Fin 8) {i j : Fin 2048} (h : i.val < j.val) : logitR q k b i j = ⊥ := by
  show Ideal.div (if i.val < j.val then ⊥ else score q k b i j) ((32 : ℝ) : EReal) = ⊥
  rw [if_pos h, Ideal.div_coe (by norm_num : (32 : ℝ) ≠ 0)]
  exact EReal.bot_mul_coe_of_pos (by norm_num)

/-- On and below the diagonal it is the score times 1/32. -/
theorem logitR_below (q k : A3) (b : Fin 8) {i j : Fin 2048} (h : j.val ≤ i.val) :
    logitR q k b i j = score q k b i j * ((1 / 32 : ℝ) : EReal) := by
  show Ideal.div (if i.val < j.val then ⊥ else score q k b i j) ((32 : ℝ) : EReal) = _
  rw [if_neg (not_lt.2 h), Ideal.div_coe (by norm_num : (32 : ℝ) ≠ 0)]

/-- Masking before or after the scaling gives the same logits. -/
theorem logitK_eq_logitR (q k : A3) : logitK q k = logitR q k := by
  funext b i j
  by_cases h : j.val ≤ i.val
  · rw [logitR_below q k b h]
    show (if j.val ≤ i.val then score q k b i j * ((1 / 32 : ℝ) : EReal) else ⊥) = _
    rw [if_pos h]
  · rw [logitR_above q k b (not_le.1 h)]
    show (if j.val ≤ i.val then score q k b i j * ((1 / 32 : ℝ) : EReal) else ⊥) = _
    rw [if_neg h]

/-- With real scores, the logits on and below the diagonal are real. -/
theorem logitR_real {q k : A3} (hs : ∀ b i j, ∃ r : ℝ, score q k b i j = (r : EReal)) (b : Fin 8) {i j : Fin 2048}
    (h : j.val ≤ i.val) : ∃ r : ℝ, logitR q k b i j = (r : EReal) := by
  obtain ⟨r, hr⟩ := hs b i j
  exact ⟨r * (1 / 32), by rw [logitR_below q k b h, hr, EReal.coe_mul]⟩

end Cert.Attn.Alg
-- ==== Proof.Alg.Column.lean ====
/-
  The column softmax of a lower-triangular array of logits: -∞ above the diagonal, real on and below it.
  Each column's maximum is real, its sum of exponentials is positive, and every weight above the diagonal is 0.
-/
import proofs.«157480_j6983616824221_2_alg».proof.Proof.Spec
import Mathlib.Data.Finset.Fold
import Mathlib.Algebra.Order.BigOperators.Group.Finset

namespace Cert.Attn.Alg

open Cert.Attn Idealize.ShloMosaic

/-- The exponential is never negative. -/
theorem exp_nonneg (x : EReal) : 0 ≤ Ideal.exp x := by
  induction x using EReal.rec with
  | bot => rw [Ideal.exp_bot]
  | coe r => rw [Ideal.exp_coe]; exact_mod_cast (Real.exp_pos r).le
  | top => rw [Ideal.exp_top]; exact le_top

section
variable {t : T3} (hA : ∀ b i j, (i : Fin 2048).val < (j : Fin 2048).val → t b i j = ⊥)
  (hB : ∀ b i j, (j : Fin 2048).val ≤ (i : Fin 2048).val → ∃ r : ℝ, t b i j = (r : EReal))
include hA hB

/-- A column's maximum is a real number: it is at least the diagonal entry, and no entry is +∞. -/
theorem colMax_real (b : Fin 8) (j : Fin 2048) : ∃ M : ℝ, colMax t b j = (M : EReal) := by
  have hlt : colMax t b j < ⊤ := by
    show (Finset.univ : Finset (Fin 2048)).fold max ⊥ (fun i => t b i j) < ⊤
    rw [Finset.fold_max_lt]
    refine ⟨bot_lt_top, fun i _ => ?_⟩
    by_cases h : i.val < j.val
    · rw [hA b i j h]; exact bot_lt_top
    · obtain ⟨r, hr⟩ := hB b i j (not_lt.1 h)
      rw [hr]; exact EReal.coe_lt_top r
  have hge : t b j j ≤ colMax t b j := by
    show t b j j ≤ (Finset.univ : Finset (Fin 2048)).fold max ⊥ (fun i => t b i j)
    rw [Finset.le_fold_max]
    exact Or.inr ⟨j, Finset.mem_univ _, le_rfl⟩
  obtain ⟨r, hr⟩ := hB b j j le_rfl
  have hbot : colMax t b j ≠ ⊥ := by
    intro h
    rw [h, hr] at hge
    exact absurd hge (not_le.2 (EReal.bot_lt_coe r))
  exact ⟨(colMax t b j).toReal, (EReal.coe_toReal hlt.ne hbot).symm⟩

/-- A column's sum of exponentials is positive: its diagonal term is the exponential of a real number. -/
theorem colSum_pos (b : Fin 8) (j : Fin 2048) : 0 < colSum t b j := by
  obtain ⟨M, hM⟩ := colMax_real hA hB b j
  obtain ⟨r, hr⟩ := hB b j j le_rfl
  have hd : colExp t b j j = ((Real.exp (r - M) : ℝ) : EReal) := by
    show Ideal.exp (t b j j - colMax t b j) = _
    rw [hM, hr, ← EReal.coe_sub, Ideal.exp_coe]
  have hle : colExp t b j j ≤ colSum t b j :=
    Finset.single_le_sum (f := fun i => colExp t b i j) (fun i _ => exp_nonneg _) (Finset.mem_univ j)
  refine lt_of_lt_of_le ?_ hle
  rw [hd]
  exact_mod_cast Real.exp_pos _

/-- Above the diagonal the weight is 0: the exponential of -∞ is 0, and 0 over a nonzero sum is 0. -/
theorem weight_above (b : Fin 8) {i j : Fin 2048} (h : i.val < j.val) : weight t b i j = 0 := by
  have h0 : colExp t b i j = 0 := by
    show Ideal.exp (t b i j - colMax t b j) = 0
    rw [hA b i j h, EReal.bot_sub, Ideal.exp_bot]
  show Ideal.div (colExp t b i j) (colSum t b j) = 0
  rw [h0, Ideal.div, if_neg (colSum_pos hA hB b j).ne', zero_mul]

end

end Cert.Attn.Alg
-- ==== Proof.Alg.Blocks.lean ====
/-
  A sum over the 2048 keys is the sum over the 8 blocks of the sums over each block's 256 keys; and the
  kernel's in-order accumulation over the blocks is the sum of the blocks up to the query's own.
-/
import proofs.«157480_j6983616824221_2_alg».proof.Proof.Spec
import Mathlib.Data.Fintype.BigOperators
import Mathlib.Algebra.BigOperators.Fin

namespace Cert.Attn.Alg

open Cert.Attn Idealize.ShloMosaic

/-- Block and offset against key index: j = 256 · (j / 256) + j % 256. -/
def blockEquiv : Fin 8 × Fin 256 ≃ Fin 2048 where
  toFun p := kidx p.1 p.2
  invFun j := (⟨j.val / 256, by have := j.isLt; omega⟩, ⟨j.val % 256, Nat.mod_lt _ (by decide)⟩)
  left_inv p := by
    rcases p with ⟨jb, jj⟩
    have h1 := jb.isLt
    have h2 := jj.isLt
    refine Prod.ext (Fin.ext ?_) (Fin.ext ?_)
    · show (256 * jb.val + jj.val) / 256 = jb.val
      omega
    · show (256 * jb.val + jj.val) % 256 = jj.val
      omega
  right_inv j := by
    refine Fin.ext ?_
    show 256 * (j.val / 256) + j.val % 256 = j.val
    omega

/-- The sum over all keys, in blocks. -/
theorem sum_blocks {M : Type} [AddCommMonoid M] (f : Fin 2048 → M) :
    ∑ j : Fin 2048, f j = ∑ jb : Fin 8, ∑ jj : Fin 256, f (kidx jb jj) := by
  rw [← Fintype.sum_prod_type' (fun jb jj => f (kidx jb jj))]
  exact (Fintype.sum_equiv blockEquiv (fun p => f (kidx p.1 p.2)) f (fun _ => rfl)).symm

/-- The accumulation after step n: the blocks 0, …, n that are not past the query's chunk. -/
theorem accum_eq_range (c : Fin 8 → EReal) (qc : ℕ) (n : ℕ) :
    accum c qc n
      = ∑ m ∈ Finset.range (n + 1), if m ≤ qc then c ⟨m % 8, Nat.mod_lt _ (by decide)⟩ else 0 := by
  induction n with
  | zero =>
    rw [Finset.sum_range_one, if_pos (Nat.zero_le _)]
    show 0 + c 0 = _
    rw [zero_add]
    rfl
  | succ n ih =>
    rw [Finset.sum_range_succ, ← ih]
    show (if n + 1 ≤ qc then accum c qc n + c ⟨(n + 1) % 8, Nat.mod_lt _ (by decide)⟩ else accum c qc n) = _
    by_cases h : n + 1 ≤ qc
    · rw [if_pos h, if_pos h]
    · rw [if_neg h, if_neg h, add_zero]

/-- The kernel's accumulation over all eight steps: the blocks up to the query's chunk. -/
theorem accum_seven (c : Fin 8 → EReal) (qc : ℕ) :
    accum c qc 7 = ∑ jb : Fin 8, if jb.val ≤ qc then c jb else 0 := by
  rw [accum_eq_range, ← Fin.sum_univ_eq_sum_range (fun m => if m ≤ qc then c ⟨m % 8, Nat.mod_lt _ (by decide)⟩ else 0) 8]
  refine Finset.sum_congr rfl fun jb _ => ?_
  have : (⟨jb.val % 8, Nat.mod_lt _ (by decide)⟩ : Fin 8) = jb := Fin.ext (Nat.mod_eq_of_lt jb.isLt)
  rw [this]

end Cert.Attn.Alg
-- ==== Proof.Alg.Main.lean ====
/-
  The kernel's blocked attention equals the reference's: the blocks past a query's own chunk lie wholly above the
  diagonal, where every weight is 0, so leaving them out changes nothing; and the two forms of the logits agree.
-/
import proofs.«157480_j6983616824221_2_alg».proof.Proof.Spec
import proofs.«157480_j6983616824221_2_alg».proof.Proof.Alg.Real
import proofs.«157480_j6983616824221_2_alg».proof.Proof.Alg.Logit
import proofs.«157480_j6983616824221_2_alg».proof.Proof.Alg.Column
import proofs.«157480_j6983616824221_2_alg».proof.Proof.Alg.Blocks

namespace Cert.Attn.Alg

open Cert.Attn Idealize.ShloMosaic

/-- For lower-triangular logits the blocked accumulation is the full sum over the keys. -/
theorem attnK_eq_attn {t : T3} (v : A3)
    (hA : ∀ b i j, (i : Fin 2048).val < (j : Fin 2048).val → t b i j = ⊥)
    (hB : ∀ b i j, (j : Fin 2048).val ≤ (i : Fin 2048).val → ∃ r : ℝ, t b i j = (r : EReal)) :
    attnK t v = attn t v := by
  funext b i e
  show accum (fun jb => contrib t v b jb i e) (i.val / 256) 7 = ∑ j : Fin 2048, weight t b i j * v b j e
  rw [accum_seven, sum_blocks (fun j => weight t b i j * v b j e)]
  refine Finset.sum_congr rfl fun jb _ => ?_
  by_cases h : jb.val ≤ i.val / 256
  · rw [if_pos h]
    rfl
  · rw [if_neg h]
    symm
    refine Finset.sum_eq_zero fun jj _ => ?_
    have hlt : i.val < (kidx jb jj).val := by
      show i.val < 256 * jb.val + jj.val
      omega
    rw [weight_above hA hB b hlt, zero_mul]

/-- The kernel's function of the four arguments is the reference's, on real arguments. -/
theorem GK_eq_G (x : Cert.Attn.A3) (wq wk wv : Cert.Attn.M2) (hx : Cert.Attn.Fin3 x) (hq : Cert.Attn.Fin2 wq)
    (hk : Cert.Attn.Fin2 wk) (hv : Cert.Attn.Fin2 wv) :
    Cert.Attn.GK x wq wk wv = Cert.Attn.G x wq wk wv := by
  have _ := hv
  show attnK (logitK (proj x wq) (proj x wk)) (proj x wv) = attn (logitR (proj x wq) (proj x wk)) (proj x wv)
  rw [logitK_eq_logitR]
  exact attnK_eq_attn (proj x wv) (fun b i j h => logitR_above _ _ b h)
    (fun b i j h => logitR_real (score_real (proj_fin hx hq) (proj_fin hx hk)) b h)

end Cert.Attn.Alg
-- ==== Proof.Alg.Pre.lean ====
/-
  The precondition says every entry of the four arguments has absolute value below +∞; over the extended reals
  that is: every entry is a real number.
-/
import proofs.«157480_j6983616824221_2_alg».proof.Defs
import proofs.«157480_j6983616824221_2_alg».proof.Proof.Gen.Pre_finite_inputs
import proofs.«157480_j6983616824221_2_alg».proof.Proof.Spec
import Idealize.ShloMosaic.Lib.ReduceAll

noncomputable section

namespace Cert.Attn.Alg

open Cert.Attn Idealize.ShloMosaic Idealize.SL.Sem

/-- The scalar shape has one index. -/
instance : Subsingleton Cert.Pre_finite_inputs.S_.Idx := ⟨fun _ _ => funext fun d => d.elim0⟩

/-- An extended real whose absolute value is below +∞ is a real number. -/
theorem real_of_abs_lt_top (x : EReal) (h : Ideal.cmp .olt (max x (-x)) ⊤ = 1#1) : ∃ r : ℝ, x = (r : EReal) := by
  induction x using EReal.rec with
  | bot => exfalso; simp [Ideal.cmp] at h
  | coe r => exact ⟨r, rfl⟩
  | top => exfalso; simp [Ideal.cmp] at h

/-- The pattern of +∞ denotes +∞. -/
theorem inf_bits : Ideal.ofBits .f32 0x7F800000#32 = ⊤ := by simp [Ideal.ofBits, Ideal.ieee]

/-- One argument: if the conjunction over all entries of "|entry| < +∞" is true, every entry is real. -/
theorem real_of_all {s : Shape} {axes : List (Fin s.rank)} (a : FVec Ideal s .f32)
    (dims : Fin Cert.Pre_finite_inputs.S_.rank → Fin s.rank) (hb : Cert.Pre_finite_inputs.S_.BroadcastsInDim s dims)
    (hr : s.ReducesTo axes Cert.Pre_finite_inputs.S_) (hu : 0 < Cert.Pre_finite_inputs.S_.numel)
    (e : Host.reduce IntOp.andi
        (cmpf .olt (Host.absf a) (broadcastInDim s dims hb (constant (F := Ideal) Cert.Pre_finite_inputs.S_ .f32 0x7F800000#32)))
        (constantI Cert.Pre_finite_inputs.S_ 1 1#1) hr hu ValueIdx.ix0 = 1#1) (i : s.Idx) :
    ∃ r : ℝ, a i = (r : EReal) := by
  have hi := Host.reduce_andi_all _ _ hr hu _ e i
  have hi' : Ideal.cmp .olt (max (a i) (-(a i))) (Ideal.ofBits .f32 0x7F800000#32) = 1#1 := hi
  rw [inf_bits] at hi'
  exact real_of_abs_lt_top _ hi'

/-- The precondition function, decoded: all four arguments are real in every entry. -/
theorem real_of_fn [Cert.Pre_finite_inputs.Facts] (a0 : FVec Ideal Cert.Pre_finite_inputs.S8x2048x1024 .f32)
    (a1 a2 a3 : FVec Ideal Cert.Pre_finite_inputs.S1024x1024 .f32)
    (e : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have e0 := congrFun e ValueIdx.ix0
  dsimp only [Cert.Pre_finite_inputs.fn, Cert.Pre_finite_inputs.fn_part1, andi] at e0
  rw [IntOp.andi_eq_one, IntOp.andi_eq_one, IntOp.andi_eq_one] at e0
  obtain ⟨⟨⟨h0, h1⟩, h2⟩, h3⟩ := e0
  exact ⟨real_of_all a0 _ _ _ _ h0, real_of_all a1 _ _ _ _ h1, real_of_all a2 _ _ _ _ h2, real_of_all a3 _ _ _ _ h3⟩

/-- The precondition gives the finiteness of the four arguments, as arrays of coordinates. -/
theorem fin_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Attn.Fin3 (Cert.Attn.curry3 (m ((c.tc : Thread Cert.KernelIdeal.nD Cert.KernelIdeal.τ).loc Cert.KernelIdeal.main_arg0)))
      ∧ Cert.Attn.Fin2 (Cert.Attn.curry2 (m ((c.tc : Thread _ _).loc Cert.KernelIdeal.main_arg1)))
      ∧ Cert.Attn.Fin2 (Cert.Attn.curry2 (m ((c.tc : Thread _ _).loc Cert.KernelIdeal.main_arg2)))
      ∧ Cert.Attn.Fin2 (Cert.Attn.curry2 (m ((c.tc : Thread _ _).loc Cert.KernelIdeal.main_arg3))) := by
  obtain ⟨h0, h1, h2, h3⟩ := real_of_fn _ _ _ _ (h c)
  exact ⟨fun b s d => h0 _, fun d e => h1 _, fun d e => h2 _, fun d e => h3 _⟩

end Cert.Attn.Alg

end
-- ==== Proof.Assemble.lean ====
/-
  The algebraic claim, assembled.

  The kernel's program leaves in its result buffer what the attention region's write-backs make of the result array;
  given that this array is, entry by entry, the kernel's attention (blocked, masked after scaling) of the three
  arrays the region finds, the claim follows: those three arrays are the projections of the arguments, so the
  kernel's result is GK of the four arguments; the reference's is G of its four arguments, which are the same; and
  on real arguments, which the precondition gives, GK is G.  No program writes an argument.
-/
import proofs.«157480_j6983616824221_2_alg».proof.Defs
import proofs.«157480_j6983616824221_2_alg».proof.Proof.Spec
import proofs.«157480_j6983616824221_2_alg».proof.Proof.KI.Run
import proofs.«157480_j6983616824221_2_alg».proof.Proof.KV.Final
import proofs.«157480_j6983616824221_2_alg».proof.Proof.Ref.Main
import proofs.«157480_j6983616824221_2_alg».proof.Proof.Alg.Main
import proofs.«157480_j6983616824221_2_alg».proof.Proof.Alg.Pre
import proofs.«157480_j6983616824221_2_alg».proof.Proof.Gen.ReferenceIdeal.Run

set_option maxRecDepth 16384

noncomputable section

namespace Cert.Proof.Assemble

open Idealize.ShloMosaic Idealize.ShloMosaic.TcCoe Idealize.SL.Sem Idealize.ShloMosaic.ValueIdx
open Cert.Attn

variable [Cert.KernelIdeal.Facts] [Cert.ReferenceIdeal.Facts] [Cert.Pre_finite_inputs.Facts]

/-- The two results at one entry: the reference's is G of its arguments, which are the kernel's; on real arguments G
    is GK; GK's three projections are what the attention region finds as q, k, v; and the region's result array,
    which the run leaves in the result buffer, is the kernel's attention of those. -/
theorem result_at
    (hR1 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD) (b : Fin 8) (i : Fin 2048) (e : Fin 1024),
        (Cert.KernelIdeal.R1.dat1 (F := Ideal) V c).arrAt 3 Cert.KernelIdeal.cfg1.N (ValueIdx.ix3 b i e)
          = Cert.Attn.attnK (Cert.Attn.logitK (Cert.Attn.curry3 (V c Cert.KernelIdeal.main_v5)) (Cert.Attn.curry3 (V c Cert.KernelIdeal.main_v6))) (Cert.Attn.curry3 (V c Cert.KernelIdeal.main_v7)) b i e)
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (c : Dev Cert.KernelIdeal.nD) (b : Fin 8) (i : Fin 2048) (e : Fin 1024) :
    Cert.ReferenceIdeal.Value.res_main_v22 (F := Ideal) m' c (ix3 b i e)
      = Cert.KernelIdeal.Run.W4 m ρ c (Proc.devRef .tc Cert.KernelIdeal.main_v8) (ix3 b i e) := by
  obtain ⟨hf0, hf1, hf2, hf3⟩ := Cert.Attn.Alg.fin_of_pre m hpre c
  obtain ⟨a0, a1, a2, a3⟩ := hagree c
  have hq : proj (curry3 (m ((c.tc : Thread Cert.KernelIdeal.nD Cert.KernelIdeal.τ).loc Cert.KernelIdeal.main_arg0))) (curry2 (m ((c.tc : Thread Cert.KernelIdeal.nD Cert.KernelIdeal.τ).loc Cert.KernelIdeal.main_arg1)))
      = curry3 (Cert.KernelIdeal.Run.V3 (F := Ideal) m ρ c Cert.KernelIdeal.main_v5) :=
    funext fun b => funext fun i => funext fun e => (Cert.Attn.KV.V3_q m ρ c b i e).symm
  have hk : proj (curry3 (m ((c.tc : Thread Cert.KernelIdeal.nD Cert.KernelIdeal.τ).loc Cert.KernelIdeal.main_arg0))) (curry2 (m ((c.tc : Thread Cert.KernelIdeal.nD Cert.KernelIdeal.τ).loc Cert.KernelIdeal.main_arg2)))
      = curry3 (Cert.KernelIdeal.Run.V3 (F := Ideal) m ρ c Cert.KernelIdeal.main_v6) :=
    funext fun b => funext fun i => funext fun e => (Cert.Attn.KV.V3_k m ρ c b i e).symm
  have hv : proj (curry3 (m ((c.tc : Thread Cert.KernelIdeal.nD Cert.KernelIdeal.τ).loc Cert.KernelIdeal.main_arg0))) (curry2 (m ((c.tc : Thread Cert.KernelIdeal.nD Cert.KernelIdeal.τ).loc Cert.KernelIdeal.main_arg3)))
      = curry3 (Cert.KernelIdeal.Run.V3 (F := Ideal) m ρ c Cert.KernelIdeal.main_v7) :=
    funext fun b => funext fun i => funext fun e => (Cert.Attn.KV.V3_v m ρ c b i e).symm
  rw [Cert.Attn.Ref.ref_eq m' c b i e, a0, a1, a2, a3, ← Cert.Attn.Alg.GK_eq_G _ _ _ _ hf0 hf1 hf2 hf3]
  unfold Cert.Attn.GK
  rw [hq, hk, hv, ← hR1 (Cert.KernelIdeal.Run.V3 (F := Ideal) m ρ) c b i e]
  exact (congrFun (Cert.KernelIdeal.Run.W4_arr m ρ c 3) (ix3 b i e)).symm

/-- At the ideal instance the two programs, from memories agreeing on the arguments, both run, end with equal
    results and leave the arguments unchanged. -/
theorem algebraic
    (hR1 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD) (b : Fin 8) (i : Fin 2048) (e : Fin 1024),
        (Cert.KernelIdeal.R1.dat1 (F := Ideal) V c).arrAt 3 Cert.KernelIdeal.cfg1.N (ValueIdx.ix3 b i e)
          = Cert.Attn.attnK (Cert.Attn.logitK (Cert.Attn.curry3 (V c Cert.KernelIdeal.main_v5)) (Cert.Attn.curry3 (V c Cert.KernelIdeal.main_v6))) (Cert.Attn.curry3 (V c Cert.KernelIdeal.main_v7)) b i e) :
    Cert.algebraic_KernelIdeal_ReferenceIdeal := by
  intro m ρ m' ρ' hpre hagree
  refine ⟨fun c => Cert.KernelIdeal.Run.W4 m ρ c (Proc.devRef .tc Cert.KernelIdeal.main_v8), ?_, ?_⟩
  · exact (θ_run (Cert.KernelIdeal.defs (F := Ideal)) _ _).mono (fun _ h c =>
      ⟨h c _ (Cert.KernelIdeal.Run.mem_uc Cert.KernelIdeal.main_v8 (by decide)),
       (h c _ (Cert.KernelIdeal.Run.mem_uc Cert.KernelIdeal.main_arg0 (by decide))).trans (Cert.KernelIdeal.Run.W4_main_arg0 m ρ c),
       (h c _ (Cert.KernelIdeal.Run.mem_uc Cert.KernelIdeal.main_arg1 (by decide))).trans (Cert.KernelIdeal.Run.W4_main_arg1 m ρ c),
       (h c _ (Cert.KernelIdeal.Run.mem_uc Cert.KernelIdeal.main_arg2 (by decide))).trans (Cert.KernelIdeal.Run.W4_main_arg2 m ρ c),
       (h c _ (Cert.KernelIdeal.Run.mem_uc Cert.KernelIdeal.main_arg3 (by decide))).trans (Cert.KernelIdeal.Run.W4_main_arg3 m ρ c)⟩)
      (Cert.KernelIdeal.Run.run_all m ρ)
  · refine (θ_run (Cert.ReferenceIdeal.defs (F := Ideal)) _ _).mono (fun _ h c => ⟨(h c).1.trans ?_, (h c).2⟩)
      (Cert.ReferenceIdeal.Value.run (F := Ideal) m' ρ')
    refine funext fun (j : (⟨3, ![8, 2048, 1024]⟩ : Shape).Idx) => ?_
    rw [eq_ix3 j]
    exact result_at hR1 m ρ m' hpre hagree c (j 0) (j 1) (j 2)

end Cert.Proof.Assemble

end
-- ==== Proof.lean ====
/-
  The five conjuncts of the claim.

  Frames.  The kernel's program is two pipelined regions among host reshapes and roundings.  Both regions are
  run point by point: the projection stores three products per point; the attention branches on the key-block
  index only, so its body is run once for each of the eight values of that index, and what the output block
  holds after a point is defined by recursion on the point.  The run of the whole program (terminating, no fault,
  every unscoped buffer at known contents at the end) gives the frame of the word-level program and of the
  idealized one alike; no item writes an argument array.  The reference's frame is its run read back.

  The idealization.  The only rewrite reads the finite fill value of the score scratch and of the causal mask
  as -∞; nine sites, one statement.

  The values.  Over the extended reals the projection region leaves q = x·wq, k = x·wk, v = x·wv; the attention
  region leaves, for output row i, the contributions of the key blocks 0 … ⌊i/256⌋ added in order, each block's
  weights a column softmax of the masked scores scaled by 1/32.  The reference masks, divides by √1024 = 32, takes
  the column softmax and sums over all 2048 keys.  For finite inputs the two agree: the scores are real numbers, so
  scaling before or after masking is the same; every column has its diagonal entry unmasked, so its maximum is real
  and its sum positive; above the diagonal every weight is 0, so the key blocks after ⌊i/256⌋ contribute nothing;
  and extended-real addition is commutative and associative.
-/
import proofs.«157480_j6983616824221_2_alg».proof.Defs
import proofs.«157480_j6983616824221_2_alg».proof.Proof.Gen.Kernel
import proofs.«157480_j6983616824221_2_alg».proof.Proof.Gen.KernelIdeal
import proofs.«157480_j6983616824221_2_alg».proof.Proof.Gen.ReferenceIdeal
import proofs.«157480_j6983616824221_2_alg».proof.Proof.Gen.Pre_finite_inputs
import proofs.«157480_j6983616824221_2_alg».proof.Proof.Easy
import proofs.«157480_j6983616824221_2_alg».proof.Proof.K.Run
import proofs.«157480_j6983616824221_2_alg».proof.Proof.KI.Run
import proofs.«157480_j6983616824221_2_alg».proof.Proof.KIV.R1Value
import proofs.«157480_j6983616824221_2_alg».proof.Proof.Assemble
import Idealize.ShloMosaic.Adequacy
import Idealize.ShloMosaic.Init

noncomputable section

namespace Cert.Proof

open Idealize.ShloMosaic Idealize.SL.Sem

theorem frame_k [Cert.Kernel.Facts] [Cert.Pre_finite_inputs.Facts] : Cert.frame_Kernel :=
  fun m ρ _ => Cert.Kernel.Run.frame (F := Bits) m ρ
theorem frame_ki [Cert.KernelIdeal.Facts] [Cert.Pre_finite_inputs.Facts] : Cert.frame_KernelIdeal :=
  fun m ρ _ => Cert.KernelIdeal.Run.frame (F := Ideal) m ρ
theorem algebraic [Cert.KernelIdeal.Facts] [Cert.ReferenceIdeal.Facts] [Cert.Pre_finite_inputs.Facts] :
    Cert.algebraic_KernelIdeal_ReferenceIdeal :=
  Cert.Proof.Assemble.algebraic fun V c b i e => Cert.Attn.R1V.R1_value V c b i e

theorem claim : Cert.Claim := ⟨Cert.Kernel.Gen.facts, Cert.KernelIdeal.Gen.facts, Cert.ReferenceIdeal.Gen.facts, Cert.Pre_finite_inputs.Gen.facts,
  frame_k, frame_ki, Cert.Proof.Easy.frame_ri, Cert.Proof.Easy.preserves, algebraic⟩

end Cert.Proof

end
